-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.named_const.Statement Cert.KernelIdeal.κ "neg_big" .f32 0xF149F2CA#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S1024x64 : Shape := ⟨2, ![1024, 64]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S1024x64 : S_.BroadcastsInDim S1024x64 (![] : Fin 0 → Fin S1024x64.rank)
  reducesTo_S1024x64_S_d0_1 : S1024x64.ReducesTo [0, 1] S_

variable [Facts]

def fn_part1 {F : FTy → Type} [FloatOps F] (main_arg4 : FVec F S1024x64 .f32) (main_arg5 : FVec F S1024x64 .f32) (main_v13 : IVec S_ 1) (main_v16 : IVec S1024x64 1) : IVec S_ 1 :=
  let main_c_5 : IVec S_ 1 := constantI S_ 1 1#1
  let main_v17 : IVec S_ 1 := (fun x v => Host.reduce IntOp.andi x v reducesTo_S1024x64_S_d0_1 h_S_) main_v16 main_c_5
  let main_v18 : IVec S_ 1 := andi main_v13 main_v17
  let main_v19 : FVec F S1024x64 .f32 := Host.absf main_arg4
  let main_cst_6 : FVec F S_ .f32 := constant S_ .f32 0x7F800000#32
  let main_v20 : FVec F S1024x64 .f32 := broadcastInDim S1024x64 ![] bcast_S_S1024x64 main_cst_6
  let main_v21 : IVec S1024x64 1 := cmpf .olt main_v19 main_v20
  let main_c_7 : IVec S_ 1 := constantI S_ 1 1#1
  let main_v22 : IVec S_ 1 := (fun x v => Host.reduce IntOp.andi x v reducesTo_S1024x64_S_d0_1 h_S_) main_v21 main_c_7
  let main_v23 : IVec S_ 1 := andi main_v18 main_v22
  let main_v24 : FVec F S1024x64 .f32 := Host.absf main_arg5
  let main_cst_8 : FVec F S_ .f32 := constant S_ .f32 0x7F800000#32
  let main_v25 : FVec F S1024x64 .f32 := broadcastInDim S1024x64 ![] bcast_S_S1024x64 main_cst_8
  let main_v26 : IVec S1024x64 1 := cmpf .olt main_v24 main_v25
  let main_c_9 : IVec S_ 1 := constantI S_ 1 1#1
  let main_v27 : IVec S_ 1 := (fun x v => Host.reduce IntOp.andi x v reducesTo_S1024x64_S_d0_1 h_S_) main_v26 main_c_9
  let main_v28 : IVec S_ 1 := andi main_v23 main_v27
  main_v28

def fn {F : FTy → Type} [FloatOps F] (main_arg0 : FVec F S4x4096x1024 .f32) (main_arg1 : FVec F S4x4096x1024 .f32) (main_arg2 : FVec F S4x4096x1024 .f32) (main_arg3 : FVec F S1024x64 .f32) (main_arg4 : FVec F S1024x64 .f32) (main_arg5 : FVec F S1024x64 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S4x4096x1024 .f32 := Host.absf main_arg1
  let main_cst_0 : FVec F S_ .f32 := constant S_ .f32 0x7F800000#32
  let main_v5 : FVec F S4x4096x1024 .f32 := broadcastInDim S4x4096x1024 ![] bcast_S_S4x4096x1024 main_cst_0
  let main_v6 : IVec S4x4096x1024 1 := cmpf .olt main_v4 main_v5
  let main_c_1 : IVec S_ 1 := constantI S_ 1 1#1
  let main_v7 : IVec S_ 1 := (fun x v => Host.reduce IntOp.andi x v reducesTo_S4x4096x1024_S_d0_1_2 h_S_) main_v6 main_c_1
  let main_v8 : IVec S_ 1 := andi main_v3 main_v7
  let main_v9 : FVec F S4x4096x1024 .f32 := Host.absf main_arg2
  let main_cst_2 : FVec F S_ .f32 := constant S_ .f32 0x7F800000#32
  let main_v10 : FVec F S4x4096x1024 .f32 := broadcastInDim S4x4096x1024 ![] bcast_S_S4x4096x1024 main_cst_2
  let main_v11 : IVec S4x4096x1024 1 := cmpf .olt main_v9 main_v10
  let main_c_3 : IVec S_ 1 := constantI S_ 1 1#1
  let main_v12 : IVec S_ 1 := (fun x v => Host.reduce IntOp.andi x v reducesTo_S4x4096x1024_S_d0_1_2 h_S_) main_v11 main_c_3
  let main_v13 : IVec S_ 1 := andi main_v8 main_v12
  let main_v14 : FVec F S1024x64 .f32 := Host.absf main_arg3
  let main_cst_4 : FVec F S_ .f32 := constant S_ .f32 0x7F800000#32
  let main_v15 : FVec F S1024x64 .f32 := broadcastInDim S1024x64 ![] bcast_S_S1024x64 main_cst_4
  let main_v16 : IVec S1024x64 1 := cmpf .olt main_v14 main_v15
  fn_part1 (F := F) main_arg4 main_arg5 main_v13 main_v16
-- ==== Kernel.lean ====
abbrev S4x4096x1024 : Shape := ⟨3, ![4, 4096, 1024]⟩
abbrev S1024x64 : Shape := ⟨2, ![1024, 64]⟩
abbrev S4x4096x64 : Shape := ⟨3, ![4, 4096, 64]⟩
abbrev S1x1024x1024 : Shape := ⟨3, ![1, 1024, 1024]⟩
abbrev S1x1024x64 : Shape := ⟨3, ![1, 1024, 64]⟩
abbrev S1024x1024 : Shape := ⟨2, ![1024, 1024]⟩
abbrev S1024x1 : Shape := ⟨2, ![1024, 1]⟩
abbrev S64x1024 : Shape := ⟨2, ![64, 1024]⟩
abbrev S1x1024 : Shape := ⟨2, ![1, 1024]⟩
abbrev S1024 : Shape := ⟨1, ![1024]⟩

abbrev nBuf : Space → Nat
  | .hbm => 10
  | .vmem => 26
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x1024, .f32⟩
  | .hbm, ⟨3, _⟩ => ⟨S1024x64, .f32⟩
  | .hbm, ⟨4, _⟩ => ⟨S1024x64, .f32⟩
  | .hbm, ⟨5, _⟩ => ⟨S1024x64, .f32⟩
  | .hbm, ⟨6, _⟩ => ⟨S4x4096x64, .bf16⟩
  | .hbm, ⟨7, _⟩ => ⟨S4x4096x64, .bf16⟩
  | .hbm, ⟨8, _⟩ => ⟨S4x4096x64, .bf16⟩
  | .hbm, ⟨9, _⟩ => ⟨S4x4096x64, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x1024x1024, .f32⟩
  | .local _ .vmem, ⟨5, _⟩ => ⟨S1x1024x1024, .f32⟩
  | .local _ .vmem, ⟨6, _⟩ => ⟨S1024x64, .f32⟩
  | .local _ .vmem, ⟨7, _⟩ => ⟨S1024x64, .f32⟩
  | .local _ .vmem, ⟨8, _⟩ => ⟨S1024x64, .f32⟩
  | .local _ .vmem, ⟨9, _⟩ => ⟨S1x1024x64, .bf16⟩
  | .local _ .vmem, ⟨10, _⟩ => ⟨S1x1024x64, .bf16⟩
  | .local _ .vmem, ⟨11, _⟩ => ⟨S1x1024x64, .bf16⟩
  | .local _ .vmem, ⟨12, _⟩ => ⟨S1x1024x64, .bf16⟩
  | .local _ .vmem, ⟨13, _⟩ => ⟨S1x1024x64, .bf16⟩
  | .local _ .vmem, ⟨14, _⟩ => ⟨S1x1024x64, .bf16⟩
  | .local _ .vmem, ⟨15, _⟩ => ⟨S1x1024x64, .bf16⟩
  | .local _ .vmem, ⟨16, _⟩ => ⟨S1x1024x64, .bf16⟩
  | .local _ .vmem, ⟨17, _⟩ => ⟨S1x1024x64, .bf16⟩
  | .local _ .vmem, ⟨18, _⟩ => ⟨S1x1024x64, .bf16⟩
  | .local _ .vmem, ⟨19, _⟩ => ⟨S1x1024x64, .bf16⟩
  | .local _ .vmem, ⟨20, _⟩ => ⟨S1x1024x64, .bf16⟩
  | .local _ .vmem, ⟨21, _⟩ => ⟨S1x1024x64, .f32⟩
  | .local _ .vmem, ⟨22, _⟩ => ⟨S1x1024x64, .f32⟩
  | .local _ .vmem, ⟨23, _⟩ => ⟨S1024x1, .f32⟩
  | .local _ .vmem, ⟨24, _⟩ => ⟨S1024x1, .f32⟩
  | .local _ .vmem, ⟨25, _⟩ => ⟨S1024x64, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg3_1 : Ref sig .tc := ⟨.vmem, 22, rfl⟩
abbrev cc1_scratch0 : Ref sig .tc := ⟨.vmem, 23, rfl⟩
abbrev cc1_scratch1 : Ref sig .tc := ⟨.vmem, 24, rfl⟩
abbrev cc1_scratch2 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem2_1 : DmaSem sig := 20
abbrev cc1_sem3_0 : DmaSem sig := 21
abbrev cc1_sem3_1 : DmaSem sig := 22

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1024x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x64 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev grid1 : Pipeline.Grid := ⟨3, ![4, 4, 4], ![false, false, false]⟩

def k1_cond3 (i : grid1.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_2 : BitVec 32 := 0#32
  let v8 : BitVec 1 := Scalar.cmpi .ne v7 c0_i32_2
  v8

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c0_i32 : BitVec 32 := 0#32
  let c0_i32_0 : BitVec 32 := 0#32
  ![arg0.toNat, v0.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c0_i32 : BitVec 32 := 0#32
  let c0_i32_0 : BitVec 32 := 0#32
  ![arg0.toNat, v0.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1024x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x1024x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S1x1024x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev stage1_3 : Fin 2 → Memref sig .tc .vmem S1x1024x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  bitsLt_bf16_f32 : FTy.bits .bf16 < FTy.bits .f32
  inb_S1024x64_S1024x64_0_0 : ∀ a, (![0, 0] : Fin 2 → Nat) a + S1024x64.size a ≤ S1024x64.size a
  h_S1024x64 : 0 < S1024x64.numel
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  shapeCasts_S1024x64_S1x1024x64 : S1024x64.ShapeCasts S1x1024x64
  packedbf16_S1x1024x64_S1x1024x64_0_0_0 : (Rect.unit (s := S1x1024x64) ![0, 0, 0] S1x1024x64.size inb_S1x1024x64_S1x1024x64_0_0_0).PackedRows (EltTy.packing .bf16)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  shapeCasts_S1024x64_S1024x64 : S1024x64.ShapeCasts S1024x64
  transposes_S1024x64_p1_0_S64x1024 : S1024x64.Transposes [1, 0] S64x1024
  iota_S1024x1_d0_w32 : S1024x1.Iotas .tc 32 [0]
  iota_S1x1024_d1_w32 : S1x1024.Iotas .tc 32 [1]
  broadcasts_S1x1024_S1024x1024 : S1x1024.Broadcasts S1024x1024
  broadcasts_S1024x1_S1024x1024 : S1024x1.Broadcasts S1024x1024
  reduces_S1024x1024_S1024 : S1024x1024.Reduces [1] S1024
  shapeCasts_S1024_S1024x1 : S1024.ShapeCasts S1024x1
  broadcasts_S1024x1_S1024x64 : S1024x1.Broadcasts S1024x64
  dot_S1024x1024_S1024x64_S1024x64_1_0_0_1_n_n_wf : DotDims.WF S1024x1024 S1024x64 S1024x64 [1] [0] [0] [1] [] []
  dot_S1024x64_S64x1024_S1024x1024_1_0_0_1_n_n_wf : DotDims.WF S1024x64 S64x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S4x4096x1024.size a
  hwx0_0 : ∀ i : grid0.Coords, EltTy.bits .f32 = 32 ∨ (Rect.block (s := S4x4096x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S4x4096x1024.size a
  hwx0_1 : ∀ i : grid0.Coords, EltTy.bits .f32 = 32 ∨ (Rect.block (s := S4x4096x1024) S1x1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1024.size a ≤ S4x4096x1024.size a
  hwx0_2 : ∀ i : grid0.Coords, EltTy.bits .f32 = 32 ∨ (Rect.block (s := S4x4096x1024) S1x1024x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x64.size a ≤ S1024x64.size a
  hwx0_3 : ∀ i : grid0.Coords, EltTy.bits .f32 = 32 ∨ (Rect.block (s := S1024x64) S1024x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x64.size a ≤ S1024x64.size a
  hwx0_4 : ∀ i : grid0.Coords, EltTy.bits .f32 = 32 ∨ (Rect.block (s := S1024x64) S1024x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x64.size a ≤ S1024x64.size a
  hwx0_5 : ∀ i : grid0.Coords, EltTy.bits .f32 = 32 ∨ (Rect.block (s := S1024x64) S1024x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024x64.size a ≤ S4x4096x64.size a
  hwx0_6 : ∀ i : grid0.Coords, EltTy.bits .bf16 = 32 ∨ (Rect.block (s := S4x4096x64) S1x1024x64.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1024x64.size a ≤ S4x4096x64.size a
  hwx0_7 : ∀ i : grid0.Coords, EltTy.bits .bf16 = 32 ∨ (Rect.block (s := S4x4096x64) S1x1024x64.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1024x64.size a ≤ S4x4096x64.size a
  hwx0_8 : ∀ i : grid0.Coords, EltTy.bits .bf16 = 32 ∨ (Rect.block (s := S4x4096x64) S1x1024x64.size (cc0_transform_8 i) (hinb0_8 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x64.size a ≤ S4x4096x64.size a
  hwx1_0 : ∀ i : grid1.Coords, EltTy.bits .bf16 = 32 ∨ (Rect.block (s := S4x4096x64) S1x1024x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x64.size a ≤ S4x4096x64.size a
  hwx1_1 : ∀ i : grid1.Coords, EltTy.bits .bf16 = 32 ∨ (Rect.block (s := S4x4096x64) S1x1024x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x64.size a ≤ S4x4096x64.size a
  hwx1_2 : ∀ i : grid1.Coords, EltTy.bits .bf16 = 32 ∨ (Rect.block (s := S4x4096x64) S1x1024x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x64.size a ≤ S4x4096x64.size a
  hwx1_3 : ∀ i : grid1.Coords, EltTy.bits .f32 = 32 ∨ (Rect.block (s := S4x4096x64) S1x1024x64.size (cc1_transform_3 i) (hinb1_3 i)).WholeWords (EltTy.packing .f32)

variable [Facts₀]

def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf
def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1024x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0_0) S1x1024x64.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0_1) S1x1024x64.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v0_2) S1x1024x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v0_0) S1x1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S1x1024x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0_2) S1x1024x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x1024x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond3 i == 1#1) | ⟨_ + 4, h⟩ => absurd h (Nat.not_lt.2 (Nat.le_add_left _ _))

class Facts : Prop extends Facts₀ where

variable [Facts]
-- ==== ReferenceIdeal.lean ====
abbrev S4x4096x1024 : Shape := ⟨3, ![4, 4096, 1024]⟩
abbrev S1024x64 : Shape := ⟨2, ![1024, 64]⟩
abbrev S4x4096x64 : Shape := ⟨3, ![4, 4096, 64]⟩
abbrev S4x4096x4096 : Shape := ⟨3, ![4, 4096, 4096]⟩
abbrev S_ : Shape := ⟨0, ![]⟩
abbrev S4096x4096 : Shape := ⟨2, ![4096, 4096]⟩
abbrev S4x4096 : Shape := ⟨2, ![4, 4096]⟩
abbrev S4x4096x1 : Shape := ⟨3, ![4, 4096, 1]⟩

abbrev nBuf : Space → Nat
  | .hbm => 44
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x1024, .f32⟩
  | .hbm, ⟨3, _⟩ => ⟨S1024x64, .f32⟩
  | .hbm, ⟨4, _⟩ => ⟨S1024x64, .f32⟩
  | .hbm, ⟨5, _⟩ => ⟨S1024x64, .f32⟩
  | .hbm, ⟨6, _⟩ => ⟨S4x4096x64, .f32⟩
  | .hbm, ⟨7, _⟩ => ⟨S4x4096x64, .f32⟩
  | .hbm, ⟨8, _⟩ => ⟨S4x4096x64, .f32⟩
  | .hbm, ⟨9, _⟩ => ⟨S4x4096x4096, .f32⟩
  | .hbm, ⟨10, _⟩ => ⟨S_, .f32⟩
  | .hbm, ⟨11, _⟩ => ⟨S4x4096x4096, .f32⟩
  | .hbm, ⟨12, _⟩ => ⟨S4x4096x4096, .f32⟩
  | .hbm, ⟨13, _⟩ => ⟨S_, .i1⟩
  | .hbm, ⟨14, _⟩ => ⟨S4096x4096, .i1⟩
  | .hbm, ⟨15, _⟩ => ⟨S4096x4096, .i32⟩
  | .hbm, ⟨16, _⟩ => ⟨S_, .i32⟩
  | .hbm, ⟨17, _⟩ => ⟨S4096x4096, .i32⟩
  | .hbm, ⟨18, _⟩ => ⟨S4096x4096, .i32⟩
  | .hbm, ⟨19, _⟩ => ⟨S4096x4096, .i32⟩
  | .hbm, ⟨20, _⟩ => ⟨S4096x4096, .i1⟩
  | .hbm, ⟨21, _⟩ => ⟨S_, .i1⟩
  | .hbm, ⟨22, _⟩ => ⟨S4096x4096, .i1⟩
  | .hbm, ⟨23, _⟩ => ⟨S4096x4096, .i1⟩
  | .hbm, ⟨24, _⟩ => ⟨S_, .f32⟩
  | .hbm, ⟨25, _⟩ => ⟨S_, .f32⟩
  | .hbm, ⟨26, _⟩ => ⟨S4x4096x4096, .i1⟩
  | .hbm, ⟨27, _⟩ => ⟨S4x4096x4096, .f32⟩
  | .hbm, ⟨28, _⟩ => ⟨S4x4096x4096, .f32⟩
  | .hbm, ⟨29, _⟩ => ⟨S_, .f32⟩
  | .hbm, ⟨30, _⟩ => ⟨S4x4096, .f32⟩
  | .hbm, ⟨31, _⟩ => ⟨S_, .f32⟩
  | .hbm, ⟨32, _⟩ => ⟨S4x4096, .f32⟩
  | .hbm, ⟨33, _⟩ => ⟨S4x4096, .f32⟩
  | .hbm, ⟨34, _⟩ => ⟨S4x4096x1, .f32⟩
  | .hbm, ⟨35, _⟩ => ⟨S4x4096x4096, .f32⟩
  | .hbm, ⟨36, _⟩ => ⟨S4x4096x4096, .f32⟩
  | .hbm, ⟨37, _⟩ => ⟨S4x4096x4096, .f32⟩
  | .hbm, ⟨38, _⟩ => ⟨S_, .f32⟩
  | .hbm, ⟨39, _⟩ => ⟨S4x4096, .f32⟩
  | .hbm, ⟨40, _⟩ => ⟨S4x4096x1, .f32⟩
  | .hbm, ⟨41, _⟩ => ⟨S4x4096x4096, .f32⟩
  | .hbm, ⟨42, _⟩ => ⟨S4x4096x4096, .f32⟩
  | .hbm, ⟨43, _⟩ => ⟨S4x4096x64, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_call0_v0 : Ref sig .tc := ⟨.hbm, 15, rfl⟩
abbrev main_call0_c : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_c_0 : Ref sig .tc := ⟨.hbm, 21, rfl⟩
abbrev main_call0_v5 : Ref sig .tc := ⟨.hbm, 22, rfl⟩
abbrev main_v7 : Ref sig .tc := ⟨.hbm, 23, rfl⟩
abbrev main_cst_0 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v8 : Ref sig .tc := ⟨.hbm, 28, rfl⟩
abbrev main_cst_1 : Ref sig .tc := ⟨.hbm, 29, rfl⟩
abbrev main_v9 : Ref sig .tc := ⟨.hbm, 30, rfl⟩
abbrev main_cst_2 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst_3 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩

abbrev nD : Nat := 1
abbrev τ : Topo := Topo.v7x

variable {F : FTy → Type} [FloatOps F]

class Facts₀ : Prop where
  bcast_S_S4x4096x4096 : S_.BroadcastsInDim S4x4096x4096 (![] : Fin 0 → Fin S4x4096x4096.rank)
  bcast_S_S4096x4096 : S_.BroadcastsInDim S4096x4096 (![] : Fin 0 → Fin S4096x4096.rank)
  bcast_S4096x4096_S4x4096x4096_1_2 : S4096x4096.BroadcastsInDim S4x4096x4096 (![1, 2] : Fin 2 → Fin S4x4096x4096.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  dot_S4x4096x1024_S1024x64_S4x4096x64_2_0_01_1_n_n_wf : DotDims.WF S4x4096x1024 S1024x64 S4x4096x64 [2] [0] [0, 1] [1] [] []
  dot_S4x4096x64_S4x4096x64_S4x4096x4096_2_2_1_1_0_0_wf : DotDims.WF S4x4096x64 S4x4096x64 S4x4096x4096 [2] [2] [1] [1] [0] [0]
  dot_S4x4096x4096_S4x4096x64_S4x4096x64_2_1_1_2_0_0_wf : DotDims.WF S4x4096x4096 S4x4096x64 S4x4096x64 [2] [1] [1] [2] [0] [0]

variable [Facts₀]

def dot_S4x4096x1024_S1024x64_S4x4096x64_2_0_01_1_n_n : DotDims S4x4096x1024 S1024x64 S4x4096x64 where
  lhsContracting := [2]
  rhsContracting := [0]
  lhsNonContracting := [0, 1]
  rhsNonContracting := [1]
  lhsBatch := []
  rhsBatch := []
  wf := dot_S4x4096x1024_S1024x64_S4x4096x64_2_0_01_1_n_n_wf
def dot_S4x4096x64_S4x4096x64_S4x4096x4096_2_2_1_1_0_0 : DotDims S4x4096x64 S4x4096x64 S4x4096x4096 where
  lhsContracting := [2]
  rhsContracting := [2]
  lhsNonContracting := [1]
  rhsNonContracting := [1]
  lhsBatch := [0]
  rhsBatch := [0]
  wf := dot_S4x4096x64_S4x4096x64_S4x4096x4096_2_2_1_1_0_0_wf
def dot_S4x4096x4096_S4x4096x64_S4x4096x64_2_1_1_2_0_0 : DotDims S4x4096x4096 S4x4096x64 S4x4096x64 where
  lhsContracting := [2]
  rhsContracting := [1]
  lhsNonContracting := [1]
  rhsNonContracting := [2]
  lhsBatch := [0]
  rhsBatch := [0]
  wf := dot_S4x4096x4096_S4x4096x64_S4x4096x64_2_1_1_2_0_0_wf

class Facts : Prop extends Facts₀ where

variable [Facts]
-- ==== Proof.K.Region0.lean ====
import proofs.«154889_j71219147702646_2_alg».proof.Proof.Gen.Kernel.Launch
import proofs.«154889_j71219147702646_2_alg».proof.Proof.Gen.Kernel.Skeleton
import proofs.«154889_j71219147702646_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-!
# The first pallas call (the three projections), at any float instance

The first call of the program walks a 4 × 4 grid. At each point it is handed one 1024 × 1024 block of each of
the three activations, the three whole 1024 × 64 weight matrices, and one 1024 × 64 block of each of the
three results. Its body computes, for each of the three pairs, the bf16 rounding of the product of the
bf16-rounded activation block with the bf16-rounded weight matrix, and stores it over the whole result block.

This module states what one run of the body does to the nine staging buffers (the inputs are left as they
were, each result buffer ends at its product, whatever it held before), packages it as the pipeline's proof
data, and discharges the pipeline's body obligation at a generic grid point.
-/

-- membership in a rectangle of these extents recurses once per coordinate of the long axes
set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the core's buffer contents when the call is entered
variable (V : (c : Dev nD) → (b : Ref sig .tc) → Buf (Elt F) ((c : Thread nD τ).loc b))

/-! ## The windows' blocks -/

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether or not the pipeline fetched it
    there (an unfetched input's block index has not moved), for any proof data whose array is `V`'s and whose body
    leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, whether or not the pipeline fetched it
    there (an unfetched input's block index has not moved), for any proof data whose array is `V`'s and whose body
    leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, whether or not the pipeline fetched it
    there (an unfetched input's block index has not moved), for any proof data whose array is `V`'s and whose body
    leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, whether or not the pipeline fetched it
    there (an unfetched input's block index has not moved), for any proof data whose array is `V`'s and whose body
    leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, whether or not the pipeline fetched it
    there (an unfetched input's block index has not moved), for any proof data whose array is `V`'s and whose body
    leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, whether or not the pipeline fetched it
    there (an unfetched input's block index has not moved), for any proof data whose array is `V`'s and whose body
    leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and every store is of a whole buffer -/

abbrev rect0_X : Rect S1x1024x1024 := Rect.unit (s := S1x1024x1024) ![0, 0, 0] S1x1024x1024.size inb_S1x1024x1024_S1x1024x1024_0_0_0
abbrev rect0_W : Rect S1024x64 := Rect.unit (s := S1024x64) ![0, 0] S1024x64.size inb_S1024x64_S1024x64_0_0
abbrev rect0_O : Rect S1x1024x64 := Rect.unit (s := S1x1024x64) ![0, 0, 0] S1x1024x64.size inb_S1x1024x64_S1x1024x64_0_0_0

/-! ## What the body leaves in each result buffer -/

/-- The first result's buffer after the body: one store of the whole block, of the first pair's product. -/
def out0_6 (x0 : Vec F S1x1024x1024 .f32) (x3 : Vec F S1024x64 .f32) : Vec F S1x1024x64 .bf16 :=
  View.canon [⟨rect0_O, k0_pay2 (View.ld x0 rect0_X) (View.ld x3 rect0_W)⟩]

/-- The second result's buffer after the body: one store of the whole block, of the second pair's product. -/
def out0_7 (x1 : Vec F S1x1024x1024 .f32) (x4 : Vec F S1024x64 .f32) : Vec F S1x1024x64 .bf16 :=
  View.canon [⟨rect0_O, k0_pay3 (View.ld x1 rect0_X) (View.ld x4 rect0_W)⟩]

/-- The third result's buffer after the body: one store of the whole block, of the third pair's product
    (computed as a 1024 × 64 value and reshaped to the block's shape at the store). -/
def out0_8 (x2 : Vec F S1x1024x1024 .f32) (x5 : Vec F S1024x64 .f32) : Vec F S1x1024x64 .bf16 :=
  View.canon [⟨rect0_O, k0_pay1 (k0_pay4 (View.ld x2 rect0_X) (View.ld x5 rect0_W))⟩]

/-- One store of the whole block covers the block. -/
theorem cover0_6 (p0 : Vec F S1x1024x64 .bf16) (y : S1x1024x64.Idx) :
    ∃ pc ∈ ([⟨rect0_O, p0⟩] : List (View.Piece (Elt F) S1x1024x64 .bf16)), y ∈ pc.1.set :=
  View.cover_of_tiled [⟨rect0_O, p0⟩] S1x1024x64.size (by rfl) y
theorem cover0_7 (p0 : Vec F S1x1024x64 .bf16) (y : S1x1024x64.Idx) :
    ∃ pc ∈ ([⟨rect0_O, p0⟩] : List (View.Piece (Elt F) S1x1024x64 .bf16)), y ∈ pc.1.set :=
  View.cover_of_tiled [⟨rect0_O, p0⟩] S1x1024x64.size (by rfl) y
theorem cover0_8 (p0 : Vec F S1x1024x64 .bf16) (y : S1x1024x64.Idx) :
    ∃ pc ∈ ([⟨rect0_O, p0⟩] : List (View.Piece (Elt F) S1x1024x64 .bf16)), y ∈ pc.1.set :=
  View.cover_of_tiled [⟨rect0_O, p0⟩] S1x1024x64.size (by rfl) y

/-! ## The body's triple -/

set_option maxHeartbeats 1000000 in
/-- The body on whole staging buffers — the six inputs' at contents `x0 … x5`, the three results' at anything — runs
    to a continuation that is handed the inputs' as they were and each result's at its product. The body also reads
    each result buffer once before overwriting it; what it reads is not used. -/
theorem sound_kernel0 (c : Dev nD) (E : Set ℕ) (i : grid0.Coords) (arg2 : Memref sig .tc .vmem S1x1024x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x64 .f32) (harg7 : arg7.IsWhole) (arg8 : Memref sig .tc .vmem S1x1024x64 .bf16) (harg8 : arg8.IsWhole) (arg9 : Memref sig .tc .vmem S1x1024x64 .bf16) (harg9 : arg9.IsWhole) (arg10 : Memref sig .tc .vmem S1x1024x64 .bf16) (harg10 : arg10.IsWhole)
    (x0 x1 x2 : Vec F S1x1024x1024 .f32) (x3 x4 x5 : Vec F S1024x64 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare (out0_6 x0 x3) ∗ owns (c : Thread nD τ) arg9 fullShare (out0_7 x1 x4) ∗ owns (c : Thread nD τ) arg10 fullShare (out0_8 x2 x5)) -∗ K ⟨⟩))
      ⊢ wp frame (wpE (defs₀ (F := F)) Variants.none c none) E (cc0_kernel i arg2 harg2 arg3 harg3 arg4 harg4 arg5 harg5 arg6 harg6 arg7 harg7 arg8 harg8 arg9 harg9 arg10 harg10) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover0_6 _)
  isplitl [H7]
  · iexists _; isplitr
    swap; · iexact H7
    ipureintro
    exact View.read_writes_eq_canon _ _ _ (cover0_7 _)
  iexists _; isplitr
  swap; · iexact H8
  ipureintro
  exact View.read_writes_eq_canon _ _ _ (cover0_8 _)

/-! ## The pipeline's proof data -/

/-- The proof data of the call on core `c`: the arrays as the call finds them; after the body at point `t` each
    input's buffer at its block and each result's at its product of the input blocks; the invariant that the rest
    of the core's state is untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 3 t)
    | ⟨7, _⟩ => out0_7 (iblk0 V c 1 t) (iblk0 V c 4 t)
    | ⟨8, _⟩ => out0_8 (iblk0 V c 2 t) (iblk0 V c 5 t)
  Φ _ := Pipeline.ΦA spec0 c
  q _ := fullShare
  owed _ := 0

/-- The proof data's arrays are the contents at entry. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 3 t) := by dsimp only [dat0]
theorem after0_7 (c : Dev nD) (t : Fin cfg0.N) : (dat0 V c).after 7 t = out0_7 (iblk0 V c 1 t) (iblk0 V c 4 t) := by dsimp only [dat0]
theorem after0_8 (c : Dev nD) (t : Fin cfg0.N) : (dat0 V c).after 8 t = out0_8 (iblk0 V c 2 t) (iblk0 V c 5 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t))

/-- The body at any point: the inputs' buffers hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel0 c Set.univ (grid0.coords t) _ _ _ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

/-! ## The result buffers as plain products

Every load and store of the body is of a whole buffer at offset zero, so a loaded value is the buffer and the
one store's contents are the buffer afterwards. -/

theorem offs0_3 : (![0, 0, 0] : Fin 3 → Nat) = fun _ => 0 := funext fun a => by fin_cases a <;> rfl
theorem offs0_2 : (![0, 0] : Fin 2 → Nat) = fun _ => 0 := funext fun a => by fin_cases a <;> rfl

/-- The first result's buffer after the body is the first pair's product. -/
theorem out0_6_eq (x0 : Vec F S1x1024x1024 .f32) (x3 : Vec F S1024x64 .f32) : out0_6 x0 x3 = k0_pay2 x0 x3 := by
  unfold out0_6
  rw [View.canon_unit_zero offs0_3]
  simp only [View.ld_unit_zero (S := S1x1024x1024) offs0_3, View.ld_unit_zero (S := S1024x64) offs0_2]

/-- The second result's buffer after the body is the second pair's product. -/
theorem out0_7_eq (x1 : Vec F S1x1024x1024 .f32) (x4 : Vec F S1024x64 .f32) : out0_7 x1 x4 = k0_pay3 x1 x4 := by
  unfold out0_7
  rw [View.canon_unit_zero offs0_3]
  simp only [View.ld_unit_zero (S := S1x1024x1024) offs0_3, View.ld_unit_zero (S := S1024x64) offs0_2]

/-- The third result's buffer after the body is the third pair's product, reshaped to the block's shape. -/
theorem out0_8_eq (x2 : Vec F S1x1024x1024 .f32) (x5 : Vec F S1024x64 .f32) : out0_8 x2 x5 = k0_pay1 (k0_pay4 x2 x5) := by
  unfold out0_8
  rw [View.canon_unit_zero offs0_3]
  simp only [View.ld_unit_zero (S := S1x1024x1024) offs0_3, View.ld_unit_zero (S := S1024x64) offs0_2]

end
end Cert.Kernel.Hand
end
-- ==== Proof.K.Runs1.lean ====
/-
  Region 1 (the attention kernel), what its five control cases share: the three branch conditions of the body as
  functions of the grid point (batch, query tile, key tile) and their closed forms over the 64 points — the first key
  tile, a key tile not beyond the query tile, the last key tile —; where the output window is idle; the staging and
  scratch memrefs the body is called with; and the region invariant split into the three scratch buffers (running
  maximum, running sum, running weighted sum), the other scoped buffers, and the generator register.
-/
import proofs.«154889_j71219147702646_2_alg».proof.Proof.Gen.Kernel.Launch
import proofs.«154889_j71219147702646_2_alg».proof.Proof.Gen.Kernel.Skeleton
import proofs.«154889_j71219147702646_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The key tile is the first: the running state is reset. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- The key tile is not beyond the query tile: the tile is accumulated. -/
abbrev cond1_1 (i : grid1.Coords) : Prop := (Scalar.cmpi .ne (Scalar.extui (Scalar.cmpi .sle (BitVec.ofNat 32 (i 2).val) (BitVec.ofNat 32 (i 1).val))) 0#32) = 1#1
theorem hcond1_1 : ∀ t : Fin cfg1.N, cond1_1 (grid1.coords t) ↔ t.val % 4 ≤ t.val / 4 % 4 :=
  (by decide +kernel : ∀ t : Fin grid1.N, cond1_1 (grid1.coords t) ↔ t.val % 4 ≤ t.val / 4 % 4)

/-- The key tile is the last: the output block is written. -/
abbrev cond1_2 (i : grid1.Coords) : Prop := k1_cond3 i = 1#1
theorem hcond1_2 : ∀ t : Fin cfg1.N, cond1_2 (grid1.coords t) ↔ t.val % 4 = 3 :=
  (by decide +kernel : ∀ t : Fin grid1.N, cond1_2 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Off the last key tile the output window is idle and is not written back. -/
theorem idleAt1_3 : ∀ t : Fin cfg1.N, ¬cond1_2 (grid1.coords t) → cfg1.idle 3 (grid1.coords t) = true := by decide +kernel
theorem noFlush1_3 : ∀ t : Fin cfg1.N, ¬cond1_2 (grid1.coords t) → (cfg1.win 3).flush t = false := by decide +kernel
/-- At the last key tile it is live. -/
theorem liveAt1_3 : ∀ t : Fin cfg1.N, cond1_2 (grid1.coords t) → cfg1.idle 3 (grid1.coords t) = false := by decide +kernel

/-! ## The memrefs the body is called with -/

abbrev VO1_3 : View sig .tc .vmem S1x1024x64 .f32 := (Memref.whole cc1_stg3_0 : Memref sig .tc .vmem S1x1024x64 .f32).view
abbrev ms1_0 (t : Fin cfg1.N) : Memref sig .tc .vmem S1x1024x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x64 .f32 := win1_3.stage (cfg1.slots t 3)
abbrev hs1_3 (t : Fin cfg1.N) : (ms1_3 t).IsWhole := hstage1_3 ((cfg1.slots t 3).cast nbuf1_3)
/-- The running maximum, the running sum and the running weighted sum: whole scoped buffers of the kernel's own. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x64 .f32 := Memref.whole cc1_scratch2
abbrev VS1_0 : View sig .tc .vmem S1024x1 .f32 := scM1_0.view
abbrev VS1_1 : View sig .tc .vmem S1024x1 .f32 := scM1_1.view
abbrev VS1_2 : View sig .tc .vmem S1024x64 .f32 := scM1_2.view

/-! ## The region invariant, split -/

/-- The scoped buffers that are neither a staging buffer of this region nor one of its scratch buffers, each whole
    at some contents: the body never touches them. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f))

/-- The class invariant hands out the three scratch buffers at some contents, the other scoped buffers, and the
    generator register. -/
theorem PhiA1_split (c : Dev nD) :
    (Pipeline.ΦA spec1 c : sProp 𝕄)
      ⊢ iprop(others1 c ∗ (∃ d, owns (c : Thread nD τ) scM1_0 fullShare d) ∗ (∃ d, owns (c : Thread nD τ) scM1_1 fullShare d)
          ∗ (∃ d, owns (c : Thread nD τ) scM1_2 fullShare d) ∗ (∃ r, prngReg c r)) := by
  unfold Pipeline.ΦA others1; rw [scopedRest1_eq]; simp only [scM1_0, scM1_1, scM1_2, owns_whole]
  iintro ⟨⟨H0, H1, H2, H3, H4, H5, H6, H7, H8, H9, H10, H11, H12, H13, H14, HS0, HS1, HS2⟩, Hg⟩
  isplitl [H0 H1 H2 H3 H4 H5 H6 H7 H8 H9 H10 H11 H12 H13 H14]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  isplitl [HS0]; · iexact HS0
  isplitl [HS1]; · iexact HS1
  isplitl [HS2]; · iexact HS2
  iexact Hg

/-- And takes them back. -/
theorem PhiA1_join (c : Dev nD) :
    iprop(others1 c ∗ (∃ d, owns (c : Thread nD τ) scM1_0 fullShare d) ∗ (∃ d, owns (c : Thread nD τ) scM1_1 fullShare d)
          ∗ (∃ d, owns (c : Thread nD τ) scM1_2 fullShare d) ∗ (∃ r, prngReg c r))
      ⊢ (Pipeline.ΦA spec1 c : sProp 𝕄) := by
  unfold Pipeline.ΦA others1; rw [scopedRest1_eq]; simp only [scM1_0, scM1_1, scM1_2, owns_whole]
  iintro ⟨⟨H0, H1, H2, H3, H4, H5, H6, H7, H8, H9, H10, H11, H12, H13, H14⟩, HS0, HS1, HS2, Hg⟩
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [HS0]; · iexact HS0
    isplitl [HS1]; · iexact HS1
    iexact HS2
  iexact Hg

end Cert.Kernel.Hand

end
-- ==== Proof.K.Run1A.lean ====
/-
  Region 1, the body's run in the case of the first key tile: the running state is reset and the tile accumulated. On whole memrefs — the three input blocks at their contents,
  the output block handed back untouched, the three scratch buffers at anything, left with their stores written —
  the body runs to its continuation; the lists of stored pieces are found by the run itself.
-/
import proofs.«154889_j71219147702646_2_alg».proof.Proof.K.Runs1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_A (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : cond1_1 i) (hc2 : ¬cond1_2 i)
    (x0 x1 x2 : Vec F S1x1024x64 .bf16) :
    Σ' (LS0 : List (View.Piece (Elt F) S1024x1 .f32)) (LS1 : List (View.Piece (Elt F) S1024x1 .f32)), { LS2 : List (View.Piece (Elt F) S1024x64 .f32) //
      ∀ (xi3 : Vec F S1x1024x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1_kernel i arg3 harg3 arg4 harg4 arg5 harg5 arg6 harg6 arg7 harg7 arg8 harg8 arg9 harg9) K } := by
  refine ⟨?_, ?_, ?_, fun xi3 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.Kernel.Hand

end
-- ==== Proof.K.Run1B.lean ====
/-
  Region 1, the body's run in the case of a middle key tile not beyond the query tile: the tile is accumulated. On whole memrefs — the three input blocks at their contents,
  the output block handed back untouched, the three scratch buffers at what the point before left, left with their stores written —
  the body runs to its continuation; the lists of stored pieces are found by the run itself.
-/
import proofs.«154889_j71219147702646_2_alg».proof.Proof.K.Run1A
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i) (hc2 : ¬cond1_2 i)
    (x0 x1 x2 : Vec F S1x1024x64 .bf16) (xs0 xs1 : Vec F S1024x1 .f32) (xs2 : Vec F S1024x64 .f32) :
    Σ' (LS0 : List (View.Piece (Elt F) S1024x1 .f32)) (LS1 : List (View.Piece (Elt F) S1024x1 .f32)), { LS2 : List (View.Piece (Elt F) S1024x64 .f32) //
      ∀ (xi3 : Vec F S1x1024x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1_kernel i arg3 harg3 arg4 harg4 arg5 harg5 arg6 harg6 arg7 harg7 arg8 harg8 arg9 harg9) K } := by
  refine ⟨?_, ?_, ?_, fun xi3 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hfs0; obtain rfl := harg8.eq_unread hfs1; obtain rfl := harg9.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.Kernel.Hand

end
-- ==== Proof.K.Run1C.lean ====
/-
  Region 1, the body's run in the case of the last key tile, on the diagonal: the tile is accumulated and the output block written. On whole memrefs — the three input blocks at their contents,
  the output block at anything, left with its store written, the three scratch buffers at what the point before left, left with their stores written —
  the body runs to its continuation; the lists of stored pieces are found by the run itself.
-/
import proofs.«154889_j71219147702646_2_alg».proof.Proof.K.Run1B
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i) (hc2 : cond1_2 i)
    (x0 x1 x2 : Vec F S1x1024x64 .bf16) (xs0 xs1 : Vec F S1024x1 .f32) (xs2 : Vec F S1024x64 .f32) :
    Σ' (L3 : List (View.Piece (Elt F) S1x1024x64 .f32)) (LS0 : List (View.Piece (Elt F) S1024x1 .f32)) (LS1 : List (View.Piece (Elt F) S1024x1 .f32)), { LS2 : List (View.Piece (Elt F) S1024x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1_kernel i arg3 harg3 arg4 harg4 arg5 harg5 arg6 harg6 arg7 harg7 arg8 harg8 arg9 harg9) K } := by
  refine ⟨?_, ?_, ?_, ?_, fun E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg7.eq_unread hfs0; obtain rfl := harg8.eq_unread hfs1; obtain rfl := harg9.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.Kernel.Hand

end
-- ==== Proof.K.Run1D.lean ====
/-
  Region 1, the body's run in the case of a middle key tile beyond the query tile: nothing happens. On whole memrefs — the three input blocks at their contents,
  the output block handed back untouched, the three scratch buffers at what the point before left, left as they were —
  the body runs to its continuation; the lists of stored pieces are found by the run itself.
-/
import proofs.«154889_j71219147702646_2_alg».proof.Proof.K.Run1C
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem kernelRun1_D (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i) (hc2 : ¬cond1_2 i)
    (x0 x1 x2 : Vec F S1x1024x64 .bf16) (xs0 xs1 : Vec F S1024x1 .f32) (xs2 : Vec F S1024x64 .f32) :
    ∀ (xi3 : Vec F S1x1024x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ owns (c : Thread nD τ) arg7 fullShare xs0 ∗ owns (c : Thread nD τ) arg8 fullShare xs1 ∗ owns (c : Thread nD τ) arg9 fullShare xs2) -∗ K ⟨⟩))
          ⊢ wp frame (wpE (defs₀ (F := F)) Variants.none c none) E (cc1_kernel i arg3 harg3 arg4 harg4 arg5 harg5 arg6 harg6 arg7 harg7 arg8 harg8 arg9 harg9) K := by
  intro xi3 E K
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
  obtain rfl := harg3.eq_unread hf0; obtain rfl := harg4.eq_unread hf1; obtain rfl := harg5.eq_unread hf2; obtain rfl := harg6.eq_unread hf3; obtain rfl := harg7.eq_unread hfs0; obtain rfl := harg8.eq_unread hfs1; obtain rfl := harg9.eq_unread hfs2
  sl_exec (disch := first | exact hc0 | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [HS0]
  · iexists _; isplitr; · ipureintro; exact harg7.read_unread _
    iexact HS0
  isplitl [HS1]
  · iexists _; isplitr; · ipureintro; exact harg8.read_unread _
    iexact HS1
  iexists _; isplitr; · ipureintro; exact harg9.read_unread _
  iexact HS2

end Cert.Kernel.Hand

end
-- ==== Proof.K.Run1E.lean ====
/-
  Region 1, the body's run in the case of the last key tile, beyond the query tile: the output block is written from the running state. On whole memrefs — the three input blocks at their contents,
  the output block at anything, left with its store written, the three scratch buffers at what the point before left, left as they were —
  the body runs to its continuation; the lists of stored pieces are found by the run itself.
-/
import proofs.«154889_j71219147702646_2_alg».proof.Proof.K.Run1D
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_E (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i) (hc2 : cond1_2 i)
    (x0 x1 x2 : Vec F S1x1024x64 .bf16) (xs0 xs1 : Vec F S1024x1 .f32) (xs2 : Vec F S1024x64 .f32) :
    { L3 : List (View.Piece (Elt F) S1x1024x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3)
                ∗ owns (c : Thread nD τ) arg7 fullShare xs0 ∗ owns (c : Thread nD τ) arg8 fullShare xs1 ∗ owns (c : Thread nD τ) arg9 fullShare xs2) -∗ K ⟨⟩))
          ⊢ wp frame (wpE (defs₀ (F := F)) Variants.none c none) E (cc1_kernel i arg3 harg3 arg4 harg4 arg5 harg5 arg6 harg6 arg7 harg7 arg8 harg8 arg9 harg9) K } := by
  refine ⟨?_, fun E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg7.eq_unread hfs0; obtain rfl := harg8.eq_unread hfs1; obtain rfl := harg9.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]
    · iexists _; isplitr; · ipureintro; exact harg7.read_unread _
      iexact HS0
    isplitl [HS1]
    · iexists _; isplitr; · ipureintro; exact harg8.read_unread _
      iexact HS1
    iexists _; isplitr; · ipureintro; exact harg9.read_unread _
    iexact HS2

end Cert.Kernel.Hand

end
-- ==== Proof.K.Region1.lean ====
/-
  Region 1 (the attention kernel): what each control case leaves in the three scratch buffers and in the output block,
  read back from the pieces its run stored; the same point by point, by recursion over the 64 grid points (a case that
  stores nothing into the scratch buffers hands on what the point before left); the region invariant (before the first
  point anything, afterwards the scratch buffers at what the point before left); the proof data; and the body
  obligation, by cases on the closed forms of the three conditions.
-/
import proofs.«154889_j71219147702646_2_alg».proof.Proof.K.Run1E
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Per case: what the stored pieces leave -/

theorem scover1_A_0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : cond1_1 i) (hc2 : ¬cond1_2 i) (x0 x1 x2 : Vec F S1x1024x64 .bf16) (y : S1024x1.Idx) :
    ∃ pc ∈ (kernelRun1_A c i arg3 harg3 arg4 harg4 arg5 harg5 arg6 harg6 arg7 harg7 arg8 harg8 arg9 harg9 hc0 hc1 hc2 x0 x1 x2).1, y ∈ pc.1.set :=
  View.cover_of_tiledL (kernelRun1_A c i arg3 harg3 arg4 harg4 arg5 harg5 arg6 harg6 arg7 harg7 arg8 harg8 arg9 harg9 hc0 hc1 hc2 x0 x1 x2).1 S1024x1.size (by sl_kernel_rfl) y

def sout1_A_0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : cond1_1 i) (hc2 : ¬cond1_2 i) (x0 x1 x2 : Vec F S1x1024x64 .bf16) : Vec F S1024x1 .f32 :=
  VS1_0.read (Elt F) (VS1_0.writes (Elt F) VS1_0.junk (kernelRun1_A c i arg3 harg3 arg4 harg4 arg5 harg5 arg6 harg6 arg7 harg7 arg8 harg8 arg9 harg9 hc0 hc1 hc2 x0 x1 x2).1)

theorem scover1_A_1 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : cond1_1 i) (hc2 : ¬cond1_2 i) (x0 x1 x2 : Vec F S1x1024x64 .bf16) (y : S1024x1.Idx) :
    ∃ pc ∈ (kernelRun1_A c i arg3 harg3 arg4 harg4 arg5 harg5 arg6 harg6 arg7 harg7 arg8 harg8 arg9 harg9 hc0 hc1 hc2 x0 x1 x2).2.1, y ∈ pc.1.set :=
  View.cover_of_tiledL (kernelRun1_A c i arg3 harg3 arg4 harg4 arg5 harg5 arg6 harg6 arg7 harg7 arg8 harg8 arg9 harg9 hc0 hc1 hc2 x0 x1 x2).2.1 S1024x1.size (by sl_kernel_rfl) y

def sout1_A_1 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : cond1_1 i) (hc2 : ¬cond1_2 i) (x0 x1 x2 : Vec F S1x1024x64 .bf16) : Vec F S1024x1 .f32 :=
  VS1_1.read (Elt F) (VS1_1.writes (Elt F) VS1_1.junk (kernelRun1_A c i arg3 harg3 arg4 harg4 arg5 harg5 arg6 harg6 arg7 harg7 arg8 harg8 arg9 harg9 hc0 hc1 hc2 x0 x1 x2).2.1)

theorem scover1_A_2 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : cond1_1 i) (hc2 : ¬cond1_2 i) (x0 x1 x2 : Vec F S1x1024x64 .bf16) (y : S1024x64.Idx) :
    ∃ pc ∈ (kernelRun1_A c i arg3 harg3 arg4 harg4 arg5 harg5 arg6 harg6 arg7 harg7 arg8 harg8 arg9 harg9 hc0 hc1 hc2 x0 x1 x2).2.2.1, y ∈ pc.1.set :=
  View.cover_of_tiledL (kernelRun1_A c i arg3 harg3 arg4 harg4 arg5 harg5 arg6 harg6 arg7 harg7 arg8 harg8 arg9 harg9 hc0 hc1 hc2 x0 x1 x2).2.2.1 S1024x64.size (by sl_kernel_rfl) y

def sout1_A_2 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : cond1_1 i) (hc2 : ¬cond1_2 i) (x0 x1 x2 : Vec F S1x1024x64 .bf16) : Vec F S1024x64 .f32 :=
  VS1_2.read (Elt F) (VS1_2.writes (Elt F) VS1_2.junk (kernelRun1_A c i arg3 harg3 arg4 harg4 arg5 harg5 arg6 harg6 arg7 harg7 arg8 harg8 arg9 harg9 hc0 hc1 hc2 x0 x1 x2).2.2.1)

theorem scover1_B_0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i) (hc2 : ¬cond1_2 i) (x0 x1 x2 : Vec F S1x1024x64 .bf16) (xs0 xs1 : Vec F S1024x1 .f32) (xs2 : Vec F S1024x64 .f32) (y : S1024x1.Idx) :
    ∃ pc ∈ (kernelRun1_B c i arg3 harg3 arg4 harg4 arg5 harg5 arg6 harg6 arg7 harg7 arg8 harg8 arg9 harg9 hc0 hc1 hc2 x0 x1 x2 xs0 xs1 xs2).1, y ∈ pc.1.set :=
  View.cover_of_tiledL (kernelRun1_B c i arg3 harg3 arg4 harg4 arg5 harg5 arg6 harg6 arg7 harg7 arg8 harg8 arg9 harg9 hc0 hc1 hc2 x0 x1 x2 xs0 xs1 xs2).1 S1024x1.size (by sl_kernel_rfl) y

def sout1_B_0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i) (hc2 : ¬cond1_2 i) (x0 x1 x2 : Vec F S1x1024x64 .bf16) (xs0 xs1 : Vec F S1024x1 .f32) (xs2 : Vec F S1024x64 .f32) : Vec F S1024x1 .f32 :=
  VS1_0.read (Elt F) (VS1_0.writes (Elt F) VS1_0.junk (kernelRun1_B c i arg3 harg3 arg4 harg4 arg5 harg5 arg6 harg6 arg7 harg7 arg8 harg8 arg9 harg9 hc0 hc1 hc2 x0 x1 x2 xs0 xs1 xs2).1)

theorem scover1_B_1 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i) (hc2 : ¬cond1_2 i) (x0 x1 x2 : Vec F S1x1024x64 .bf16) (xs0 xs1 : Vec F S1024x1 .f32) (xs2 : Vec F S1024x64 .f32) (y : S1024x1.Idx) :
    ∃ pc ∈ (kernelRun1_B c i arg3 harg3 arg4 harg4 arg5 harg5 arg6 harg6 arg7 harg7 arg8 harg8 arg9 harg9 hc0 hc1 hc2 x0 x1 x2 xs0 xs1 xs2).2.1, y ∈ pc.1.set :=
  View.cover_of_tiledL (kernelRun1_B c i arg3 harg3 arg4 harg4 arg5 harg5 arg6 harg6 arg7 harg7 arg8 harg8 arg9 harg9 hc0 hc1 hc2 x0 x1 x2 xs0 xs1 xs2).2.1 S1024x1.size (by sl_kernel_rfl) y

def sout1_B_1 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i) (hc2 : ¬cond1_2 i) (x0 x1 x2 : Vec F S1x1024x64 .bf16) (xs0 xs1 : Vec F S1024x1 .f32) (xs2 : Vec F S1024x64 .f32) : Vec F S1024x1 .f32 :=
  VS1_1.read (Elt F) (VS1_1.writes (Elt F) VS1_1.junk (kernelRun1_B c i arg3 harg3 arg4 harg4 arg5 harg5 arg6 harg6 arg7 harg7 arg8 harg8 arg9 harg9 hc0 hc1 hc2 x0 x1 x2 xs0 xs1 xs2).2.1)

theorem scover1_B_2 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i) (hc2 : ¬cond1_2 i) (x0 x1 x2 : Vec F S1x1024x64 .bf16) (xs0 xs1 : Vec F S1024x1 .f32) (xs2 : Vec F S1024x64 .f32) (y : S1024x64.Idx) :
    ∃ pc ∈ (kernelRun1_B c i arg3 harg3 arg4 harg4 arg5 harg5 arg6 harg6 arg7 harg7 arg8 harg8 arg9 harg9 hc0 hc1 hc2 x0 x1 x2 xs0 xs1 xs2).2.2.1, y ∈ pc.1.set :=
  View.cover_of_tiledL (kernelRun1_B c i arg3 harg3 arg4 harg4 arg5 harg5 arg6 harg6 arg7 harg7 arg8 harg8 arg9 harg9 hc0 hc1 hc2 x0 x1 x2 xs0 xs1 xs2).2.2.1 S1024x64.size (by sl_kernel_rfl) y

def sout1_B_2 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i) (hc2 : ¬cond1_2 i) (x0 x1 x2 : Vec F S1x1024x64 .bf16) (xs0 xs1 : Vec F S1024x1 .f32) (xs2 : Vec F S1024x64 .f32) : Vec F S1024x64 .f32 :=
  VS1_2.read (Elt F) (VS1_2.writes (Elt F) VS1_2.junk (kernelRun1_B c i arg3 harg3 arg4 harg4 arg5 harg5 arg6 harg6 arg7 harg7 arg8 harg8 arg9 harg9 hc0 hc1 hc2 x0 x1 x2 xs0 xs1 xs2).2.2.1)

theorem scover1_C_0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i) (hc2 : cond1_2 i) (x0 x1 x2 : Vec F S1x1024x64 .bf16) (xs0 xs1 : Vec F S1024x1 .f32) (xs2 : Vec F S1024x64 .f32) (y : S1024x1.Idx) :
    ∃ pc ∈ (kernelRun1_C c i arg3 harg3 arg4 harg4 arg5 harg5 arg6 harg6 arg7 harg7 arg8 harg8 arg9 harg9 hc0 hc1 hc2 x0 x1 x2 xs0 xs1 xs2).2.1, y ∈ pc.1.set :=
  View.cover_of_tiledL (kernelRun1_C c i arg3 harg3 arg4 harg4 arg5 harg5 arg6 harg6 arg7 harg7 arg8 harg8 arg9 harg9 hc0 hc1 hc2 x0 x1 x2 xs0 xs1 xs2).2.1 S1024x1.size (by sl_kernel_rfl) y

def sout1_C_0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i) (hc2 : cond1_2 i) (x0 x1 x2 : Vec F S1x1024x64 .bf16) (xs0 xs1 : Vec F S1024x1 .f32) (xs2 : Vec F S1024x64 .f32) : Vec F S1024x1 .f32 :=
  VS1_0.read (Elt F) (VS1_0.writes (Elt F) VS1_0.junk (kernelRun1_C c i arg3 harg3 arg4 harg4 arg5 harg5 arg6 harg6 arg7 harg7 arg8 harg8 arg9 harg9 hc0 hc1 hc2 x0 x1 x2 xs0 xs1 xs2).2.1)

theorem scover1_C_1 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i) (hc2 : cond1_2 i) (x0 x1 x2 : Vec F S1x1024x64 .bf16) (xs0 xs1 : Vec F S1024x1 .f32) (xs2 : Vec F S1024x64 .f32) (y : S1024x1.Idx) :
    ∃ pc ∈ (kernelRun1_C c i arg3 harg3 arg4 harg4 arg5 harg5 arg6 harg6 arg7 harg7 arg8 harg8 arg9 harg9 hc0 hc1 hc2 x0 x1 x2 xs0 xs1 xs2).2.2.1, y ∈ pc.1.set :=
  View.cover_of_tiledL (kernelRun1_C c i arg3 harg3 arg4 harg4 arg5 harg5 arg6 harg6 arg7 harg7 arg8 harg8 arg9 harg9 hc0 hc1 hc2 x0 x1 x2 xs0 xs1 xs2).2.2.1 S1024x1.size (by sl_kernel_rfl) y

def sout1_C_1 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i) (hc2 : cond1_2 i) (x0 x1 x2 : Vec F S1x1024x64 .bf16) (xs0 xs1 : Vec F S1024x1 .f32) (xs2 : Vec F S1024x64 .f32) : Vec F S1024x1 .f32 :=
  VS1_1.read (Elt F) (VS1_1.writes (Elt F) VS1_1.junk (kernelRun1_C c i arg3 harg3 arg4 harg4 arg5 harg5 arg6 harg6 arg7 harg7 arg8 harg8 arg9 harg9 hc0 hc1 hc2 x0 x1 x2 xs0 xs1 xs2).2.2.1)

theorem scover1_C_2 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i) (hc2 : cond1_2 i) (x0 x1 x2 : Vec F S1x1024x64 .bf16) (xs0 xs1 : Vec F S1024x1 .f32) (xs2 : Vec F S1024x64 .f32) (y : S1024x64.Idx) :
    ∃ pc ∈ (kernelRun1_C c i arg3 harg3 arg4 harg4 arg5 harg5 arg6 harg6 arg7 harg7 arg8 harg8 arg9 harg9 hc0 hc1 hc2 x0 x1 x2 xs0 xs1 xs2).2.2.2.1, y ∈ pc.1.set :=
  View.cover_of_tiledL (kernelRun1_C c i arg3 harg3 arg4 harg4 arg5 harg5 arg6 harg6 arg7 harg7 arg8 harg8 arg9 harg9 hc0 hc1 hc2 x0 x1 x2 xs0 xs1 xs2).2.2.2.1 S1024x64.size (by sl_kernel_rfl) y

def sout1_C_2 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i) (hc2 : cond1_2 i) (x0 x1 x2 : Vec F S1x1024x64 .bf16) (xs0 xs1 : Vec F S1024x1 .f32) (xs2 : Vec F S1024x64 .f32) : Vec F S1024x64 .f32 :=
  VS1_2.read (Elt F) (VS1_2.writes (Elt F) VS1_2.junk (kernelRun1_C c i arg3 harg3 arg4 harg4 arg5 harg5 arg6 harg6 arg7 harg7 arg8 harg8 arg9 harg9 hc0 hc1 hc2 x0 x1 x2 xs0 xs1 xs2).2.2.2.1)

theorem cover1_C_3 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i) (hc2 : cond1_2 i) (x0 x1 x2 : Vec F S1x1024x64 .bf16) (xs0 xs1 : Vec F S1024x1 .f32) (xs2 : Vec F S1024x64 .f32) (y : S1x1024x64.Idx) :
    ∃ pc ∈ (kernelRun1_C c i arg3 harg3 arg4 harg4 arg5 harg5 arg6 harg6 arg7 harg7 arg8 harg8 arg9 harg9 hc0 hc1 hc2 x0 x1 x2 xs0 xs1 xs2).1, y ∈ pc.1.set :=
  View.cover_of_tiledL (kernelRun1_C c i arg3 harg3 arg4 harg4 arg5 harg5 arg6 harg6 arg7 harg7 arg8 harg8 arg9 harg9 hc0 hc1 hc2 x0 x1 x2 xs0 xs1 xs2).1 S1x1024x64.size (by sl_kernel_rfl) y

def out1_C_3 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i) (hc2 : cond1_2 i) (x0 x1 x2 : Vec F S1x1024x64 .bf16) (xs0 xs1 : Vec F S1024x1 .f32) (xs2 : Vec F S1024x64 .f32) : Vec F S1x1024x64 .f32 :=
  VO1_3.read (Elt F) (VO1_3.writes (Elt F) VO1_3.junk (kernelRun1_C c i arg3 harg3 arg4 harg4 arg5 harg5 arg6 harg6 arg7 harg7 arg8 harg8 arg9 harg9 hc0 hc1 hc2 x0 x1 x2 xs0 xs1 xs2).1)

theorem cover1_E_3 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i) (hc2 : cond1_2 i) (x0 x1 x2 : Vec F S1x1024x64 .bf16) (xs0 xs1 : Vec F S1024x1 .f32) (xs2 : Vec F S1024x64 .f32) (y : S1x1024x64.Idx) :
    ∃ pc ∈ (kernelRun1_E c i arg3 harg3 arg4 harg4 arg5 harg5 arg6 harg6 arg7 harg7 arg8 harg8 arg9 harg9 hc0 hc1 hc2 x0 x1 x2 xs0 xs1 xs2).1, y ∈ pc.1.set :=
  View.cover_of_tiledL (kernelRun1_E c i arg3 harg3 arg4 harg4 arg5 harg5 arg6 harg6 arg7 harg7 arg8 harg8 arg9 harg9 hc0 hc1 hc2 x0 x1 x2 xs0 xs1 xs2).1 S1x1024x64.size (by sl_kernel_rfl) y

def out1_E_3 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i) (hc2 : cond1_2 i) (x0 x1 x2 : Vec F S1x1024x64 .bf16) (xs0 xs1 : Vec F S1024x1 .f32) (xs2 : Vec F S1024x64 .f32) : Vec F S1x1024x64 .f32 :=
  VO1_3.read (Elt F) (VO1_3.writes (Elt F) VO1_3.junk (kernelRun1_E c i arg3 harg3 arg4 harg4 arg5 harg5 arg6 harg6 arg7 harg7 arg8 harg8 arg9 harg9 hc0 hc1 hc2 x0 x1 x2 xs0 xs1 xs2).1)

/-- Where the output window is idle nothing consults its contents: a placeholder. -/
def outIdle1 : Vec F S1x1024x64 .f32 := VO1_3.read (Elt F) VO1_3.junk

section
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What a point leaves, case by case: the output block, then the three scratch buffers -/

abbrev St4 (F : FTy → Type) : Type := Vec F S1x1024x64 .f32 × Vec F S1024x1 .f32 × Vec F S1024x1 .f32 × Vec F S1024x64 .f32

def caseA (c : Dev nD) (t : Fin cfg1.N) (h0 : t.val % 4 = 0) : St4 F :=
  (outIdle1, sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr (by omega)) (fun h => by have := (hcond1_2 t).mp h; omega) (iblk1 V c 0 t) (iblk1 V c 1 t) (iblk1 V c 2 t), sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr (by omega)) (fun h => by have := (hcond1_2 t).mp h; omega) (iblk1 V c 0 t) (iblk1 V c 1 t) (iblk1 V c 2 t), sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr (by omega)) (fun h => by have := (hcond1_2 t).mp h; omega) (iblk1 V c 0 t) (iblk1 V c 1 t) (iblk1 V c 2 t))

def caseB (c : Dev nD) (t : Fin cfg1.N) (h0 : ¬t.val % 4 = 0) (h1 : t.val % 4 ≤ t.val / 4 % 4) (h2 : ¬t.val % 4 = 3) (p0 p1 : Vec F S1024x1 .f32) (p2 : Vec F S1024x64 .f32) : St4 F :=
  (outIdle1, sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (iblk1 V c 0 t) (iblk1 V c 1 t) (iblk1 V c 2 t) p0 p1 p2, sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (iblk1 V c 0 t) (iblk1 V c 1 t) (iblk1 V c 2 t) p0 p1 p2, sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (iblk1 V c 0 t) (iblk1 V c 1 t) (iblk1 V c 2 t) p0 p1 p2)

def caseC (c : Dev nD) (t : Fin cfg1.N) (h0 : ¬t.val % 4 = 0) (h1 : t.val % 4 ≤ t.val / 4 % 4) (h2 : t.val % 4 = 3) (p0 p1 : Vec F S1024x1 .f32) (p2 : Vec F S1024x64 .f32) : St4 F :=
  (out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) p0 p1 p2, sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) p0 p1 p2, sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) p0 p1 p2, sout1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) p0 p1 p2)

def caseD (c : Dev nD) (t : Fin cfg1.N) (h0 : ¬t.val % 4 = 0) (h1 : ¬t.val % 4 ≤ t.val / 4 % 4) (h2 : ¬t.val % 4 = 3) (p0 p1 : Vec F S1024x1 .f32) (p2 : Vec F S1024x64 .f32) : St4 F :=
  (outIdle1, p0, p1, p2)

def caseE (c : Dev nD) (t : Fin cfg1.N) (h0 : ¬t.val % 4 = 0) (h1 : ¬t.val % 4 ≤ t.val / 4 % 4) (h2 : t.val % 4 = 3) (p0 p1 : Vec F S1024x1 .f32) (p2 : Vec F S1024x64 .f32) : St4 F :=
  (out1_E_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) ((hcond1_2 t).mpr h2) (iblk1 V c 0 t) (iblk1 V c 1 t) (iblk1 V c 2 t) p0 p1 p2, p0, p1, p2)

/-- What the output block's buffer and the three scratch buffers hold after the body at position `n`. -/
def outsAt1 (c : Dev nD) : (n : ℕ) → n < cfg1.N → St4 F
  | 0, hn => caseA V c ⟨0, hn⟩ (Nat.zero_mod _)
  | n + 1, hn =>
    if h0 : (n + 1) % 4 = 0 then caseA V c ⟨n + 1, hn⟩ h0
    else if h1 : (n + 1) % 4 ≤ (n + 1) / 4 % 4 then
      if h2 : (n + 1) % 4 = 3 then
        caseC V c ⟨n + 1, hn⟩ h0 h1 h2 (outsAt1 c n (Nat.lt_of_succ_lt hn)).2.1 (outsAt1 c n (Nat.lt_of_succ_lt hn)).2.2.1 (outsAt1 c n (Nat.lt_of_succ_lt hn)).2.2.2
      else
        caseB V c ⟨n + 1, hn⟩ h0 h1 h2 (outsAt1 c n (Nat.lt_of_succ_lt hn)).2.1 (outsAt1 c n (Nat.lt_of_succ_lt hn)).2.2.1 (outsAt1 c n (Nat.lt_of_succ_lt hn)).2.2.2
    else
      if h2 : (n + 1) % 4 = 3 then
        caseE V c ⟨n + 1, hn⟩ h0 h1 h2 (outsAt1 c n (Nat.lt_of_succ_lt hn)).2.1 (outsAt1 c n (Nat.lt_of_succ_lt hn)).2.2.1 (outsAt1 c n (Nat.lt_of_succ_lt hn)).2.2.2
      else
        caseD c ⟨n + 1, hn⟩ h0 h1 h2 (outsAt1 c n (Nat.lt_of_succ_lt hn)).2.1 (outsAt1 c n (Nat.lt_of_succ_lt hn)).2.2.1 (outsAt1 c n (Nat.lt_of_succ_lt hn)).2.2.2

/-- The scratch buffers as the point before `t` left them. -/
abbrev prev1 (c : Dev nD) (t : Fin cfg1.N) : St4 F := outsAt1 V c (t.val - 1) (Nat.lt_of_le_of_lt (Nat.sub_le _ _) t.isLt)

theorem outsAt1_A (c : Dev nD) (t : Fin cfg1.N) (h0 : t.val % 4 = 0) : outsAt1 V c t.val t.isLt = caseA V c t h0 := by
  obtain ⟨n, hn⟩ := t
  cases n with
  | zero => exact rfl
  | succ n => exact (dif_pos h0).trans rfl

theorem outsAt1_B (c : Dev nD) (t : Fin cfg1.N) (h0 : ¬t.val % 4 = 0) (h1 : t.val % 4 ≤ t.val / 4 % 4) (h2 : ¬t.val % 4 = 3) :
    outsAt1 V c t.val t.isLt = caseB V c t h0 h1 h2 (prev1 V c t).2.1 (prev1 V c t).2.2.1 (prev1 V c t).2.2.2 := by
  obtain ⟨n, hn⟩ := t
  cases n with
  | zero => exact absurd (Nat.zero_mod _) h0
  | succ n => exact (dif_neg h0).trans ((dif_pos h1).trans ((dif_neg h2).trans rfl))

theorem outsAt1_C (c : Dev nD) (t : Fin cfg1.N) (h0 : ¬t.val % 4 = 0) (h1 : t.val % 4 ≤ t.val / 4 % 4) (h2 : t.val % 4 = 3) :
    outsAt1 V c t.val t.isLt = caseC V c t h0 h1 h2 (prev1 V c t).2.1 (prev1 V c t).2.2.1 (prev1 V c t).2.2.2 := by
  obtain ⟨n, hn⟩ := t
  cases n with
  | zero => exact absurd (Nat.zero_mod _) h0
  | succ n => exact (dif_neg h0).trans ((dif_pos h1).trans ((dif_pos h2).trans rfl))

theorem outsAt1_D (c : Dev nD) (t : Fin cfg1.N) (h0 : ¬t.val % 4 = 0) (h1 : ¬t.val % 4 ≤ t.val / 4 % 4) (h2 : ¬t.val % 4 = 3) :
    outsAt1 V c t.val t.isLt = caseD c t h0 h1 h2 (prev1 V c t).2.1 (prev1 V c t).2.2.1 (prev1 V c t).2.2.2 := by
  obtain ⟨n, hn⟩ := t
  cases n with
  | zero => exact absurd (Nat.zero_mod _) h0
  | succ n => exact (dif_neg h0).trans ((dif_neg h1).trans ((dif_neg h2).trans rfl))

theorem outsAt1_E (c : Dev nD) (t : Fin cfg1.N) (h0 : ¬t.val % 4 = 0) (h1 : ¬t.val % 4 ≤ t.val / 4 % 4) (h2 : t.val % 4 = 3) :
    outsAt1 V c t.val t.isLt = caseE V c t h0 h1 h2 (prev1 V c t).2.1 (prev1 V c t).2.2.1 (prev1 V c t).2.2.2 := by
  obtain ⟨n, hn⟩ := t
  cases n with
  | zero => exact absurd (Nat.zero_mod _) h0
  | succ n => exact (dif_neg h0).trans ((dif_neg h1).trans ((dif_pos h2).trans rfl))

/-! ## The region invariant -/

/-- Before the first point the class invariant (every scratch buffer at anything); afterwards the other scoped buffers,
    the three scratch buffers at what the point before left, and the generator register at some state. -/
def PhiS1 (c : Dev nD) : (n : ℕ) → n ≤ cfg1.N → sProp 𝕄
  | 0, _ => Pipeline.ΦA spec1 c
  | n + 1, hn => iprop(others1 c ∗ owns (c : Thread nD τ) scM1_0 fullShare (outsAt1 V c n hn).2.1 ∗ owns (c : Thread nD τ) scM1_1 fullShare (outsAt1 V c n hn).2.2.1
      ∗ owns (c : Thread nD τ) scM1_2 fullShare (outsAt1 V c n hn).2.2.2 ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(others1 c ∗ owns (c : Thread nD τ) scM1_0 fullShare (outsAt1 V c n hn).2.1 ∗ owns (c : Thread nD τ) scM1_1 fullShare (outsAt1 V c n hn).2.2.1
      ∗ owns (c : Thread nD τ) scM1_2 fullShare (outsAt1 V c n hn).2.2.2 ∗ (∃ r, prngReg c r)) := rfl

theorem PhiS1_pos (c : Dev nD) (n : ℕ) (h : n ≤ cfg1.N) (hz : n ≠ 0) :
    PhiS1 V c n h = iprop(others1 c ∗ owns (c : Thread nD τ) scM1_0 fullShare (outsAt1 V c (n - 1) (by omega)).2.1 ∗ owns (c : Thread nD τ) scM1_1 fullShare (outsAt1 V c (n - 1) (by omega)).2.2.1
      ∗ owns (c : Thread nD τ) scM1_2 fullShare (outsAt1 V c (n - 1) (by omega)).2.2.2 ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

set_option maxHeartbeats 8000000 in
/-- The body at any point: the closed forms of the three conditions say which case the point is in; that case's run
    applies to the input blocks and to the scratch buffers as the invariant holds them. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 4 = 0
  · have hc0 : cond1_0 (grid1.coords t) := (hcond1_0 t).mpr h0
    have hc1 : cond1_1 (grid1.coords t) := (hcond1_1 t).mpr (by omega)
    have hc2 : ¬cond1_2 (grid1.coords t) := fun h => by have := (hcond1_2 t).mp h; omega
    rw [Dat.leavesExact_idle (dat1 V c) 3 t (idleAt1_3 t hc2) (noFlush1_3 t hc2)]
    rw [outsAt1_A V c t h0]
    unfold caseA sout1_A_0 sout1_A_1 sout1_A_2; (try dsimp only)
    by_cases hz : t.val = 0
    · rw [PhiS1_castSucc V c t, PhiS1_zero V c _ _ hz]
      iintro ⟨HΦ, Ho, ⟨%d0, H0⟩, ⟨%d1, H1⟩, ⟨%d2, H2⟩, ⟨%d3, H3⟩⟩
      ihave HΦ' := (PhiA1_split (F := F) c) $$ HΦ
      icases HΦ' with ⟨Hoth, HS0, HS1, HS2, Hg⟩
      iapply ((kernelRun1_A c (grid1.coords t) _ _ _ _ _ _ _ _ _ _ _ _ _ _ hc0 hc1 hc2 (iblk1 V c 0 t) (iblk1 V c 1 t) (iblk1 V c 2 t)).2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [Hoth HS0 HS1 HS2 Hg]
      · isplitl [Hoth]; · iexact Hoth
        isplitl [HS0]
        · unfold owns; iexists _; isplitr
          swap; · iexact HS0
          ipureintro; exact View.read_writes_of_cover _ _ _ _ _ (scover1_A_0 c _ _ _ _ _ _ _ _ _ _ _ _ _ _ _ _ _ _ _ _ _)
        isplitl [HS1]
        · unfold owns; iexists _; isplitr
          swap; · iexact HS1
          ipureintro; exact View.read_writes_of_cover _ _ _ _ _ (scover1_A_1 c _ _ _ _ _ _ _ _ _ _ _ _ _ _ _ _ _ _ _ _ _)
        isplitl [HS2]
        · unfold owns; iexists _; isplitr
          swap; · iexact HS2
          ipureintro; exact View.read_writes_of_cover _ _ _ _ _ (scover1_A_2 c _ _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨Hoth, HS0, HS1, HS2, Hg⟩, Ho, ⟨%d0, H0⟩, ⟨%d1, H1⟩, ⟨%d2, H2⟩, ⟨%d3, H3⟩⟩
      iapply ((kernelRun1_A c (grid1.coords t) _ _ _ _ _ _ _ _ _ _ _ _ _ _ hc0 hc1 hc2 (iblk1 V c 0 t) (iblk1 V c 1 t) (iblk1 V c 2 t)).2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%es0, HS0⟩, ⟨%es1, HS1⟩, ⟨%es2, HS2⟩⟩
      isplitl [Hoth HS0 HS1 HS2 Hg]
      · isplitl [Hoth]; · iexact Hoth
        isplitl [HS0]
        · unfold owns; iexists _; isplitr
          swap; · iexact HS0
          ipureintro; exact View.read_writes_of_cover _ _ _ _ _ (scover1_A_0 c _ _ _ _ _ _ _ _ _ _ _ _ _ _ _ _ _ _ _ _ _)
        isplitl [HS1]
        · unfold owns; iexists _; isplitr
          swap; · iexact HS1
          ipureintro; exact View.read_writes_of_cover _ _ _ _ _ (scover1_A_1 c _ _ _ _ _ _ _ _ _ _ _ _ _ _ _ _ _ _ _ _ _)
        isplitl [HS2]
        · unfold owns; iexists _; isplitr
          swap; · iexact HS2
          ipureintro; exact View.read_writes_of_cover _ _ _ _ _ (scover1_A_2 c _ _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · by_cases h1 : t.val % 4 ≤ t.val / 4 % 4
    · by_cases h2 : t.val % 4 = 3
      · have hc0 : ¬cond1_0 (grid1.coords t) := fun h => h0 ((hcond1_0 t).mp h)
        have hc1 : cond1_1 (grid1.coords t) := (hcond1_1 t).mpr h1
        have hc2 : cond1_2 (grid1.coords t) := (hcond1_2 t).mpr h2
        rw [show (dat1 V c).leavesExact 3 t = owns (c : Thread nD τ) (ms1_3 t) fullShare ((dat1 V c).after 3 t) from by
          unfold Dat.leavesExact; rw [liveAt1_3 t hc2], after1_3]
        rw [outsAt1_C V c t h0 h1 h2]
        unfold caseC sout1_C_0 sout1_C_1 sout1_C_2 out1_C_3; (try dsimp only)
        by_cases hz : t.val = 0
        · exfalso; omega
        · rw [PhiS1_castSucc V c t, PhiS1_pos V c _ _ hz]
          iintro ⟨⟨Hoth, HS0, HS1, HS2, Hg⟩, Ho, ⟨%d0, H0⟩, ⟨%d1, H1⟩, ⟨%d2, H2⟩, ⟨%d3, H3⟩⟩
          iapply ((kernelRun1_C c (grid1.coords t) _ _ _ _ _ _ _ _ _ _ _ _ _ _ hc0 hc1 hc2 (iblk1 V c 0 t) (iblk1 V c 1 t) (iblk1 V c 2 t) _ _ _).2.2.2.2 Set.univ _)
          isplitl [H0]; · iexact H0
          isplitl [H1]; · iexact H1
          isplitl [H2]; · iexact H2
          isplitl [H3]; · iexists _; iexact H3
          isplitl [HS0]; · iexact HS0
          isplitl [HS1]; · iexact HS1
          isplitl [HS2]; · iexact HS2
          iintro ⟨H0, H1, H2, ⟨%e3, H3⟩, ⟨%es0, HS0⟩, ⟨%es1, HS1⟩, ⟨%es2, HS2⟩⟩
          isplitl [Hoth HS0 HS1 HS2 Hg]
          · isplitl [Hoth]; · iexact Hoth
            isplitl [HS0]
            · unfold owns; iexists _; isplitr
              swap; · iexact HS0
              ipureintro; exact View.read_writes_of_cover _ _ _ _ _ (scover1_C_0 c _ _ _ _ _ _ _ _ _ _ _ _ _ _ _ _ _ _ _ _ _ _ _ _)
            isplitl [HS1]
            · unfold owns; iexists _; isplitr
              swap; · iexact HS1
              ipureintro; exact View.read_writes_of_cover _ _ _ _ _ (scover1_C_1 c _ _ _ _ _ _ _ _ _ _ _ _ _ _ _ _ _ _ _ _ _ _ _ _)
            isplitl [HS2]
            · unfold owns; iexists _; isplitr
              swap; · iexact HS2
              ipureintro; exact View.read_writes_of_cover _ _ _ _ _ (scover1_C_2 c _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          unfold owns; iexists _; isplitr
          swap; · iexact H3
          ipureintro; exact View.read_writes_of_cover _ _ _ _ _ (cover1_C_3 c _ _ _ _ _ _ _ _ _ _ _ _ _ _ _ _ _ _ _ _ _ _ _ _)
      · have hc0 : ¬cond1_0 (grid1.coords t) := fun h => h0 ((hcond1_0 t).mp h)
        have hc1 : cond1_1 (grid1.coords t) := (hcond1_1 t).mpr h1
        have hc2 : ¬cond1_2 (grid1.coords t) := fun h => h2 ((hcond1_2 t).mp h)
        rw [Dat.leavesExact_idle (dat1 V c) 3 t (idleAt1_3 t hc2) (noFlush1_3 t hc2)]
        rw [outsAt1_B V c t h0 h1 h2]
        unfold caseB sout1_B_0 sout1_B_1 sout1_B_2; (try dsimp only)
        by_cases hz : t.val = 0
        · exfalso; omega
        · rw [PhiS1_castSucc V c t, PhiS1_pos V c _ _ hz]
          iintro ⟨⟨Hoth, HS0, HS1, HS2, Hg⟩, Ho, ⟨%d0, H0⟩, ⟨%d1, H1⟩, ⟨%d2, H2⟩, ⟨%d3, H3⟩⟩
          iapply ((kernelRun1_B c (grid1.coords t) _ _ _ _ _ _ _ _ _ _ _ _ _ _ hc0 hc1 hc2 (iblk1 V c 0 t) (iblk1 V c 1 t) (iblk1 V c 2 t) _ _ _).2.2.2 _ Set.univ _)
          isplitl [H0]; · iexact H0
          isplitl [H1]; · iexact H1
          isplitl [H2]; · iexact H2
          isplitl [H3]; · iexact H3
          isplitl [HS0]; · iexact HS0
          isplitl [HS1]; · iexact HS1
          isplitl [HS2]; · iexact HS2
          iintro ⟨H0, H1, H2, H3, ⟨%es0, HS0⟩, ⟨%es1, HS1⟩, ⟨%es2, HS2⟩⟩
          isplitl [Hoth HS0 HS1 HS2 Hg]
          · isplitl [Hoth]; · iexact Hoth
            isplitl [HS0]
            · unfold owns; iexists _; isplitr
              swap; · iexact HS0
              ipureintro; exact View.read_writes_of_cover _ _ _ _ _ (scover1_B_0 c _ _ _ _ _ _ _ _ _ _ _ _ _ _ _ _ _ _ _ _ _ _ _ _)
            isplitl [HS1]
            · unfold owns; iexists _; isplitr
              swap; · iexact HS1
              ipureintro; exact View.read_writes_of_cover _ _ _ _ _ (scover1_B_1 c _ _ _ _ _ _ _ _ _ _ _ _ _ _ _ _ _ _ _ _ _ _ _ _)
            isplitl [HS2]
            · unfold owns; iexists _; isplitr
              swap; · iexact HS2
              ipureintro; exact View.read_writes_of_cover _ _ _ _ _ (scover1_B_2 c _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          iexists _; iexact H3
    · by_cases h2 : t.val % 4 = 3
      · have hc0 : ¬cond1_0 (grid1.coords t) := fun h => h0 ((hcond1_0 t).mp h)
        have hc1 : ¬cond1_1 (grid1.coords t) := fun h => h1 ((hcond1_1 t).mp h)
        have hc2 : cond1_2 (grid1.coords t) := (hcond1_2 t).mpr h2
        rw [show (dat1 V c).leavesExact 3 t = owns (c : Thread nD τ) (ms1_3 t) fullShare ((dat1 V c).after 3 t) from by
          unfold Dat.leavesExact; rw [liveAt1_3 t hc2], after1_3]
        rw [outsAt1_E V c t h0 h1 h2]
        unfold caseE out1_E_3; (try dsimp only)
        by_cases hz : t.val = 0
        · exfalso; omega
        · rw [PhiS1_castSucc V c t, PhiS1_pos V c _ _ hz]
          iintro ⟨⟨Hoth, HS0, HS1, HS2, Hg⟩, Ho, ⟨%d0, H0⟩, ⟨%d1, H1⟩, ⟨%d2, H2⟩, ⟨%d3, H3⟩⟩
          iapply ((kernelRun1_E c (grid1.coords t) _ _ _ _ _ _ _ _ _ _ _ _ _ _ hc0 hc1 hc2 (iblk1 V c 0 t) (iblk1 V c 1 t) (iblk1 V c 2 t) _ _ _).2 Set.univ _)
          isplitl [H0]; · iexact H0
          isplitl [H1]; · iexact H1
          isplitl [H2]; · iexact H2
          isplitl [H3]; · iexists _; iexact H3
          isplitl [HS0]; · iexact HS0
          isplitl [HS1]; · iexact HS1
          isplitl [HS2]; · iexact HS2
          iintro ⟨H0, H1, H2, ⟨%e3, H3⟩, HS0, HS1, HS2⟩
          isplitl [Hoth HS0 HS1 HS2 Hg]
          · isplitl [Hoth]; · iexact Hoth
            isplitl [HS0]; · iexact HS0
            isplitl [HS1]; · iexact HS1
            isplitl [HS2]; · iexact HS2
            iexact Hg
          isplitl [Ho]; · iexact Ho
          isplitl [H0]; · iexact H0
          isplitl [H1]; · iexact H1
          isplitl [H2]; · iexact H2
          unfold owns; iexists _; isplitr
          swap; · iexact H3
          ipureintro; exact View.read_writes_of_cover _ _ _ _ _ (cover1_E_3 c _ _ _ _ _ _ _ _ _ _ _ _ _ _ _ _ _ _ _ _ _ _ _ _)
      · have hc0 : ¬cond1_0 (grid1.coords t) := fun h => h0 ((hcond1_0 t).mp h)
        have hc1 : ¬cond1_1 (grid1.coords t) := fun h => h1 ((hcond1_1 t).mp h)
        have hc2 : ¬cond1_2 (grid1.coords t) := fun h => h2 ((hcond1_2 t).mp h)
        rw [Dat.leavesExact_idle (dat1 V c) 3 t (idleAt1_3 t hc2) (noFlush1_3 t hc2)]
        rw [outsAt1_D V c t h0 h1 h2]
        unfold caseD; (try dsimp only)
        by_cases hz : t.val = 0
        · exfalso; omega
        · rw [PhiS1_castSucc V c t, PhiS1_pos V c _ _ hz]
          iintro ⟨⟨Hoth, HS0, HS1, HS2, Hg⟩, Ho, ⟨%d0, H0⟩, ⟨%d1, H1⟩, ⟨%d2, H2⟩, ⟨%d3, H3⟩⟩
          iapply (kernelRun1_D c (grid1.coords t) _ _ _ _ _ _ _ _ _ _ _ _ _ _ hc0 hc1 hc2 (iblk1 V c 0 t) (iblk1 V c 1 t) (iblk1 V c 2 t) _ _ _ _ Set.univ _)
          isplitl [H0]; · iexact H0
          isplitl [H1]; · iexact H1
          isplitl [H2]; · iexact H2
          isplitl [H3]; · iexact H3
          isplitl [HS0]; · iexact HS0
          isplitl [HS1]; · iexact HS1
          isplitl [HS2]; · iexact HS2
          iintro ⟨H0, H1, H2, H3, HS0, HS1, HS2⟩
          isplitl [Hoth HS0 HS1 HS2 Hg]
          · isplitl [Hoth]; · iexact Hoth
            isplitl [HS0]; · iexact HS0
            isplitl [HS1]; · iexact HS1
            isplitl [HS2]; · iexact HS2
            iexact Hg
          isplitl [Ho]; · iexact Ho
          isplitl [H0]; · iexact H0
          isplitl [H1]; · iexact H1
          isplitl [H2]; · iexact H2
          iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class invariant back: what the scratch buffers hold is forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega)]
  refine .trans ?_ (PhiA1_join (F := F) c)
  iintro ⟨Hoth, HS0, HS1, HS2, Hg⟩
  isplitl [Hoth]; · iexact Hoth
  isplitl [HS0]; · iexists _; iexact HS0
  isplitl [HS1]; · iexists _; iexact HS1
  isplitl [HS2]; · iexists _; iexact HS2
  iexact Hg

end

end Cert.Kernel.Hand

end
-- ==== Proof.K.Main.lean ====
/-
  The run of the whole program: two kernel regions in sequence, no host operation between them. The contents of the
  TensorCore's unscoped buffers at the three boundaries are a fold from the launch memory: after a region its arrays
  hold what its pipeline's write-backs leave (an input array what it held, an output array the blocks written back)
  and every other buffer what it held. Each region is a segment over the thread state "every unscoped buffer at the
  boundary's contents, the generator register at some state, nothing owed"; the launch runs the two segments, and the
  last thread state is read against the final memory at every unscoped buffer — the six arguments, which no region
  changes, and the result array.
-/
import proofs.«154889_j71219147702646_2_alg».proof.Proof.K.Region0
import proofs.«154889_j71219147702646_2_alg».proof.Proof.K.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at the boundaries -/

/-- At launch. -/
abbrev W0 : Dev nD → Valuation τ sig (Elt F) := fun c b => (s₀ m ρ).mem ((c : Dev nD), b)
abbrev V0' : (c : Dev nD) → (b : Ref sig .tc) → Buf (Elt F) ((c : Thread nD τ).loc b) := fun c b => W0 m ρ c b
/-- After the projection region. -/
def W1 (c : Dev nD) : Valuation τ sig (Elt F) :=
  Pipeline.withArrays spec0 c (W0 m ρ c) fun w => (dat0 (V0' m ρ) c).arrAt w cfg0.N
theorem W1_arr (c : Dev nD) (w : Fin cfg0.W) :
    W1 m ρ c (Proc.devRef .tc (Pipeline.arrRef spec0 w)) = (dat0 (V0' m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1' : (c : Dev nD) → (b : Ref sig .tc) → Buf (Elt F) ((c : Thread nD τ).loc b) := fun c b => W1 m ρ c b
theorem hF0 (c : Dev nD) (w : Fin cfg0.W) : (dat0 (V0' m ρ) c).arrAt w cfg0.N = V1' m ρ c (Pipeline.arrRef spec0 w) :=
  (W1_arr m ρ c w).symm
theorem hrest0 (c : Dev nD) : ∀ b, b ∉ Finset.univ.image (Pipeline.arrRef spec0) → V1' m ρ c b = V0' m ρ c b :=
  fun b hb => W1_of_ne m ρ c b fun w e => hb (Finset.mem_image.mpr ⟨w, Finset.mem_univ _, e⟩)

/-- After the attention region. -/
def W2 (c : Dev nD) : Valuation τ sig (Elt F) :=
  Pipeline.withArrays spec1 c (W1 m ρ c) fun w => (dat1 (V1' m ρ) c).arrAt w cfg1.N
theorem W2_arr (c : Dev nD) (w : Fin cfg1.W) :
    W2 m ρ c (Proc.devRef .tc (Pipeline.arrRef spec1 w)) = (dat1 (V1' m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2' : (c : Dev nD) → (b : Ref sig .tc) → Buf (Elt F) ((c : Thread nD τ).loc b) := fun c b => W2 m ρ c b
theorem hF1 (c : Dev nD) (w : Fin cfg1.W) : (dat1 (V1' m ρ) c).arrAt w cfg1.N = V2' m ρ c (Pipeline.arrRef spec1 w) :=
  (W2_arr m ρ c w).symm
theorem hrest1 (c : Dev nD) : ∀ b, b ∉ Finset.univ.image (Pipeline.arrRef spec1) → V2' m ρ c b = V1' m ρ c b :=
  fun b hb => W2_of_ne m ρ c b fun w e => hb (Finset.mem_image.mpr ⟨w, Finset.mem_univ _, e⟩)

/-! ### No region changes an argument -/

theorem W2_main_arg0 (c : Dev nD) : W2 m ρ c (Proc.devRef .tc main_arg0) = m ((c : Thread nD τ).loc main_arg0) :=
  calc W2 m ρ c (Proc.devRef .tc main_arg0)
    _ = W1 m ρ c (Proc.devRef .tc main_arg0) := W2_of_ne m ρ c main_arg0 (by decide)
    _ = W0 m ρ c (Proc.devRef .tc main_arg0) := (W1_arr m ρ c 0).trans (((dat0 (V0' m ρ) c).arrAt_in 0 rfl _).trans (A_eq0 (V0' m ρ) c 0))
    _ = m ((c : Thread nD τ).loc main_arg0) := rfl
theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := (W1_arr m ρ c 1).trans (((dat0 (V0' m ρ) c).arrAt_in 1 rfl _).trans (A_eq0 (V0' m ρ) c 1))
    _ = m ((c : Thread nD τ).loc main_arg1) := rfl
theorem W2_main_arg2 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := (W1_arr m ρ c 2).trans (((dat0 (V0' m ρ) c).arrAt_in 2 rfl _).trans (A_eq0 (V0' m ρ) c 2))
    _ = m ((c : Thread nD τ).loc main_arg2) := rfl
theorem W2_main_arg3 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := (W1_arr m ρ c 3).trans (((dat0 (V0' m ρ) c).arrAt_in 3 rfl _).trans (A_eq0 (V0' m ρ) c 3))
    _ = m ((c : Thread nD τ).loc main_arg3) := rfl
theorem W2_main_arg4 (c : Dev nD) : W2 m ρ c (Proc.devRef .tc main_arg4) = m ((c : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) := (W1_arr m ρ c 4).trans (((dat0 (V0' m ρ) c).arrAt_in 4 rfl _).trans (A_eq0 (V0' m ρ) c 4))
    _ = m ((c : Thread nD τ).loc main_arg4) := rfl
theorem W2_main_arg5 (c : Dev nD) : W2 m ρ c (Proc.devRef .tc main_arg5) = m ((c : Thread nD τ).loc main_arg5) :=
  calc W2 m ρ c (Proc.devRef .tc main_arg5)
    _ = W1 m ρ c (Proc.devRef .tc main_arg5) := W2_of_ne m ρ c main_arg5 (by decide)
    _ = W0 m ρ c (Proc.devRef .tc main_arg5) := (W1_arr m ρ c 5).trans (((dat0 (V0' m ρ) c).arrAt_in 5 rfl _).trans (A_eq0 (V0' m ρ) c 5))
    _ = m ((c : Thread nD τ).loc main_arg5) := rfl

/-- The result array ends at what the attention region's write-backs leave. -/
theorem W2_main_v1 (c : Dev nD) : W2 m ρ c (Proc.devRef .tc main_v1) = (dat1 (V1' m ρ) c).arrAt 3 cfg1.N := W2_arr m ρ c 3

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V0' m ρ) c
  | ⟨1, _⟩ => fun c => dat1 (V1' m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m ρ c) ∗ ∃ r, prngReg c r)

/-! ## The regions as segments -/

set_option backward.isDefEq.respectTransparency.types false in
/-- Region 0 over the thread state: entered from every unscoped buffer at the contents before it, left with its arrays
    at what the pipeline's write-backs leave and every other buffer as entered; the generator register goes into the
    region invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0' m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0' m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0' m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]
    unfold Pipeline.ΦA
    iintro ⟨Hp, -, Hr⟩
    isplitl [Hr]; · iexact Hr
    iexact Hp
  hout c := by
    rw [show (pdats m ρ 0 c).Φ (Fin.last _) = Pipeline.ΦA spec0 c from rfl]
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0' m ρ c) (V1' m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left with its arrays
    at what the pipeline's write-backs leave and every other buffer as entered; the generator register goes into the
    region invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1' m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1' m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1' m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (V1' m ρ) c)
    unfold Pipeline.ΦA
    iintro ⟨Hp, -, Hr⟩
    isplitl [Hr]; · iexact Hr
    iexact Hp
  hout c := by
    refine (hout1 (V1' m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1' m ρ c) (V2' m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The launch -/

abbrev segs : List (Pipeline.Seg (pcfgs (F := F)) adm (pdats m ρ) () defs₀ 𝒱₀ L lv) :=
  [ .region (reg0 m ρ), .region (reg1 m ρ) ]
theorem main_run (c : Dev nD) : main (F := F) c = Pipeline.Seg.run (segs m ρ) := (main_chain c).trans (by chain_rfl)

set_option backward.isDefEq.respectTransparency.types false in
/-- Every weakly fair execution of the program terminates, nothing faulting, and the final memory holds every unscoped
    buffer of every core at the contents after the second region. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W2 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c => h c)

/-- The frame: the six argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W2_main_arg0 m ρ c), (h c _ (mem_uc main_arg1 (by decide))).trans (W2_main_arg1 m ρ c),
     (h c _ (mem_uc main_arg2 (by decide))).trans (W2_main_arg2 m ρ c), (h c _ (mem_uc main_arg3 (by decide))).trans (W2_main_arg3 m ρ c),
     (h c _ (mem_uc main_arg4 (by decide))).trans (W2_main_arg4 m ρ c), (h c _ (mem_uc main_arg5 (by decide))).trans (W2_main_arg5 m ρ c)⟩)
    (run_all m ρ)

/-- The same run with the result array named: what the attention region's write-backs leave. -/
theorem run_value : θ_run defs (onTc (τ := τ) (main (F := F))) ⟨m, fun _ => 0, ρ⟩ (fun r => ∀ c : Dev nD,
      r.2.mem ((c.tc : Thread nD τ).loc main_v1) = (dat1 (V1' m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_v1 (by decide))).trans (W2_main_v1 m ρ c),
     (h c _ (mem_uc main_arg0 (by decide))).trans (W2_main_arg0 m ρ c), (h c _ (mem_uc main_arg1 (by decide))).trans (W2_main_arg1 m ρ c),
     (h c _ (mem_uc main_arg2 (by decide))).trans (W2_main_arg2 m ρ c), (h c _ (mem_uc main_arg3 (by decide))).trans (W2_main_arg3 m ρ c),
     (h c _ (mem_uc main_arg4 (by decide))).trans (W2_main_arg4 m ρ c), (h c _ (mem_uc main_arg5 (by decide))).trans (W2_main_arg5 m ρ c)⟩)
    (run_all m ρ)

end Cert.Kernel.Hand

end
-- ==== Proof.KI.Region0.lean ====
import proofs.«154889_j71219147702646_2_alg».proof.Proof.Gen.KernelIdeal.Launch
import proofs.«154889_j71219147702646_2_alg».proof.Proof.Gen.KernelIdeal.Skeleton
import proofs.«154889_j71219147702646_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-!
# The first pallas call (the three projections), at any float instance

The first call of the program walks a 4 × 4 grid. At each point it is handed one 1024 × 1024 block of each of
the three activations, the three whole 1024 × 64 weight matrices, and one 1024 × 64 block of each of the
three results. Its body computes, for each of the three pairs, the bf16 rounding of the product of the
bf16-rounded activation block with the bf16-rounded weight matrix, and stores it over the whole result block.

This module states what one run of the body does to the nine staging buffers (the inputs are left as they
were, each result buffer ends at its product, whatever it held before), packages it as the pipeline's proof
data, and discharges the pipeline's body obligation at a generic grid point.
-/

-- membership in a rectangle of these extents recurses once per coordinate of the long axes
set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section
-- the core's buffer contents when the call is entered
variable (V : (c : Dev nD) → (b : Ref sig .tc) → Buf (Elt F) ((c : Thread nD τ).loc b))

/-! ## The windows' blocks -/

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether or not the pipeline fetched it
    there (an unfetched input's block index has not moved), for any proof data whose array is `V`'s and whose body
    leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, whether or not the pipeline fetched it
    there (an unfetched input's block index has not moved), for any proof data whose array is `V`'s and whose body
    leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, whether or not the pipeline fetched it
    there (an unfetched input's block index has not moved), for any proof data whose array is `V`'s and whose body
    leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, whether or not the pipeline fetched it
    there (an unfetched input's block index has not moved), for any proof data whose array is `V`'s and whose body
    leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, whether or not the pipeline fetched it
    there (an unfetched input's block index has not moved), for any proof data whose array is `V`'s and whose body
    leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, whether or not the pipeline fetched it
    there (an unfetched input's block index has not moved), for any proof data whose array is `V`'s and whose body
    leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and every store is of a whole buffer -/

abbrev rect0_X : Rect S1x1024x1024 := Rect.unit (s := S1x1024x1024) ![0, 0, 0] S1x1024x1024.size inb_S1x1024x1024_S1x1024x1024_0_0_0
abbrev rect0_W : Rect S1024x64 := Rect.unit (s := S1024x64) ![0, 0] S1024x64.size inb_S1024x64_S1024x64_0_0
abbrev rect0_O : Rect S1x1024x64 := Rect.unit (s := S1x1024x64) ![0, 0, 0] S1x1024x64.size inb_S1x1024x64_S1x1024x64_0_0_0

/-! ## What the body leaves in each result buffer -/

/-- The first result's buffer after the body: one store of the whole block, of the first pair's product. -/
def out0_6 (x0 : Vec F S1x1024x1024 .f32) (x3 : Vec F S1024x64 .f32) : Vec F S1x1024x64 .bf16 :=
  View.canon [⟨rect0_O, k0_pay2 (View.ld x0 rect0_X) (View.ld x3 rect0_W)⟩]

/-- The second result's buffer after the body: one store of the whole block, of the second pair's product. -/
def out0_7 (x1 : Vec F S1x1024x1024 .f32) (x4 : Vec F S1024x64 .f32) : Vec F S1x1024x64 .bf16 :=
  View.canon [⟨rect0_O, k0_pay3 (View.ld x1 rect0_X) (View.ld x4 rect0_W)⟩]

/-- The third result's buffer after the body: one store of the whole block, of the third pair's product
    (computed as a 1024 × 64 value and reshaped to the block's shape at the store). -/
def out0_8 (x2 : Vec F S1x1024x1024 .f32) (x5 : Vec F S1024x64 .f32) : Vec F S1x1024x64 .bf16 :=
  View.canon [⟨rect0_O, k0_pay1 (k0_pay4 (View.ld x2 rect0_X) (View.ld x5 rect0_W))⟩]

/-- One store of the whole block covers the block. -/
theorem cover0_6 (p0 : Vec F S1x1024x64 .bf16) (y : S1x1024x64.Idx) :
    ∃ pc ∈ ([⟨rect0_O, p0⟩] : List (View.Piece (Elt F) S1x1024x64 .bf16)), y ∈ pc.1.set :=
  View.cover_of_tiled [⟨rect0_O, p0⟩] S1x1024x64.size (by rfl) y
theorem cover0_7 (p0 : Vec F S1x1024x64 .bf16) (y : S1x1024x64.Idx) :
    ∃ pc ∈ ([⟨rect0_O, p0⟩] : List (View.Piece (Elt F) S1x1024x64 .bf16)), y ∈ pc.1.set :=
  View.cover_of_tiled [⟨rect0_O, p0⟩] S1x1024x64.size (by rfl) y
theorem cover0_8 (p0 : Vec F S1x1024x64 .bf16) (y : S1x1024x64.Idx) :
    ∃ pc ∈ ([⟨rect0_O, p0⟩] : List (View.Piece (Elt F) S1x1024x64 .bf16)), y ∈ pc.1.set :=
  View.cover_of_tiled [⟨rect0_O, p0⟩] S1x1024x64.size (by rfl) y

/-! ## The body's triple -/

set_option maxHeartbeats 1000000 in
/-- The body on whole staging buffers — the six inputs' at contents `x0 … x5`, the three results' at anything — runs
    to a continuation that is handed the inputs' as they were and each result's at its product. The body also reads
    each result buffer once before overwriting it; what it reads is not used. -/
theorem sound_kernel0 (c : Dev nD) (E : Set ℕ) (i : grid0.Coords) (arg2 : Memref sig .tc .vmem S1x1024x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x64 .f32) (harg7 : arg7.IsWhole) (arg8 : Memref sig .tc .vmem S1x1024x64 .bf16) (harg8 : arg8.IsWhole) (arg9 : Memref sig .tc .vmem S1x1024x64 .bf16) (harg9 : arg9.IsWhole) (arg10 : Memref sig .tc .vmem S1x1024x64 .bf16) (harg10 : arg10.IsWhole)
    (x0 x1 x2 : Vec F S1x1024x1024 .f32) (x3 x4 x5 : Vec F S1024x64 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare (out0_6 x0 x3) ∗ owns (c : Thread nD τ) arg9 fullShare (out0_7 x1 x4) ∗ owns (c : Thread nD τ) arg10 fullShare (out0_8 x2 x5)) -∗ K ⟨⟩))
      ⊢ wp frame (wpE (defs₀ (F := F)) Variants.none c none) E (cc0_kernel i arg2 harg2 arg3 harg3 arg4 harg4 arg5 harg5 arg6 harg6 arg7 harg7 arg8 harg8 arg9 harg9 arg10 harg10) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover0_6 _)
  isplitl [H7]
  · iexists _; isplitr
    swap; · iexact H7
    ipureintro
    exact View.read_writes_eq_canon _ _ _ (cover0_7 _)
  iexists _; isplitr
  swap; · iexact H8
  ipureintro
  exact View.read_writes_eq_canon _ _ _ (cover0_8 _)

/-! ## The pipeline's proof data -/

/-- The proof data of the call on core `c`: the arrays as the call finds them; after the body at point `t` each
    input's buffer at its block and each result's at its product of the input blocks; the invariant that the rest
    of the core's state is untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 3 t)
    | ⟨7, _⟩ => out0_7 (iblk0 V c 1 t) (iblk0 V c 4 t)
    | ⟨8, _⟩ => out0_8 (iblk0 V c 2 t) (iblk0 V c 5 t)
  Φ _ := Pipeline.ΦA spec0 c
  q _ := fullShare
  owed _ := 0

/-- The proof data's arrays are the contents at entry. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 3 t) := by dsimp only [dat0]
theorem after0_7 (c : Dev nD) (t : Fin cfg0.N) : (dat0 V c).after 7 t = out0_7 (iblk0 V c 1 t) (iblk0 V c 4 t) := by dsimp only [dat0]
theorem after0_8 (c : Dev nD) (t : Fin cfg0.N) : (dat0 V c).after 8 t = out0_8 (iblk0 V c 2 t) (iblk0 V c 5 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t))

/-- The body at any point: the inputs' buffers hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel0 c Set.univ (grid0.coords t) _ _ _ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

/-! ## The result buffers as plain products

Every load and store of the body is of a whole buffer at offset zero, so a loaded value is the buffer and the
one store's contents are the buffer afterwards. -/

theorem offs0_3 : (![0, 0, 0] : Fin 3 → Nat) = fun _ => 0 := funext fun a => by fin_cases a <;> rfl
theorem offs0_2 : (![0, 0] : Fin 2 → Nat) = fun _ => 0 := funext fun a => by fin_cases a <;> rfl

/-- The first result's buffer after the body is the first pair's product. -/
theorem out0_6_eq (x0 : Vec F S1x1024x1024 .f32) (x3 : Vec F S1024x64 .f32) : out0_6 x0 x3 = k0_pay2 x0 x3 := by
  unfold out0_6
  rw [View.canon_unit_zero offs0_3]
  simp only [View.ld_unit_zero (S := S1x1024x1024) offs0_3, View.ld_unit_zero (S := S1024x64) offs0_2]

/-- The second result's buffer after the body is the second pair's product. -/
theorem out0_7_eq (x1 : Vec F S1x1024x1024 .f32) (x4 : Vec F S1024x64 .f32) : out0_7 x1 x4 = k0_pay3 x1 x4 := by
  unfold out0_7
  rw [View.canon_unit_zero offs0_3]
  simp only [View.ld_unit_zero (S := S1x1024x1024) offs0_3, View.ld_unit_zero (S := S1024x64) offs0_2]

/-- The third result's buffer after the body is the third pair's product, reshaped to the block's shape. -/
theorem out0_8_eq (x2 : Vec F S1x1024x1024 .f32) (x5 : Vec F S1024x64 .f32) : out0_8 x2 x5 = k0_pay1 (k0_pay4 x2 x5) := by
  unfold out0_8
  rw [View.canon_unit_zero offs0_3]
  simp only [View.ld_unit_zero (S := S1x1024x1024) offs0_3, View.ld_unit_zero (S := S1024x64) offs0_2]

end
end Cert.KernelIdeal.Hand
end
-- ==== Proof.KI.Runs1.lean ====
/-
  Region 1 (the attention kernel), what its five control cases share: the three branch conditions of the body as
  functions of the grid point (batch, query tile, key tile) and their closed forms over the 64 points — the first key
  tile, a key tile not beyond the query tile, the last key tile —; where the output window is idle; the staging and
  scratch memrefs the body is called with; and the region invariant split into the three scratch buffers (running
  maximum, running sum, running weighted sum), the other scoped buffers, and the generator register.
-/
import proofs.«154889_j71219147702646_2_alg».proof.Proof.Gen.KernelIdeal.Launch
import proofs.«154889_j71219147702646_2_alg».proof.Proof.Gen.KernelIdeal.Skeleton
import proofs.«154889_j71219147702646_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The body's branch conditions -/

/-- The key tile is the first: the running state is reset. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- The key tile is not beyond the query tile: the tile is accumulated. -/
abbrev cond1_1 (i : grid1.Coords) : Prop := (Scalar.cmpi .ne (Scalar.extui (Scalar.cmpi .sle (BitVec.ofNat 32 (i 2).val) (BitVec.ofNat 32 (i 1).val))) 0#32) = 1#1
theorem hcond1_1 : ∀ t : Fin cfg1.N, cond1_1 (grid1.coords t) ↔ t.val % 4 ≤ t.val / 4 % 4 :=
  (by decide +kernel : ∀ t : Fin grid1.N, cond1_1 (grid1.coords t) ↔ t.val % 4 ≤ t.val / 4 % 4)

/-- The key tile is the last: the output block is written. -/
abbrev cond1_2 (i : grid1.Coords) : Prop := k1_cond3 i = 1#1
theorem hcond1_2 : ∀ t : Fin cfg1.N, cond1_2 (grid1.coords t) ↔ t.val % 4 = 3 :=
  (by decide +kernel : ∀ t : Fin grid1.N, cond1_2 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Off the last key tile the output window is idle and is not written back. -/
theorem idleAt1_3 : ∀ t : Fin cfg1.N, ¬cond1_2 (grid1.coords t) → cfg1.idle 3 (grid1.coords t) = true := by decide +kernel
theorem noFlush1_3 : ∀ t : Fin cfg1.N, ¬cond1_2 (grid1.coords t) → (cfg1.win 3).flush t = false := by decide +kernel
/-- At the last key tile it is live. -/
theorem liveAt1_3 : ∀ t : Fin cfg1.N, cond1_2 (grid1.coords t) → cfg1.idle 3 (grid1.coords t) = false := by decide +kernel

/-! ## The memrefs the body is called with -/

abbrev VO1_3 : View sig .tc .vmem S1x1024x64 .f32 := (Memref.whole cc1_stg3_0 : Memref sig .tc .vmem S1x1024x64 .f32).view
abbrev ms1_0 (t : Fin cfg1.N) : Memref sig .tc .vmem S1x1024x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x64 .f32 := win1_3.stage (cfg1.slots t 3)
abbrev hs1_3 (t : Fin cfg1.N) : (ms1_3 t).IsWhole := hstage1_3 ((cfg1.slots t 3).cast nbuf1_3)
/-- The running maximum, the running sum and the running weighted sum: whole scoped buffers of the kernel's own. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x64 .f32 := Memref.whole cc1_scratch2
abbrev VS1_0 : View sig .tc .vmem S1024x1 .f32 := scM1_0.view
abbrev VS1_1 : View sig .tc .vmem S1024x1 .f32 := scM1_1.view
abbrev VS1_2 : View sig .tc .vmem S1024x64 .f32 := scM1_2.view

/-! ## The region invariant, split -/

/-- The scoped buffers that are neither a staging buffer of this region nor one of its scratch buffers, each whole
    at some contents: the body never touches them. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f))

/-- The class invariant hands out the three scratch buffers at some contents, the other scoped buffers, and the
    generator register. -/
theorem PhiA1_split (c : Dev nD) :
    (Pipeline.ΦA spec1 c : sProp 𝕄)
      ⊢ iprop(others1 c ∗ (∃ d, owns (c : Thread nD τ) scM1_0 fullShare d) ∗ (∃ d, owns (c : Thread nD τ) scM1_1 fullShare d)
          ∗ (∃ d, owns (c : Thread nD τ) scM1_2 fullShare d) ∗ (∃ r, prngReg c r)) := by
  unfold Pipeline.ΦA others1; rw [scopedRest1_eq]; simp only [scM1_0, scM1_1, scM1_2, owns_whole]
  iintro ⟨⟨H0, H1, H2, H3, H4, H5, H6, H7, H8, H9, H10, H11, H12, H13, H14, HS0, HS1, HS2⟩, Hg⟩
  isplitl [H0 H1 H2 H3 H4 H5 H6 H7 H8 H9 H10 H11 H12 H13 H14]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  isplitl [HS0]; · iexact HS0
  isplitl [HS1]; · iexact HS1
  isplitl [HS2]; · iexact HS2
  iexact Hg

/-- And takes them back. -/
theorem PhiA1_join (c : Dev nD) :
    iprop(others1 c ∗ (∃ d, owns (c : Thread nD τ) scM1_0 fullShare d) ∗ (∃ d, owns (c : Thread nD τ) scM1_1 fullShare d)
          ∗ (∃ d, owns (c : Thread nD τ) scM1_2 fullShare d) ∗ (∃ r, prngReg c r))
      ⊢ (Pipeline.ΦA spec1 c : sProp 𝕄) := by
  unfold Pipeline.ΦA others1; rw [scopedRest1_eq]; simp only [scM1_0, scM1_1, scM1_2, owns_whole]
  iintro ⟨⟨H0, H1, H2, H3, H4, H5, H6, H7, H8, H9, H10, H11, H12, H13, H14⟩, HS0, HS1, HS2, Hg⟩
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [HS0]; · iexact HS0
    isplitl [HS1]; · iexact HS1
    iexact HS2
  iexact Hg

end Cert.KernelIdeal.Hand

end
-- ==== Proof.KI.Run1A.lean ====
/-
  Region 1, the body's run in the case of the first key tile: the running state is reset and the tile accumulated. On whole memrefs — the three input blocks at their contents,
  the output block handed back untouched, the three scratch buffers at anything, left with their stores written —
  the body runs to its continuation; the lists of stored pieces are found by the run itself.
-/
import proofs.«154889_j71219147702646_2_alg».proof.Proof.KI.Runs1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
noncomputable def kernelRun1_A (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : cond1_1 i) (hc2 : ¬cond1_2 i)
    (x0 x1 x2 : Vec F S1x1024x64 .bf16) :
    Σ' (LS0 : List (View.Piece (Elt F) S1024x1 .f32)) (LS1 : List (View.Piece (Elt F) S1024x1 .f32)), { LS2 : List (View.Piece (Elt F) S1024x64 .f32) //
      ∀ (xi3 : Vec F S1x1024x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1_kernel i arg3 harg3 arg4 harg4 arg5 harg5 arg6 harg6 arg7 harg7 arg8 harg8 arg9 harg9) K } := by
  refine ⟨?_, ?_, ?_, fun xi3 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.KernelIdeal.Hand

end
-- ==== Proof.KI.Run1B.lean ====
/-
  Region 1, the body's run in the case of a middle key tile not beyond the query tile: the tile is accumulated. On whole memrefs — the three input blocks at their contents,
  the output block handed back untouched, the three scratch buffers at what the point before left, left with their stores written —
  the body runs to its continuation; the lists of stored pieces are found by the run itself.
-/
import proofs.«154889_j71219147702646_2_alg».proof.Proof.KI.Run1A
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
noncomputable def kernelRun1_B (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i) (hc2 : ¬cond1_2 i)
    (x0 x1 x2 : Vec F S1x1024x64 .bf16) (xs0 xs1 : Vec F S1024x1 .f32) (xs2 : Vec F S1024x64 .f32) :
    Σ' (LS0 : List (View.Piece (Elt F) S1024x1 .f32)) (LS1 : List (View.Piece (Elt F) S1024x1 .f32)), { LS2 : List (View.Piece (Elt F) S1024x64 .f32) //
      ∀ (xi3 : Vec F S1x1024x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1_kernel i arg3 harg3 arg4 harg4 arg5 harg5 arg6 harg6 arg7 harg7 arg8 harg8 arg9 harg9) K } := by
  refine ⟨?_, ?_, ?_, fun xi3 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hfs0; obtain rfl := harg8.eq_unread hfs1; obtain rfl := harg9.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.KernelIdeal.Hand

end
-- ==== Proof.KI.Run1C.lean ====
/-
  Region 1, the body's run in the case of the last key tile, on the diagonal: the tile is accumulated and the output block written. On whole memrefs — the three input blocks at their contents,
  the output block at anything, left with its store written, the three scratch buffers at what the point before left, left with their stores written —
  the body runs to its continuation; the lists of stored pieces are found by the run itself.
-/
import proofs.«154889_j71219147702646_2_alg».proof.Proof.KI.Run1B
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
noncomputable def kernelRun1_C (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i) (hc2 : cond1_2 i)
    (x0 x1 x2 : Vec F S1x1024x64 .bf16) (xs0 xs1 : Vec F S1024x1 .f32) (xs2 : Vec F S1024x64 .f32) :
    Σ' (L3 : List (View.Piece (Elt F) S1x1024x64 .f32)) (LS0 : List (View.Piece (Elt F) S1024x1 .f32)) (LS1 : List (View.Piece (Elt F) S1024x1 .f32)), { LS2 : List (View.Piece (Elt F) S1024x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1_kernel i arg3 harg3 arg4 harg4 arg5 harg5 arg6 harg6 arg7 harg7 arg8 harg8 arg9 harg9) K } := by
  refine ⟨?_, ?_, ?_, ?_, fun E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg7.eq_unread hfs0; obtain rfl := harg8.eq_unread hfs1; obtain rfl := harg9.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.KernelIdeal.Hand

end
-- ==== Proof.KI.Run1D.lean ====
/-
  Region 1, the body's run in the case of a middle key tile beyond the query tile: nothing happens. On whole memrefs — the three input blocks at their contents,
  the output block handed back untouched, the three scratch buffers at what the point before left, left as they were —
  the body runs to its continuation; the lists of stored pieces are found by the run itself.
-/
import proofs.«154889_j71219147702646_2_alg».proof.Proof.KI.Run1C
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
theorem kernelRun1_D (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i) (hc2 : ¬cond1_2 i)
    (x0 x1 x2 : Vec F S1x1024x64 .bf16) (xs0 xs1 : Vec F S1024x1 .f32) (xs2 : Vec F S1024x64 .f32) :
    ∀ (xi3 : Vec F S1x1024x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ owns (c : Thread nD τ) arg7 fullShare xs0 ∗ owns (c : Thread nD τ) arg8 fullShare xs1 ∗ owns (c : Thread nD τ) arg9 fullShare xs2) -∗ K ⟨⟩))
          ⊢ wp frame (wpE (defs₀ (F := F)) Variants.none c none) E (cc1_kernel i arg3 harg3 arg4 harg4 arg5 harg5 arg6 harg6 arg7 harg7 arg8 harg8 arg9 harg9) K := by
  intro xi3 E K
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
  obtain rfl := harg3.eq_unread hf0; obtain rfl := harg4.eq_unread hf1; obtain rfl := harg5.eq_unread hf2; obtain rfl := harg6.eq_unread hf3; obtain rfl := harg7.eq_unread hfs0; obtain rfl := harg8.eq_unread hfs1; obtain rfl := harg9.eq_unread hfs2
  sl_exec (disch := first | exact hc0 | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [HS0]
  · iexists _; isplitr; · ipureintro; exact harg7.read_unread _
    iexact HS0
  isplitl [HS1]
  · iexists _; isplitr; · ipureintro; exact harg8.read_unread _
    iexact HS1
  iexists _; isplitr; · ipureintro; exact harg9.read_unread _
  iexact HS2

end Cert.KernelIdeal.Hand

end
-- ==== Proof.KI.Run1E.lean ====
/-
  Region 1, the body's run in the case of the last key tile, beyond the query tile: the output block is written from the running state. On whole memrefs — the three input blocks at their contents,
  the output block at anything, left with its store written, the three scratch buffers at what the point before left, left as they were —
  the body runs to its continuation; the lists of stored pieces are found by the run itself.
-/
import proofs.«154889_j71219147702646_2_alg».proof.Proof.KI.Run1D
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
noncomputable def kernelRun1_E (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i) (hc2 : cond1_2 i)
    (x0 x1 x2 : Vec F S1x1024x64 .bf16) (xs0 xs1 : Vec F S1024x1 .f32) (xs2 : Vec F S1024x64 .f32) :
    { L3 : List (View.Piece (Elt F) S1x1024x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3)
                ∗ owns (c : Thread nD τ) arg7 fullShare xs0 ∗ owns (c : Thread nD τ) arg8 fullShare xs1 ∗ owns (c : Thread nD τ) arg9 fullShare xs2) -∗ K ⟨⟩))
          ⊢ wp frame (wpE (defs₀ (F := F)) Variants.none c none) E (cc1_kernel i arg3 harg3 arg4 harg4 arg5 harg5 arg6 harg6 arg7 harg7 arg8 harg8 arg9 harg9) K } := by
  refine ⟨?_, fun E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg7.eq_unread hfs0; obtain rfl := harg8.eq_unread hfs1; obtain rfl := harg9.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]
    · iexists _; isplitr; · ipureintro; exact harg7.read_unread _
      iexact HS0
    isplitl [HS1]
    · iexists _; isplitr; · ipureintro; exact harg8.read_unread _
      iexact HS1
    iexists _; isplitr; · ipureintro; exact harg9.read_unread _
    iexact HS2

end Cert.KernelIdeal.Hand

end
-- ==== Proof.KI.Region1.lean ====
/-
  Region 1 (the attention kernel): what each control case leaves in the three scratch buffers and in the output block,
  read back from the pieces its run stored; the same point by point, by recursion over the 64 grid points (a case that
  stores nothing into the scratch buffers hands on what the point before left); the region invariant (before the first
  point anything, afterwards the scratch buffers at what the point before left); the proof data; and the body
  obligation, by cases on the closed forms of the three conditions.
-/
import proofs.«154889_j71219147702646_2_alg».proof.Proof.KI.Run1E
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## Per case: what the stored pieces leave -/

theorem scover1_A_0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : cond1_1 i) (hc2 : ¬cond1_2 i) (x0 x1 x2 : Vec F S1x1024x64 .bf16) (y : S1024x1.Idx) :
    ∃ pc ∈ (kernelRun1_A c i arg3 harg3 arg4 harg4 arg5 harg5 arg6 harg6 arg7 harg7 arg8 harg8 arg9 harg9 hc0 hc1 hc2 x0 x1 x2).1, y ∈ pc.1.set :=
  View.cover_of_tiledL (kernelRun1_A c i arg3 harg3 arg4 harg4 arg5 harg5 arg6 harg6 arg7 harg7 arg8 harg8 arg9 harg9 hc0 hc1 hc2 x0 x1 x2).1 S1024x1.size (by sl_kernel_rfl) y

def sout1_A_0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : cond1_1 i) (hc2 : ¬cond1_2 i) (x0 x1 x2 : Vec F S1x1024x64 .bf16) : Vec F S1024x1 .f32 :=
  VS1_0.read (Elt F) (VS1_0.writes (Elt F) VS1_0.junk (kernelRun1_A c i arg3 harg3 arg4 harg4 arg5 harg5 arg6 harg6 arg7 harg7 arg8 harg8 arg9 harg9 hc0 hc1 hc2 x0 x1 x2).1)

theorem scover1_A_1 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : cond1_1 i) (hc2 : ¬cond1_2 i) (x0 x1 x2 : Vec F S1x1024x64 .bf16) (y : S1024x1.Idx) :
    ∃ pc ∈ (kernelRun1_A c i arg3 harg3 arg4 harg4 arg5 harg5 arg6 harg6 arg7 harg7 arg8 harg8 arg9 harg9 hc0 hc1 hc2 x0 x1 x2).2.1, y ∈ pc.1.set :=
  View.cover_of_tiledL (kernelRun1_A c i arg3 harg3 arg4 harg4 arg5 harg5 arg6 harg6 arg7 harg7 arg8 harg8 arg9 harg9 hc0 hc1 hc2 x0 x1 x2).2.1 S1024x1.size (by sl_kernel_rfl) y

def sout1_A_1 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : cond1_1 i) (hc2 : ¬cond1_2 i) (x0 x1 x2 : Vec F S1x1024x64 .bf16) : Vec F S1024x1 .f32 :=
  VS1_1.read (Elt F) (VS1_1.writes (Elt F) VS1_1.junk (kernelRun1_A c i arg3 harg3 arg4 harg4 arg5 harg5 arg6 harg6 arg7 harg7 arg8 harg8 arg9 harg9 hc0 hc1 hc2 x0 x1 x2).2.1)

theorem scover1_A_2 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : cond1_1 i) (hc2 : ¬cond1_2 i) (x0 x1 x2 : Vec F S1x1024x64 .bf16) (y : S1024x64.Idx) :
    ∃ pc ∈ (kernelRun1_A c i arg3 harg3 arg4 harg4 arg5 harg5 arg6 harg6 arg7 harg7 arg8 harg8 arg9 harg9 hc0 hc1 hc2 x0 x1 x2).2.2.1, y ∈ pc.1.set :=
  View.cover_of_tiledL (kernelRun1_A c i arg3 harg3 arg4 harg4 arg5 harg5 arg6 harg6 arg7 harg7 arg8 harg8 arg9 harg9 hc0 hc1 hc2 x0 x1 x2).2.2.1 S1024x64.size (by sl_kernel_rfl) y

def sout1_A_2 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : cond1_1 i) (hc2 : ¬cond1_2 i) (x0 x1 x2 : Vec F S1x1024x64 .bf16) : Vec F S1024x64 .f32 :=
  VS1_2.read (Elt F) (VS1_2.writes (Elt F) VS1_2.junk (kernelRun1_A c i arg3 harg3 arg4 harg4 arg5 harg5 arg6 harg6 arg7 harg7 arg8 harg8 arg9 harg9 hc0 hc1 hc2 x0 x1 x2).2.2.1)

theorem scover1_B_0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i) (hc2 : ¬cond1_2 i) (x0 x1 x2 : Vec F S1x1024x64 .bf16) (xs0 xs1 : Vec F S1024x1 .f32) (xs2 : Vec F S1024x64 .f32) (y : S1024x1.Idx) :
    ∃ pc ∈ (kernelRun1_B c i arg3 harg3 arg4 harg4 arg5 harg5 arg6 harg6 arg7 harg7 arg8 harg8 arg9 harg9 hc0 hc1 hc2 x0 x1 x2 xs0 xs1 xs2).1, y ∈ pc.1.set :=
  View.cover_of_tiledL (kernelRun1_B c i arg3 harg3 arg4 harg4 arg5 harg5 arg6 harg6 arg7 harg7 arg8 harg8 arg9 harg9 hc0 hc1 hc2 x0 x1 x2 xs0 xs1 xs2).1 S1024x1.size (by sl_kernel_rfl) y

def sout1_B_0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i) (hc2 : ¬cond1_2 i) (x0 x1 x2 : Vec F S1x1024x64 .bf16) (xs0 xs1 : Vec F S1024x1 .f32) (xs2 : Vec F S1024x64 .f32) : Vec F S1024x1 .f32 :=
  VS1_0.read (Elt F) (VS1_0.writes (Elt F) VS1_0.junk (kernelRun1_B c i arg3 harg3 arg4 harg4 arg5 harg5 arg6 harg6 arg7 harg7 arg8 harg8 arg9 harg9 hc0 hc1 hc2 x0 x1 x2 xs0 xs1 xs2).1)

theorem scover1_B_1 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i) (hc2 : ¬cond1_2 i) (x0 x1 x2 : Vec F S1x1024x64 .bf16) (xs0 xs1 : Vec F S1024x1 .f32) (xs2 : Vec F S1024x64 .f32) (y : S1024x1.Idx) :
    ∃ pc ∈ (kernelRun1_B c i arg3 harg3 arg4 harg4 arg5 harg5 arg6 harg6 arg7 harg7 arg8 harg8 arg9 harg9 hc0 hc1 hc2 x0 x1 x2 xs0 xs1 xs2).2.1, y ∈ pc.1.set :=
  View.cover_of_tiledL (kernelRun1_B c i arg3 harg3 arg4 harg4 arg5 harg5 arg6 harg6 arg7 harg7 arg8 harg8 arg9 harg9 hc0 hc1 hc2 x0 x1 x2 xs0 xs1 xs2).2.1 S1024x1.size (by sl_kernel_rfl) y

def sout1_B_1 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i) (hc2 : ¬cond1_2 i) (x0 x1 x2 : Vec F S1x1024x64 .bf16) (xs0 xs1 : Vec F S1024x1 .f32) (xs2 : Vec F S1024x64 .f32) : Vec F S1024x1 .f32 :=
  VS1_1.read (Elt F) (VS1_1.writes (Elt F) VS1_1.junk (kernelRun1_B c i arg3 harg3 arg4 harg4 arg5 harg5 arg6 harg6 arg7 harg7 arg8 harg8 arg9 harg9 hc0 hc1 hc2 x0 x1 x2 xs0 xs1 xs2).2.1)

theorem scover1_B_2 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i) (hc2 : ¬cond1_2 i) (x0 x1 x2 : Vec F S1x1024x64 .bf16) (xs0 xs1 : Vec F S1024x1 .f32) (xs2 : Vec F S1024x64 .f32) (y : S1024x64.Idx) :
    ∃ pc ∈ (kernelRun1_B c i arg3 harg3 arg4 harg4 arg5 harg5 arg6 harg6 arg7 harg7 arg8 harg8 arg9 harg9 hc0 hc1 hc2 x0 x1 x2 xs0 xs1 xs2).2.2.1, y ∈ pc.1.set :=
  View.cover_of_tiledL (kernelRun1_B c i arg3 harg3 arg4 harg4 arg5 harg5 arg6 harg6 arg7 harg7 arg8 harg8 arg9 harg9 hc0 hc1 hc2 x0 x1 x2 xs0 xs1 xs2).2.2.1 S1024x64.size (by sl_kernel_rfl) y

def sout1_B_2 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i) (hc2 : ¬cond1_2 i) (x0 x1 x2 : Vec F S1x1024x64 .bf16) (xs0 xs1 : Vec F S1024x1 .f32) (xs2 : Vec F S1024x64 .f32) : Vec F S1024x64 .f32 :=
  VS1_2.read (Elt F) (VS1_2.writes (Elt F) VS1_2.junk (kernelRun1_B c i arg3 harg3 arg4 harg4 arg5 harg5 arg6 harg6 arg7 harg7 arg8 harg8 arg9 harg9 hc0 hc1 hc2 x0 x1 x2 xs0 xs1 xs2).2.2.1)

theorem scover1_C_0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i) (hc2 : cond1_2 i) (x0 x1 x2 : Vec F S1x1024x64 .bf16) (xs0 xs1 : Vec F S1024x1 .f32) (xs2 : Vec F S1024x64 .f32) (y : S1024x1.Idx) :
    ∃ pc ∈ (kernelRun1_C c i arg3 harg3 arg4 harg4 arg5 harg5 arg6 harg6 arg7 harg7 arg8 harg8 arg9 harg9 hc0 hc1 hc2 x0 x1 x2 xs0 xs1 xs2).2.1, y ∈ pc.1.set :=
  View.cover_of_tiledL (kernelRun1_C c i arg3 harg3 arg4 harg4 arg5 harg5 arg6 harg6 arg7 harg7 arg8 harg8 arg9 harg9 hc0 hc1 hc2 x0 x1 x2 xs0 xs1 xs2).2.1 S1024x1.size (by sl_kernel_rfl) y

def sout1_C_0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i) (hc2 : cond1_2 i) (x0 x1 x2 : Vec F S1x1024x64 .bf16) (xs0 xs1 : Vec F S1024x1 .f32) (xs2 : Vec F S1024x64 .f32) : Vec F S1024x1 .f32 :=
  VS1_0.read (Elt F) (VS1_0.writes (Elt F) VS1_0.junk (kernelRun1_C c i arg3 harg3 arg4 harg4 arg5 harg5 arg6 harg6 arg7 harg7 arg8 harg8 arg9 harg9 hc0 hc1 hc2 x0 x1 x2 xs0 xs1 xs2).2.1)

theorem scover1_C_1 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i) (hc2 : cond1_2 i) (x0 x1 x2 : Vec F S1x1024x64 .bf16) (xs0 xs1 : Vec F S1024x1 .f32) (xs2 : Vec F S1024x64 .f32) (y : S1024x1.Idx) :
    ∃ pc ∈ (kernelRun1_C c i arg3 harg3 arg4 harg4 arg5 harg5 arg6 harg6 arg7 harg7 arg8 harg8 arg9 harg9 hc0 hc1 hc2 x0 x1 x2 xs0 xs1 xs2).2.2.1, y ∈ pc.1.set :=
  View.cover_of_tiledL (kernelRun1_C c i arg3 harg3 arg4 harg4 arg5 harg5 arg6 harg6 arg7 harg7 arg8 harg8 arg9 harg9 hc0 hc1 hc2 x0 x1 x2 xs0 xs1 xs2).2.2.1 S1024x1.size (by sl_kernel_rfl) y

def sout1_C_1 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i) (hc2 : cond1_2 i) (x0 x1 x2 : Vec F S1x1024x64 .bf16) (xs0 xs1 : Vec F S1024x1 .f32) (xs2 : Vec F S1024x64 .f32) : Vec F S1024x1 .f32 :=
  VS1_1.read (Elt F) (VS1_1.writes (Elt F) VS1_1.junk (kernelRun1_C c i arg3 harg3 arg4 harg4 arg5 harg5 arg6 harg6 arg7 harg7 arg8 harg8 arg9 harg9 hc0 hc1 hc2 x0 x1 x2 xs0 xs1 xs2).2.2.1)

theorem scover1_C_2 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i) (hc2 : cond1_2 i) (x0 x1 x2 : Vec F S1x1024x64 .bf16) (xs0 xs1 : Vec F S1024x1 .f32) (xs2 : Vec F S1024x64 .f32) (y : S1024x64.Idx) :
    ∃ pc ∈ (kernelRun1_C c i arg3 harg3 arg4 harg4 arg5 harg5 arg6 harg6 arg7 harg7 arg8 harg8 arg9 harg9 hc0 hc1 hc2 x0 x1 x2 xs0 xs1 xs2).2.2.2.1, y ∈ pc.1.set :=
  View.cover_of_tiledL (kernelRun1_C c i arg3 harg3 arg4 harg4 arg5 harg5 arg6 harg6 arg7 harg7 arg8 harg8 arg9 harg9 hc0 hc1 hc2 x0 x1 x2 xs0 xs1 xs2).2.2.2.1 S1024x64.size (by sl_kernel_rfl) y

def sout1_C_2 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i) (hc2 : cond1_2 i) (x0 x1 x2 : Vec F S1x1024x64 .bf16) (xs0 xs1 : Vec F S1024x1 .f32) (xs2 : Vec F S1024x64 .f32) : Vec F S1024x64 .f32 :=
  VS1_2.read (Elt F) (VS1_2.writes (Elt F) VS1_2.junk (kernelRun1_C c i arg3 harg3 arg4 harg4 arg5 harg5 arg6 harg6 arg7 harg7 arg8 harg8 arg9 harg9 hc0 hc1 hc2 x0 x1 x2 xs0 xs1 xs2).2.2.2.1)

theorem cover1_C_3 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i) (hc2 : cond1_2 i) (x0 x1 x2 : Vec F S1x1024x64 .bf16) (xs0 xs1 : Vec F S1024x1 .f32) (xs2 : Vec F S1024x64 .f32) (y : S1x1024x64.Idx) :
    ∃ pc ∈ (kernelRun1_C c i arg3 harg3 arg4 harg4 arg5 harg5 arg6 harg6 arg7 harg7 arg8 harg8 arg9 harg9 hc0 hc1 hc2 x0 x1 x2 xs0 xs1 xs2).1, y ∈ pc.1.set :=
  View.cover_of_tiledL (kernelRun1_C c i arg3 harg3 arg4 harg4 arg5 harg5 arg6 harg6 arg7 harg7 arg8 harg8 arg9 harg9 hc0 hc1 hc2 x0 x1 x2 xs0 xs1 xs2).1 S1x1024x64.size (by sl_kernel_rfl) y

def out1_C_3 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i) (hc2 : cond1_2 i) (x0 x1 x2 : Vec F S1x1024x64 .bf16) (xs0 xs1 : Vec F S1024x1 .f32) (xs2 : Vec F S1024x64 .f32) : Vec F S1x1024x64 .f32 :=
  VO1_3.read (Elt F) (VO1_3.writes (Elt F) VO1_3.junk (kernelRun1_C c i arg3 harg3 arg4 harg4 arg5 harg5 arg6 harg6 arg7 harg7 arg8 harg8 arg9 harg9 hc0 hc1 hc2 x0 x1 x2 xs0 xs1 xs2).1)

theorem cover1_E_3 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i) (hc2 : cond1_2 i) (x0 x1 x2 : Vec F S1x1024x64 .bf16) (xs0 xs1 : Vec F S1024x1 .f32) (xs2 : Vec F S1024x64 .f32) (y : S1x1024x64.Idx) :
    ∃ pc ∈ (kernelRun1_E c i arg3 harg3 arg4 harg4 arg5 harg5 arg6 harg6 arg7 harg7 arg8 harg8 arg9 harg9 hc0 hc1 hc2 x0 x1 x2 xs0 xs1 xs2).1, y ∈ pc.1.set :=
  View.cover_of_tiledL (kernelRun1_E c i arg3 harg3 arg4 harg4 arg5 harg5 arg6 harg6 arg7 harg7 arg8 harg8 arg9 harg9 hc0 hc1 hc2 x0 x1 x2 xs0 xs1 xs2).1 S1x1024x64.size (by sl_kernel_rfl) y

def out1_E_3 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i) (hc2 : cond1_2 i) (x0 x1 x2 : Vec F S1x1024x64 .bf16) (xs0 xs1 : Vec F S1024x1 .f32) (xs2 : Vec F S1024x64 .f32) : Vec F S1x1024x64 .f32 :=
  VO1_3.read (Elt F) (VO1_3.writes (Elt F) VO1_3.junk (kernelRun1_E c i arg3 harg3 arg4 harg4 arg5 harg5 arg6 harg6 arg7 harg7 arg8 harg8 arg9 harg9 hc0 hc1 hc2 x0 x1 x2 xs0 xs1 xs2).1)

/-- Where the output window is idle nothing consults its contents: a placeholder. -/
def outIdle1 : Vec F S1x1024x64 .f32 := VO1_3.read (Elt F) VO1_3.junk

section
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What a point leaves, case by case: the output block, then the three scratch buffers -/

abbrev St4 (F : FTy → Type) : Type := Vec F S1x1024x64 .f32 × Vec F S1024x1 .f32 × Vec F S1024x1 .f32 × Vec F S1024x64 .f32

def caseA (c : Dev nD) (t : Fin cfg1.N) (h0 : t.val % 4 = 0) : St4 F :=
  (outIdle1, sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr (by omega)) (fun h => by have := (hcond1_2 t).mp h; omega) (iblk1 V c 0 t) (iblk1 V c 1 t) (iblk1 V c 2 t), sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr (by omega)) (fun h => by have := (hcond1_2 t).mp h; omega) (iblk1 V c 0 t) (iblk1 V c 1 t) (iblk1 V c 2 t), sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr (by omega)) (fun h => by have := (hcond1_2 t).mp h; omega) (iblk1 V c 0 t) (iblk1 V c 1 t) (iblk1 V c 2 t))

def caseB (c : Dev nD) (t : Fin cfg1.N) (h0 : ¬t.val % 4 = 0) (h1 : t.val % 4 ≤ t.val / 4 % 4) (h2 : ¬t.val % 4 = 3) (p0 p1 : Vec F S1024x1 .f32) (p2 : Vec F S1024x64 .f32) : St4 F :=
  (outIdle1, sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (iblk1 V c 0 t) (iblk1 V c 1 t) (iblk1 V c 2 t) p0 p1 p2, sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (iblk1 V c 0 t) (iblk1 V c 1 t) (iblk1 V c 2 t) p0 p1 p2, sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (iblk1 V c 0 t) (iblk1 V c 1 t) (iblk1 V c 2 t) p0 p1 p2)

def caseC (c : Dev nD) (t : Fin cfg1.N) (h0 : ¬t.val % 4 = 0) (h1 : t.val % 4 ≤ t.val / 4 % 4) (h2 : t.val % 4 = 3) (p0 p1 : Vec F S1024x1 .f32) (p2 : Vec F S1024x64 .f32) : St4 F :=
  (out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) p0 p1 p2, sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) p0 p1 p2, sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) p0 p1 p2, sout1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) p0 p1 p2)

def caseD (c : Dev nD) (t : Fin cfg1.N) (h0 : ¬t.val % 4 = 0) (h1 : ¬t.val % 4 ≤ t.val / 4 % 4) (h2 : ¬t.val % 4 = 3) (p0 p1 : Vec F S1024x1 .f32) (p2 : Vec F S1024x64 .f32) : St4 F :=
  (outIdle1, p0, p1, p2)

def caseE (c : Dev nD) (t : Fin cfg1.N) (h0 : ¬t.val % 4 = 0) (h1 : ¬t.val % 4 ≤ t.val / 4 % 4) (h2 : t.val % 4 = 3) (p0 p1 : Vec F S1024x1 .f32) (p2 : Vec F S1024x64 .f32) : St4 F :=
  (out1_E_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) ((hcond1_2 t).mpr h2) (iblk1 V c 0 t) (iblk1 V c 1 t) (iblk1 V c 2 t) p0 p1 p2, p0, p1, p2)

/-- What the output block's buffer and the three scratch buffers hold after the body at position `n`. -/
def outsAt1 (c : Dev nD) : (n : ℕ) → n < cfg1.N → St4 F
  | 0, hn => caseA V c ⟨0, hn⟩ (Nat.zero_mod _)
  | n + 1, hn =>
    if h0 : (n + 1) % 4 = 0 then caseA V c ⟨n + 1, hn⟩ h0
    else if h1 : (n + 1) % 4 ≤ (n + 1) / 4 % 4 then
      if h2 : (n + 1) % 4 = 3 then
        caseC V c ⟨n + 1, hn⟩ h0 h1 h2 (outsAt1 c n (Nat.lt_of_succ_lt hn)).2.1 (outsAt1 c n (Nat.lt_of_succ_lt hn)).2.2.1 (outsAt1 c n (Nat.lt_of_succ_lt hn)).2.2.2
      else
        caseB V c ⟨n + 1, hn⟩ h0 h1 h2 (outsAt1 c n (Nat.lt_of_succ_lt hn)).2.1 (outsAt1 c n (Nat.lt_of_succ_lt hn)).2.2.1 (outsAt1 c n (Nat.lt_of_succ_lt hn)).2.2.2
    else
      if h2 : (n + 1) % 4 = 3 then
        caseE V c ⟨n + 1, hn⟩ h0 h1 h2 (outsAt1 c n (Nat.lt_of_succ_lt hn)).2.1 (outsAt1 c n (Nat.lt_of_succ_lt hn)).2.2.1 (outsAt1 c n (Nat.lt_of_succ_lt hn)).2.2.2
      else
        caseD c ⟨n + 1, hn⟩ h0 h1 h2 (outsAt1 c n (Nat.lt_of_succ_lt hn)).2.1 (outsAt1 c n (Nat.lt_of_succ_lt hn)).2.2.1 (outsAt1 c n (Nat.lt_of_succ_lt hn)).2.2.2

/-- The scratch buffers as the point before `t` left them. -/
abbrev prev1 (c : Dev nD) (t : Fin cfg1.N) : St4 F := outsAt1 V c (t.val - 1) (Nat.lt_of_le_of_lt (Nat.sub_le _ _) t.isLt)

theorem outsAt1_A (c : Dev nD) (t : Fin cfg1.N) (h0 : t.val % 4 = 0) : outsAt1 V c t.val t.isLt = caseA V c t h0 := by
  obtain ⟨n, hn⟩ := t
  cases n with
  | zero => exact rfl
  | succ n => exact (dif_pos h0).trans rfl

theorem outsAt1_B (c : Dev nD) (t : Fin cfg1.N) (h0 : ¬t.val % 4 = 0) (h1 : t.val % 4 ≤ t.val / 4 % 4) (h2 : ¬t.val % 4 = 3) :
    outsAt1 V c t.val t.isLt = caseB V c t h0 h1 h2 (prev1 V c t).2.1 (prev1 V c t).2.2.1 (prev1 V c t).2.2.2 := by
  obtain ⟨n, hn⟩ := t
  cases n with
  | zero => exact absurd (Nat.zero_mod _) h0
  | succ n => exact (dif_neg h0).trans ((dif_pos h1).trans ((dif_neg h2).trans rfl))

theorem outsAt1_C (c : Dev nD) (t : Fin cfg1.N) (h0 : ¬t.val % 4 = 0) (h1 : t.val % 4 ≤ t.val / 4 % 4) (h2 : t.val % 4 = 3) :
    outsAt1 V c t.val t.isLt = caseC V c t h0 h1 h2 (prev1 V c t).2.1 (prev1 V c t).2.2.1 (prev1 V c t).2.2.2 := by
  obtain ⟨n, hn⟩ := t
  cases n with
  | zero => exact absurd (Nat.zero_mod _) h0
  | succ n => exact (dif_neg h0).trans ((dif_pos h1).trans ((dif_pos h2).trans rfl))

theorem outsAt1_D (c : Dev nD) (t : Fin cfg1.N) (h0 : ¬t.val % 4 = 0) (h1 : ¬t.val % 4 ≤ t.val / 4 % 4) (h2 : ¬t.val % 4 = 3) :
    outsAt1 V c t.val t.isLt = caseD c t h0 h1 h2 (prev1 V c t).2.1 (prev1 V c t).2.2.1 (prev1 V c t).2.2.2 := by
  obtain ⟨n, hn⟩ := t
  cases n with
  | zero => exact absurd (Nat.zero_mod _) h0
  | succ n => exact (dif_neg h0).trans ((dif_neg h1).trans ((dif_neg h2).trans rfl))

theorem outsAt1_E (c : Dev nD) (t : Fin cfg1.N) (h0 : ¬t.val % 4 = 0) (h1 : ¬t.val % 4 ≤ t.val / 4 % 4) (h2 : t.val % 4 = 3) :
    outsAt1 V c t.val t.isLt = caseE V c t h0 h1 h2 (prev1 V c t).2.1 (prev1 V c t).2.2.1 (prev1 V c t).2.2.2 := by
  obtain ⟨n, hn⟩ := t
  cases n with
  | zero => exact absurd (Nat.zero_mod _) h0
  | succ n => exact (dif_neg h0).trans ((dif_neg h1).trans ((dif_pos h2).trans rfl))

/-! ## The region invariant -/

/-- Before the first point the class invariant (every scratch buffer at anything); afterwards the other scoped buffers,
    the three scratch buffers at what the point before left, and the generator register at some state. -/
def PhiS1 (c : Dev nD) : (n : ℕ) → n ≤ cfg1.N → sProp 𝕄
  | 0, _ => Pipeline.ΦA spec1 c
  | n + 1, hn => iprop(others1 c ∗ owns (c : Thread nD τ) scM1_0 fullShare (outsAt1 V c n hn).2.1 ∗ owns (c : Thread nD τ) scM1_1 fullShare (outsAt1 V c n hn).2.2.1
      ∗ owns (c : Thread nD τ) scM1_2 fullShare (outsAt1 V c n hn).2.2.2 ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(others1 c ∗ owns (c : Thread nD τ) scM1_0 fullShare (outsAt1 V c n hn).2.1 ∗ owns (c : Thread nD τ) scM1_1 fullShare (outsAt1 V c n hn).2.2.1
      ∗ owns (c : Thread nD τ) scM1_2 fullShare (outsAt1 V c n hn).2.2.2 ∗ (∃ r, prngReg c r)) := rfl

theorem PhiS1_pos (c : Dev nD) (n : ℕ) (h : n ≤ cfg1.N) (hz : n ≠ 0) :
    PhiS1 V c n h = iprop(others1 c ∗ owns (c : Thread nD τ) scM1_0 fullShare (outsAt1 V c (n - 1) (by omega)).2.1 ∗ owns (c : Thread nD τ) scM1_1 fullShare (outsAt1 V c (n - 1) (by omega)).2.2.1
      ∗ owns (c : Thread nD τ) scM1_2 fullShare (outsAt1 V c (n - 1) (by omega)).2.2.2 ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

set_option maxHeartbeats 8000000 in
/-- The body at any point: the closed forms of the three conditions say which case the point is in; that case's run
    applies to the input blocks and to the scratch buffers as the invariant holds them. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 4 = 0
  · have hc0 : cond1_0 (grid1.coords t) := (hcond1_0 t).mpr h0
    have hc1 : cond1_1 (grid1.coords t) := (hcond1_1 t).mpr (by omega)
    have hc2 : ¬cond1_2 (grid1.coords t) := fun h => by have := (hcond1_2 t).mp h; omega
    rw [Dat.leavesExact_idle (dat1 V c) 3 t (idleAt1_3 t hc2) (noFlush1_3 t hc2)]
    rw [outsAt1_A V c t h0]
    unfold caseA sout1_A_0 sout1_A_1 sout1_A_2; (try dsimp only)
    by_cases hz : t.val = 0
    · rw [PhiS1_castSucc V c t, PhiS1_zero V c _ _ hz]
      iintro ⟨HΦ, Ho, ⟨%d0, H0⟩, ⟨%d1, H1⟩, ⟨%d2, H2⟩, ⟨%d3, H3⟩⟩
      ihave HΦ' := (PhiA1_split (F := F) c) $$ HΦ
      icases HΦ' with ⟨Hoth, HS0, HS1, HS2, Hg⟩
      iapply ((kernelRun1_A c (grid1.coords t) _ _ _ _ _ _ _ _ _ _ _ _ _ _ hc0 hc1 hc2 (iblk1 V c 0 t) (iblk1 V c 1 t) (iblk1 V c 2 t)).2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [Hoth HS0 HS1 HS2 Hg]
      · isplitl [Hoth]; · iexact Hoth
        isplitl [HS0]
        · unfold owns; iexists _; isplitr
          swap; · iexact HS0
          ipureintro; exact View.read_writes_of_cover _ _ _ _ _ (scover1_A_0 c _ _ _ _ _ _ _ _ _ _ _ _ _ _ _ _ _ _ _ _ _)
        isplitl [HS1]
        · unfold owns; iexists _; isplitr
          swap; · iexact HS1
          ipureintro; exact View.read_writes_of_cover _ _ _ _ _ (scover1_A_1 c _ _ _ _ _ _ _ _ _ _ _ _ _ _ _ _ _ _ _ _ _)
        isplitl [HS2]
        · unfold owns; iexists _; isplitr
          swap; · iexact HS2
          ipureintro; exact View.read_writes_of_cover _ _ _ _ _ (scover1_A_2 c _ _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨Hoth, HS0, HS1, HS2, Hg⟩, Ho, ⟨%d0, H0⟩, ⟨%d1, H1⟩, ⟨%d2, H2⟩, ⟨%d3, H3⟩⟩
      iapply ((kernelRun1_A c (grid1.coords t) _ _ _ _ _ _ _ _ _ _ _ _ _ _ hc0 hc1 hc2 (iblk1 V c 0 t) (iblk1 V c 1 t) (iblk1 V c 2 t)).2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%es0, HS0⟩, ⟨%es1, HS1⟩, ⟨%es2, HS2⟩⟩
      isplitl [Hoth HS0 HS1 HS2 Hg]
      · isplitl [Hoth]; · iexact Hoth
        isplitl [HS0]
        · unfold owns; iexists _; isplitr
          swap; · iexact HS0
          ipureintro; exact View.read_writes_of_cover _ _ _ _ _ (scover1_A_0 c _ _ _ _ _ _ _ _ _ _ _ _ _ _ _ _ _ _ _ _ _)
        isplitl [HS1]
        · unfold owns; iexists _; isplitr
          swap; · iexact HS1
          ipureintro; exact View.read_writes_of_cover _ _ _ _ _ (scover1_A_1 c _ _ _ _ _ _ _ _ _ _ _ _ _ _ _ _ _ _ _ _ _)
        isplitl [HS2]
        · unfold owns; iexists _; isplitr
          swap; · iexact HS2
          ipureintro; exact View.read_writes_of_cover _ _ _ _ _ (scover1_A_2 c _ _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · by_cases h1 : t.val % 4 ≤ t.val / 4 % 4
    · by_cases h2 : t.val % 4 = 3
      · have hc0 : ¬cond1_0 (grid1.coords t) := fun h => h0 ((hcond1_0 t).mp h)
        have hc1 : cond1_1 (grid1.coords t) := (hcond1_1 t).mpr h1
        have hc2 : cond1_2 (grid1.coords t) := (hcond1_2 t).mpr h2
        rw [show (dat1 V c).leavesExact 3 t = owns (c : Thread nD τ) (ms1_3 t) fullShare ((dat1 V c).after 3 t) from by
          unfold Dat.leavesExact; rw [liveAt1_3 t hc2], after1_3]
        rw [outsAt1_C V c t h0 h1 h2]
        unfold caseC sout1_C_0 sout1_C_1 sout1_C_2 out1_C_3; (try dsimp only)
        by_cases hz : t.val = 0
        · exfalso; omega
        · rw [PhiS1_castSucc V c t, PhiS1_pos V c _ _ hz]
          iintro ⟨⟨Hoth, HS0, HS1, HS2, Hg⟩, Ho, ⟨%d0, H0⟩, ⟨%d1, H1⟩, ⟨%d2, H2⟩, ⟨%d3, H3⟩⟩
          iapply ((kernelRun1_C c (grid1.coords t) _ _ _ _ _ _ _ _ _ _ _ _ _ _ hc0 hc1 hc2 (iblk1 V c 0 t) (iblk1 V c 1 t) (iblk1 V c 2 t) _ _ _).2.2.2.2 Set.univ _)
          isplitl [H0]; · iexact H0
          isplitl [H1]; · iexact H1
          isplitl [H2]; · iexact H2
          isplitl [H3]; · iexists _; iexact H3
          isplitl [HS0]; · iexact HS0
          isplitl [HS1]; · iexact HS1
          isplitl [HS2]; · iexact HS2
          iintro ⟨H0, H1, H2, ⟨%e3, H3⟩, ⟨%es0, HS0⟩, ⟨%es1, HS1⟩, ⟨%es2, HS2⟩⟩
          isplitl [Hoth HS0 HS1 HS2 Hg]
          · isplitl [Hoth]; · iexact Hoth
            isplitl [HS0]
            · unfold owns; iexists _; isplitr
              swap; · iexact HS0
              ipureintro; exact View.read_writes_of_cover _ _ _ _ _ (scover1_C_0 c _ _ _ _ _ _ _ _ _ _ _ _ _ _ _ _ _ _ _ _ _ _ _ _)
            isplitl [HS1]
            · unfold owns; iexists _; isplitr
              swap; · iexact HS1
              ipureintro; exact View.read_writes_of_cover _ _ _ _ _ (scover1_C_1 c _ _ _ _ _ _ _ _ _ _ _ _ _ _ _ _ _ _ _ _ _ _ _ _)
            isplitl [HS2]
            · unfold owns; iexists _; isplitr
              swap; · iexact HS2
              ipureintro; exact View.read_writes_of_cover _ _ _ _ _ (scover1_C_2 c _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          unfold owns; iexists _; isplitr
          swap; · iexact H3
          ipureintro; exact View.read_writes_of_cover _ _ _ _ _ (cover1_C_3 c _ _ _ _ _ _ _ _ _ _ _ _ _ _ _ _ _ _ _ _ _ _ _ _)
      · have hc0 : ¬cond1_0 (grid1.coords t) := fun h => h0 ((hcond1_0 t).mp h)
        have hc1 : cond1_1 (grid1.coords t) := (hcond1_1 t).mpr h1
        have hc2 : ¬cond1_2 (grid1.coords t) := fun h => h2 ((hcond1_2 t).mp h)
        rw [Dat.leavesExact_idle (dat1 V c) 3 t (idleAt1_3 t hc2) (noFlush1_3 t hc2)]
        rw [outsAt1_B V c t h0 h1 h2]
        unfold caseB sout1_B_0 sout1_B_1 sout1_B_2; (try dsimp only)
        by_cases hz : t.val = 0
        · exfalso; omega
        · rw [PhiS1_castSucc V c t, PhiS1_pos V c _ _ hz]
          iintro ⟨⟨Hoth, HS0, HS1, HS2, Hg⟩, Ho, ⟨%d0, H0⟩, ⟨%d1, H1⟩, ⟨%d2, H2⟩, ⟨%d3, H3⟩⟩
          iapply ((kernelRun1_B c (grid1.coords t) _ _ _ _ _ _ _ _ _ _ _ _ _ _ hc0 hc1 hc2 (iblk1 V c 0 t) (iblk1 V c 1 t) (iblk1 V c 2 t) _ _ _).2.2.2 _ Set.univ _)
          isplitl [H0]; · iexact H0
          isplitl [H1]; · iexact H1
          isplitl [H2]; · iexact H2
          isplitl [H3]; · iexact H3
          isplitl [HS0]; · iexact HS0
          isplitl [HS1]; · iexact HS1
          isplitl [HS2]; · iexact HS2
          iintro ⟨H0, H1, H2, H3, ⟨%es0, HS0⟩, ⟨%es1, HS1⟩, ⟨%es2, HS2⟩⟩
          isplitl [Hoth HS0 HS1 HS2 Hg]
          · isplitl [Hoth]; · iexact Hoth
            isplitl [HS0]
            · unfold owns; iexists _; isplitr
              swap; · iexact HS0
              ipureintro; exact View.read_writes_of_cover _ _ _ _ _ (scover1_B_0 c _ _ _ _ _ _ _ _ _ _ _ _ _ _ _ _ _ _ _ _ _ _ _ _)
            isplitl [HS1]
            · unfold owns; iexists _; isplitr
              swap; · iexact HS1
              ipureintro; exact View.read_writes_of_cover _ _ _ _ _ (scover1_B_1 c _ _ _ _ _ _ _ _ _ _ _ _ _ _ _ _ _ _ _ _ _ _ _ _)
            isplitl [HS2]
            · unfold owns; iexists _; isplitr
              swap; · iexact HS2
              ipureintro; exact View.read_writes_of_cover _ _ _ _ _ (scover1_B_2 c _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          iexists _; iexact H3
    · by_cases h2 : t.val % 4 = 3
      · have hc0 : ¬cond1_0 (grid1.coords t) := fun h => h0 ((hcond1_0 t).mp h)
        have hc1 : ¬cond1_1 (grid1.coords t) := fun h => h1 ((hcond1_1 t).mp h)
        have hc2 : cond1_2 (grid1.coords t) := (hcond1_2 t).mpr h2
        rw [show (dat1 V c).leavesExact 3 t = owns (c : Thread nD τ) (ms1_3 t) fullShare ((dat1 V c).after 3 t) from by
          unfold Dat.leavesExact; rw [liveAt1_3 t hc2], after1_3]
        rw [outsAt1_E V c t h0 h1 h2]
        unfold caseE out1_E_3; (try dsimp only)
        by_cases hz : t.val = 0
        · exfalso; omega
        · rw [PhiS1_castSucc V c t, PhiS1_pos V c _ _ hz]
          iintro ⟨⟨Hoth, HS0, HS1, HS2, Hg⟩, Ho, ⟨%d0, H0⟩, ⟨%d1, H1⟩, ⟨%d2, H2⟩, ⟨%d3, H3⟩⟩
          iapply ((kernelRun1_E c (grid1.coords t) _ _ _ _ _ _ _ _ _ _ _ _ _ _ hc0 hc1 hc2 (iblk1 V c 0 t) (iblk1 V c 1 t) (iblk1 V c 2 t) _ _ _).2 Set.univ _)
          isplitl [H0]; · iexact H0
          isplitl [H1]; · iexact H1
          isplitl [H2]; · iexact H2
          isplitl [H3]; · iexists _; iexact H3
          isplitl [HS0]; · iexact HS0
          isplitl [HS1]; · iexact HS1
          isplitl [HS2]; · iexact HS2
          iintro ⟨H0, H1, H2, ⟨%e3, H3⟩, HS0, HS1, HS2⟩
          isplitl [Hoth HS0 HS1 HS2 Hg]
          · isplitl [Hoth]; · iexact Hoth
            isplitl [HS0]; · iexact HS0
            isplitl [HS1]; · iexact HS1
            isplitl [HS2]; · iexact HS2
            iexact Hg
          isplitl [Ho]; · iexact Ho
          isplitl [H0]; · iexact H0
          isplitl [H1]; · iexact H1
          isplitl [H2]; · iexact H2
          unfold owns; iexists _; isplitr
          swap; · iexact H3
          ipureintro; exact View.read_writes_of_cover _ _ _ _ _ (cover1_E_3 c _ _ _ _ _ _ _ _ _ _ _ _ _ _ _ _ _ _ _ _ _ _ _ _)
      · have hc0 : ¬cond1_0 (grid1.coords t) := fun h => h0 ((hcond1_0 t).mp h)
        have hc1 : ¬cond1_1 (grid1.coords t) := fun h => h1 ((hcond1_1 t).mp h)
        have hc2 : ¬cond1_2 (grid1.coords t) := fun h => h2 ((hcond1_2 t).mp h)
        rw [Dat.leavesExact_idle (dat1 V c) 3 t (idleAt1_3 t hc2) (noFlush1_3 t hc2)]
        rw [outsAt1_D V c t h0 h1 h2]
        unfold caseD; (try dsimp only)
        by_cases hz : t.val = 0
        · exfalso; omega
        · rw [PhiS1_castSucc V c t, PhiS1_pos V c _ _ hz]
          iintro ⟨⟨Hoth, HS0, HS1, HS2, Hg⟩, Ho, ⟨%d0, H0⟩, ⟨%d1, H1⟩, ⟨%d2, H2⟩, ⟨%d3, H3⟩⟩
          iapply (kernelRun1_D c (grid1.coords t) _ _ _ _ _ _ _ _ _ _ _ _ _ _ hc0 hc1 hc2 (iblk1 V c 0 t) (iblk1 V c 1 t) (iblk1 V c 2 t) _ _ _ _ Set.univ _)
          isplitl [H0]; · iexact H0
          isplitl [H1]; · iexact H1
          isplitl [H2]; · iexact H2
          isplitl [H3]; · iexact H3
          isplitl [HS0]; · iexact HS0
          isplitl [HS1]; · iexact HS1
          isplitl [HS2]; · iexact HS2
          iintro ⟨H0, H1, H2, H3, HS0, HS1, HS2⟩
          isplitl [Hoth HS0 HS1 HS2 Hg]
          · isplitl [Hoth]; · iexact Hoth
            isplitl [HS0]; · iexact HS0
            isplitl [HS1]; · iexact HS1
            isplitl [HS2]; · iexact HS2
            iexact Hg
          isplitl [Ho]; · iexact Ho
          isplitl [H0]; · iexact H0
          isplitl [H1]; · iexact H1
          isplitl [H2]; · iexact H2
          iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class invariant back: what the scratch buffers hold is forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega)]
  refine .trans ?_ (PhiA1_join (F := F) c)
  iintro ⟨Hoth, HS0, HS1, HS2, Hg⟩
  isplitl [Hoth]; · iexact Hoth
  isplitl [HS0]; · iexists _; iexact HS0
  isplitl [HS1]; · iexists _; iexact HS1
  isplitl [HS2]; · iexists _; iexact HS2
  iexact Hg

end

end Cert.KernelIdeal.Hand

end
-- ==== Proof.KI.Main.lean ====
/-
  The run of the whole program: two kernel regions in sequence, no host operation between them. The contents of the
  TensorCore's unscoped buffers at the three boundaries are a fold from the launch memory: after a region its arrays
  hold what its pipeline's write-backs leave (an input array what it held, an output array the blocks written back)
  and every other buffer what it held. Each region is a segment over the thread state "every unscoped buffer at the
  boundary's contents, the generator register at some state, nothing owed"; the launch runs the two segments, and the
  last thread state is read against the final memory at every unscoped buffer — the six arguments, which no region
  changes, and the result array.
-/
import proofs.«154889_j71219147702646_2_alg».proof.Proof.KI.Region0
import proofs.«154889_j71219147702646_2_alg».proof.Proof.KI.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffer contents at the boundaries -/

/-- At launch. -/
abbrev W0 : Dev nD → Valuation τ sig (Elt F) := fun c b => (s₀ m ρ).mem ((c : Dev nD), b)
abbrev V0' : (c : Dev nD) → (b : Ref sig .tc) → Buf (Elt F) ((c : Thread nD τ).loc b) := fun c b => W0 m ρ c b
/-- After the projection region. -/
def W1 (c : Dev nD) : Valuation τ sig (Elt F) :=
  Pipeline.withArrays spec0 c (W0 m ρ c) fun w => (dat0 (V0' m ρ) c).arrAt w cfg0.N
theorem W1_arr (c : Dev nD) (w : Fin cfg0.W) :
    W1 m ρ c (Proc.devRef .tc (Pipeline.arrRef spec0 w)) = (dat0 (V0' m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1' : (c : Dev nD) → (b : Ref sig .tc) → Buf (Elt F) ((c : Thread nD τ).loc b) := fun c b => W1 m ρ c b
theorem hF0 (c : Dev nD) (w : Fin cfg0.W) : (dat0 (V0' m ρ) c).arrAt w cfg0.N = V1' m ρ c (Pipeline.arrRef spec0 w) :=
  (W1_arr m ρ c w).symm
theorem hrest0 (c : Dev nD) : ∀ b, b ∉ Finset.univ.image (Pipeline.arrRef spec0) → V1' m ρ c b = V0' m ρ c b :=
  fun b hb => W1_of_ne m ρ c b fun w e => hb (Finset.mem_image.mpr ⟨w, Finset.mem_univ _, e⟩)

/-- After the attention region. -/
def W2 (c : Dev nD) : Valuation τ sig (Elt F) :=
  Pipeline.withArrays spec1 c (W1 m ρ c) fun w => (dat1 (V1' m ρ) c).arrAt w cfg1.N
theorem W2_arr (c : Dev nD) (w : Fin cfg1.W) :
    W2 m ρ c (Proc.devRef .tc (Pipeline.arrRef spec1 w)) = (dat1 (V1' m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2' : (c : Dev nD) → (b : Ref sig .tc) → Buf (Elt F) ((c : Thread nD τ).loc b) := fun c b => W2 m ρ c b
theorem hF1 (c : Dev nD) (w : Fin cfg1.W) : (dat1 (V1' m ρ) c).arrAt w cfg1.N = V2' m ρ c (Pipeline.arrRef spec1 w) :=
  (W2_arr m ρ c w).symm
theorem hrest1 (c : Dev nD) : ∀ b, b ∉ Finset.univ.image (Pipeline.arrRef spec1) → V2' m ρ c b = V1' m ρ c b :=
  fun b hb => W2_of_ne m ρ c b fun w e => hb (Finset.mem_image.mpr ⟨w, Finset.mem_univ _, e⟩)

/-! ### No region changes an argument -/

theorem W2_main_arg0 (c : Dev nD) : W2 m ρ c (Proc.devRef .tc main_arg0) = m ((c : Thread nD τ).loc main_arg0) :=
  calc W2 m ρ c (Proc.devRef .tc main_arg0)
    _ = W1 m ρ c (Proc.devRef .tc main_arg0) := W2_of_ne m ρ c main_arg0 (by decide)
    _ = W0 m ρ c (Proc.devRef .tc main_arg0) := (W1_arr m ρ c 0).trans (((dat0 (V0' m ρ) c).arrAt_in 0 rfl _).trans (A_eq0 (V0' m ρ) c 0))
    _ = m ((c : Thread nD τ).loc main_arg0) := rfl
theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := (W1_arr m ρ c 1).trans (((dat0 (V0' m ρ) c).arrAt_in 1 rfl _).trans (A_eq0 (V0' m ρ) c 1))
    _ = m ((c : Thread nD τ).loc main_arg1) := rfl
theorem W2_main_arg2 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := (W1_arr m ρ c 2).trans (((dat0 (V0' m ρ) c).arrAt_in 2 rfl _).trans (A_eq0 (V0' m ρ) c 2))
    _ = m ((c : Thread nD τ).loc main_arg2) := rfl
theorem W2_main_arg3 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := (W1_arr m ρ c 3).trans (((dat0 (V0' m ρ) c).arrAt_in 3 rfl _).trans (A_eq0 (V0' m ρ) c 3))
    _ = m ((c : Thread nD τ).loc main_arg3) := rfl
theorem W2_main_arg4 (c : Dev nD) : W2 m ρ c (Proc.devRef .tc main_arg4) = m ((c : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) := (W1_arr m ρ c 4).trans (((dat0 (V0' m ρ) c).arrAt_in 4 rfl _).trans (A_eq0 (V0' m ρ) c 4))
    _ = m ((c : Thread nD τ).loc main_arg4) := rfl
theorem W2_main_arg5 (c : Dev nD) : W2 m ρ c (Proc.devRef .tc main_arg5) = m ((c : Thread nD τ).loc main_arg5) :=
  calc W2 m ρ c (Proc.devRef .tc main_arg5)
    _ = W1 m ρ c (Proc.devRef .tc main_arg5) := W2_of_ne m ρ c main_arg5 (by decide)
    _ = W0 m ρ c (Proc.devRef .tc main_arg5) := (W1_arr m ρ c 5).trans (((dat0 (V0' m ρ) c).arrAt_in 5 rfl _).trans (A_eq0 (V0' m ρ) c 5))
    _ = m ((c : Thread nD τ).loc main_arg5) := rfl

/-- The result array ends at what the attention region's write-backs leave. -/
theorem W2_main_v1 (c : Dev nD) : W2 m ρ c (Proc.devRef .tc main_v1) = (dat1 (V1' m ρ) c).arrAt 3 cfg1.N := W2_arr m ρ c 3

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V0' m ρ) c
  | ⟨1, _⟩ => fun c => dat1 (V1' m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m ρ c) ∗ ∃ r, prngReg c r)

/-! ## The regions as segments -/

set_option backward.isDefEq.respectTransparency.types false in
/-- Region 0 over the thread state: entered from every unscoped buffer at the contents before it, left with its arrays
    at what the pipeline's write-backs leave and every other buffer as entered; the generator register goes into the
    region invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0' m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0' m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0' m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]
    unfold Pipeline.ΦA
    iintro ⟨Hp, -, Hr⟩
    isplitl [Hr]; · iexact Hr
    iexact Hp
  hout c := by
    rw [show (pdats m ρ 0 c).Φ (Fin.last _) = Pipeline.ΦA spec0 c from rfl]
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0' m ρ c) (V1' m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left with its arrays
    at what the pipeline's write-backs leave and every other buffer as entered; the generator register goes into the
    region invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1' m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1' m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1' m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (V1' m ρ) c)
    unfold Pipeline.ΦA
    iintro ⟨Hp, -, Hr⟩
    isplitl [Hr]; · iexact Hr
    iexact Hp
  hout c := by
    refine (hout1 (V1' m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1' m ρ c) (V2' m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The launch -/

abbrev segs : List (Pipeline.Seg (pcfgs (F := F)) adm (pdats m ρ) () defs₀ 𝒱₀ L lv) :=
  [ .region (reg0 m ρ), .region (reg1 m ρ) ]
theorem main_run (c : Dev nD) : main (F := F) c = Pipeline.Seg.run (segs m ρ) := (main_chain c).trans (by chain_rfl)

set_option backward.isDefEq.respectTransparency.types false in
/-- Every weakly fair execution of the program terminates, nothing faulting, and the final memory holds every unscoped
    buffer of every core at the contents after the second region. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W2 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c => h c)

/-- The frame: the six argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W2_main_arg0 m ρ c), (h c _ (mem_uc main_arg1 (by decide))).trans (W2_main_arg1 m ρ c),
     (h c _ (mem_uc main_arg2 (by decide))).trans (W2_main_arg2 m ρ c), (h c _ (mem_uc main_arg3 (by decide))).trans (W2_main_arg3 m ρ c),
     (h c _ (mem_uc main_arg4 (by decide))).trans (W2_main_arg4 m ρ c), (h c _ (mem_uc main_arg5 (by decide))).trans (W2_main_arg5 m ρ c)⟩)
    (run_all m ρ)

/-- The same run with the result array named: what the attention region's write-backs leave. -/
theorem run_value : θ_run defs (onTc (τ := τ) (main (F := F))) ⟨m, fun _ => 0, ρ⟩ (fun r => ∀ c : Dev nD,
      r.2.mem ((c.tc : Thread nD τ).loc main_v1) = (dat1 (V1' m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_v1 (by decide))).trans (W2_main_v1 m ρ c),
     (h c _ (mem_uc main_arg0 (by decide))).trans (W2_main_arg0 m ρ c), (h c _ (mem_uc main_arg1 (by decide))).trans (W2_main_arg1 m ρ c),
     (h c _ (mem_uc main_arg2 (by decide))).trans (W2_main_arg2 m ρ c), (h c _ (mem_uc main_arg3 (by decide))).trans (W2_main_arg3 m ρ c),
     (h c _ (mem_uc main_arg4 (by decide))).trans (W2_main_arg4 m ρ c), (h c _ (mem_uc main_arg5 (by decide))).trans (W2_main_arg5 m ρ c)⟩)
    (run_all m ρ)

end Cert.KernelIdeal.Hand

end
-- ==== Proof.LibLastAxisSoftmax.lean ====
/-
  Softmax along the last axis, read at an index, on the extended reals.

  A row of extended reals `f : Fin c → EReal` has the softmax
  `exp (f l - M) / ∑ k, exp (f k - M)`, with `M` the row's maximum taken from the word of minus
  infinity upward (`softmaxAt`). Two programs compute it, each along the LAST axis of an array:
  * a vector program on a rank-3 array [a, b, c]: the maximum and the sum are lane reductions to
    [a, b], each kept as a unit axis [a, b, 1] and broadcast back to [a, b, c] (`vecSoftmax3`);
  * a host program on a rank-4 array [a, b, g, c]: the maximum and the sum are reductions over
    axis 3 to [a, b, g], the maximum joined once more with minus infinity (which changes nothing),
    each broadcast back through [a, b, g, 1] (`hostSoftmax4`).
  Read at an index both are `softmaxAt` of the row through that index
  (`vecSoftmax3_apply`, `hostSoftmax4_apply`): no law of arithmetic is used beyond
  `max b (fold max b f) = fold max b f` and `0 + s = s`.
-/
import Idealize.ShloMosaic.PureOps.Ideal.Laws
import Idealize.ShloMosaic.Lib.ValueIdx
import Idealize.ShloMosaic.Lib.Pipeline.Value

noncomputable section

open scoped BigOperators

namespace Idealize.ShloMosaic.LastAxisSoftmax

open Idealize.ShloMosaic Idealize.ShloMosaic.ValueIdx

/-- The extended real that the f32 word of minus infinity denotes; it is only ever compared with itself. -/
abbrev negInf : EReal := Ideal.ofBits .f32 0xFF800000#32

/-- The softmax of the row `f` at its member `l`: the maximum is folded from `negInf`. -/
def softmaxAt {c : Nat} (f : Fin c → EReal) (l : Fin c) : EReal :=
  Ideal.div (Ideal.exp (f l - (Finset.univ : Finset (Fin c)).fold max negInf f))
    (∑ k : Fin c, Ideal.exp (f k - (Finset.univ : Finset (Fin c)).fold max negInf f))

/-! ## The vector program, rank 3 -/

section Vec
variable {n0 n1 n2 : Nat}

/-- A reduced array [a, b], given a unit last axis and broadcast along it to [a, b, c], reads at
    (p, g, l) what it held at (p, g). -/
theorem keepdims3_apply {α : Type} (v : (⟨2, ![n0, n1]⟩ : Shape).Idx → α)
    (hc : (⟨2, ![n0, n1]⟩ : Shape).ShapeCasts ⟨3, ![n0, n1, 1]⟩)
    (hb : (⟨3, ![n0, n1, 1]⟩ : Shape).Broadcasts ⟨3, ![n0, n1, n2]⟩)
    (p : Fin n0) (g : Fin n1) (l : Fin n2) :
    broadcastTo ⟨3, ![n0, n1, n2]⟩ (shapeCast ⟨3, ![n0, n1, 1]⟩ v hc) hb (ix3 p g l) = v (ix2 p g) := by
  rw [broadcastTo_apply _ hb (ix3 p g l) (ix3 p g (⟨0, Nat.one_pos⟩ : Fin 1)) (fun a => by
    match a with
    | ⟨0, _⟩ =>
      show p.val = if n0 = 1 then 0 else p.val
      split
      · have := p.isLt; omega
      · rfl
    | ⟨1, _⟩ =>
      show g.val = if n1 = 1 then 0 else g.val
      split
      · have := g.isLt; omega
      · rfl
    | ⟨2, _⟩ =>
      show 0 = if (1 : Nat) = 1 then 0 else l.val
      rw [if_pos rfl])]
  exact shapeCast_apply v hc _ (ix2 p g) (by
    rw [Shape.rowMajor_val_two, Shape.rowMajor_val_three]
    show p.val * n1 + g.val = (p.val * n1 + g.val) * 1 + 0
    omega)

/-- The index of [a, b, c] over (p, g) of [a, b] with `k` on the reduced last axis is (p, g, k). -/
theorem lift3 (hr : (⟨3, ![n0, n1, n2]⟩ : Shape).Reduces [2] ⟨2, ![n0, n1]⟩) (p : Fin n0) (g : Fin n1) (k : Fin n2) :
    hr.lift (ix2 p g) k = ix3 p g k := by
  funext a
  apply Fin.ext
  match a with
  | ⟨0, _⟩ => rfl
  | ⟨1, _⟩ => rfl
  | ⟨2, _⟩ => rfl

variable {F : FTy → Type} [FloatOps F]

/-- The vector program: subtract the lane maximum, exponentiate, divide by the lane sum. -/
def vecSoftmax3 (X : FVec F ⟨3, ![n0, n1, n2]⟩ .f32)
    (hr : (⟨3, ![n0, n1, n2]⟩ : Shape).Reduces [2] ⟨2, ![n0, n1]⟩)
    (hc : (⟨2, ![n0, n1]⟩ : Shape).ShapeCasts ⟨3, ![n0, n1, 1]⟩)
    (hb : (⟨3, ![n0, n1, 1]⟩ : Shape).Broadcasts ⟨3, ![n0, n1, n2]⟩)
    (hφ : FKind.Formats .f32) (hmax : (0xFF800000#32 : BitVec 32) = FKind.maximumf.neutral .f32 hφ)
    (hadd : (0x00000000#32 : BitVec 32) = FKind.add.neutral .f32 hφ) : FVec F ⟨3, ![n0, n1, n2]⟩ .f32 :=
  divf
    (exp (subf X (broadcastTo ⟨3, ![n0, n1, n2]⟩ (shapeCast ⟨3, ![n0, n1, 1]⟩
      (multiReduction .maximumf [2] ⟨2, ![n0, n1]⟩ X 0xFF800000#32 hr hφ hmax) hc) hb)))
    (broadcastTo ⟨3, ![n0, n1, n2]⟩ (shapeCast ⟨3, ![n0, n1, 1]⟩
      (multiReduction .add [2] ⟨2, ![n0, n1]⟩
        (exp (subf X (broadcastTo ⟨3, ![n0, n1, n2]⟩ (shapeCast ⟨3, ![n0, n1, 1]⟩
          (multiReduction .maximumf [2] ⟨2, ![n0, n1]⟩ X 0xFF800000#32 hr hφ hmax) hc) hb)))
        0x00000000#32 hr hφ hadd) hc) hb)

end Vec

/-- Read at (p, g, l), the vector program is the softmax of row (p, g, ·) at `l`. -/
theorem vecSoftmax3_apply {n0 n1 n2 : Nat} (X : FVec Ideal ⟨3, ![n0, n1, n2]⟩ .f32)
    (hr : (⟨3, ![n0, n1, n2]⟩ : Shape).Reduces [2] ⟨2, ![n0, n1]⟩)
    (hc : (⟨2, ![n0, n1]⟩ : Shape).ShapeCasts ⟨3, ![n0, n1, 1]⟩)
    (hb : (⟨3, ![n0, n1, 1]⟩ : Shape).Broadcasts ⟨3, ![n0, n1, n2]⟩)
    (hφ : FKind.Formats .f32) (hmax : (0xFF800000#32 : BitVec 32) = FKind.maximumf.neutral .f32 hφ)
    (hadd : (0x00000000#32 : BitVec 32) = FKind.add.neutral .f32 hφ) (p : Fin n0) (g : Fin n1) (l : Fin n2) :
    vecSoftmax3 (F := Ideal) X hr hc hb hφ hmax hadd (ix3 p g l) = softmaxAt (fun k : Fin n2 => X (ix3 p g k)) l := by
  -- the lane maximum at (p, g): the fold of `max` over the row
  have hM : multiReduction .maximumf [2] ⟨2, ![n0, n1]⟩ X 0xFF800000#32 hr hφ hmax (ix2 p g)
      = (Finset.univ : Finset (Fin n2)).fold max negInf (fun k : Fin n2 => X (ix3 p g k)) := by
    rw [Ideal.multiReduction_maximumf_single]
    exact congrArg (fun f : Fin n2 → EReal => (Finset.univ : Finset (Fin n2)).fold max negInf f)
      (funext fun k => congrArg X (lift3 hr p g k))
  -- the exponentials at (p, g, k)
  have hE : ∀ k : Fin n2,
      exp (subf X (broadcastTo ⟨3, ![n0, n1, n2]⟩ (shapeCast ⟨3, ![n0, n1, 1]⟩
        (multiReduction .maximumf [2] ⟨2, ![n0, n1]⟩ X 0xFF800000#32 hr hφ hmax) hc) hb)) (ix3 p g k)
      = Ideal.exp (X (ix3 p g k) - (Finset.univ : Finset (Fin n2)).fold max negInf (fun k : Fin n2 => X (ix3 p g k))) := by
    intro k
    show Ideal.exp (X (ix3 p g k) - broadcastTo ⟨3, ![n0, n1, n2]⟩ (shapeCast ⟨3, ![n0, n1, 1]⟩
        (multiReduction .maximumf [2] ⟨2, ![n0, n1]⟩ X 0xFF800000#32 hr hφ hmax) hc) hb (ix3 p g k)) = _
    rw [keepdims3_apply, hM]
  unfold vecSoftmax3 softmaxAt
  show Ideal.div _ _ = _
  rw [hE l, keepdims3_apply, Ideal.multiReduction_add_single]
  refine congrArg (Ideal.div _) ?_
  exact Finset.sum_congr rfl fun k _ => by rw [lift3 hr p g k, hE k]

/-! ## The host program, rank 4 -/

section Host
variable {n0 n1 n2 n3 : Nat}

/-- A reduced array [a, b, g], broadcast to [a, b, g, 1] and then along the unit axis to [a, b, g, c],
    reads at (a, b, g, l) what it held at (a, b, g). -/
theorem keepdims4_apply {α : Type} (v : (⟨3, ![n0, n1, n2]⟩ : Shape).Idx → α)
    (h1 : (⟨3, ![n0, n1, n2]⟩ : Shape).BroadcastsInDim ⟨4, ![n0, n1, n2, 1]⟩ (![0, 1, 2] : Fin 3 → Fin 4))
    (h2 : (⟨4, ![n0, n1, n2, 1]⟩ : Shape).BroadcastsInDim ⟨4, ![n0, n1, n2, n3]⟩ (![0, 1, 2, 3] : Fin 4 → Fin 4))
    (a : Fin n0) (b : Fin n1) (g : Fin n2) (l : Fin n3) :
    broadcastInDim ⟨4, ![n0, n1, n2, n3]⟩ ![0, 1, 2, 3] h2 (broadcastInDim ⟨4, ![n0, n1, n2, 1]⟩ ![0, 1, 2] h1 v) (ix4 a b g l)
      = v (ix3 a b g) := by
  rw [broadcastInDim_apply _ h2 _ (ix4 a b g l) (ix4 a b g (⟨0, Nat.one_pos⟩ : Fin 1)) (fun d => by
    match d with
    | ⟨0, _⟩ =>
      show a.val = if n0 = 1 then 0 else a.val
      split
      · have := a.isLt; omega
      · rfl
    | ⟨1, _⟩ =>
      show b.val = if n1 = 1 then 0 else b.val
      split
      · have := b.isLt; omega
      · rfl
    | ⟨2, _⟩ =>
      show g.val = if n2 = 1 then 0 else g.val
      split
      · have := g.isLt; omega
      · rfl
    | ⟨3, _⟩ =>
      show 0 = if (1 : Nat) = 1 then 0 else l.val
      rw [if_pos rfl])]
  exact broadcastInDim_apply _ h1 v _ (ix3 a b g) (fun d => by
    match d with
    | ⟨0, _⟩ =>
      show a.val = if n0 = 1 then 0 else a.val
      split
      · have := a.isLt; omega
      · rfl
    | ⟨1, _⟩ =>
      show b.val = if n1 = 1 then 0 else b.val
      split
      · have := b.isLt; omega
      · rfl
    | ⟨2, _⟩ =>
      show g.val = if n2 = 1 then 0 else g.val
      split
      · have := g.isLt; omega
      · rfl)

/-- The index of [a, b, g, c] over (a, b, g) with `k` on the reduced last axis is (a, b, g, k). -/
theorem lift4 (hr : (⟨4, ![n0, n1, n2, n3]⟩ : Shape).Reduces [3] ⟨3, ![n0, n1, n2]⟩) (a : Fin n0) (b : Fin n1) (g : Fin n2)
    (k : Fin n3) : hr.lift (ix3 a b g) k = ix4 a b g k := by
  funext d
  apply Fin.ext
  match d with
  | ⟨0, _⟩ => rfl
  | ⟨1, _⟩ => rfl
  | ⟨2, _⟩ => rfl
  | ⟨3, _⟩ => rfl

variable {F : FTy → Type} [FloatOps F]

/-- The host program: the maximum over axis 3 joined with minus infinity, subtracted, exponentiated, divided by
    the sum over axis 3 (from zero). -/
def hostSoftmax4 (X : FVec F ⟨4, ![n0, n1, n2, n3]⟩ .f32)
    (hred : (⟨4, ![n0, n1, n2, n3]⟩ : Shape).ReducesTo [3] ⟨3, ![n0, n1, n2]⟩)
    (hu : 0 < (⟨0, ![]⟩ : Shape).numel)
    (h0 : (⟨0, ![]⟩ : Shape).BroadcastsInDim ⟨3, ![n0, n1, n2]⟩ (![] : Fin 0 → Fin 3))
    (h1 : (⟨3, ![n0, n1, n2]⟩ : Shape).BroadcastsInDim ⟨4, ![n0, n1, n2, 1]⟩ (![0, 1, 2] : Fin 3 → Fin 4))
    (h2 : (⟨4, ![n0, n1, n2, 1]⟩ : Shape).BroadcastsInDim ⟨4, ![n0, n1, n2, n3]⟩ (![0, 1, 2, 3] : Fin 4 → Fin 4)) :
    FVec F ⟨4, ![n0, n1, n2, n3]⟩ .f32 :=
  Host.divf
    (Host.exp (subf X (broadcastInDim ⟨4, ![n0, n1, n2, n3]⟩ ![0, 1, 2, 3] h2 (broadcastInDim ⟨4, ![n0, n1, n2, 1]⟩ ![0, 1, 2] h1
      (maximumf (broadcastInDim ⟨3, ![n0, n1, n2]⟩ ![] h0 (constant ⟨0, ![]⟩ .f32 0xFF800000#32))
        (Host.reduce FloatOps.maximumf X (constant ⟨0, ![]⟩ .f32 0xFF800000#32) hred hu))))))
    (broadcastInDim ⟨4, ![n0, n1, n2, n3]⟩ ![0, 1, 2, 3] h2 (broadcastInDim ⟨4, ![n0, n1, n2, 1]⟩ ![0, 1, 2] h1
      (Host.reduceAdd
        (Host.exp (subf X (broadcastInDim ⟨4, ![n0, n1, n2, n3]⟩ ![0, 1, 2, 3] h2 (broadcastInDim ⟨4, ![n0, n1, n2, 1]⟩ ![0, 1, 2] h1
          (maximumf (broadcastInDim ⟨3, ![n0, n1, n2]⟩ ![] h0 (constant ⟨0, ![]⟩ .f32 0xFF800000#32))
            (Host.reduce FloatOps.maximumf X (constant ⟨0, ![]⟩ .f32 0xFF800000#32) hred hu))))))
        (constant ⟨0, ![]⟩ .f32 0x00000000#32) hred hu)))

end Host

/-- Read at (a, b, g, l), the host program is the softmax of row (a, b, g, ·) at `l`. -/
theorem hostSoftmax4_apply {n0 n1 n2 n3 : Nat} (X : FVec Ideal ⟨4, ![n0, n1, n2, n3]⟩ .f32)
    (hred : (⟨4, ![n0, n1, n2, n3]⟩ : Shape).ReducesTo [3] ⟨3, ![n0, n1, n2]⟩)
    (hr : (⟨4, ![n0, n1, n2, n3]⟩ : Shape).Reduces [3] ⟨3, ![n0, n1, n2]⟩)
    (hu : 0 < (⟨0, ![]⟩ : Shape).numel)
    (h0 : (⟨0, ![]⟩ : Shape).BroadcastsInDim ⟨3, ![n0, n1, n2]⟩ (![] : Fin 0 → Fin 3))
    (h1 : (⟨3, ![n0, n1, n2]⟩ : Shape).BroadcastsInDim ⟨4, ![n0, n1, n2, 1]⟩ (![0, 1, 2] : Fin 3 → Fin 4))
    (h2 : (⟨4, ![n0, n1, n2, 1]⟩ : Shape).BroadcastsInDim ⟨4, ![n0, n1, n2, n3]⟩ (![0, 1, 2, 3] : Fin 4 → Fin 4))
    (a : Fin n0) (b : Fin n1) (g : Fin n2) (l : Fin n3) :
    hostSoftmax4 (F := Ideal) X hred hu h0 h1 h2 (ix4 a b g l) = softmaxAt (fun k : Fin n3 => X (ix4 a b g k)) l := by
  -- the maximum at (a, b, g): joining the fold from minus infinity with minus infinity changes nothing
  have hM : maximumf (broadcastInDim ⟨3, ![n0, n1, n2]⟩ ![] h0 (constant (F := Ideal) ⟨0, ![]⟩ .f32 0xFF800000#32))
        (Host.reduce FloatOps.maximumf X (constant (F := Ideal) ⟨0, ![]⟩ .f32 0xFF800000#32) hred hu) (ix3 a b g)
      = (Finset.univ : Finset (Fin n3)).fold max negInf (fun k : Fin n3 => X (ix4 a b g k)) := by
    show max (broadcastInDim ⟨3, ![n0, n1, n2]⟩ ![] h0 (constant (F := Ideal) ⟨0, ![]⟩ .f32 0xFF800000#32) (ix3 a b g))
        (Host.reduce FloatOps.maximumf X (constant (F := Ideal) ⟨0, ![]⟩ .f32 0xFF800000#32) hred hu (ix3 a b g)) = _
    rw [Host.reduce_eq_fold_single FloatOps.maximumf X _ hred hr hu (ix3 a b g),
      broadcastInDim_apply _ h0 _ (ix3 a b g) ix0 (fun d => d.elim0)]
    show max negInf (Finset.univ.fold max negInf (X ∘ hr.lift (ix3 a b g))) = _
    rw [max_eq_right ((Finset.le_fold_max _).2 (Or.inl le_rfl))]
    exact congrArg (fun f : Fin n3 → EReal => (Finset.univ : Finset (Fin n3)).fold max negInf f)
      (funext fun k => congrArg X (lift4 hr a b g k))
  -- the exponentials at (a, b, g, k)
  have hE : ∀ k : Fin n3,
      Host.exp (subf X (broadcastInDim ⟨4, ![n0, n1, n2, n3]⟩ ![0, 1, 2, 3] h2 (broadcastInDim ⟨4, ![n0, n1, n2, 1]⟩ ![0, 1, 2] h1
          (maximumf (broadcastInDim ⟨3, ![n0, n1, n2]⟩ ![] h0 (constant (F := Ideal) ⟨0, ![]⟩ .f32 0xFF800000#32))
            (Host.reduce FloatOps.maximumf X (constant (F := Ideal) ⟨0, ![]⟩ .f32 0xFF800000#32) hred hu))))) (ix4 a b g k)
      = Ideal.exp (X (ix4 a b g k) - (Finset.univ : Finset (Fin n3)).fold max negInf (fun k : Fin n3 => X (ix4 a b g k))) := by
    intro k
    show Ideal.exp (X (ix4 a b g k) - broadcastInDim ⟨4, ![n0, n1, n2, n3]⟩ ![0, 1, 2, 3] h2 (broadcastInDim ⟨4, ![n0, n1, n2, 1]⟩ ![0, 1, 2] h1
          (maximumf (broadcastInDim ⟨3, ![n0, n1, n2]⟩ ![] h0 (constant (F := Ideal) ⟨0, ![]⟩ .f32 0xFF800000#32))
            (Host.reduce FloatOps.maximumf X (constant (F := Ideal) ⟨0, ![]⟩ .f32 0xFF800000#32) hred hu))) (ix4 a b g k)) = _
    rw [keepdims4_apply, hM]
  unfold hostSoftmax4 softmaxAt
  show Ideal.div _ _ = _
  rw [hE l, keepdims4_apply]
  refine congrArg (Ideal.div _) ?_
  show Ideal.hostReduceAdd hred _ (Ideal.ofBits .f32 0x00000000#32) (ix3 a b g) = _
  rw [Ideal.hostReduceAdd_single hred hr, Ideal.ofBits_zero_f32, zero_add]
  exact Finset.sum_congr rfl fun k _ => by rw [lift4 hr a b g k, hE k]

end Idealize.ShloMosaic.LastAxisSoftmax

end
-- ==== Proof.Spec.lean ====
/-
  What both programs compute, as one function of the six argument arrays, on the extended reals.

  Three projections x·W (a sum over the 1024 input features); the score of query row i against key
  row j is the dot product of their projections over the 64 head features times 1/8, kept where
  j ≤ i and minus infinity elsewhere; each row of scores goes through the softmax; the output row is
  the softmax-weighted sum of the projected value rows.
-/
import Idealize.ShloMosaic.PureOps.Ideal
import Idealize.ShloMosaic.Lib.ValueIdx
import proofs.«154889_j71219147702646_2_alg».proof.Proof.LibLastAxisSoftmax

noncomputable section

open scoped BigOperators

namespace Cert.Spec

open Idealize.ShloMosaic Idealize.ShloMosaic.ValueIdx Idealize.ShloMosaic.LastAxisSoftmax

/-- The shape of query, key and value: batch, sequence position, input feature. -/
abbrev SX : Shape := ⟨3, ![4, 4096, 1024]⟩
/-- The shape of a projection matrix: input feature, head feature. -/
abbrev SW : Shape := ⟨2, ![1024, 64]⟩
/-- The shape of a projected array and of the result: batch, sequence position, head feature. -/
abbrev SO : Shape := ⟨3, ![4, 4096, 64]⟩

/-- A projected array by coordinates. -/
abbrev Proj : Type := Fin 4 → Fin 4096 → Fin 64 → EReal

/-- The projection x·W at batch b, position t, head feature h. -/
def proj (x : SX.Idx → EReal) (W : SW.Idx → EReal) : Proj := fun b t h =>
  ∑ c : Fin 1024, x (ix3 b t c) * W (ix2 c h)

/-- The factor 1/8 = 64^(-1/2), as the f32 word both programs carry. -/
abbrev scale : EReal := Ideal.ofBits .f32 0x3E000000#32

/-- The masked, scaled score of query position i against key position j in batch b. -/
def score (q k : Proj) (b : Fin 4) (i j : Fin 4096) : EReal :=
  if j.val ≤ i.val then (∑ h : Fin 64, q b i h * k b j h) * scale else negInf

/-- Causal attention at batch b, query position i, head feature h. -/
def attn (q k v : Proj) (b : Fin 4) (i : Fin 4096) (h : Fin 64) : EReal :=
  ∑ j : Fin 4096, softmaxAt (fun j' : Fin 4096 => score q k b i j') j * v b j h

/-- The result array as a function of the six arguments. -/
def G (x0 x1 x2 : SX.Idx → EReal) (W3 W4 W5 : SW.Idx → EReal) : SO.Idx → EReal := fun i =>
  attn (proj x0 W3) (proj x1 W4) (proj x2 W5) (i 0) (i 1) (i 2)

theorem G_apply (x0 x1 x2 : SX.Idx → EReal) (W3 W4 W5 : SW.Idx → EReal) (b : Fin 4) (t : Fin 4096) (h : Fin 64) :
    G x0 x1 x2 W3 W4 W5 (ix3 b t h) = attn (proj x0 W3) (proj x1 W4) (proj x2 W5) b t h := rfl

end Cert.Spec

end
-- ==== Proof.LibHostRead.lean ====
/-
  Host and kernel layout operations read at an index of a rank-2 array, and a plain matrix product as a sum.

  `broadcast_in_dim` in the five forms a row-wise reference uses — a vector as the one row or the one column of a
  matrix, a row or a column repeated along a matrix, a scalar spread over any shape —, each read at `ix2 p c`; and a
  dot that is rows × contraction times contraction × columns (`PlainDot`: one contracted axis, the four coordinate
  facts, each a `decide` or a library lemma at a literal dot) read at `(p, j)` as `Σ k, lhs (p, k) · rhs (k, j)`,
  for the host's `dot_general` and for the kernel's matrix product into the zero accumulator. On the extended reals.
-/
import Idealize.ShloMosaic.Lib.Pipeline.Value
import Idealize.ShloMosaic.Lib.ValueIdx
import Idealize.ShloMosaic.PureOps.Ideal.Laws

noncomputable section

namespace Cert.LibHostRead

open Idealize.ShloMosaic Idealize.ShloMosaic.ValueIdx

variable {α : Type}

/-- A vector `[b]` placed as the one row of `[1, b]`: at `(u, c)` it reads the vector at `c`. -/
theorem bid_b_1b_apply {b : ℕ} (x : (⟨1, ![b]⟩ : Shape).Idx → α) (h : (⟨1, ![b]⟩ : Shape).BroadcastsInDim ⟨2, ![1, b]⟩ ![1])
    (u : Fin 1) (c : Fin b) : broadcastInDim ⟨2, ![1, b]⟩ ![1] h x (ix2 u c) = x (ix1 c) :=
  broadcastInDim_apply _ h x _ _ fun a => by
    match a with
    | ⟨0, _⟩ =>
      show c.val = if b = 1 then 0 else c.val
      split
      · have := c.isLt; omega
      · rfl

/-- A row `[1, b]` repeated along `[a, b]`: at `(p, c)` it reads the row at `c`. -/
theorem bid_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) :=
  broadcastInDim_apply _ h v _ _ fun ax => by
    match ax with
    | ⟨0, _⟩ => show 0 = if (1 : ℕ) = 1 then 0 else p.val; rw [if_pos rfl]
    | ⟨1, _⟩ =>
      show c.val = if b = 1 then 0 else c.val
      split
      · have := c.isLt; omega
      · rfl

/-- A vector `[a]` placed as the one column of `[a, 1]`: at `(p, u)` it reads the vector at `p`. -/
theorem bid_a_a1_apply {a : ℕ} (x : (⟨1, ![a]⟩ : Shape).Idx → α) (h : (⟨1, ![a]⟩ : Shape).BroadcastsInDim ⟨2, ![a, 1]⟩ ![0])
    (p : Fin a) (u : Fin 1) : broadcastInDim ⟨2, ![a, 1]⟩ ![0] h x (ix2 p u) = x (ix1 p) :=
  broadcastInDim_apply _ h x _ _ fun ax => by
    match ax with
    | ⟨0, _⟩ =>
      show p.val = if a = 1 then 0 else p.val
      split
      · have := p.isLt; omega
      · rfl

/-- A column `[a, 1]` repeated along `[a, b]`: at `(p, c)` it reads the column at `p`. -/
theorem bid_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) :=
  broadcastInDim_apply _ h v _ _ fun ax => by
    match ax with
    | ⟨0, _⟩ =>
      show p.val = if a = 1 then 0 else p.val
      split
      · have := p.isLt; omega
      · rfl
    | ⟨1, _⟩ => show 0 = if (1 : ℕ) = 1 then 0 else c.val; rw [if_pos rfl]

/-- A scalar spread over any shape reads the scalar everywhere. -/
theorem bid_scalar_apply {t : Shape} (x : (⟨0, ![]⟩ : Shape).Idx → α) (h : (⟨0, ![]⟩ : Shape).BroadcastsInDim t ![])
    (i : t.Idx) : broadcastInDim t ![] h x i = x ix0 :=
  broadcastInDim_apply _ h x i ix0 fun a => a.elim0

/-- What makes a dot a plain product of an `M × K` by a `K × N` matrix: one contracted axis of extent `K`; the left operand
    is read at (row of the result, contracted coordinate), the right at (contracted coordinate, column of the result). -/
structure PlainDot {M K N : ℕ} (d : DotDims ⟨2, ![M, K]⟩ ⟨2, ![K, N]⟩ ⟨2, ![M, N]⟩) : Prop where
  hr : d.contr.rank = 1
  hs : d.contr.size ⟨0, by omega⟩ = K
  hl0 : ∀ (i : (⟨2, ![M, N]⟩ : Shape).Idx) (q : d.contr.Idx), (d.lhsIdx i q 0).val = (i 0).val
  hl1 : ∀ (i : (⟨2, ![M, N]⟩ : Shape).Idx) (q : d.contr.Idx), (d.lhsIdx i q 1).val = (q ⟨0, by omega⟩).val
  hr0 : ∀ (i : (⟨2, ![M, N]⟩ : Shape).Idx) (q : d.contr.Idx), (d.rhsIdx i q 0).val = (q ⟨0, by omega⟩).val
  hr1 : ∀ (i : (⟨2, ![M, N]⟩ : Shape).Idx) (q : d.contr.Idx), (d.rhsIdx i q 1).val = (i 1).val

/-- The sum over a plain dot's contraction index is the sum over `Fin K` of the products along row `p` and column `j`. -/
theorem PlainDot.sum_eq {M K N : ℕ} {d : DotDims ⟨2, ![M, K]⟩ ⟨2, ![K, N]⟩ ⟨2, ![M, N]⟩} (hd : PlainDot d)
    (lhs : (⟨2, ![M, K]⟩ : Shape).Idx → EReal) (rhs : (⟨2, ![K, N]⟩ : Shape).Idx → EReal) (p : Fin M) (j : Fin N) :
    ∑ k : d.contr.Idx, lhs (d.lhsIdx (ix2 p j) k) * rhs (d.rhsIdx (ix2 p j) k) = ∑ k : Fin K, lhs (ix2 p k) * rhs (ix2 k j) := by
  rw [← Equiv.sum_comp (contrEquiv1 d K hd.hr hd.hs).symm]
  refine Finset.sum_congr rfl fun k _ => ?_
  have hk := contrEquiv1_symm_val d K hd.hr hd.hs k
  have el : d.lhsIdx (ix2 p j) ((contrEquiv1 d K hd.hr hd.hs).symm k) = ix2 p k := funext fun a => Fin.ext (by
    match a with
    | ⟨0, _⟩ => exact hd.hl0 _ _
    | ⟨1, _⟩ => exact (hd.hl1 _ _).trans hk)
  have er : d.rhsIdx (ix2 p j) ((contrEquiv1 d K hd.hr hd.hs).symm k) = ix2 k j := funext fun a => Fin.ext (by
    match a with
    | ⟨0, _⟩ => exact (hd.hr0 _ _).trans hk
    | ⟨1, _⟩ => exact hd.hr1 _ _)
  rw [el, er]

/-- The host's product of two matrices at `(p, j)`. -/
theorem dotGeneral_plain_apply {M K N : ℕ} {φ₁ φ₂ : FTy} (d : DotDims ⟨2, ![M, K]⟩ ⟨2, ![K, N]⟩ ⟨2, ![M, N]⟩)
    (hd : PlainDot d) (lhs : FVec Ideal ⟨2, ![M, K]⟩ φ₁) (rhs : FVec Ideal ⟨2, ![K, N]⟩ φ₂) (p : Fin M) (j : Fin N) :
    FloatOps.dotGeneral d none .single lhs rhs (ix2 p j) = ∑ k : Fin K, lhs (ix2 p k) * rhs (ix2 k j) := by
  rw [Ideal.dotGeneral_apply]
  exact hd.sum_eq lhs rhs p j

/-- The kernel's matrix product into the zero accumulator at `(p, j)`. -/
theorem matmul_plain_zero_apply {M K N : ℕ} {φ₁ φ₂ : FTy} (d : DotDims ⟨2, ![M, K]⟩ ⟨2, ![K, N]⟩ ⟨2, ![M, N]⟩)
    (hd : PlainDot d) (lhs : FVec Ideal ⟨2, ![M, K]⟩ φ₁) (rhs : FVec Ideal ⟨2, ![K, N]⟩ φ₂) (p : Fin M) (j : Fin N) :
    FloatOps.matmul d none lhs rhs (constant ⟨2, ![M, N]⟩ .f32 0x00000000#32) (ix2 p j)
      = ∑ k : Fin K, lhs (ix2 p k) * rhs (ix2 k j) := by
  rw [Ideal.matmul_constant_zero_apply]
  exact hd.sum_eq lhs rhs p j

end Cert.LibHostRead

end
-- ==== Proof.KI.Value0.lean ====
/-
  What the first call leaves in its three result arrays: the three projections.

  At each point of its 4 × 4 grid the call multiplies one block of 1024 rows of an activation by a whole
  weight matrix and stores the product over the matching block of the result. A block is carried with a
  leading unit axis, which the body removes before the product and restores after it; at the ideal
  reading the format changes around the product are the identity, so the product read at row r and
  column h is the sum over the 1024 input features of activation times weight. Block (b, q) holds rows
  1024 q … 1024 q + 1023 of batch b, the sixteen blocks tile the result, so the result array read at
  (b, t, h) is the projection at (b, t, h).
-/
import proofs.«154889_j71219147702646_2_alg».proof.Proof.KI.Region0
import proofs.«154889_j71219147702646_2_alg».proof.Proof.Spec
import proofs.«154889_j71219147702646_2_alg».proof.Proof.LibHostRead

noncomputable section

open scoped BigOperators

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

/-! ## The body's product, read at a row and a column -/

/-- The projections' dot is a plain product of a 1024 × 1024 by a 1024 × 64 matrix. -/
theorem plainDot : Cert.LibHostRead.PlainDot (M := 1024) (K := 1024) (N := 64) dot_S1024x1024_S1024x64_S1024x64_1_0_0_1_n_n where
  hr := rfl
  hs := rfl
  hl0 := fun i q => by
    unfold DotDims.lhsIdx
    rw [dif_neg (show ¬(0 : Fin S1024x1024.rank) ∈ dot_S1024x1024_S1024x64_S1024x64_1_0_0_1_n_n.lhsBatch by decide),
      dif_pos (show (0 : Fin S1024x1024.rank) ∈ dot_S1024x1024_S1024x64_S1024x64_1_0_0_1_n_n.lhsNonContracting by decide)]
    rfl
  hl1 := fun i q => dot_S1024x1024_S1024x64_S1024x64_1_0_0_1_n_n.lhsIdx_val_of_single rfl i q
  hr0 := fun i q => dot_S1024x1024_S1024x64_S1024x64_1_0_0_1_n_n.rhsIdx_val_of_single rfl i q
  hr1 := fun i q => by
    unfold DotDims.rhsIdx
    rw [dif_neg (show ¬(1 : Fin S1024x64.rank) ∈ dot_S1024x1024_S1024x64_S1024x64_1_0_0_1_n_n.rhsBatch by decide),
      dif_pos (show (1 : Fin S1024x64.rank) ∈ dot_S1024x1024_S1024x64_S1024x64_1_0_0_1_n_n.rhsNonContracting by decide)]
    rfl

/-- Row r, column h of a [1024, 64] array sits at (0, r, h) of the same array with a leading unit axis. -/
theorem flat_out (r : Fin 1024) (h : Fin 64) :
    (S1024x64.rowMajor (ix2 r h)).val = (S1x1024x64.rowMajor (ix3 (0 : Fin 1) r h)).val := by
  rw [Shape.rowMajor_val_two, Shape.rowMajor_val_three]
  show r.val * 64 + h.val = ((0 : ℕ) * 1024 + r.val) * 64 + h.val
  omega

/-- Row r, column k of a [1024, 1024] array sits at (0, r, k) of the same array with a leading unit axis. -/
theorem flat_in (r k : Fin 1024) :
    (S1x1024x1024.rowMajor (ix3 (0 : Fin 1) r k)).val = (S1024x1024.rowMajor (ix2 r k)).val := by
  rw [Shape.rowMajor_val_two, Shape.rowMajor_val_three]
  show ((0 : ℕ) * 1024 + r.val) * 1024 + k.val = r.val * 1024 + k.val
  omega

/-- The first pair's product at (0, r, h). -/
theorem pay2_apply (x0 : Vec Ideal S1x1024x1024 .f32) (x3 : Vec Ideal S1024x64 .f32) (r : Fin 1024) (h : Fin 64) :
    k0_pay2 (F := Ideal) x0 x3 (ix3 (0 : Fin 1) r h) = ∑ k : Fin 1024, x0 (ix3 (0 : Fin 1) r k) * x3 (ix2 k h) := by
  unfold k0_pay2
  refine (shapeCast_apply _ _ (ix3 (0 : Fin 1) r h) (ix2 r h) (flat_out r h)).trans ?_
  refine (Cert.LibHostRead.matmul_plain_zero_apply _ plainDot _ _ r h).trans ?_
  refine Finset.sum_congr rfl fun k _ => ?_
  refine congrArg (· * x3 (ix2 k h)) ?_
  exact shapeCast_apply x0 _ (ix2 r k) (ix3 (0 : Fin 1) r k) (flat_in r k)

/-- The second pair's product at (0, r, h). -/
theorem pay3_apply (x1 : Vec Ideal S1x1024x1024 .f32) (x4 : Vec Ideal S1024x64 .f32) (r : Fin 1024) (h : Fin 64) :
    k0_pay3 (F := Ideal) x1 x4 (ix3 (0 : Fin 1) r h) = ∑ k : Fin 1024, x1 (ix3 (0 : Fin 1) r k) * x4 (ix2 k h) := by
  unfold k0_pay3
  refine (shapeCast_apply _ _ (ix3 (0 : Fin 1) r h) (ix2 r h) (flat_out r h)).trans ?_
  refine (Cert.LibHostRead.matmul_plain_zero_apply _ plainDot _ _ r h).trans ?_
  refine Finset.sum_congr rfl fun k _ => ?_
  refine congrArg (· * x4 (ix2 k h)) ?_
  exact shapeCast_apply x1 _ (ix2 r k) (ix3 (0 : Fin 1) r k) (flat_in r k)

/-- The third pair's product, reshaped at the store, at (0, r, h). -/
theorem pay14_apply (x2 : Vec Ideal S1x1024x1024 .f32) (x5 : Vec Ideal S1024x64 .f32) (r : Fin 1024) (h : Fin 64) :
    k0_pay1 (F := Ideal) (k0_pay4 (F := Ideal) x2 x5) (ix3 (0 : Fin 1) r h)
      = ∑ k : Fin 1024, x2 (ix3 (0 : Fin 1) r k) * x5 (ix2 k h) := by
  unfold k0_pay1 k0_pay4
  refine (shapeCast_apply _ _ (ix3 (0 : Fin 1) r h) (ix2 r h) (flat_out r h)).trans ?_
  refine (Cert.LibHostRead.matmul_plain_zero_apply _ plainDot _ _ r h).trans ?_
  refine Finset.sum_congr rfl fun k _ => ?_
  refine congrArg (· * x5 (ix2 k h)) ?_
  exact shapeCast_apply x2 _ (ix2 r k) (ix3 (0 : Fin 1) r k) (flat_in r k)

/-! ## From blocks to the arrays -/

section
-- the core's buffer contents when the call is entered
variable (V : (c : Dev nD) → (b : Ref sig .tc) → Buf (Elt Ideal) ((c : Thread nD τ).loc b))

/-! ## Result 0 -/

/-- One block of the projection: a body product whose activation block holds rows of batch (i 0) through (i 1)'s
    row and whose weight block is the weight matrix is the projection at i. -/
theorem block6 (X : S4x4096x1024.Idx → EReal) (W : S1024x64.Idx → EReal)
    (x : Vec Ideal S1x1024x1024 .f32) (w : Vec Ideal S1024x64 .f32) (y : S1x1024x64.Idx) (i : S4x4096x64.Idx)
    (hx : ∀ k : Fin 1024, x (ix3 (0 : Fin 1) (y 1) k) = X (ix3 (i 0) (i 1) k))
    (hw : ∀ k : Fin 1024, w (ix2 k (y 2)) = W (ix2 k (i 2))) :
    k0_pay2 (F := Ideal) x w y = Cert.Spec.proj X W (i 0) (i 1) (i 2) := by
  have hy : y = ix3 (0 : Fin 1) (y 1) (y 2) := funext fun a => Fin.ext (by
    match a with
    | ⟨0, _⟩ => show (y 0).val = 0; have h0 : (y 0).val < 1 := (y 0).isLt; omega
    | ⟨1, _⟩ => rfl
    | ⟨2, _⟩ => rfl)
  refine (congrArg (k0_pay2 (F := Ideal) x w) hy).trans ((pay2_apply x w (y 1) (y 2)).trans ?_)
  show _ = ∑ k : Fin 1024, X (ix3 (i 0) (i 1) k) * W (ix2 k (i 2))
  exact Finset.sum_congr rfl fun k _ => congrArg₂ (· * ·) (hx k) (hw k)

/-- The printed index maps, decided over the sixteen points: the activation's block moves with the result's over
    batch and row block and stays at feature block 0; the weight's block is the whole matrix; the result's block
    index is (batch, row block, 0) inside the 4 × 4 grid. -/
theorem idx_facts6 : ∀ t : Fin cfg0.N,
    win0_0.index t (0 : Fin 3) = win0_6.index t (0 : Fin 3) ∧ win0_0.index t (1 : Fin 3) = win0_6.index t (1 : Fin 3)
    ∧ win0_0.index t (2 : Fin 3) = 0 ∧ win0_3.index t (0 : Fin 2) = 0 ∧ win0_3.index t (1 : Fin 2) = 0
    ∧ win0_6.index t (0 : Fin 3) ≤ 3 ∧ win0_6.index t (1 : Fin 3) ≤ 3 ∧ win0_6.index t (2 : Fin 3) = 0 :=
  (by decide +kernel : ∀ t : Fin grid0.N, _)

/-- Every (batch, row block) is some point's block index. -/
theorem idx_onto6 : ∀ (q0 : Fin 4) (q1 : Fin 4), ∃ t : Fin cfg0.N, win0_6.index t = ![q0.val, q1.val, 0] :=
  (by decide +kernel : ∀ (q0 : Fin 4) (q1 : Fin 4), ∃ t : Fin grid0.N, win0_6.index t = ![q0.val, q1.val, 0])

/-- What point t writes back is block t of the projection of the arrays as the call finds them. -/
theorem flushed6 (c : Dev nD) (t : Fin cfg0.N) :
    (dat0 (F := Ideal) V c).flushed 6 t = ((cfg0.win 6).blk t).view.read (Elt Ideal)
      (fun i : S4x4096x64.Idx => Cert.Spec.proj (V c main_arg0) (V c main_arg3) (i 0) (i 1) (i 2)) := by
  show (cfg0.win 6).cut (grid0.coords t) ((dat0 (F := Ideal) V c).after 6 t) = _
  rw [after0_6, out0_6_eq]
  obtain ⟨e0, e1, e2, e3, e4, e5, e6, e7⟩ := idx_facts6 t
  funext j
  have hj0 : (j 0).val < 1 := (j 0).isLt
  have hj1 : (j 1).val < 1024 := (j 1).isLt
  have hj2 : (j 2).val < 64 := (j 2).isLt
  refine block6 (V c main_arg0) (V c main_arg3) (iblk0 V c 0 t) (iblk0 V c 3 t)
    ((cfg0.win 6).xinj (grid0.coords t) j) (((cfg0.win 6).blk t).view.emb j) (fun k => ?_) (fun k => ?_)
  · show V c main_arg0 (((cfg0.win 0).blk t).view.emb _) = V c main_arg0 _
    refine congrArg (V c main_arg0) (funext fun a => Fin.ext ?_)
    match a with
    | ⟨0, _⟩ =>
      show win0_0.index t (0 : Fin 3) * 1 + 1 * 0 = win0_6.index t (0 : Fin 3) * 1 + 1 * (j 0).val
      omega
    | ⟨1, _⟩ =>
      show win0_0.index t (1 : Fin 3) * 1024 + 1 * (j 1).val = win0_6.index t (1 : Fin 3) * 1024 + 1 * (j 1).val
      omega
    | ⟨2, _⟩ =>
      show win0_0.index t (2 : Fin 3) * 1024 + 1 * k.val = k.val
      omega
  · show V c main_arg3 (((cfg0.win 3).blk t).view.emb _) = V c main_arg3 _
    refine congrArg (V c main_arg3) (funext fun a => Fin.ext ?_)
    match a with
    | ⟨0, _⟩ =>
      show win0_3.index t (0 : Fin 2) * 1024 + 1 * k.val = k.val
      omega
    | ⟨1, _⟩ =>
      show win0_3.index t (1 : Fin 2) * 64 + 1 * (j 2).val = win0_6.index t (2 : Fin 3) * 64 + 1 * (j 2).val
      omega

/-- An index of the result array is in point t's block iff each coordinate is in the block's range on its axis. -/
theorem mem_blk6 (t : Fin cfg0.N) (i : S4x4096x64.Idx) :
    i ∈ ((cfg0.win 6).blk t).view.set ↔ ∀ a : Fin 3, win0_6.index t a * S1x1024x64.size a ≤ (i a).val
      ∧ (i a).val < win0_6.index t a * S1x1024x64.size a + S1x1024x64.size a := by
  show i ∈ ((View.whole main_v0_0).slice (win0_6.rect t)).set ↔ _
  rw [View.set_slice_whole, Rect.mem_set_unit]
  exact Iff.rfl

/-- The sixteen blocks tile the result: row p of batch b is in the block of the point with block index (b, p / 1024, 0). -/
theorem cover6 (i : S4x4096x64.Idx) :
    ∃ t : Fin cfg0.N, (cfg0.win 6).flush t = true ∧ i ∈ ((cfg0.win 6).blk t).view.set := by
  have hi0 : (i 0).val < 4 := (i 0).isLt
  have hi1 : (i 1).val < 4096 := (i 1).isLt
  have hi2 : (i 2).val < 64 := (i 2).isLt
  obtain ⟨t, ht⟩ := idx_onto6 ⟨(i 0).val, hi0⟩ ⟨(i 1).val / 1024, by omega⟩
  have q0 : win0_6.index t (0 : Fin 3) = (i 0).val := congrFun ht 0
  have q1 : win0_6.index t (1 : Fin 3) = (i 1).val / 1024 := congrFun ht 1
  have q2 : win0_6.index t (2 : Fin 3) = 0 := congrFun ht 2
  refine ⟨t, flush0_6 t, ?_⟩
  rw [mem_blk6]
  intro a
  match a with
  | ⟨0, _⟩ =>
    show win0_6.index t (0 : Fin 3) * 1 ≤ (i 0).val ∧ (i 0).val < win0_6.index t (0 : Fin 3) * 1 + 1
    omega
  | ⟨1, _⟩ =>
    show win0_6.index t (1 : Fin 3) * 1024 ≤ (i 1).val ∧ (i 1).val < win0_6.index t (1 : Fin 3) * 1024 + 1024
    omega
  | ⟨2, _⟩ =>
    show win0_6.index t (2 : Fin 3) * 64 ≤ (i 2).val ∧ (i 2).val < win0_6.index t (2 : Fin 3) * 64 + 64
    omega

/-- The result array after the call is the projection. -/
theorem arr0_6 (c : Dev nD) : (dat0 (F := Ideal) V c).arrAt 6 cfg0.N
    = fun i : S4x4096x64.Idx => Cert.Spec.proj (V c main_arg0) (V c main_arg3) (i 0) (i 1) (i 2) :=
  (dat0 (F := Ideal) V c).arrAt_eq_of_cover 6
    (fun i : S4x4096x64.Idx => Cert.Spec.proj (V c main_arg0) (V c main_arg3) (i 0) (i 1) (i 2))
    (fun t _ => flushed6 V c t) cover6

/-! ## Result 1 -/

/-- One block of the projection: a body product whose activation block holds rows of batch (i 0) through (i 1)'s
    row and whose weight block is the weight matrix is the projection at i. -/
theorem block7 (X : S4x4096x1024.Idx → EReal) (W : S1024x64.Idx → EReal)
    (x : Vec Ideal S1x1024x1024 .f32) (w : Vec Ideal S1024x64 .f32) (y : S1x1024x64.Idx) (i : S4x4096x64.Idx)
    (hx : ∀ k : Fin 1024, x (ix3 (0 : Fin 1) (y 1) k) = X (ix3 (i 0) (i 1) k))
    (hw : ∀ k : Fin 1024, w (ix2 k (y 2)) = W (ix2 k (i 2))) :
    k0_pay3 (F := Ideal) x w y = Cert.Spec.proj X W (i 0) (i 1) (i 2) := by
  have hy : y = ix3 (0 : Fin 1) (y 1) (y 2) := funext fun a => Fin.ext (by
    match a with
    | ⟨0, _⟩ => show (y 0).val = 0; have h0 : (y 0).val < 1 := (y 0).isLt; omega
    | ⟨1, _⟩ => rfl
    | ⟨2, _⟩ => rfl)
  refine (congrArg (k0_pay3 (F := Ideal) x w) hy).trans ((pay3_apply x w (y 1) (y 2)).trans ?_)
  show _ = ∑ k : Fin 1024, X (ix3 (i 0) (i 1) k) * W (ix2 k (i 2))
  exact Finset.sum_congr rfl fun k _ => congrArg₂ (· * ·) (hx k) (hw k)

/-- The printed index maps, decided over the sixteen points: the activation's block moves with the result's over
    batch and row block and stays at feature block 0; the weight's block is the whole matrix; the result's block
    index is (batch, row block, 0) inside the 4 × 4 grid. -/
theorem idx_facts7 : ∀ t : Fin cfg0.N,
    win0_1.index t (0 : Fin 3) = win0_7.index t (0 : Fin 3) ∧ win0_1.index t (1 : Fin 3) = win0_7.index t (1 : Fin 3)
    ∧ win0_1.index t (2 : Fin 3) = 0 ∧ win0_4.index t (0 : Fin 2) = 0 ∧ win0_4.index t (1 : Fin 2) = 0
    ∧ win0_7.index t (0 : Fin 3) ≤ 3 ∧ win0_7.index t (1 : Fin 3) ≤ 3 ∧ win0_7.index t (2 : Fin 3) = 0 :=
  (by decide +kernel : ∀ t : Fin grid0.N, _)

/-- Every (batch, row block) is some point's block index. -/
theorem idx_onto7 : ∀ (q0 : Fin 4) (q1 : Fin 4), ∃ t : Fin cfg0.N, win0_7.index t = ![q0.val, q1.val, 0] :=
  (by decide +kernel : ∀ (q0 : Fin 4) (q1 : Fin 4), ∃ t : Fin grid0.N, win0_7.index t = ![q0.val, q1.val, 0])

/-- What point t writes back is block t of the projection of the arrays as the call finds them. -/
theorem flushed7 (c : Dev nD) (t : Fin cfg0.N) :
    (dat0 (F := Ideal) V c).flushed 7 t = ((cfg0.win 7).blk t).view.read (Elt Ideal)
      (fun i : S4x4096x64.Idx => Cert.Spec.proj (V c main_arg1) (V c main_arg4) (i 0) (i 1) (i 2)) := by
  show (cfg0.win 7).cut (grid0.coords t) ((dat0 (F := Ideal) V c).after 7 t) = _
  rw [after0_7, out0_7_eq]
  obtain ⟨e0, e1, e2, e3, e4, e5, e6, e7⟩ := idx_facts7 t
  funext j
  have hj0 : (j 0).val < 1 := (j 0).isLt
  have hj1 : (j 1).val < 1024 := (j 1).isLt
  have hj2 : (j 2).val < 64 := (j 2).isLt
  refine block7 (V c main_arg1) (V c main_arg4) (iblk0 V c 1 t) (iblk0 V c 4 t)
    ((cfg0.win 7).xinj (grid0.coords t) j) (((cfg0.win 7).blk t).view.emb j) (fun k => ?_) (fun k => ?_)
  · show V c main_arg1 (((cfg0.win 1).blk t).view.emb _) = V c main_arg1 _
    refine congrArg (V c main_arg1) (funext fun a => Fin.ext ?_)
    match a with
    | ⟨0, _⟩ =>
      show win0_1.index t (0 : Fin 3) * 1 + 1 * 0 = win0_7.index t (0 : Fin 3) * 1 + 1 * (j 0).val
      omega
    | ⟨1, _⟩ =>
      show win0_1.index t (1 : Fin 3) * 1024 + 1 * (j 1).val = win0_7.index t (1 : Fin 3) * 1024 + 1 * (j 1).val
      omega
    | ⟨2, _⟩ =>
      show win0_1.index t (2 : Fin 3) * 1024 + 1 * k.val = k.val
      omega
  · show V c main_arg4 (((cfg0.win 4).blk t).view.emb _) = V c main_arg4 _
    refine congrArg (V c main_arg4) (funext fun a => Fin.ext ?_)
    match a with
    | ⟨0, _⟩ =>
      show win0_4.index t (0 : Fin 2) * 1024 + 1 * k.val = k.val
      omega
    | ⟨1, _⟩ =>
      show win0_4.index t (1 : Fin 2) * 64 + 1 * (j 2).val = win0_7.index t (2 : Fin 3) * 64 + 1 * (j 2).val
      omega

/-- An index of the result array is in point t's block iff each coordinate is in the block's range on its axis. -/
theorem mem_blk7 (t : Fin cfg0.N) (i : S4x4096x64.Idx) :
    i ∈ ((cfg0.win 7).blk t).view.set ↔ ∀ a : Fin 3, win0_7.index t a * S1x1024x64.size a ≤ (i a).val
      ∧ (i a).val < win0_7.index t a * S1x1024x64.size a + S1x1024x64.size a := by
  show i ∈ ((View.whole main_v0_1).slice (win0_7.rect t)).set ↔ _
  rw [View.set_slice_whole, Rect.mem_set_unit]
  exact Iff.rfl

/-- The sixteen blocks tile the result: row p of batch b is in the block of the point with block index (b, p / 1024, 0). -/
theorem cover7 (i : S4x4096x64.Idx) :
    ∃ t : Fin cfg0.N, (cfg0.win 7).flush t = true ∧ i ∈ ((cfg0.win 7).blk t).view.set := by
  have hi0 : (i 0).val < 4 := (i 0).isLt
  have hi1 : (i 1).val < 4096 := (i 1).isLt
  have hi2 : (i 2).val < 64 := (i 2).isLt
  obtain ⟨t, ht⟩ := idx_onto7 ⟨(i 0).val, hi0⟩ ⟨(i 1).val / 1024, by omega⟩
  have q0 : win0_7.index t (0 : Fin 3) = (i 0).val := congrFun ht 0
  have q1 : win0_7.index t (1 : Fin 3) = (i 1).val / 1024 := congrFun ht 1
  have q2 : win0_7.index t (2 : Fin 3) = 0 := congrFun ht 2
  refine ⟨t, flush0_7 t, ?_⟩
  rw [mem_blk7]
  intro a
  match a with
  | ⟨0, _⟩ =>
    show win0_7.index t (0 : Fin 3) * 1 ≤ (i 0).val ∧ (i 0).val < win0_7.index t (0 : Fin 3) * 1 + 1
    omega
  | ⟨1, _⟩ =>
    show win0_7.index t (1 : Fin 3) * 1024 ≤ (i 1).val ∧ (i 1).val < win0_7.index t (1 : Fin 3) * 1024 + 1024
    omega
  | ⟨2, _⟩ =>
    show win0_7.index t (2 : Fin 3) * 64 ≤ (i 2).val ∧ (i 2).val < win0_7.index t (2 : Fin 3) * 64 + 64
    omega

/-- The result array after the call is the projection. -/
theorem arr0_7 (c : Dev nD) : (dat0 (F := Ideal) V c).arrAt 7 cfg0.N
    = fun i : S4x4096x64.Idx => Cert.Spec.proj (V c main_arg1) (V c main_arg4) (i 0) (i 1) (i 2) :=
  (dat0 (F := Ideal) V c).arrAt_eq_of_cover 7
    (fun i : S4x4096x64.Idx => Cert.Spec.proj (V c main_arg1) (V c main_arg4) (i 0) (i 1) (i 2))
    (fun t _ => flushed7 V c t) cover7

/-! ## Result 2 -/

/-- One block of the projection: a body product whose activation block holds rows of batch (i 0) through (i 1)'s
    row and whose weight block is the weight matrix is the projection at i. -/
theorem block8 (X : S4x4096x1024.Idx → EReal) (W : S1024x64.Idx → EReal)
    (x : Vec Ideal S1x1024x1024 .f32) (w : Vec Ideal S1024x64 .f32) (y : S1x1024x64.Idx) (i : S4x4096x64.Idx)
    (hx : ∀ k : Fin 1024, x (ix3 (0 : Fin 1) (y 1) k) = X (ix3 (i 0) (i 1) k))
    (hw : ∀ k : Fin 1024, w (ix2 k (y 2)) = W (ix2 k (i 2))) :
    k0_pay1 (F := Ideal) (k0_pay4 (F := Ideal) x w) y = Cert.Spec.proj X W (i 0) (i 1) (i 2) := by
  have hy : y = ix3 (0 : Fin 1) (y 1) (y 2) := funext fun a => Fin.ext (by
    match a with
    | ⟨0, _⟩ => show (y 0).val = 0; have h0 : (y 0).val < 1 := (y 0).isLt; omega
    | ⟨1, _⟩ => rfl
    | ⟨2, _⟩ => rfl)
  refine (congrArg (k0_pay1 (F := Ideal) (k0_pay4 (F := Ideal) x w)) hy).trans ((pay14_apply x w (y 1) (y 2)).trans ?_)
  show _ = ∑ k : Fin 1024, X (ix3 (i 0) (i 1) k) * W (ix2 k (i 2))
  exact Finset.sum_congr rfl fun k _ => congrArg₂ (· * ·) (hx k) (hw k)

/-- The printed index maps, decided over the sixteen points: the activation's block moves with the result's over
    batch and row block and stays at feature block 0; the weight's block is the whole matrix; the result's block
    index is (batch, row block, 0) inside the 4 × 4 grid. -/
theorem idx_facts8 : ∀ t : Fin cfg0.N,
    win0_2.index t (0 : Fin 3) = win0_8.index t (0 : Fin 3) ∧ win0_2.index t (1 : Fin 3) = win0_8.index t (1 : Fin 3)
    ∧ win0_2.index t (2 : Fin 3) = 0 ∧ win0_5.index t (0 : Fin 2) = 0 ∧ win0_5.index t (1 : Fin 2) = 0
    ∧ win0_8.index t (0 : Fin 3) ≤ 3 ∧ win0_8.index t (1 : Fin 3) ≤ 3 ∧ win0_8.index t (2 : Fin 3) = 0 :=
  (by decide +kernel : ∀ t : Fin grid0.N, _)

/-- Every (batch, row block) is some point's block index. -/
theorem idx_onto8 : ∀ (q0 : Fin 4) (q1 : Fin 4), ∃ t : Fin cfg0.N, win0_8.index t = ![q0.val, q1.val, 0] :=
  (by decide +kernel : ∀ (q0 : Fin 4) (q1 : Fin 4), ∃ t : Fin grid0.N, win0_8.index t = ![q0.val, q1.val, 0])

/-- What point t writes back is block t of the projection of the arrays as the call finds them. -/
theorem flushed8 (c : Dev nD) (t : Fin cfg0.N) :
    (dat0 (F := Ideal) V c).flushed 8 t = ((cfg0.win 8).blk t).view.read (Elt Ideal)
      (fun i : S4x4096x64.Idx => Cert.Spec.proj (V c main_arg2) (V c main_arg5) (i 0) (i 1) (i 2)) := by
  show (cfg0.win 8).cut (grid0.coords t) ((dat0 (F := Ideal) V c).after 8 t) = _
  rw [after0_8, out0_8_eq]
  obtain ⟨e0, e1, e2, e3, e4, e5, e6, e7⟩ := idx_facts8 t
  funext j
  have hj0 : (j 0).val < 1 := (j 0).isLt
  have hj1 : (j 1).val < 1024 := (j 1).isLt
  have hj2 : (j 2).val < 64 := (j 2).isLt
  refine block8 (V c main_arg2) (V c main_arg5) (iblk0 V c 2 t) (iblk0 V c 5 t)
    ((cfg0.win 8).xinj (grid0.coords t) j) (((cfg0.win 8).blk t).view.emb j) (fun k => ?_) (fun k => ?_)
  · show V c main_arg2 (((cfg0.win 2).blk t).view.emb _) = V c main_arg2 _
    refine congrArg (V c main_arg2) (funext fun a => Fin.ext ?_)
    match a with
    | ⟨0, _⟩ =>
      show win0_2.index t (0 : Fin 3) * 1 + 1 * 0 = win0_8.index t (0 : Fin 3) * 1 + 1 * (j 0).val
      omega
    | ⟨1, _⟩ =>
      show win0_2.index t (1 : Fin 3) * 1024 + 1 * (j 1).val = win0_8.index t (1 : Fin 3) * 1024 + 1 * (j 1).val
      omega
    | ⟨2, _⟩ =>
      show win0_2.index t (2 : Fin 3) * 1024 + 1 * k.val = k.val
      omega
  · show V c main_arg5 (((cfg0.win 5).blk t).view.emb _) = V c main_arg5 _
    refine congrArg (V c main_arg5) (funext fun a => Fin.ext ?_)
    match a with
    | ⟨0, _⟩ =>
      show win0_5.index t (0 : Fin 2) * 1024 + 1 * k.val = k.val
      omega
    | ⟨1, _⟩ =>
      show win0_5.index t (1 : Fin 2) * 64 + 1 * (j 2).val = win0_8.index t (2 : Fin 3) * 64 + 1 * (j 2).val
      omega

/-- An index of the result array is in point t's block iff each coordinate is in the block's range on its axis. -/
theorem mem_blk8 (t : Fin cfg0.N) (i : S4x4096x64.Idx) :
    i ∈ ((cfg0.win 8).blk t).view.set ↔ ∀ a : Fin 3, win0_8.index t a * S1x1024x64.size a ≤ (i a).val
      ∧ (i a).val < win0_8.index t a * S1x1024x64.size a + S1x1024x64.size a := by
  show i ∈ ((View.whole main_v0_2).slice (win0_8.rect t)).set ↔ _
  rw [View.set_slice_whole, Rect.mem_set_unit]
  exact Iff.rfl

/-- The sixteen blocks tile the result: row p of batch b is in the block of the point with block index (b, p / 1024, 0). -/
theorem cover8 (i : S4x4096x64.Idx) :
    ∃ t : Fin cfg0.N, (cfg0.win 8).flush t = true ∧ i ∈ ((cfg0.win 8).blk t).view.set := by
  have hi0 : (i 0).val < 4 := (i 0).isLt
  have hi1 : (i 1).val < 4096 := (i 1).isLt
  have hi2 : (i 2).val < 64 := (i 2).isLt
  obtain ⟨t, ht⟩ := idx_onto8 ⟨(i 0).val, hi0⟩ ⟨(i 1).val / 1024, by omega⟩
  have q0 : win0_8.index t (0 : Fin 3) = (i 0).val := congrFun ht 0
  have q1 : win0_8.index t (1 : Fin 3) = (i 1).val / 1024 := congrFun ht 1
  have q2 : win0_8.index t (2 : Fin 3) = 0 := congrFun ht 2
  refine ⟨t, flush0_8 t, ?_⟩
  rw [mem_blk8]
  intro a
  match a with
  | ⟨0, _⟩ =>
    show win0_8.index t (0 : Fin 3) * 1 ≤ (i 0).val ∧ (i 0).val < win0_8.index t (0 : Fin 3) * 1 + 1
    omega
  | ⟨1, _⟩ =>
    show win0_8.index t (1 : Fin 3) * 1024 ≤ (i 1).val ∧ (i 1).val < win0_8.index t (1 : Fin 3) * 1024 + 1024
    omega
  | ⟨2, _⟩ =>
    show win0_8.index t (2 : Fin 3) * 64 ≤ (i 2).val ∧ (i 2).val < win0_8.index t (2 : Fin 3) * 64 + 64
    omega

/-- The result array after the call is the projection. -/
theorem arr0_8 (c : Dev nD) : (dat0 (F := Ideal) V c).arrAt 8 cfg0.N
    = fun i : S4x4096x64.Idx => Cert.Spec.proj (V c main_arg2) (V c main_arg5) (i 0) (i 1) (i 2) :=
  (dat0 (F := Ideal) V c).arrAt_eq_of_cover 8
    (fun i : S4x4096x64.Idx => Cert.Spec.proj (V c main_arg2) (V c main_arg5) (i 0) (i 1) (i 2))
    (fun t _ => flushed8 V c t) cover8

end

end Cert.KernelIdeal.Val

end
-- ==== Proof.LibOnlineSoftmaxDefs.lean ====
/-
  The online softmax. A row of scores is consumed block by block, keeping a running maximum m, a
  running sum l of exp (score - m) and a running weighted sum a of exp (score - m) · value. A new block
  with maximum bm moves the maximum to m' = max m bm, rescales l and a by exp (m - m') and adds the
  block's own terms taken against m'. After the blocks that hold every score that is not minus infinity,
  a / l is the softmax-weighted sum of the values over the whole row.
-/
import Idealize.ShloMosaic.PureOps.Ideal
import proofs.«154889_j71219147702646_2_alg».proof.Proof.LibLastAxisSoftmax

noncomputable section

open scoped BigOperators

namespace Idealize.ShloMosaic.OnlineSoftmax

open Idealize.ShloMosaic Idealize.ShloMosaic.LastAxisSoftmax

/-- One block's update of (running maximum, running sum, running weighted sum). -/
def step {B : Nat} (s w : Fin B → EReal) (st : EReal × EReal × EReal) : EReal × EReal × EReal :=
  (max st.1 ((Finset.univ : Finset (Fin B)).fold max negInf s),
   Ideal.exp (st.1 - max st.1 ((Finset.univ : Finset (Fin B)).fold max negInf s)) * st.2.1
     + ∑ c : Fin B, Ideal.exp (s c - max st.1 ((Finset.univ : Finset (Fin B)).fold max negInf s)),
   Ideal.exp (st.1 - max st.1 ((Finset.univ : Finset (Fin B)).fold max negInf s)) * st.2.2
     + ∑ c : Fin B, Ideal.exp (s c - max st.1 ((Finset.univ : Finset (Fin B)).fold max negInf s)) * w c)

/-- The state after the first n blocks, from (minus infinity, 0, 0). -/
def run {B : Nat} (s w : Nat → Fin B → EReal) : Nat → EReal × EReal × EReal
  | 0 => (negInf, 0, 0)
  | n + 1 => step (s n) (w n) (run s w n)

end Idealize.ShloMosaic.OnlineSoftmax

end
-- ==== Proof.LibBatchStats.lean ====
/-
  Batch statistics on the extended reals, for values that are real numbers.

  A batch-normalisation layer needs the mean and the variance of a finite family of numbers. One program
  computes the variance as the mean of the squared deviations, another as the mean of the squares minus
  the square of the mean, a third accumulates the sums tile by tile over a padded, masked index range.
  On the extended reals none of these rearrangements is free: distributing a factor over a sum, or
  cancelling, fails at the infinities. All of them hold for REAL entries, and this module states them
  in the form the programs produce: sums of coerced reals in `EReal`, quotients by a nonzero real
  constant through `Ideal.div`.

  * `coe_sum`            the coercion ℝ → EReal commutes with finite sums;
  * `mul_sum_coe`        a real factor distributes over a sum of reals (false for a negative factor and
                          a sum that meets both infinities);
  * `sum_mul_coe`        the same with the factor on the right;
  * `div_coe_coe`        the quotient of a real by a nonzero real is the real quotient;
  * `mean_coe`           the mean of reals is the real mean;
  * `variance_eq`        mean of squared deviations = mean of squares − square of the mean, when the divisor
                          IS the number of terms;
  * `sum_tiles_masked`   a sum over `T` tiles of width `K`, the entries at positions `≥ N` replaced by `0`,
                          is the sum over the first `N` positions (`N ≤ T * K`): padding plus masking;
  * `sum_rows_cols`      a sum over a flattened `B × N` index (row-major) is the double sum.
-/
import Idealize.ShloMosaic.PureOps.Ideal
import Mathlib.Algebra.BigOperators.Fin
import Mathlib.Data.EReal.Basic
import Mathlib.Tactic

noncomputable section

namespace Cert.Lib.BatchStats

open Idealize.ShloMosaic

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real factor distributes over a sum of reals. -/
theorem mul_sum_coe {ι : Type*} (s : Finset ι) (x : ℝ) (f : ι → ℝ) :
    (x : EReal) * ∑ i ∈ s, (f i : EReal) = ∑ i ∈ s, (x : EReal) * (f i : EReal) := by
  rw [← coe_sum, ← EReal.coe_mul, Finset.mul_sum, coe_sum]
  simp only [EReal.coe_mul]

/-- The same, the factor on the right. -/
theorem sum_mul_coe {ι : Type*} (s : Finset ι) (x : ℝ) (f : ι → ℝ) :
    (∑ i ∈ s, (f i : EReal)) * (x : EReal) = ∑ i ∈ s, (f i : EReal) * (x : EReal) := by
  rw [← coe_sum, ← EReal.coe_mul, Finset.sum_mul, coe_sum]
  simp only [EReal.coe_mul]

/-- The quotient of a real by a nonzero real is the real quotient. -/
theorem div_coe_coe (a : ℝ) {n : ℝ} (hn : n ≠ 0) :
    Ideal.div (a : EReal) (n : EReal) = ((a / n : ℝ) : EReal) := by
  rw [Ideal.div_coe hn, ← EReal.coe_mul, mul_one_div]

/-- The mean of a family of reals is the real mean. -/
theorem mean_coe {ι : Type*} (s : Finset ι) (z : ι → ℝ) {n : ℝ} (hn : n ≠ 0) :
    Ideal.div (∑ i ∈ s, (z i : EReal)) (n : EReal) = (((∑ i ∈ s, z i) / n : ℝ) : EReal) := by
  rw [← coe_sum, div_coe_coe _ hn]

/-- The variance two ways. For reals `z i`, `i ∈ s`, and a divisor `n` that IS the number of terms:
    the mean of the squared deviations from the mean is the mean of the squares minus the square of the
    mean. (With another divisor the two differ by `(card/n − 1) · mean²`.) -/
theorem variance_eq {ι : Type*} (s : Finset ι) (z : ι → ℝ) {n : ℝ} (hn : n ≠ 0) (hcard : (s.card : ℝ) = n) :
    Ideal.div (∑ i ∈ s, ((z i : EReal) - Ideal.div (∑ j ∈ s, (z j : EReal)) (n : EReal))
        * ((z i : EReal) - Ideal.div (∑ j ∈ s, (z j : EReal)) (n : EReal))) (n : EReal)
      = Ideal.div (∑ i ∈ s, (z i : EReal) * (z i : EReal)) (n : EReal)
        - Ideal.div (∑ j ∈ s, (z j : EReal)) (n : EReal) * Ideal.div (∑ j ∈ s, (z j : EReal)) (n : EReal) := by
  rw [mean_coe s z hn]
  simp only [← EReal.coe_sub, ← EReal.coe_mul]
  rw [mean_coe s _ hn, mean_coe s _ hn, ← EReal.coe_sub]
  congr 1
  have h1 : ∑ i ∈ s, (z i - (∑ j ∈ s, z j) / n) * (z i - (∑ j ∈ s, z j) / n)
      = ∑ i ∈ s, z i * z i - 2 * ((∑ j ∈ s, z j) / n) * (∑ i ∈ s, z i) + (s.card : ℝ) * (((∑ j ∈ s, z j) / n) * ((∑ j ∈ s, z j) / n)) := by
    have : ∀ i, (z i - (∑ j ∈ s, z j) / n) * (z i - (∑ j ∈ s, z j) / n)
        = z i * z i - 2 * ((∑ j ∈ s, z j) / n) * z i + ((∑ j ∈ s, z j) / n) * ((∑ j ∈ s, z j) / n) := fun i => by ring
    simp only [this, Finset.sum_add_distrib, Finset.sum_sub_distrib, ← Finset.mul_sum, Finset.sum_const, nsmul_eq_mul]
    ring
  rw [h1, hcard]
  field_simp
  ring

/-- Padding and masking. A sum over `T` tiles of width `K`, each entry read at its global position
    `t * K + k` and replaced by `0` from position `N` on, is the sum over the first `N` positions. -/
theorem sum_tiles_masked {M : Type*} [AddCommMonoid M] (T K N : ℕ) (hN : N ≤ T * K) (f : ℕ → M) :
    ∑ t : Fin T, ∑ k : Fin K, (if t.val * K + k.val < N then f (t.val * K + k.val) else 0)
      = ∑ i : Fin N, f i.val := by
  have key : ∀ p : Fin T × Fin K, p.1.val * K + p.2.val = (finProdFinEquiv p).val := fun p => by
    rw [finProdFinEquiv_apply_val]; ring
  rw [← Finset.sum_product', Finset.univ_product_univ]
  calc ∑ p : Fin T × Fin K, (if p.1.val * K + p.2.val < N then f (p.1.val * K + p.2.val) else 0)
      = ∑ p : Fin T × Fin K, (fun j : Fin (T * K) => if j.val < N then f j.val else 0) (finProdFinEquiv p) :=
        Finset.sum_congr rfl fun p _ => by simp only [key]
    _ = ∑ j : Fin (T * K), (if j.val < N then f j.val else 0) :=
        Equiv.sum_comp finProdFinEquiv (fun j : Fin (T * K) => if j.val < N then f j.val else 0)
    _ = ∑ i : Fin N, f i.val := by
        rw [Fin.sum_univ_eq_sum_range (fun j => if j < N then f j else 0) (T * K),
          Fin.sum_univ_eq_sum_range (fun j => f j) N, Finset.sum_ite, Finset.sum_const_zero, add_zero]
        congr 1
        ext j
        simp only [Finset.mem_filter, Finset.mem_range]
        exact ⟨fun h => h.2, fun h => ⟨lt_of_lt_of_le h hN, h⟩⟩

/-- A sum over the row-major flattening of a `B × N` index is the double sum. -/
theorem sum_rows_cols {M : Type*} [AddCommMonoid M] (B N : ℕ) (g : ℕ → M) :
    ∑ i : Fin (B * N), g i.val = ∑ b : Fin B, ∑ n : Fin N, g (b.val * N + n.val) := by
  have key : ∀ p : Fin B × Fin N, p.1.val * N + p.2.val = (finProdFinEquiv p).val := fun p => by
    rw [finProdFinEquiv_apply_val]; ring
  rw [← Finset.sum_product', Finset.univ_product_univ]
  calc ∑ i : Fin (B * N), g i.val
      = ∑ p : Fin B × Fin N, (fun j : Fin (B * N) => g j.val) (finProdFinEquiv p) :=
        (Equiv.sum_comp finProdFinEquiv (fun j : Fin (B * N) => g j.val)).symm
    _ = ∑ p : Fin B × Fin N, g (p.1.val * N + p.2.val) := Finset.sum_congr rfl fun p _ => by simp only [key]

end Cert.Lib.BatchStats

end
-- ==== Proof.LibOnlineSoftmax.lean ====
/-
  The online softmax equals the softmax.

  A row of scores g, each a real or minus infinity and never plus infinity, is consumed in blocks of
  B positions. The running state after some blocks is (M, L, A): a real M that bounds nothing in
  particular but is the same in all three places, L the sum of exp (g - M) over the positions seen and
  A the sum of exp (g - M) · w over them. One more block moves M to a real M', multiplies L and A by
  exp (M - M') and adds the block's own terms against M'; since exp (M - M') · exp (x - M) = exp (x - M')
  for x real or minus infinity, the state keeps its form with M' in place of M. The quotient A / L does
  not depend on the real M at all: another choice multiplies numerator and denominator by the same
  positive number. So after the blocks that hold every finite score, A / L is the same quotient taken
  against the maximum of the row, and that is the softmax-weighted sum of the values.

  All arithmetic is carried out in the reals: "exp (x - M)" for x real or minus infinity is the real
  number "expShift x M" (zero at minus infinity), and sums of such reals are moved into the extended
  reals only at the end.
-/
import Idealize.ShloMosaic.PureOps.Ideal
import proofs.«154889_j71219147702646_2_alg».proof.Proof.LibOnlineSoftmaxDefs
import proofs.«154889_j71219147702646_2_alg».proof.Proof.LibBatchStats

noncomputable section

open scoped BigOperators

namespace Idealize.ShloMosaic.OnlineSoftmax

open Idealize.ShloMosaic Idealize.ShloMosaic.LastAxisSoftmax Cert.Lib.BatchStats

/-! ## exp (x - M) as a real number -/

/-- The real number exp (x - M) for x a real or minus infinity: zero at minus infinity. -/
def expShift (x : EReal) (M : ℝ) : ℝ := if x = ⊥ then 0 else Real.exp (x.toReal - M)

/-- Off plus infinity, the extended-real exponential of x - M is the real number expShift x M. -/
theorem exp_sub_coe {x : EReal} (hx : x ≠ ⊤) (M : ℝ) :
    Ideal.exp (x - (M : EReal)) = ((expShift x M : ℝ) : EReal) := by
  induction x using EReal.rec with
  | bot => rw [EReal.bot_sub, Ideal.exp_bot, expShift, if_pos rfl, EReal.coe_zero]
  | coe r =>
    rw [← EReal.coe_sub, Ideal.exp_coe, expShift, if_neg (EReal.coe_ne_bot r), EReal.toReal_coe]
  | top => exact absurd rfl hx

theorem expShift_bot (M : ℝ) : expShift ⊥ M = 0 := if_pos rfl

theorem expShift_coe (r M : ℝ) : expShift (r : EReal) M = Real.exp (r - M) := by
  rw [expShift, if_neg (EReal.coe_ne_bot r), EReal.toReal_coe]

theorem expShift_nonneg (x : EReal) (M : ℝ) : 0 ≤ expShift x M := by
  unfold expShift
  split
  · exact le_rfl
  · exact (Real.exp_pos _).le

theorem expShift_pos {x : EReal} (hx : x ≠ ⊥) (M : ℝ) : 0 < expShift x M := by
  rw [expShift, if_neg hx]
  exact Real.exp_pos _

/-- Moving the reference point: exp (M - M') · exp (x - M) = exp (x - M'), at minus infinity too. -/
theorem expShift_rescale (M M' : ℝ) (x : EReal) :
    expShift (M : EReal) M' * expShift x M = expShift x M' := by
  rw [expShift_coe]
  unfold expShift
  split
  · rw [mul_zero]
  · rw [← Real.exp_add]
    congr 1
    ring

/-! ## The word of minus infinity, and folds of max from it -/

/-- The f32 word of minus infinity denotes the bottom of the extended reals. -/
theorem negInf_eq_bot : negInf = ⊥ := by
  simp [negInf, Ideal.ofBits, Ideal.ieee]

/-- A fold of max from minus infinity over entries that are not plus infinity is not plus infinity. -/
theorem fold_ne_top {ι : Type*} (t : Finset ι) (f : ι → EReal) (hf : ∀ c, f c ≠ ⊤) :
    t.fold max negInf f ≠ ⊤ := by
  apply ne_of_lt
  rw [Finset.fold_max_lt, negInf_eq_bot]
  exact ⟨bot_lt_top, fun c _ => lt_top_iff_ne_top.2 (hf c)⟩

/-- A fold of max dominates each entry. -/
theorem le_fold {ι : Type*} (t : Finset ι) (f : ι → EReal) {c : ι} (hc : c ∈ t) :
    f c ≤ t.fold max negInf f :=
  (Finset.le_fold_max _).2 (Or.inr ⟨c, hc, le_rfl⟩)

/-- An extended real that is neither infinity is a real. -/
theorem exists_real {x : EReal} (h1 : x ≠ ⊤) (h2 : x ≠ ⊥) : ∃ r : ℝ, x = (r : EReal) :=
  ⟨x.toReal, (EReal.coe_toReal h1 h2).symm⟩

/-! ## One step on a real state -/

/-- One block's update of a state whose sums are reals and whose maximum is not plus infinity, when the new
    maximum is the real M': the old sums are multiplied by exp (m - M') and the block's terms, taken
    against M', are added. -/
theorem step_real {B : Nat} (sb vb : Fin B → EReal) (m : EReal) (l a M' : ℝ) (wr : Fin B → ℝ)
    (hm : m ≠ ⊤) (hsb : ∀ c, sb c ≠ ⊤) (hvb : ∀ c, vb c = (wr c : EReal))
    (hM' : max m ((Finset.univ : Finset (Fin B)).fold max negInf sb) = (M' : EReal)) :
    step sb vb (m, (l : EReal), (a : EReal))
      = ((M' : EReal), ((expShift m M' * l + ∑ c : Fin B, expShift (sb c) M' : ℝ) : EReal),
          ((expShift m M' * a + ∑ c : Fin B, expShift (sb c) M' * wr c : ℝ) : EReal)) := by
  unfold step
  dsimp only
  rw [hM', exp_sub_coe hm]
  have h1 : ∀ c : Fin B, Ideal.exp (sb c - (M' : EReal)) = ((expShift (sb c) M' : ℝ) : EReal) :=
    fun c => exp_sub_coe (hsb c) M'
  simp only [h1, hvb]
  have e2 : ((expShift m M' * l + ∑ c : Fin B, expShift (sb c) M' : ℝ) : EReal)
      = ((expShift m M' : ℝ) : EReal) * (l : EReal) + ∑ c : Fin B, ((expShift (sb c) M' : ℝ) : EReal) := by
    rw [EReal.coe_add, EReal.coe_mul, coe_sum]
  have e3 : ((expShift m M' * a + ∑ c : Fin B, expShift (sb c) M' * wr c : ℝ) : EReal)
      = ((expShift m M' : ℝ) : EReal) * (a : EReal)
        + ∑ c : Fin B, ((expShift (sb c) M' : ℝ) : EReal) * ((wr c : ℝ) : EReal) := by
    rw [EReal.coe_add, EReal.coe_mul, coe_sum]
    exact congrArg _ (Finset.sum_congr rfl fun c _ => EReal.coe_mul _ _)
  rw [e2, e3]

/-! ## Sums over initial segments, block by block -/

/-- The sum over the first (j+1)·B positions is the sum over the first j·B plus block j's own sum. -/
theorem sum_range_succ_block {A : Type*} [AddCommMonoid A] (F : ℕ → A) (j B : ℕ) :
    ∑ i ∈ Finset.range ((j + 1) * B), F i
      = ∑ i ∈ Finset.range (j * B), F i + ∑ c : Fin B, F (j * B + c.val) := by
  rw [add_one_mul, Finset.sum_range_add, Fin.sum_univ_eq_sum_range (fun i => F (j * B + i))]

/-- A sum over all positions below T of a function that vanishes from position m ≤ T on is the sum
    over the positions below m. -/
theorem sum_fin_eq_sum_range {T m : ℕ} (hm : m ≤ T) (F : ℕ → ℝ) (h0 : ∀ i, m ≤ i → F i = 0) :
    ∑ k : Fin T, F k.val = ∑ i ∈ Finset.range m, F i := by
  rw [Fin.sum_univ_eq_sum_range]
  exact (Finset.sum_subset (Finset.range_mono hm) (fun i _ hi => h0 i (by simpa using hi))).symm

/-! ## The running state -/

/-- The state after j blocks. It is (m, l, a) with l and a reals and m not plus infinity (and not minus
    infinity once a block has been consumed), and against ANY real reference point M' the rescaled sums
    exp (m - M') · l and exp (m - M') · a are the sums of exp (G - M') and of exp (G - M') · W over the
    first j·B positions. (Before the first block m is minus infinity, l = a = 0 and the sums are empty.) -/
theorem run_invariant {B : Nat} (n : Nat) (G : ℕ → EReal) (W : ℕ → ℝ) (s v : Nat → Fin B → EReal)
    (hs : ∀ (j : Nat) (c : Fin B), j < n → s j c = G (j * B + c.val))
    (hv : ∀ (j : Nat) (c : Fin B), j < n → v j c = ((W (j * B + c.val) : ℝ) : EReal))
    (hG_top : ∀ i, G i ≠ ⊤) (hreal0 : ∃ i, i < B ∧ G i ≠ ⊥) (j : Nat) (hj : j ≤ n) :
    ∃ (m : EReal) (l a : ℝ), run s v j = (m, (l : EReal), (a : EReal)) ∧ m ≠ ⊤ ∧ (0 < j → m ≠ ⊥) ∧
      ∀ M' : ℝ, expShift m M' * l = ∑ i ∈ Finset.range (j * B), expShift (G i) M' ∧
        expShift m M' * a = ∑ i ∈ Finset.range (j * B), expShift (G i) M' * W i := by
  induction j with
  | zero =>
    refine ⟨negInf, 0, 0, rfl, ?_, fun h => absurd h (lt_irrefl 0), fun M' => ?_⟩
    · rw [negInf_eq_bot]; exact bot_ne_top
    · rw [Nat.zero_mul, Finset.range_zero, Finset.sum_empty, Finset.sum_empty, mul_zero]
      exact ⟨rfl, rfl⟩
  | succ j ih =>
    have hjn : j < n := hj
    obtain ⟨m, l, a, hrun, hm_top, hm_bot, hsum⟩ := ih hjn.le
    have hsj : s j = fun c : Fin B => G (j * B + c.val) := funext fun c => hs j c hjn
    have hvj : v j = fun c : Fin B => ((W (j * B + c.val) : ℝ) : EReal) := funext fun c => hv j c hjn
    have hF_top := fold_ne_top (Finset.univ : Finset (Fin B)) (fun c : Fin B => G (j * B + c.val))
      (fun c => hG_top _)
    have hmax_top : max m ((Finset.univ : Finset (Fin B)).fold max negInf (fun c : Fin B => G (j * B + c.val))) ≠ ⊤ :=
      ne_of_lt (max_lt (lt_top_iff_ne_top.2 hm_top) (lt_top_iff_ne_top.2 hF_top))
    have hmax_bot : max m ((Finset.univ : Finset (Fin B)).fold max negInf (fun c : Fin B => G (j * B + c.val))) ≠ ⊥ := by
      intro hb
      rcases Nat.eq_zero_or_pos j with h0 | hpos
      · subst h0
        obtain ⟨i0, hi0, hGi0⟩ := hreal0
        have h1 := le_fold Finset.univ (fun c : Fin B => G (0 * B + c.val)) (Finset.mem_univ (⟨i0, hi0⟩ : Fin B))
        have h2 := le_trans h1 (le_max_right m _)
        rw [hb, le_bot_iff] at h2
        apply hGi0
        simpa using h2
      · have h2 := le_max_left m ((Finset.univ : Finset (Fin B)).fold max negInf (fun c : Fin B => G (j * B + c.val)))
        rw [hb, le_bot_iff] at h2
        exact hm_bot hpos h2
    obtain ⟨M1, hM1⟩ := exists_real hmax_top hmax_bot
    refine ⟨(M1 : EReal), expShift m M1 * l + ∑ c : Fin B, expShift (G (j * B + c.val)) M1,
      expShift m M1 * a + ∑ c : Fin B, expShift (G (j * B + c.val)) M1 * W (j * B + c.val),
      ?_, EReal.coe_ne_top M1, fun _ => EReal.coe_ne_bot M1, fun M' => ?_⟩
    · show step (s j) (v j) (run s v j) = _
      rw [hrun, hsj, hvj]
      exact step_real _ _ m l a M1 (fun c => W (j * B + c.val)) hm_top (fun c => hG_top _) (fun c => rfl) hM1
    · obtain ⟨hl, ha⟩ := hsum M1
      constructor
      · rw [hl, sum_range_succ_block, mul_add, Finset.mul_sum, Finset.mul_sum]
        congr 1
        · exact Finset.sum_congr rfl fun i _ => expShift_rescale M1 M' (G i)
        · exact Finset.sum_congr rfl fun c _ => expShift_rescale M1 M' _
      · rw [ha, sum_range_succ_block, mul_add, Finset.mul_sum, Finset.mul_sum]
        congr 1
        · exact Finset.sum_congr rfl fun i _ => by rw [← mul_assoc, expShift_rescale]
        · exact Finset.sum_congr rfl fun c _ => by rw [← mul_assoc, expShift_rescale]

/-- After n ≥ 1 blocks the quotient of the two running sums is, for every real reference point M', the
    quotient of the sums of exp (G - M') · W and of exp (G - M') over the first n·B positions. -/
theorem run_quotient {B : Nat} (n : Nat) (hn : 0 < n) (G : ℕ → EReal) (W : ℕ → ℝ) (s v : Nat → Fin B → EReal)
    (hs : ∀ (j : Nat) (c : Fin B), j < n → s j c = G (j * B + c.val))
    (hv : ∀ (j : Nat) (c : Fin B), j < n → v j c = ((W (j * B + c.val) : ℝ) : EReal))
    (hG_top : ∀ i, G i ≠ ⊤) (hreal0 : ∃ i, i < B ∧ G i ≠ ⊥) (M' : ℝ) :
    Ideal.div (run s v n).2.2 (run s v n).2.1
      = (((∑ i ∈ Finset.range (n * B), expShift (G i) M' * W i)
          / (∑ i ∈ Finset.range (n * B), expShift (G i) M') : ℝ) : EReal) := by
  obtain ⟨m, l, a, hrun, _, hm_bot, hsum⟩ := run_invariant n G W s v hs hv hG_top hreal0 n le_rfl
  obtain ⟨hl, ha⟩ := hsum M'
  have hc : 0 < expShift m M' := expShift_pos (hm_bot hn) M'
  have hL : 0 < ∑ i ∈ Finset.range (n * B), expShift (G i) M' := by
    obtain ⟨i0, hi0, hGi0⟩ := hreal0
    have hB : B ≤ n * B := Nat.le_mul_of_pos_left B hn
    exact Finset.sum_pos' (fun i _ => expShift_nonneg _ _)
      ⟨i0, Finset.mem_range.2 (lt_of_lt_of_le hi0 hB), expShift_pos hGi0 M'⟩
  have hl0 : l ≠ 0 := by
    intro h
    rw [h, mul_zero] at hl
    exact hL.ne hl
  rw [hrun]
  show Ideal.div (a : EReal) (l : EReal) = _
  rw [div_coe_coe a hl0, ← hl, ← ha, mul_div_mul_left _ _ hc.ne']

/-! ## The theorem -/

/-- The online softmax over the first n blocks of a row whose scores are minus infinity from position n·B
    on, are never plus infinity and have a real among the first B, with real values: the quotient of the
    running weighted sum by the running sum is the softmax-weighted sum of the values over the whole row. -/
theorem online_eq_softmax (T N B n : Nat) (hT : T = N * B) (hn : 0 < n) (hnN : n ≤ N)
    (g w : Fin T → EReal) (s v : Nat → Fin B → EReal)
    (hs : ∀ (j : Nat) (c : Fin B) (h : j * B + c.val < T), j < n → s j c = g ⟨j * B + c.val, h⟩)
    (hv : ∀ (j : Nat) (c : Fin B) (h : j * B + c.val < T), j < n → v j c = w ⟨j * B + c.val, h⟩)
    (hg_top : ∀ k, g k ≠ ⊤)
    (hg_bot : ∀ k : Fin T, n * B ≤ k.val → g k = ⊥)
    (hreal0 : ∃ k : Fin T, k.val < B ∧ g k ≠ ⊥)
    (hw : ∀ k, ∃ r : ℝ, w k = (r : EReal)) :
    Ideal.div (run s v n).2.2 (run s v n).2.1 = ∑ k : Fin T, softmaxAt g k * w k := by
  -- the row and the values continued to all naturals: minus infinity and zero beyond T
  let G : ℕ → EReal := fun i => if h : i < T then g ⟨i, h⟩ else ⊥
  let W : ℕ → ℝ := fun i => if h : i < T then (w ⟨i, h⟩).toReal else 0
  have hGk : ∀ k : Fin T, G k.val = g k := fun k => dif_pos k.isLt
  have hWk : ∀ k : Fin T, ((W k.val : ℝ) : EReal) = w k := by
    intro k
    obtain ⟨r, hr⟩ := hw k
    have h1 : W k.val = (w k).toReal := dif_pos k.isLt
    rw [h1, hr, EReal.toReal_coe]
  have hnB : n * B ≤ T := by rw [hT]; exact Nat.mul_le_mul_right B hnN
  have hlt : ∀ (j : ℕ) (c : Fin B), j < n → j * B + c.val < T := by
    intro j c hj
    have h1 : (j + 1) * B ≤ n * B := Nat.mul_le_mul_right B hj
    have h2 : j * B + c.val < (j + 1) * B := by rw [add_one_mul]; exact Nat.add_lt_add_left c.isLt _
    omega
  have hs' : ∀ (j : Nat) (c : Fin B), j < n → s j c = G (j * B + c.val) := by
    intro j c hj
    rw [hs j c (hlt j c hj) hj]
    exact (hGk ⟨_, hlt j c hj⟩).symm
  have hv' : ∀ (j : Nat) (c : Fin B), j < n → v j c = ((W (j * B + c.val) : ℝ) : EReal) := by
    intro j c hj
    rw [hv j c (hlt j c hj) hj]
    exact (hWk ⟨_, hlt j c hj⟩).symm
  have hG_top : ∀ i, G i ≠ ⊤ := by
    intro i
    show (if h : i < T then g ⟨i, h⟩ else ⊥) ≠ ⊤
    split
    · exact hg_top _
    · exact bot_ne_top
  have hG_bot : ∀ i, n * B ≤ i → G i = ⊥ := by
    intro i hi
    show (if h : i < T then g ⟨i, h⟩ else ⊥) = ⊥
    split
    · next h => exact hg_bot ⟨i, h⟩ hi
    · rfl
  have hreal0' : ∃ i, i < B ∧ G i ≠ ⊥ := by
    obtain ⟨k, hk, hgk⟩ := hreal0
    exact ⟨k.val, hk, by rw [hGk]; exact hgk⟩
  -- the maximum of the row is a real
  have hF_top := fold_ne_top (Finset.univ : Finset (Fin T)) g hg_top
  have hF_bot : (Finset.univ : Finset (Fin T)).fold max negInf g ≠ ⊥ := by
    obtain ⟨k, _, hgk⟩ := hreal0
    intro hb
    have h1 := le_fold Finset.univ g (Finset.mem_univ k)
    rw [hb, le_bot_iff] at h1
    exact hgk h1
  obtain ⟨Ms, hMs⟩ := exists_real hF_top hF_bot
  -- the two sums over the row, against the maximum, as sums over the first n·B positions
  have hsumL : ∑ k : Fin T, expShift (g k) Ms = ∑ i ∈ Finset.range (n * B), expShift (G i) Ms := by
    rw [← sum_fin_eq_sum_range hnB (fun i => expShift (G i) Ms)
      (fun i hi => by rw [hG_bot i hi, expShift_bot])]
    exact Finset.sum_congr rfl fun k _ => by rw [hGk]
  have hsumA : ∑ k : Fin T, expShift (g k) Ms * W k.val
      = ∑ i ∈ Finset.range (n * B), expShift (G i) Ms * W i := by
    rw [← sum_fin_eq_sum_range hnB (fun i => expShift (G i) Ms * W i)
      (fun i hi => by rw [hG_bot i hi, expShift_bot, zero_mul])]
    exact Finset.sum_congr rfl fun k _ => by rw [hGk]
  have hL : 0 < ∑ k : Fin T, expShift (g k) Ms := by
    obtain ⟨k, _, hgk⟩ := hreal0
    exact Finset.sum_pos' (fun i _ => expShift_nonneg _ _) ⟨k, Finset.mem_univ k, expShift_pos hgk Ms⟩
  -- each term of the right-hand side is a real
  have hterm : ∀ k : Fin T, softmaxAt g k * w k
      = ((expShift (g k) Ms / (∑ k' : Fin T, expShift (g k') Ms) * W k.val : ℝ) : EReal) := by
    intro k
    have h1 : ∀ k' : Fin T, Ideal.exp (g k' - (Ms : EReal)) = ((expShift (g k') Ms : ℝ) : EReal) :=
      fun k' => exp_sub_coe (hg_top k') Ms
    unfold softmaxAt
    rw [hMs]
    simp only [h1]
    rw [← coe_sum, div_coe_coe _ hL.ne', ← hWk k, ← EReal.coe_mul]
  rw [run_quotient n hn G W s v hs' hv' hG_top hreal0' Ms, Finset.sum_congr rfl (fun k _ => hterm k),
    ← coe_sum, ← hsumL, ← hsumA, Finset.sum_div]
  exact congrArg _ (Finset.sum_congr rfl fun k _ => (div_mul_eq_mul_div _ _ _).symm)

end Idealize.ShloMosaic.OnlineSoftmax

end
-- ==== Proof.LibFactorSum.lean ====
/-
  The law that joins the two programs: a node's normalisation factor may be applied once, to the sum of the
  messages arriving at the node, instead of to each message.

  On the extended reals a factor distributes over a sum when it is a non-negative number other than +inf (a
  product with an infinity of either sign, or with zero, is then the same on both sides). The factor of node n
  is such a number: it is the reciprocal square root of a positive degree, or zero.
-/
import Idealize.ShloMosaic.PureOps.Ideal

noncomputable section
open scoped BigOperators
namespace Cert.LibFactorSum

/-- A non-negative factor other than +inf distributes over a finite sum of extended reals. -/
theorem mul_sum_of_nonneg {ι : Type} (s : Finset ι) (d : EReal) (hd : 0 ≤ d) (hd' : d ≠ ⊤) (f : ι → EReal) :
    d * ∑ e ∈ s, f e = ∑ e ∈ s, d * f e := by
  classical
  induction s using Finset.induction_on with
  | empty => simp
  | insert a s ha ih =>
    rw [Finset.sum_insert ha, Finset.sum_insert ha, EReal.left_distrib_of_nonneg_of_ne_top hd hd', ih]

/-- The sum of the messages reaching one node, scaled once by the node's factor d, is the sum of the messages
    each scaled by the sender's factor and by the receiver's factor, when the receiver's factor of every
    message that does reach the node is d. -/
theorem factor_out {M : Nat} (d : EReal) (hd : 0 ≤ d) (hd' : d ≠ ⊤) (c : Fin M → Prop) [DecidablePred c]
    (a s t : Fin M → EReal) (ht : ∀ e, c e → t e = d) :
    d * (0 + ∑ e : Fin M, if c e then a e * s e else 0)
      = 0 + ∑ e : Fin M, if c e then a e * (s e * t e) else 0 := by
  rw [zero_add, zero_add, mul_sum_of_nonneg _ d hd hd']
  refine Finset.sum_congr rfl fun e _ => ?_
  by_cases h : c e
  · rw [if_pos h, if_pos h, ht e h, mul_comm (s e) d, ← mul_assoc (a e), mul_comm (a e) d, mul_assoc]
  · rw [if_neg h, if_neg h, mul_zero]

/-- The reciprocal square root of a positive extended real is a non-negative number other than +inf. -/
theorem rsqrt_nonneg_ne_top (x : EReal) (hx : 0 < x) : 0 ≤ Idealize.ShloMosaic.Ideal.rsqrt x ∧ Idealize.ShloMosaic.Ideal.rsqrt x ≠ ⊤ := by
  induction x using EReal.rec with
  | bot => exact absurd hx (by simp)
  | top =>
    have h : Idealize.ShloMosaic.Ideal.rsqrt (⊤ : EReal) = 0 := rfl
    rw [h]; exact ⟨le_refl 0, EReal.zero_ne_top⟩
  | coe r =>
    have hr : 0 < r := by exact_mod_cast hx
    have h : Idealize.ShloMosaic.Ideal.rsqrt (r : EReal)
        = if r < 0 then ⊥ else if r = 0 then ⊤ else (((Real.sqrt r)⁻¹ : ℝ) : EReal) := rfl
    rw [h, if_neg (not_lt.mpr hr.le), if_neg hr.ne']
    exact ⟨by exact_mod_cast (inv_nonneg.mpr (Real.sqrt_nonneg r)), EReal.coe_ne_top _⟩

end Cert.LibFactorSum
end
-- ==== Proof.LibRealValued.lean ====
/-
  Real-valued arrays on the extended reals.

  At the ideal reading a float is an extended real, and the laws that join two arrangements of one
  computation (a factor moved across a sum, a variance computed two ways) hold for REAL entries only.
  A precondition says that the INPUTS are real; this module carries that fact through the host
  operations of a program, so that an intermediate array — a normalised adjacency, a propagated
  embedding, a projected feature matrix — is known to be real without ever being read at an index.

  * `IsReal x`, `IsNonneg x`, `IsPos x`: the extended real `x` is (the coercion of) a real, a real `≥ 0`,
    a real `> 0`; closed under `+`, `-`, `*`, `max`, finite sums, the quotient by a nonzero real; a
    nonnegative plus a positive is positive; the reciprocal square root of a positive is positive.
  * `AllReal v`, `AllNonneg v`, `AllPos v`: every entry is. Preserved by re-indexing (hence by
    `gather`, `broadcast_in_dim`, `slice`, `reshape`), by `pad`, by the pointwise operations, by the host's
    accumulating scatter (the exact sum of the colliding updates), by `dot_general` and by a float sum.
  * `AllReal.exists_real`: a real-valued array IS the coercion of an array of reals.
-/
import Idealize.ShloMosaic.PureOps.Ideal
import Idealize.ShloMosaic.PureOps.Contract
import Mathlib.Tactic

noncomputable section

namespace Cert.Lib.RealValued

open Idealize.ShloMosaic

/-! ## One extended real -/

/-- `x` is a real number. -/
def IsReal (x : EReal) : Prop := ∃ r : ℝ, x = (r : EReal)
/-- `x` is a real number `≥ 0`. -/
def IsNonneg (x : EReal) : Prop := ∃ r : ℝ, 0 ≤ r ∧ x = (r : EReal)
/-- `x` is a real number `> 0`. -/
def IsPos (x : EReal) : Prop := ∃ r : ℝ, 0 < r ∧ x = (r : EReal)

theorem IsPos.isNonneg {x : EReal} (h : IsPos x) : IsNonneg x := let ⟨r, hr, e⟩ := h; ⟨r, hr.le, e⟩
theorem IsNonneg.isReal {x : EReal} (h : IsNonneg x) : IsReal x := let ⟨r, _, e⟩ := h; ⟨r, e⟩
theorem IsPos.isReal {x : EReal} (h : IsPos x) : IsReal x := h.isNonneg.isReal

namespace IsReal

theorem coe (r : ℝ) : IsReal (r : EReal) := ⟨r, rfl⟩
theorem zero : IsReal (0 : EReal) := ⟨0, EReal.coe_zero.symm⟩
theorem one : IsReal (1 : EReal) := ⟨1, EReal.coe_one.symm⟩

theorem add {x y : EReal} (hx : IsReal x) (hy : IsReal y) : IsReal (x + y) := by
  obtain ⟨a, rfl⟩ := hx; obtain ⟨b, rfl⟩ := hy; exact ⟨a + b, (EReal.coe_add a b).symm⟩
theorem sub {x y : EReal} (hx : IsReal x) (hy : IsReal y) : IsReal (x - y) := by
  obtain ⟨a, rfl⟩ := hx; obtain ⟨b, rfl⟩ := hy; exact ⟨a - b, (EReal.coe_sub a b).symm⟩
theorem mul {x y : EReal} (hx : IsReal x) (hy : IsReal y) : IsReal (x * y) := by
  obtain ⟨a, rfl⟩ := hx; obtain ⟨b, rfl⟩ := hy; exact ⟨a * b, (EReal.coe_mul a b).symm⟩
theorem neg {x : EReal} (hx : IsReal x) : IsReal (-x) := by
  obtain ⟨a, rfl⟩ := hx; exact ⟨-a, (EReal.coe_neg a).symm⟩
theorem max {x y : EReal} (hx : IsReal x) (hy : IsReal y) : IsReal (max x y) := by
  obtain ⟨a, rfl⟩ := hx; obtain ⟨b, rfl⟩ := hy
  exact ⟨Max.max a b, (EReal.coe_strictMono.monotone.map_max (a := a) (b := b)).symm⟩

/-- A finite sum of reals is a real. -/
theorem sum {ι : Type*} (s : Finset ι) (f : ι → EReal) (h : ∀ i ∈ s, IsReal (f i)) : IsReal (∑ i ∈ s, f i) := by
  classical
  induction s using Finset.induction_on with
  | empty => rw [Finset.sum_empty]; exact zero
  | insert a s ha ih =>
    rw [Finset.sum_insert ha]
    exact (h a (Finset.mem_insert_self a s)).add (ih fun i hi => h i (Finset.mem_insert_of_mem hi))

/-- The quotient of a real by a nonzero real constant is a real. -/
theorem div_coe {x : EReal} (hx : IsReal x) {n : ℝ} (hn : n ≠ 0) : IsReal (Ideal.div x (n : EReal)) := by
  rw [Ideal.div_coe hn]; exact hx.mul (coe _)

theorem ne_top {x : EReal} (hx : IsReal x) : x ≠ ⊤ := by obtain ⟨a, rfl⟩ := hx; exact EReal.coe_ne_top a
theorem ne_bot {x : EReal} (hx : IsReal x) : x ≠ ⊥ := by obtain ⟨a, rfl⟩ := hx; exact EReal.coe_ne_bot a

end IsReal

namespace IsNonneg

theorem zero : IsNonneg (0 : EReal) := ⟨0, le_rfl, EReal.coe_zero.symm⟩
theorem add {x y : EReal} (hx : IsNonneg x) (hy : IsNonneg y) : IsNonneg (x + y) := by
  obtain ⟨a, ha, rfl⟩ := hx; obtain ⟨b, hb, rfl⟩ := hy; exact ⟨a + b, add_nonneg ha hb, (EReal.coe_add a b).symm⟩
theorem mul {x y : EReal} (hx : IsNonneg x) (hy : IsNonneg y) : IsNonneg (x * y) := by
  obtain ⟨a, ha, rfl⟩ := hx; obtain ⟨b, hb, rfl⟩ := hy; exact ⟨a * b, mul_nonneg ha hb, (EReal.coe_mul a b).symm⟩
/-- A nonnegative real plus a positive one is positive (a degree count plus the self loop). -/
theorem add_pos {x y : EReal} (hx : IsNonneg x) (hy : IsPos y) : IsPos (x + y) := by
  obtain ⟨a, ha, rfl⟩ := hx; obtain ⟨b, hb, rfl⟩ := hy
  exact ⟨a + b, add_pos_of_nonneg_of_pos ha hb, (EReal.coe_add a b).symm⟩
theorem sum {ι : Type*} (s : Finset ι) (f : ι → EReal) (h : ∀ i ∈ s, IsNonneg (f i)) : IsNonneg (∑ i ∈ s, f i) := by
  classical
  induction s using Finset.induction_on with
  | empty => rw [Finset.sum_empty]; exact zero
  | insert a s ha ih =>
    rw [Finset.sum_insert ha]
    exact (h a (Finset.mem_insert_self a s)).add (ih fun i hi => h i (Finset.mem_insert_of_mem hi))

end IsNonneg

namespace IsPos

theorem one : IsPos (1 : EReal) := ⟨1, one_pos, EReal.coe_one.symm⟩
theorem mul {x y : EReal} (hx : IsPos x) (hy : IsPos y) : IsPos (x * y) := by
  obtain ⟨a, ha, rfl⟩ := hx; obtain ⟨b, hb, rfl⟩ := hy; exact ⟨a * b, mul_pos ha hb, (EReal.coe_mul a b).symm⟩
/-- The reciprocal square root of a positive real is a positive real (no corner of `rsqrt` is met). -/
theorem rsqrt {x : EReal} (hx : IsPos x) : IsPos (Ideal.rsqrt x) := by
  obtain ⟨r, hr, rfl⟩ := hx
  rw [Ideal.rsqrt_coe, if_neg (not_lt.2 hr.le), if_neg hr.ne']
  exact ⟨_, inv_pos.2 (Real.sqrt_pos.2 hr), rfl⟩

end IsPos

/-! ## Arrays -/

/-- Every entry is a real. -/
def AllReal {ι : Type*} (v : ι → EReal) : Prop := ∀ i, IsReal (v i)
/-- Every entry is a real `≥ 0`. -/
def AllNonneg {ι : Type*} (v : ι → EReal) : Prop := ∀ i, IsNonneg (v i)
/-- Every entry is a real `> 0`. -/
def AllPos {ι : Type*} (v : ι → EReal) : Prop := ∀ i, IsPos (v i)

theorem AllPos.allNonneg {ι : Type*} {v : ι → EReal} (h : AllPos v) : AllNonneg v := fun i => (h i).isNonneg
theorem AllNonneg.allReal {ι : Type*} {v : ι → EReal} (h : AllNonneg v) : AllReal v := fun i => (h i).isReal
theorem AllPos.allReal {ι : Type*} {v : ι → EReal} (h : AllPos v) : AllReal v := fun i => (h i).isReal

/-- A real-valued array is the coercion of an array of reals. -/
theorem AllReal.exists_real {ι : Type*} {v : ι → EReal} (h : AllReal v) : ∃ r : ι → ℝ, v = fun i => (r i : EReal) :=
  ⟨fun i => (h i).choose, funext fun i => (h i).choose_spec⟩

/-- Any re-indexing of a real-valued array is real-valued. -/
theorem AllReal.reindex {ι κ : Type*} {v : ι → EReal} (h : AllReal v) (g : κ → ι) : AllReal (fun j => v (g j)) :=
  fun j => h (g j)
theorem AllNonneg.reindex {ι κ : Type*} {v : ι → EReal} (h : AllNonneg v) (g : κ → ι) : AllNonneg (fun j => v (g j)) :=
  fun j => h (g j)
theorem AllPos.reindex {ι κ : Type*} {v : ι → EReal} (h : AllPos v) (g : κ → ι) : AllPos (fun j => v (g j)) :=
  fun j => h (g j)

section Ops

variable {s t : Shape} {φ : FTy}

/-! ### Pointwise operations -/

theorem AllReal.addf {x y : FVec Ideal s φ} (hx : AllReal x) (hy : AllReal y) : AllReal (addf x y) :=
  fun i => (hx i).add (hy i)
theorem AllReal.subf {x y : FVec Ideal s φ} (hx : AllReal x) (hy : AllReal y) : AllReal (subf x y) :=
  fun i => (hx i).sub (hy i)
theorem AllReal.mulf {x y : FVec Ideal s φ} (hx : AllReal x) (hy : AllReal y) : AllReal (mulf x y) :=
  fun i => (hx i).mul (hy i)
theorem AllReal.maximumf {x y : FVec Ideal s φ} (hx : AllReal x) (hy : AllReal y) : AllReal (maximumf x y) :=
  fun i => (hx i).max (hy i)
theorem AllNonneg.add_pos {x y : FVec Ideal s φ} (hx : AllNonneg x) (hy : AllPos y) : AllPos (Idealize.ShloMosaic.addf x y) :=
  fun i => (hx i).add_pos (hy i)
theorem AllPos.mulf {x y : FVec Ideal s φ} (hx : AllPos x) (hy : AllPos y) : AllPos (Idealize.ShloMosaic.mulf x y) :=
  fun i => (hx i).mul (hy i)
/-- The host's reciprocal square root of a positive array is positive. -/
theorem AllPos.hostRsqrt {x : FVec Ideal s φ} (hx : AllPos x) : AllPos (Host.rsqrt x) :=
  fun i => (hx i).rsqrt
/-- The host's quotient by a splat nonzero real constant. -/
theorem AllReal.hostDivf_const {x y : FVec Ideal s φ} (hx : AllReal x) {n : ℝ} (hn : n ≠ 0) (hy : ∀ i, y i = (n : EReal)) :
    AllReal (Host.divf x y) :=
  fun i => by
    show IsReal (Ideal.div (x i) (y i))
    rw [hy i]; exact (hx i).div_coe hn

/-! ### Layout operations -/

theorem AllReal.broadcastInDim {x : s.Idx → EReal} (hx : AllReal x) (dims : Fin s.rank → Fin t.rank)
    (h : s.BroadcastsInDim t dims) : AllReal (broadcastInDim t dims h x) := fun _ => hx _
theorem AllPos.broadcastInDim {x : s.Idx → EReal} (hx : AllPos x) (dims : Fin s.rank → Fin t.rank)
    (h : s.BroadcastsInDim t dims) : AllPos (Idealize.ShloMosaic.broadcastInDim t dims h x) := fun _ => hx _
theorem AllReal.extractStridedSlice {x : s.Idx → EReal} (hx : AllReal x) (off : Fin s.rank → Nat) (h : s.Slices off t) :
    AllReal (extractStridedSlice t off x h) := fun _ => hx _
theorem AllReal.shapeCast {x : s.Idx → EReal} (hx : AllReal x) (h : s.ShapeCasts t) :
    AllReal (shapeCast t x h) := fun _ => hx _
/-- A padded array is real-valued when the array and the padding value are. -/
theorem AllReal.pad {x : s.Idx → EReal} (hx : AllReal x) (lo hi interior : Fin s.rank → Nat) {u : Shape} {v : u.Idx → EReal}
    (hv : AllReal v) (h : s.Pads lo hi interior t) (hu : 0 < u.numel) : AllReal (pad t lo hi interior x v h hu) := fun j => by
  unfold Idealize.ShloMosaic.pad
  split_ifs
  · exact hx _
  · exact hv _

/-! ### Gather, scatter-add, contraction, sum -/

/-- A gather reads entries of its operand. -/
theorem AllReal.gather {si : Shape} {w : Nat} {x : s.Idx → EReal} (hx : AllReal x) (d : GatherDims s si t) (idx : IVec si w) :
    AllReal (Host.gather d x idx) := fun _ => hx _
theorem AllPos.gather {si : Shape} {w : Nat} {x : s.Idx → EReal} (hx : AllPos x) (d : GatherDims s si t) (idx : IVec si w) :
    AllPos (Host.gather d x idx) := fun _ => hx _

/-- The host's accumulating scatter at the ideal reading is each operand entry plus the exact sum of the updates
    landing on it: real-valued when operand and updates are, wherever the indices point. -/
theorem AllReal.scatterAdd {si u : Shape} {w : Nat} (d : ScatterDims s si u) {x : FVec Ideal s φ} (hx : AllReal x)
    (idx : IVec si w) {upd : FVec Ideal u φ} (hu : AllReal upd) : AllReal (Host.scatterAdd d x idx upd) := fun i => by
  show IsReal (x i + ∑ j ∈ Finset.univ.filter (fun j => d.resultIdx? j idx = some i), upd j)
  exact (hx i).add (IsReal.sum _ _ fun j _ => hu j)
/-- … and nonnegative when both are (a degree count). -/
theorem AllNonneg.scatterAdd {si u : Shape} {w : Nat} (d : ScatterDims s si u) {x : FVec Ideal s φ} (hx : AllNonneg x)
    (idx : IVec si w) {upd : FVec Ideal u φ} (hu : AllNonneg upd) : AllNonneg (Host.scatterAdd d x idx upd) := fun i => by
  show IsNonneg (x i + ∑ j ∈ Finset.univ.filter (fun j => d.resultIdx? j idx = some i), upd j)
  exact (hx i).add (IsNonneg.sum _ _ fun j _ => hu j)

/-- The host's `dot_general` of real-valued operands is real-valued: a finite sum of products. -/
theorem AllReal.dotGeneral {sl sr so : Shape} {φ₁ φ₂ : FTy} (d : DotDims sl sr so) (prec : Option ContractPrecision)
    {l : FVec Ideal sl φ₁} (hl : AllReal l) {r : FVec Ideal sr φ₂} (hr : AllReal r) :
    AllReal (Host.dotGeneral d prec l r) := fun j => by
  show IsReal ((0 : EReal) + ∑ k : d.contr.Idx, l (d.lhsIdx j k) * r (d.rhsIdx j k))
  exact IsReal.zero.add (IsReal.sum _ _ fun k _ => (hl _).mul (hr _))

/-- The host's float sum of a real-valued array from a real initial value is real-valued. -/
theorem AllReal.reduceAdd {axes : List (Fin s.rank)} {u : Shape} {x : FVec Ideal s φ} (hx : AllReal x)
    {init : u.Idx → Ideal φ} (hi : AllReal init) (h : s.ReducesTo axes t) (hu : 0 < u.numel) :
    AllReal (Host.reduceAdd x init h hu) := fun j => by
  show IsReal (init (Shape.Idx.first hu) + ∑ i ∈ Finset.univ.filter (fun i => h.drop i = j), x i)
  exact (hi _).add (IsReal.sum _ _ fun i _ => hx i)

end Ops

end Cert.Lib.RealValued

end
-- ==== Proof.KI.Coords1.lean ====
/-
  The 64 grid points of the attention region by coordinates: point t is batch t / 16, query tile t / 4 % 4, key tile
  t % 4; row r of tile j is sequence position j · 1024 + r.
-/
import proofs.«154889_j71219147702646_2_alg».proof.Proof.Gen.KernelIdeal.Launch

namespace Cert.KernelIdeal.Val

open Cert.KernelIdeal Cert.KernelIdeal.Gen Idealize.ShloMosaic

/-- The batch of grid point t. -/
def bOf (t : Fin cfg1.N) : Fin 4 := ⟨t.val / 16, by have := t.isLt; have : cfg1.N = 64 := N_1; omega⟩
/-- The query tile of grid point t. -/
def qiOf (t : Fin cfg1.N) : Fin 4 := ⟨t.val / 4 % 4, by omega⟩
/-- The key tile of grid point t. -/
def kiOf (t : Fin cfg1.N) : Fin 4 := ⟨t.val % 4, by omega⟩
/-- Row r of tile j as a sequence position. -/
def rowOf (j : Fin 4) (r : Fin 1024) : Fin 4096 := ⟨j.val * 1024 + r.val, by have := j.isLt; have := r.isLt; omega⟩

@[simp] theorem bOf_val (t : Fin cfg1.N) : (bOf t).val = t.val / 16 := rfl
@[simp] theorem qiOf_val (t : Fin cfg1.N) : (qiOf t).val = t.val / 4 % 4 := rfl
@[simp] theorem kiOf_val (t : Fin cfg1.N) : (kiOf t).val = t.val % 4 := rfl
@[simp] theorem rowOf_val (j : Fin 4) (r : Fin 1024) : (rowOf j r).val = j.val * 1024 + r.val := rfl

end Cert.KernelIdeal.Val
-- ==== Proof.LibKeepdims.lean ====
/-
  Two layout operations read at an index, for a reduction that keeps its axis as a unit column:
  a vector [a] cast to a column [a, 1], and a column [a, 1] broadcast along the rows of [a, b].
  Together: (broadcast (cast v)) (p, c) = v p — every entry of row p is the row's reduced value.
-/
import Idealize.ShloMosaic.Lib.Pipeline.Value
import Idealize.ShloMosaic.Lib.ValueIdx
import Idealize.ShloMosaic.Lib.ValueLayout

noncomputable section

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector's entry `p` spread along row `p`: the cast to a column followed by the broadcast along the rows. -/
theorem keepdims_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) := by
  rw [broadcastTo_a1_ab_apply, shapeCast_a_a1_apply]

end Cert.LibKeepdims

end
-- ==== Proof.KI.Payloads1.lean ====
/-
  The attention kernel's arithmetic, one payload at a time, read at an index on the extended reals.

  A query tile and a key tile are 1024 rows of 64 head features. The score of row r of the query tile
  against row cc of the key tile is the sum over the head features of (q · 1/8) · k, kept where the key's
  position in the sequence is not after the query's and minus infinity elsewhere. From the scores of one
  row and the running state (maximum m, sum l, weighted sum acc) the kernel forms the new maximum
  max m (max of the row), the factor exp (m - new maximum), the terms exp (score - new maximum), the new
  sum factor · l + Σ terms and the new weighted sum factor · acc + Σ terms · v: together, one step of the
  online softmax on that row.
-/
import proofs.«154889_j71219147702646_2_alg».proof.Proof.Gen.KernelIdeal.Skeleton
import proofs.«154889_j71219147702646_2_alg».proof.Proof.Spec
import proofs.«154889_j71219147702646_2_alg».proof.Proof.LibOnlineSoftmaxDefs
import proofs.«154889_j71219147702646_2_alg».proof.Proof.LibKeepdims
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Pay

open Cert.KernelIdeal Cert.KernelIdeal.Gen Idealize.ShloMosaic Idealize.ShloMosaic.ValueIdx Idealize.ShloMosaic.LastAxisSoftmax

/-! ## The integer words of the causal mask -/

/-- Row and column numbers below 4096, formed as 32-bit words (tile number times 1024 plus the position in
    the tile), compare as signed words the way they compare as naturals: nothing wraps below 2^31. -/
theorem mask_iff (qi ki : Nat) (hqi : qi < 4) (hki : ki < 4) (r cc : Fin 1024) :
    IntOp.cmpi .sle (BitVec.ofNat 32 ki * 1024#32 + BitVec.ofNat 32 cc.val)
        (BitVec.ofNat 32 qi * 1024#32 + BitVec.ofNat 32 r.val) = 1#1
      ↔ ki * 1024 + cc.val ≤ qi * 1024 + r.val := by
  have key : ∀ (a : Nat) (c : Fin 1024), a < 4 →
      (BitVec.ofNat 32 a * 1024#32 + BitVec.ofNat 32 c.val).toInt = ((a * 1024 + c.val : Nat) : Int) := by
    intro a c ha
    have hc := c.isLt
    have hn : (BitVec.ofNat 32 a * 1024#32 + BitVec.ofNat 32 c.val).toNat = a * 1024 + c.val := by
      simp only [BitVec.toNat_add, BitVec.toNat_mul, BitVec.toNat_ofNat]
      omega
    rw [BitVec.toInt_eq_toNat_cond, hn, if_pos (by omega)]
  rw [IntOp.cmpi_sle, key ki cc hki, key qi r hqi]
  exact Int.ofNat_le

/-- The mask's word at (r, cc): the column numbers, one row broadcast down, against the row numbers, one
    column broadcast across. -/
theorem mask_apply (a1 a2 : BitVec 32) (h1 : S1x1024.Iotas .tc 32 [1]) (hb1 : S1x1024.Broadcasts S1024x1024)
    (h0 : S1024x1.Iotas .tc 32 [0]) (hb0 : S1024x1.Broadcasts S1024x1024) (r cc : Fin 1024) :
    cmpi .sle
        (broadcastTo S1024x1024 (addi (broadcast S1x1024 (Scalar.muli a2 1024#32)) (iota .tc S1x1024 32 [1] h1)) hb1)
        (broadcastTo S1024x1024 (addi (broadcast S1024x1 (Scalar.muli a1 1024#32)) (iota .tc S1024x1 32 [0] h0)) hb0)
        (ix2 r cc)
      = IntOp.cmpi .sle (a2 * 1024#32 + BitVec.ofNat 32 cc.val) (a1 * 1024#32 + BitVec.ofNat 32 r.val) := by
  have e1 : broadcastTo S1024x1024 (addi (broadcast S1x1024 (Scalar.muli a2 1024#32)) (iota .tc S1x1024 32 [1] h1)) hb1 (ix2 r cc)
      = a2 * 1024#32 + BitVec.ofNat 32 cc.val := by
    refine (broadcastTo_1b_ab_apply _ hb1 r cc).trans ?_
    show Scalar.muli a2 1024#32 + iota .tc S1x1024 32 [1] h1 (ix2 (0 : Fin 1) cc) = _
    rw [iota_single_apply]
    rfl
  have e0 : broadcastTo S1024x1024 (addi (broadcast S1024x1 (Scalar.muli a1 1024#32)) (iota .tc S1024x1 32 [0] h0)) hb0 (ix2 r cc)
      = a1 * 1024#32 + BitVec.ofNat 32 r.val := by
    refine (Cert.LibKeepdims.broadcastTo_a1_ab_apply _ hb0 r cc).trans ?_
    show Scalar.muli a1 1024#32 + iota .tc S1024x1 32 [0] h0 (ix2 r (0 : Fin 1)) = _
    rw [iota_single_apply]
    rfl
  show IntOp.cmpi .sle _ _ = _
  rw [e1, e0]

/-! ## The two matrix products -/

theorem qk_lhs0 (j : S1024x1024.Idx) (q : dot_S1024x64_S64x1024_S1024x1024_1_0_0_1_n_n.contr.Idx) : (dot_S1024x64_S64x1024_S1024x1024_1_0_0_1_n_n.lhsIdx j q 0).val = (j 0).val := by
  unfold DotDims.lhsIdx
  rw [dif_neg (show ¬(0 : Fin S1024x64.rank) ∈ dot_S1024x64_S64x1024_S1024x1024_1_0_0_1_n_n.lhsBatch by decide),
    dif_pos (show (0 : Fin S1024x64.rank) ∈ dot_S1024x64_S64x1024_S1024x1024_1_0_0_1_n_n.lhsNonContracting by decide)]
  rfl

/-- The right operand's column coordinate in the scores product is the output's column. -/
theorem qk_rhs1 (j : S1024x1024.Idx) (q : dot_S1024x64_S64x1024_S1024x1024_1_0_0_1_n_n.contr.Idx) : (dot_S1024x64_S64x1024_S1024x1024_1_0_0_1_n_n.rhsIdx j q 1).val = (j 1).val := by
  unfold DotDims.rhsIdx
  rw [dif_neg (show ¬(1 : Fin S64x1024.rank) ∈ dot_S1024x64_S64x1024_S1024x1024_1_0_0_1_n_n.rhsBatch by decide),
    dif_pos (show (1 : Fin S64x1024.rank) ∈ dot_S1024x64_S64x1024_S1024x1024_1_0_0_1_n_n.rhsNonContracting by decide)]
  rfl

/-- The product of a [1024, 64] matrix with a [64, 1024] matrix into zero, at (r, cc): the sum over the 64
    contracted positions. -/
theorem qk_matmul_apply (A : FVec Ideal S1024x64 .bf16) (Bm : FVec Ideal S64x1024 .bf16) (r cc : Fin 1024) :
    matmul dot_S1024x64_S64x1024_S1024x1024_1_0_0_1_n_n none A Bm (constant (F := Ideal) S1024x1024 .f32 0x00000000#32) (ix2 r cc)
      = ∑ h : Fin 64, A (ix2 r h) * Bm (ix2 h cc) := by
  refine (Ideal.matmul_constant_zero_apply dot_S1024x64_S64x1024_S1024x1024_1_0_0_1_n_n none A Bm (ix2 r cc)).trans ?_
  rw [← Equiv.sum_comp (contrEquiv1 dot_S1024x64_S64x1024_S1024x1024_1_0_0_1_n_n 64 rfl rfl).symm]
  refine Finset.sum_congr rfl fun k _ => ?_
  have hk := contrEquiv1_symm_val dot_S1024x64_S64x1024_S1024x1024_1_0_0_1_n_n 64 rfl rfl k
  have el : dot_S1024x64_S64x1024_S1024x1024_1_0_0_1_n_n.lhsIdx (ix2 r cc) ((contrEquiv1 dot_S1024x64_S64x1024_S1024x1024_1_0_0_1_n_n 64 rfl rfl).symm k) = ix2 r k :=
    funext fun a => Fin.ext (by
      match a with
      | ⟨0, _⟩ => exact qk_lhs0 _ _
      | ⟨1, _⟩ => exact (dot_S1024x64_S64x1024_S1024x1024_1_0_0_1_n_n.lhsIdx_val_of_single rfl _ _).trans hk)
  have er : dot_S1024x64_S64x1024_S1024x1024_1_0_0_1_n_n.rhsIdx (ix2 r cc) ((contrEquiv1 dot_S1024x64_S64x1024_S1024x1024_1_0_0_1_n_n 64 rfl rfl).symm k) = ix2 k cc :=
    funext fun a => Fin.ext (by
      match a with
      | ⟨0, _⟩ => exact (dot_S1024x64_S64x1024_S1024x1024_1_0_0_1_n_n.rhsIdx_val_of_single rfl _ _).trans hk
      | ⟨1, _⟩ => exact qk_rhs1 _ _)
  rw [el, er]

/-- The left operand's row coordinate in the weights-times-values product is the output's row. -/
theorem pv_lhs0 (j : S1024x64.Idx) (q : dot_S1024x1024_S1024x64_S1024x64_1_0_0_1_n_n.contr.Idx) : (dot_S1024x1024_S1024x64_S1024x64_1_0_0_1_n_n.lhsIdx j q 0).val = (j 0).val := by
  unfold DotDims.lhsIdx
  rw [dif_neg (show ¬(0 : Fin S1024x1024.rank) ∈ dot_S1024x1024_S1024x64_S1024x64_1_0_0_1_n_n.lhsBatch by decide),
    dif_pos (show (0 : Fin S1024x1024.rank) ∈ dot_S1024x1024_S1024x64_S1024x64_1_0_0_1_n_n.lhsNonContracting by decide)]
  rfl

/-- The right operand's column coordinate in the weights-times-values product is the output's column. -/
theorem pv_rhs1 (j : S1024x64.Idx) (q : dot_S1024x1024_S1024x64_S1024x64_1_0_0_1_n_n.contr.Idx) : (dot_S1024x1024_S1024x64_S1024x64_1_0_0_1_n_n.rhsIdx j q 1).val = (j 1).val := by
  unfold DotDims.rhsIdx
  rw [dif_neg (show ¬(1 : Fin S1024x64.rank) ∈ dot_S1024x1024_S1024x64_S1024x64_1_0_0_1_n_n.rhsBatch by decide),
    dif_pos (show (1 : Fin S1024x64.rank) ∈ dot_S1024x1024_S1024x64_S1024x64_1_0_0_1_n_n.rhsNonContracting by decide)]
  rfl

/-- The product of a [1024, 1024] matrix with a [1024, 64] matrix into zero, at (r, h): the sum over the 1024
    contracted positions. -/
theorem pv_matmul_apply (A : FVec Ideal S1024x1024 .bf16) (Bm : FVec Ideal S1024x64 .bf16) (r : Fin 1024) (h : Fin 64) :
    matmul dot_S1024x1024_S1024x64_S1024x64_1_0_0_1_n_n none A Bm (constant (F := Ideal) S1024x64 .f32 0x00000000#32) (ix2 r h)
      = ∑ cc : Fin 1024, A (ix2 r cc) * Bm (ix2 cc h) := by
  refine (Ideal.matmul_constant_zero_apply dot_S1024x1024_S1024x64_S1024x64_1_0_0_1_n_n none A Bm (ix2 r h)).trans ?_
  rw [← Equiv.sum_comp (contrEquiv1 dot_S1024x1024_S1024x64_S1024x64_1_0_0_1_n_n 1024 rfl rfl).symm]
  refine Finset.sum_congr rfl fun k _ => ?_
  have hk := contrEquiv1_symm_val dot_S1024x1024_S1024x64_S1024x64_1_0_0_1_n_n 1024 rfl rfl k
  have el : dot_S1024x1024_S1024x64_S1024x64_1_0_0_1_n_n.lhsIdx (ix2 r h) ((contrEquiv1 dot_S1024x1024_S1024x64_S1024x64_1_0_0_1_n_n 1024 rfl rfl).symm k) = ix2 r k :=
    funext fun a => Fin.ext (by
      match a with
      | ⟨0, _⟩ => exact pv_lhs0 _ _
      | ⟨1, _⟩ => exact (dot_S1024x1024_S1024x64_S1024x64_1_0_0_1_n_n.lhsIdx_val_of_single rfl _ _).trans hk)
  have er : dot_S1024x1024_S1024x64_S1024x64_1_0_0_1_n_n.rhsIdx (ix2 r h) ((contrEquiv1 dot_S1024x1024_S1024x64_S1024x64_1_0_0_1_n_n 1024 rfl rfl).symm k) = ix2 k h :=
    funext fun a => Fin.ext (by
      match a with
      | ⟨0, _⟩ => exact (dot_S1024x1024_S1024x64_S1024x64_1_0_0_1_n_n.rhsIdx_val_of_single rfl _ _).trans hk
      | ⟨1, _⟩ => exact pv_rhs1 _ _)
  rw [el, er]

/-! ## Row reductions kept as a unit column -/

/-- The index of [a, b] over p of [a] with k on the reduced last axis is (p, k). -/
theorem lift2 {n0 n1 : Nat} (hr : (⟨2, ![n0, n1]⟩ : Shape).Reduces [1] ⟨1, ![n0]⟩) (p : Fin n0) (k : Fin n1) :
    hr.lift (ix1 p) k = ix2 p k := by
  funext a
  apply Fin.ext
  match a with
  | ⟨0, _⟩ => rfl
  | ⟨1, _⟩ => rfl

/-- A row maximum from minus infinity, kept as a column: at (r, 0) the fold of max over row r. -/
theorem rowmax_apply (X : FVec Ideal S1024x1024 .f32) (hr : S1024x1024.Reduces [1] S1024) (hφ : FKind.Formats .f32)
    (hacc : (0xFF800000#32 : BitVec 32) = FKind.maximumf.neutral .f32 hφ) (hc : S1024.ShapeCasts S1024x1) (r : Fin 1024) :
    shapeCast S1024x1 (multiReduction .maximumf [1] S1024 X 0xFF800000#32 hr hφ hacc) hc (ix2 r (0 : Fin 1))
      = (Finset.univ : Finset (Fin 1024)).fold max negInf (fun cc => X (ix2 r cc)) := by
  refine (Cert.LibKeepdims.shapeCast_a_a1_apply _ hc r (0 : Fin 1)).trans ?_
  rw [Ideal.multiReduction_maximumf_single]
  exact congrArg (fun f : Fin 1024 → EReal => (Finset.univ : Finset (Fin 1024)).fold max negInf f)
    (funext fun k => congrArg X (lift2 hr r k))

/-- A row sum from zero, kept as a column: at (r, 0) the sum over row r. -/
theorem rowsum_apply (X : FVec Ideal S1024x1024 .f32) (hr : S1024x1024.Reduces [1] S1024) (hφ : FKind.Formats .f32)
    (hacc : (0x00000000#32 : BitVec 32) = FKind.add.neutral .f32 hφ) (hc : S1024.ShapeCasts S1024x1) (r : Fin 1024) :
    shapeCast S1024x1 (multiReduction .add [1] S1024 X 0x00000000#32 hr hφ hacc) hc (ix2 r (0 : Fin 1))
      = ∑ cc : Fin 1024, X (ix2 r cc) := by
  refine (Cert.LibKeepdims.shapeCast_a_a1_apply _ hc r (0 : Fin 1)).trans ?_
  rw [Ideal.multiReduction_add_single]
  exact Finset.sum_congr rfl fun k _ => congrArg X (lift2 hr r k)

/-! ## The payloads -/

/-- The f32 word of minus infinity denotes the bottom of the extended reals. -/
theorem negInf_bot : negInf = ⊥ := by
  simp [negInf, Ideal.ofBits, Ideal.ieee]

/-- The constant the program names "neg_big" denotes minus infinity. -/
theorem named_neg_big : Named.named (F := Ideal) Cert.KernelIdeal.κ "neg_big" (φ := .f32) 0xF149F2CA#32 = ⊥ :=
  IdealRules.named_const.ideal_named_scalar _ _ _ _ rfl

/-- The masked, scaled score of row r of the query tile against row cc of the key tile. -/
def tileScore (qi ki : Nat) (xq xk : Vec Ideal S1x1024x64 .bf16) (r cc : Fin 1024) : EReal :=
  if ki * 1024 + cc.val ≤ qi * 1024 + r.val then
    ∑ h : Fin 64, (xq (ix3 (0 : Fin 1) r h) * Cert.Spec.scale) * xk (ix3 (0 : Fin 1) cc h)
  else negInf

/-- The unmasked scores: the query tile times 1/8 against the transposed key tile. -/
theorem scores_apply (xq xk : Vec Ideal S1x1024x64 .bf16) (hc : S1x1024x64.ShapeCasts S1024x64)
    (hlt : FTy.bits .bf16 < FTy.bits .f32) (ht : S1024x64.Transposes [1, 0] S64x1024) (r cc : Fin 1024) :
    matmul dot_S1024x64_S64x1024_S1024x1024_1_0_0_1_n_n none
        (truncf .bf16 (mulf (extf .f32 (shapeCast S1024x64 xq hc : FVec Ideal S1024x64 .bf16) hlt)
          (broadcast S1024x64 (FloatOps.ofBits .f32 0x3E000000#32))) hlt : FVec Ideal S1024x64 .bf16)
        (transpose S64x1024 [1, 0] (shapeCast S1024x64 xk hc : FVec Ideal S1024x64 .bf16) ht)
        (constant (F := Ideal) S1024x1024 .f32 0x00000000#32) (ix2 r cc)
      = ∑ h : Fin 64, (xq (ix3 (0 : Fin 1) r h) * Cert.Spec.scale) * xk (ix3 (0 : Fin 1) cc h) := by
  refine (qk_matmul_apply _ _ r cc).trans ?_
  refine Finset.sum_congr rfl fun h _ => ?_
  have e1 : transpose S64x1024 [1, 0] (shapeCast S1024x64 xk hc : FVec Ideal S1024x64 .bf16) ht (ix2 h cc)
      = xk (ix3 (0 : Fin 1) cc h) :=
    (transpose_ix2_apply _ ht h cc).trans (shapeCast_1ab_ab_apply xk hc cc h)
  have e2 : (shapeCast S1024x64 xq hc : FVec Ideal S1024x64 .bf16) (ix2 r h) = xq (ix3 (0 : Fin 1) r h) :=
    shapeCast_1ab_ab_apply xq hc r h
  rw [e1]
  show (shapeCast S1024x64 xq hc : FVec Ideal S1024x64 .bf16) (ix2 r h) * Ideal.ofBits .f32 0x3E000000#32 * _ = _
  rw [e2]

/-- The scores payload at (r, cc) is the masked, scaled score: the mask compares sequence positions, which do not
    wrap as 32-bit words; the masked-out value is the constant named "neg_big", minus infinity. -/
theorem pay8_apply (qi ki : Nat) (hqi : qi < 4) (hki : ki < 4) (xq xk : Vec Ideal S1x1024x64 .bf16) (r cc : Fin 1024) :
    k1_pay8 (F := Ideal) (BitVec.ofNat 32 qi) (BitVec.ofNat 32 ki) xq xk (ix2 r cc) = tileScore qi ki xq xk r cc := by
  unfold k1_pay8 tileScore
  dsimp only
  refine (select_apply _ _ _ (ix2 r cc)).trans ?_
  rw [mask_apply, scores_apply]
  by_cases hle : ki * 1024 + cc.val ≤ qi * 1024 + r.val
  · rw [if_pos hle, (mask_iff qi ki hqi hki r cc).2 hle]
    exact select_one _ _
  · rw [if_neg hle, eq_zero_of_ne_one (fun h1 => hle ((mask_iff qi ki hqi hki r cc).1 h1))]
    refine (select_zero _ _).trans ?_
    show Named.named (F := Ideal) Cert.KernelIdeal.κ "neg_big" (φ := .f32) 0xF149F2CA#32 = negInf
    rw [named_neg_big, negInf_bot]

/-- The new running maximum of row r: the old one joined with the maximum of the row's scores. -/
theorem pay9_apply (a1 a2 : BitVec 32) (xq xk : Vec Ideal S1x1024x64 .bf16) (m : Vec Ideal S1024x1 .f32) (r : Fin 1024) :
    k1_pay9 (F := Ideal) a1 a2 xq xk m (ix2 r (0 : Fin 1))
      = max (m (ix2 r (0 : Fin 1))) ((Finset.univ : Finset (Fin 1024)).fold max negInf
          (fun cc => k1_pay8 (F := Ideal) a1 a2 xq xk (ix2 r cc))) := by
  unfold k1_pay9
  dsimp only
  refine (maximumf_apply _ _ (ix2 r (0 : Fin 1))).trans ?_
  refine congrArg (max (m (ix2 r (0 : Fin 1)))) ?_
  exact rowmax_apply (k1_pay8 (F := Ideal) a1 a2 xq xk) _ _ _ _ r

/-- The exponential of an array, read at an index. -/
theorem exp_apply {s : Shape} {φ : FTy} (a : FVec Ideal s φ) (i : s.Idx) : exp a i = Ideal.exp (a i) := rfl

/-- The rescaling factor of row r: exp (old maximum - new maximum). -/
theorem pay10_apply (a1 a2 : BitVec 32) (xq xk : Vec Ideal S1x1024x64 .bf16) (m m' : Vec Ideal S1024x1 .f32) (r : Fin 1024) :
    k1_pay10 (F := Ideal) a1 a2 xq xk m m' (ix2 r (0 : Fin 1))
      = Ideal.exp (m' (ix2 r (0 : Fin 1)) - k1_pay9 (F := Ideal) a1 a2 xq xk m (ix2 r (0 : Fin 1))) := by
  unfold k1_pay10
  refine (exp_apply _ (ix2 r (0 : Fin 1))).trans ?_
  exact congrArg Ideal.exp (subf_apply _ _ (ix2 r (0 : Fin 1)))

/-- The unnormalised weight at (r, cc): exp (score - new maximum of row r). -/
theorem pay11_apply (a1 a2 : BitVec 32) (xq xk : Vec Ideal S1x1024x64 .bf16) (m : Vec Ideal S1024x1 .f32) (r cc : Fin 1024) :
    k1_pay11 (F := Ideal) a1 a2 xq xk m (ix2 r cc)
      = Ideal.exp (k1_pay8 (F := Ideal) a1 a2 xq xk (ix2 r cc) - k1_pay9 (F := Ideal) a1 a2 xq xk m (ix2 r (0 : Fin 1))) := by
  unfold k1_pay11
  refine (exp_apply _ (ix2 r cc)).trans ?_
  refine congrArg Ideal.exp ?_
  refine (subf_apply _ _ (ix2 r cc)).trans ?_
  exact congrArg (fun t : EReal => k1_pay8 (F := Ideal) a1 a2 xq xk (ix2 r cc) - t)
    (Cert.LibKeepdims.broadcastTo_a1_ab_apply _ _ r cc)

/-- The new running sum of row r: the factor times the old sum plus the row's weights. -/
theorem pay12_apply (a1 a2 : BitVec 32) (xq xk : Vec Ideal S1x1024x64 .bf16) (m m' l : Vec Ideal S1024x1 .f32) (r : Fin 1024) :
    k1_pay12 (F := Ideal) a1 a2 xq xk m m' l (ix2 r (0 : Fin 1))
      = k1_pay10 (F := Ideal) a1 a2 xq xk m m' (ix2 r (0 : Fin 1)) * l (ix2 r (0 : Fin 1))
        + ∑ cc : Fin 1024, k1_pay11 (F := Ideal) a1 a2 xq xk m (ix2 r cc) := by
  unfold k1_pay12
  dsimp only
  refine (addf_apply _ _ (ix2 r (0 : Fin 1))).trans ?_
  refine congrArg₂ (fun a b : EReal => a + b) (mulf_apply _ _ (ix2 r (0 : Fin 1))) ?_
  exact rowsum_apply (k1_pay11 (F := Ideal) a1 a2 xq xk m) _ _ _ _ r

/-- The new weighted sum at (r, h): the factor times the old one plus the weights of row r against column h of the values. -/
theorem pay5_apply (v38 : FVec Ideal S1024x1 .f32) (v41 : FVec Ideal S1024x1024 .f32) (xv : Vec Ideal S1x1024x64 .bf16)
    (acc : Vec Ideal S1024x64 .f32) (r : Fin 1024) (h : Fin 64) :
    k1_pay5 (F := Ideal) v38 v41 xv acc (ix2 r h)
      = v38 (ix2 r (0 : Fin 1)) * acc (ix2 r h) + ∑ cc : Fin 1024, v41 (ix2 r cc) * xv (ix3 (0 : Fin 1) cc h) := by
  unfold k1_pay5
  refine (congrFun (shapeCast_self _ _) (ix2 r h)).trans ?_
  refine (addf_apply _ _ (ix2 r h)).trans ?_
  refine congrArg₂ (fun a b : EReal => a + b) ?_ ?_
  · refine (mulf_apply _ _ (ix2 r h)).trans ?_
    exact congrArg (fun t : EReal => t * acc (ix2 r h)) (Cert.LibKeepdims.broadcastTo_a1_ab_apply v38 _ r h)
  · refine (pv_matmul_apply _ _ r h).trans ?_
    refine Finset.sum_congr rfl fun cc _ => ?_
    refine congrArg₂ (fun a b : EReal => a * b) (truncf_apply v41 _ (ix2 r cc)) ?_
    exact shapeCast_1ab_ab_apply xv _ cc h

/-- A cast to the same shape changes nothing. -/
theorem pay4_eq (v : FVec Ideal S1024x1 .f32) : k1_pay4 (F := Ideal) v = v := by
  unfold k1_pay4
  exact shapeCast_self _ _

/-- A cast to the same shape changes nothing. -/
theorem pay6_eq (v : FVec Ideal S1024x1 .f32) : k1_pay6 (F := Ideal) v = v := by
  unfold k1_pay6
  exact shapeCast_self _ _

/-- The final quotient at (0, r, h): the weighted sum divided by the sum of row r. -/
theorem pay7_apply (acc : Vec Ideal S1024x64 .f32) (l : Vec Ideal S1024x1 .f32) (r : Fin 1024) (h : Fin 64) :
    k1_pay7 (F := Ideal) acc l (ix3 (0 : Fin 1) r h) = Ideal.div (acc (ix2 r h)) (l (ix2 r (0 : Fin 1))) := by
  unfold k1_pay7
  refine (shapeCast_ab_1ab_apply _ _ (0 : Fin 1) r h).trans ?_
  exact congrArg (Ideal.div (acc (ix2 r h))) (Cert.LibKeepdims.broadcastTo_a1_ab_apply _ _ r h)

/-- The initial running maximum is minus infinity everywhere. -/
theorem pay1_apply (i : S1024x1.Idx) : k1_pay1 (F := Ideal) i = negInf := by
  unfold k1_pay1
  rw [shapeCast_self]
  rfl

/-- The initial running sum is zero everywhere. -/
theorem pay2_apply (i : S1024x1.Idx) : k1_pay2 (F := Ideal) i = 0 := by
  unfold k1_pay2
  rw [shapeCast_self]
  exact Ideal.ofBits_zero_f32

/-- The initial weighted sum is zero everywhere. -/
theorem pay3_apply (i : S1024x64.Idx) : k1_pay3 (F := Ideal) i = 0 := by
  unfold k1_pay3
  rw [shapeCast_self]
  exact Ideal.ofBits_zero_f32

/-- One key tile's update of row r: the new maximum, the new sum and the new weighted sum at head feature h are
    one step of the online softmax on the row's scores against the tile, with the tile's values at h. -/
theorem step_row (qi ki : Nat) (hqi : qi < 4) (hki : ki < 4) (xq xk xv : Vec Ideal S1x1024x64 .bf16)
    (m l : Vec Ideal S1024x1 .f32) (acc : Vec Ideal S1024x64 .f32) (r : Fin 1024) (h : Fin 64) :
    (k1_pay6 (F := Ideal) (k1_pay9 (BitVec.ofNat 32 qi) (BitVec.ofNat 32 ki) xq xk m) (ix2 r (0 : Fin 1)),
     k1_pay4 (F := Ideal) (k1_pay12 (BitVec.ofNat 32 qi) (BitVec.ofNat 32 ki) xq xk m m l) (ix2 r (0 : Fin 1)),
     k1_pay5 (F := Ideal) (k1_pay10 (BitVec.ofNat 32 qi) (BitVec.ofNat 32 ki) xq xk m m)
       (k1_pay11 (BitVec.ofNat 32 qi) (BitVec.ofNat 32 ki) xq xk m) xv acc (ix2 r h))
    = Idealize.ShloMosaic.OnlineSoftmax.step (fun cc : Fin 1024 => tileScore qi ki xq xk r cc)
        (fun cc : Fin 1024 => xv (ix3 (0 : Fin 1) cc h)) (m (ix2 r (0 : Fin 1)), l (ix2 r (0 : Fin 1)), acc (ix2 r h)) := by
  rw [pay6_eq, pay4_eq, pay5_apply, pay12_apply, pay10_apply]
  simp only [pay11_apply, pay9_apply, pay8_apply qi ki hqi hki]
  rfl

end Cert.KernelIdeal.Pay

end
-- ==== Proof.KI.Value1Blocks.lean ====
/-
  The attention region's blocks by coordinates, and its result array from the blocks it writes back.

  The region walks 64 points: batch, query tile, key tile. The query window's block at a point is the query
  tile's 1024 rows of the batch; the key and value windows' block is the tile min(key tile, query tile), so that
  above the diagonal the last needed tile stays in place; the result window's block is the query tile's rows,
  and it is written back at the last key tile only. The sixteen written blocks tile the result array, so a
  function that describes every written block describes the array.
-/
import proofs.«154889_j71219147702646_2_alg».proof.Proof.KI.Region1
import proofs.«154889_j71219147702646_2_alg».proof.Proof.KI.Coords1
import Idealize.ShloMosaic.Lib.Pipeline.Value
import Idealize.ShloMosaic.Lib.ValueIdx

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

/-! ## The printed index maps, decided over the 64 points -/

/-- The query window's block index: (batch, query tile, 0). -/
theorem idx_facts1_0 : ∀ t : Fin cfg1.N, win1_0.index t (0 : Fin 3) = t.val / 16
    ∧ win1_0.index t (1 : Fin 3) = t.val / 4 % 4 ∧ win1_0.index t (2 : Fin 3) = 0 :=
  (by decide +kernel : ∀ t : Fin grid1.N, _)

/-- The key window's block index: (batch, the smaller of key tile and query tile, 0). -/
theorem idx_facts1_1 : ∀ t : Fin cfg1.N, win1_1.index t (0 : Fin 3) = t.val / 16
    ∧ win1_1.index t (1 : Fin 3) = min (t.val % 4) (t.val / 4 % 4) ∧ win1_1.index t (2 : Fin 3) = 0 :=
  (by decide +kernel : ∀ t : Fin grid1.N, _)

/-- The value window's block index: the key window's. -/
theorem idx_facts1_2 : ∀ t : Fin cfg1.N, win1_2.index t (0 : Fin 3) = t.val / 16
    ∧ win1_2.index t (1 : Fin 3) = min (t.val % 4) (t.val / 4 % 4) ∧ win1_2.index t (2 : Fin 3) = 0 :=
  (by decide +kernel : ∀ t : Fin grid1.N, _)

/-- The result window's block index: (batch, query tile, 0). -/
theorem idx_facts1_3 : ∀ t : Fin cfg1.N, win1_3.index t (0 : Fin 3) = t.val / 16
    ∧ win1_3.index t (1 : Fin 3) = t.val / 4 % 4 ∧ win1_3.index t (2 : Fin 3) = 0 :=
  (by decide +kernel : ∀ t : Fin grid1.N, _)

/-- The smaller of two tiles, as a number. -/
theorem min_val (a b : Fin 4) : (min a b).val = min a.val b.val := by
  rcases le_total a b with h | h
  · rw [min_eq_left h, min_eq_left (show a.val ≤ b.val from h)]
  · rw [min_eq_right h, min_eq_right (show b.val ≤ a.val from h)]

section
-- the core's buffer contents when the region is entered
variable (V : (c : Dev nD) → (b : Ref sig .tc) → Buf (Elt Ideal) ((c : Thread nD τ).loc b))

/-! ## The input blocks by coordinates -/

/-- The query block at point t: rows of the query tile of the batch. -/
theorem iblk1_0_apply (c : Dev nD) (t : Fin cfg1.N) (r : Fin 1024) (h : Fin 64) :
    iblk1 V c 0 t (ix3 (0 : Fin 1) r h) = V c main_v0_0 (ix3 (bOf t) (rowOf (qiOf t) r) h) := by
  obtain ⟨e0, e1, e2⟩ := idx_facts1_0 t
  show V c main_v0_0 (((cfg1.win 0).blk t).view.emb (ix3 (0 : Fin 1) r h)) = V c main_v0_0 _
  refine congrArg (V c main_v0_0) (funext fun a => Fin.ext ?_)
  match a with
  | ⟨0, _⟩ =>
    show win1_0.index t (0 : Fin 3) * 1 + 1 * 0 = t.val / 16
    omega
  | ⟨1, _⟩ =>
    show win1_0.index t (1 : Fin 3) * 1024 + 1 * r.val = t.val / 4 % 4 * 1024 + r.val
    omega
  | ⟨2, _⟩ =>
    show win1_0.index t (2 : Fin 3) * 64 + 1 * h.val = h.val
    omega

/-- The key block at point t: rows of the tile min(key tile, query tile) of the batch. -/
theorem iblk1_1_apply (c : Dev nD) (t : Fin cfg1.N) (r : Fin 1024) (h : Fin 64) :
    iblk1 V c 1 t (ix3 (0 : Fin 1) r h) = V c main_v0_1 (ix3 (bOf t) (rowOf (min (kiOf t) (qiOf t)) r) h) := by
  obtain ⟨e0, e1, e2⟩ := idx_facts1_1 t
  have em : (min (kiOf t) (qiOf t)).val = min (t.val % 4) (t.val / 4 % 4) := min_val (kiOf t) (qiOf t)
  show V c main_v0_1 (((cfg1.win 1).blk t).view.emb (ix3 (0 : Fin 1) r h)) = V c main_v0_1 _
  refine congrArg (V c main_v0_1) (funext fun a => Fin.ext ?_)
  match a with
  | ⟨0, _⟩ =>
    show win1_1.index t (0 : Fin 3) * 1 + 1 * 0 = t.val / 16
    omega
  | ⟨1, _⟩ =>
    show win1_1.index t (1 : Fin 3) * 1024 + 1 * r.val = (min (kiOf t) (qiOf t)).val * 1024 + r.val
    rw [e1, em]
    omega
  | ⟨2, _⟩ =>
    show win1_1.index t (2 : Fin 3) * 64 + 1 * h.val = h.val
    omega

/-- The value block at point t: rows of the tile min(key tile, query tile) of the batch. -/
theorem iblk1_2_apply (c : Dev nD) (t : Fin cfg1.N) (r : Fin 1024) (h : Fin 64) :
    iblk1 V c 2 t (ix3 (0 : Fin 1) r h) = V c main_v0_2 (ix3 (bOf t) (rowOf (min (kiOf t) (qiOf t)) r) h) := by
  obtain ⟨e0, e1, e2⟩ := idx_facts1_2 t
  have em : (min (kiOf t) (qiOf t)).val = min (t.val % 4) (t.val / 4 % 4) := min_val (kiOf t) (qiOf t)
  show V c main_v0_2 (((cfg1.win 2).blk t).view.emb (ix3 (0 : Fin 1) r h)) = V c main_v0_2 _
  refine congrArg (V c main_v0_2) (funext fun a => Fin.ext ?_)
  match a with
  | ⟨0, _⟩ =>
    show win1_2.index t (0 : Fin 3) * 1 + 1 * 0 = t.val / 16
    omega
  | ⟨1, _⟩ =>
    show win1_2.index t (1 : Fin 3) * 1024 + 1 * r.val = (min (kiOf t) (qiOf t)).val * 1024 + r.val
    rw [e1, em]
    omega
  | ⟨2, _⟩ =>
    show win1_2.index t (2 : Fin 3) * 64 + 1 * h.val = h.val
    omega

/-! ## The result array from the written blocks -/

/-- A function of coordinates takes equal values at coordinates with equal numbers. -/
theorem at_congr (G : Fin 4 → Fin 4096 → Fin 64 → EReal) {b b' : Fin 4} {p p' : Fin 4096} {h h' : Fin 64}
    (hb : b.val = b'.val) (hp : p.val = p'.val) (hh : h.val = h'.val) : G b p h = G b' p' h' := by
  obtain rfl : b = b' := Fin.ext hb
  obtain rfl : p = p' := Fin.ext hp
  obtain rfl : h = h' := Fin.ext hh
  rfl

/-- What a writing point t writes back is block t of a function that describes every written block. -/
theorem flushed1_3 (c : Dev nD) (G : Fin 4 → Fin 4096 → Fin 64 → EReal)
    (hG : ∀ (t : Fin cfg1.N), t.val % 4 = 3 → ∀ (r : Fin 1024) (h : Fin 64),
      (outsAt1 V c t.val t.isLt).1 (ix3 (0 : Fin 1) r h) = G (bOf t) (rowOf (qiOf t) r) h)
    (t : Fin cfg1.N) (hf : (cfg1.win 3).flush t = true) :
    (dat1 (F := Ideal) V c).flushed 3 t = ((cfg1.win 3).blk t).view.read (Elt Ideal)
      (fun i : S4x4096x64.Idx => G (i 0) (i 1) (i 2)) := by
  have ht : t.val % 4 = 3 := (flush1_3 t).mp hf
  show (cfg1.win 3).cut (grid1.coords t) ((dat1 (F := Ideal) V c).after 3 t) = _
  rw [after1_3]
  obtain ⟨e0, e1, e2⟩ := idx_facts1_3 t
  funext j
  have hj0 : (j 0).val < 1 := (j 0).isLt
  have hj1 : (j 1).val < 1024 := (j 1).isLt
  have hj2 : (j 2).val < 64 := (j 2).isLt
  have hy : (cfg1.win 3).xinj (grid1.coords t) j = ix3 (0 : Fin 1) ⟨(j 1).val, hj1⟩ ⟨(j 2).val, hj2⟩ :=
    funext fun a => Fin.ext (by
      match a with
      | ⟨0, _⟩ => show (j 0).val = 0; omega
      | ⟨1, _⟩ => rfl
      | ⟨2, _⟩ => rfl)
  refine (congrArg (outsAt1 V c t.val t.isLt).1 hy).trans ((hG t ht ⟨(j 1).val, hj1⟩ ⟨(j 2).val, hj2⟩).trans ?_)
  refine at_congr G ?_ ?_ ?_
  · show t.val / 16 = win1_3.index t (0 : Fin 3) * 1 + 1 * (j 0).val
    omega
  · show t.val / 4 % 4 * 1024 + (j 1).val = win1_3.index t (1 : Fin 3) * 1024 + 1 * (j 1).val
    omega
  · show (j 2).val = win1_3.index t (2 : Fin 3) * 64 + 1 * (j 2).val
    omega

/-- An index of the result array is in point t's block iff each coordinate is in the block's range on its axis. -/
theorem mem_blk1_3 (t : Fin cfg1.N) (i : S4x4096x64.Idx) :
    i ∈ ((cfg1.win 3).blk t).view.set ↔ ∀ a : Fin 3, win1_3.index t a * S1x1024x64.size a ≤ (i a).val
      ∧ (i a).val < win1_3.index t a * S1x1024x64.size a + S1x1024x64.size a := by
  show i ∈ ((View.whole main_v1).slice (win1_3.rect t)).set ↔ _
  rw [View.set_slice_whole, Rect.mem_set_unit]
  exact Iff.rfl

/-- The sixteen written blocks tile the result: row p of batch b is in the block written at the point of batch b,
    query tile p / 1024, key tile 3. -/
theorem cover1_3 (i : S4x4096x64.Idx) :
    ∃ t : Fin cfg1.N, (cfg1.win 3).flush t = true ∧ i ∈ ((cfg1.win 3).blk t).view.set := by
  have hi0 : (i 0).val < 4 := (i 0).isLt
  have hi1 : (i 1).val < 4096 := (i 1).isLt
  have hi2 : (i 2).val < 64 := (i 2).isLt
  have hN : cfg1.N = 64 := N_1
  let t : Fin cfg1.N := ⟨(i 0).val * 16 + (i 1).val / 1024 * 4 + 3, by omega⟩
  have htv : t.val = (i 0).val * 16 + (i 1).val / 1024 * 4 + 3 := rfl
  obtain ⟨e0, e1, e2⟩ := idx_facts1_3 t
  refine ⟨t, (flush1_3 t).mpr (by omega), ?_⟩
  rw [mem_blk1_3]
  intro a
  match a with
  | ⟨0, _⟩ =>
    show win1_3.index t (0 : Fin 3) * 1 ≤ (i 0).val ∧ (i 0).val < win1_3.index t (0 : Fin 3) * 1 + 1
    omega
  | ⟨1, _⟩ =>
    show win1_3.index t (1 : Fin 3) * 1024 ≤ (i 1).val ∧ (i 1).val < win1_3.index t (1 : Fin 3) * 1024 + 1024
    omega
  | ⟨2, _⟩ =>
    show win1_3.index t (2 : Fin 3) * 64 ≤ (i 2).val ∧ (i 2).val < win1_3.index t (2 : Fin 3) * 64 + 64
    omega

/-- The result array after the region is any function that describes every written block. -/
theorem arr1_3 (c : Dev nD) (G : Fin 4 → Fin 4096 → Fin 64 → EReal)
    (hG : ∀ (t : Fin cfg1.N), t.val % 4 = 3 → ∀ (r : Fin 1024) (h : Fin 64),
      (outsAt1 V c t.val t.isLt).1 (ix3 (0 : Fin 1) r h) = G (bOf t) (rowOf (qiOf t) r) h) :
    (dat1 (F := Ideal) V c).arrAt 3 cfg1.N = fun i : S4x4096x64.Idx => G (i 0) (i 1) (i 2) :=
  (dat1 (F := Ideal) V c).arrAt_eq_of_cover 3 (fun i : S4x4096x64.Idx => G (i 0) (i 1) (i 2))
    (fun t hf => flushed1_3 V c G hG t hf) cover1_3

end

end Cert.KernelIdeal.Val

end
-- ==== Proof.KI.Value1Pieces.lean ====
/-
  Region 1: what each control case leaves, as the body's own arithmetic. The pieces a case's run stored are one whole-buffer
  store per buffer (two where the reset comes first: the later one counts), whose payload reads the staged blocks and
  the scratch buffers whole; so each scratch buffer and the output block after a case is the corresponding payload of the
  skeleton, of the input blocks and of the scratch contents before (after the reset: minus infinity, zero, zero).
-/
import proofs.«154889_j71219147702646_2_alg».proof.Proof.KI.Region1
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

theorem sout_A_0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : cond1_1 i) (hc2 : ¬cond1_2 i) (x0 x1 x2 : Vec F S1x1024x64 .bf16) :
    sout1_A_0 c i arg3 harg3 arg4 harg4 arg5 harg5 arg6 harg6 arg7 harg7 arg8 harg8 arg9 harg9 hc0 hc1 hc2 x0 x1 x2 = k1_pay6 (k1_pay9 (BitVec.ofNat 32 (i 1).val) (BitVec.ofNat 32 (i 2).val) x0 x1 (k1_pay1 (F := F))) := by
  unfold sout1_A_0
  rw [View.read_writes_eq_canon _ _ _ (scover1_A_0 c i arg3 harg3 arg4 harg4 arg5 harg5 arg6 harg6 arg7 harg7 arg8 harg8 arg9 harg9 hc0 hc1 hc2 x0 x1 x2)]
  unfold kernelRun1_A
  dsimp only
  sl_unfold_words
  first | rw [View.canon_cons_unit_zero (S := S1024x1) hz2] | rw [View.canon_unit_zero hz2]
  simp only [View.readCov_unit_zero (S := S1024x1) _ hz2, View.readCov_unit_zero (S := S1024x64) _ hz2, View.readAt_eq_ld, harg3.read_unread, harg4.read_unread, harg5.read_unread, harg6.read_unread, harg7.read_unread, harg8.read_unread, harg9.read_unread, View.ld_unit_zero (S := S1x1024x64) hz3, View.ld_unit_zero (S := S1024x1) hz2, View.ld_unit_zero (S := S1024x64) hz2]

theorem sout_A_1 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : cond1_1 i) (hc2 : ¬cond1_2 i) (x0 x1 x2 : Vec F S1x1024x64 .bf16) :
    sout1_A_1 c i arg3 harg3 arg4 harg4 arg5 harg5 arg6 harg6 arg7 harg7 arg8 harg8 arg9 harg9 hc0 hc1 hc2 x0 x1 x2 = k1_pay4 (k1_pay12 (BitVec.ofNat 32 (i 1).val) (BitVec.ofNat 32 (i 2).val) x0 x1 (k1_pay1 (F := F)) (k1_pay1 (F := F)) (k1_pay2 (F := F))) := by
  unfold sout1_A_1
  rw [View.read_writes_eq_canon _ _ _ (scover1_A_1 c i arg3 harg3 arg4 harg4 arg5 harg5 arg6 harg6 arg7 harg7 arg8 harg8 arg9 harg9 hc0 hc1 hc2 x0 x1 x2)]
  unfold kernelRun1_A
  dsimp only
  sl_unfold_words
  first | rw [View.canon_cons_unit_zero (S := S1024x1) hz2] | rw [View.canon_unit_zero hz2]
  simp only [View.readCov_unit_zero (S := S1024x1) _ hz2, View.readCov_unit_zero (S := S1024x64) _ hz2, View.readAt_eq_ld, harg3.read_unread, harg4.read_unread, harg5.read_unread, harg6.read_unread, harg7.read_unread, harg8.read_unread, harg9.read_unread, View.ld_unit_zero (S := S1x1024x64) hz3, View.ld_unit_zero (S := S1024x1) hz2, View.ld_unit_zero (S := S1024x64) hz2]

theorem sout_A_2 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : cond1_1 i) (hc2 : ¬cond1_2 i) (x0 x1 x2 : Vec F S1x1024x64 .bf16) :
    sout1_A_2 c i arg3 harg3 arg4 harg4 arg5 harg5 arg6 harg6 arg7 harg7 arg8 harg8 arg9 harg9 hc0 hc1 hc2 x0 x1 x2 = k1_pay5 (k1_pay10 (BitVec.ofNat 32 (i 1).val) (BitVec.ofNat 32 (i 2).val) x0 x1 (k1_pay1 (F := F)) (k1_pay1 (F := F))) (k1_pay11 (BitVec.ofNat 32 (i 1).val) (BitVec.ofNat 32 (i 2).val) x0 x1 (k1_pay1 (F := F))) x2 (k1_pay3 (F := F)) := by
  unfold sout1_A_2
  rw [View.read_writes_eq_canon _ _ _ (scover1_A_2 c i arg3 harg3 arg4 harg4 arg5 harg5 arg6 harg6 arg7 harg7 arg8 harg8 arg9 harg9 hc0 hc1 hc2 x0 x1 x2)]
  unfold kernelRun1_A
  dsimp only
  sl_unfold_words
  first | rw [View.canon_cons_unit_zero (S := S1024x64) hz2] | rw [View.canon_unit_zero hz2]
  simp only [View.readCov_unit_zero (S := S1024x1) _ hz2, View.readCov_unit_zero (S := S1024x64) _ hz2, View.readAt_eq_ld, harg3.read_unread, harg4.read_unread, harg5.read_unread, harg6.read_unread, harg7.read_unread, harg8.read_unread, harg9.read_unread, View.ld_unit_zero (S := S1x1024x64) hz3, View.ld_unit_zero (S := S1024x1) hz2, View.ld_unit_zero (S := S1024x64) hz2]

theorem sout_B_0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i) (hc2 : ¬cond1_2 i) (x0 x1 x2 : Vec F S1x1024x64 .bf16) (xs0 xs1 : Vec F S1024x1 .f32) (xs2 : Vec F S1024x64 .f32) :
    sout1_B_0 c i arg3 harg3 arg4 harg4 arg5 harg5 arg6 harg6 arg7 harg7 arg8 harg8 arg9 harg9 hc0 hc1 hc2 x0 x1 x2 xs0 xs1 xs2 = k1_pay6 (k1_pay9 (BitVec.ofNat 32 (i 1).val) (BitVec.ofNat 32 (i 2).val) x0 x1 xs0) := by
  unfold sout1_B_0
  rw [View.read_writes_eq_canon _ _ _ (scover1_B_0 c i arg3 harg3 arg4 harg4 arg5 harg5 arg6 harg6 arg7 harg7 arg8 harg8 arg9 harg9 hc0 hc1 hc2 x0 x1 x2 xs0 xs1 xs2)]
  unfold kernelRun1_B
  dsimp only
  sl_unfold_words
  first | rw [View.canon_cons_unit_zero (S := S1024x1) hz2] | rw [View.canon_unit_zero hz2]
  simp only [View.readCov_unit_zero (S := S1024x1) _ hz2, View.readCov_unit_zero (S := S1024x64) _ hz2, View.readAt_eq_ld, harg3.read_unread, harg4.read_unread, harg5.read_unread, harg6.read_unread, harg7.read_unread, harg8.read_unread, harg9.read_unread, View.ld_unit_zero (S := S1x1024x64) hz3, View.ld_unit_zero (S := S1024x1) hz2, View.ld_unit_zero (S := S1024x64) hz2]

theorem sout_B_1 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i) (hc2 : ¬cond1_2 i) (x0 x1 x2 : Vec F S1x1024x64 .bf16) (xs0 xs1 : Vec F S1024x1 .f32) (xs2 : Vec F S1024x64 .f32) :
    sout1_B_1 c i arg3 harg3 arg4 harg4 arg5 harg5 arg6 harg6 arg7 harg7 arg8 harg8 arg9 harg9 hc0 hc1 hc2 x0 x1 x2 xs0 xs1 xs2 = k1_pay4 (k1_pay12 (BitVec.ofNat 32 (i 1).val) (BitVec.ofNat 32 (i 2).val) x0 x1 xs0 xs0 xs1) := by
  unfold sout1_B_1
  rw [View.read_writes_eq_canon _ _ _ (scover1_B_1 c i arg3 harg3 arg4 harg4 arg5 harg5 arg6 harg6 arg7 harg7 arg8 harg8 arg9 harg9 hc0 hc1 hc2 x0 x1 x2 xs0 xs1 xs2)]
  unfold kernelRun1_B
  dsimp only
  sl_unfold_words
  first | rw [View.canon_cons_unit_zero (S := S1024x1) hz2] | rw [View.canon_unit_zero hz2]
  simp only [View.readCov_unit_zero (S := S1024x1) _ hz2, View.readCov_unit_zero (S := S1024x64) _ hz2, View.readAt_eq_ld, harg3.read_unread, harg4.read_unread, harg5.read_unread, harg6.read_unread, harg7.read_unread, harg8.read_unread, harg9.read_unread, View.ld_unit_zero (S := S1x1024x64) hz3, View.ld_unit_zero (S := S1024x1) hz2, View.ld_unit_zero (S := S1024x64) hz2]

theorem sout_B_2 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i) (hc2 : ¬cond1_2 i) (x0 x1 x2 : Vec F S1x1024x64 .bf16) (xs0 xs1 : Vec F S1024x1 .f32) (xs2 : Vec F S1024x64 .f32) :
    sout1_B_2 c i arg3 harg3 arg4 harg4 arg5 harg5 arg6 harg6 arg7 harg7 arg8 harg8 arg9 harg9 hc0 hc1 hc2 x0 x1 x2 xs0 xs1 xs2 = k1_pay5 (k1_pay10 (BitVec.ofNat 32 (i 1).val) (BitVec.ofNat 32 (i 2).val) x0 x1 xs0 xs0) (k1_pay11 (BitVec.ofNat 32 (i 1).val) (BitVec.ofNat 32 (i 2).val) x0 x1 xs0) x2 xs2 := by
  unfold sout1_B_2
  rw [View.read_writes_eq_canon _ _ _ (scover1_B_2 c i arg3 harg3 arg4 harg4 arg5 harg5 arg6 harg6 arg7 harg7 arg8 harg8 arg9 harg9 hc0 hc1 hc2 x0 x1 x2 xs0 xs1 xs2)]
  unfold kernelRun1_B
  dsimp only
  sl_unfold_words
  first | rw [View.canon_cons_unit_zero (S := S1024x64) hz2] | rw [View.canon_unit_zero hz2]
  simp only [View.readCov_unit_zero (S := S1024x1) _ hz2, View.readCov_unit_zero (S := S1024x64) _ hz2, View.readAt_eq_ld, harg3.read_unread, harg4.read_unread, harg5.read_unread, harg6.read_unread, harg7.read_unread, harg8.read_unread, harg9.read_unread, View.ld_unit_zero (S := S1x1024x64) hz3, View.ld_unit_zero (S := S1024x1) hz2, View.ld_unit_zero (S := S1024x64) hz2]

theorem sout_C_0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i) (hc2 : cond1_2 i) (x0 x1 x2 : Vec F S1x1024x64 .bf16) (xs0 xs1 : Vec F S1024x1 .f32) (xs2 : Vec F S1024x64 .f32) :
    sout1_C_0 c i arg3 harg3 arg4 harg4 arg5 harg5 arg6 harg6 arg7 harg7 arg8 harg8 arg9 harg9 hc0 hc1 hc2 x0 x1 x2 xs0 xs1 xs2 = k1_pay6 (k1_pay9 (BitVec.ofNat 32 (i 1).val) (BitVec.ofNat 32 (i 2).val) x0 x1 xs0) := by
  unfold sout1_C_0
  rw [View.read_writes_eq_canon _ _ _ (scover1_C_0 c i arg3 harg3 arg4 harg4 arg5 harg5 arg6 harg6 arg7 harg7 arg8 harg8 arg9 harg9 hc0 hc1 hc2 x0 x1 x2 xs0 xs1 xs2)]
  unfold kernelRun1_C
  dsimp only
  sl_unfold_words
  first | rw [View.canon_cons_unit_zero (S := S1024x1) hz2] | rw [View.canon_unit_zero hz2]
  simp only [View.readCov_unit_zero (S := S1024x1) _ hz2, View.readCov_unit_zero (S := S1024x64) _ hz2, View.readAt_eq_ld, harg3.read_unread, harg4.read_unread, harg5.read_unread, harg6.read_unread, harg7.read_unread, harg8.read_unread, harg9.read_unread, View.ld_unit_zero (S := S1x1024x64) hz3, View.ld_unit_zero (S := S1024x1) hz2, View.ld_unit_zero (S := S1024x64) hz2]

theorem sout_C_1 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i) (hc2 : cond1_2 i) (x0 x1 x2 : Vec F S1x1024x64 .bf16) (xs0 xs1 : Vec F S1024x1 .f32) (xs2 : Vec F S1024x64 .f32) :
    sout1_C_1 c i arg3 harg3 arg4 harg4 arg5 harg5 arg6 harg6 arg7 harg7 arg8 harg8 arg9 harg9 hc0 hc1 hc2 x0 x1 x2 xs0 xs1 xs2 = k1_pay4 (k1_pay12 (BitVec.ofNat 32 (i 1).val) (BitVec.ofNat 32 (i 2).val) x0 x1 xs0 xs0 xs1) := by
  unfold sout1_C_1
  rw [View.read_writes_eq_canon _ _ _ (scover1_C_1 c i arg3 harg3 arg4 harg4 arg5 harg5 arg6 harg6 arg7 harg7 arg8 harg8 arg9 harg9 hc0 hc1 hc2 x0 x1 x2 xs0 xs1 xs2)]
  unfold kernelRun1_C
  dsimp only
  sl_unfold_words
  first | rw [View.canon_cons_unit_zero (S := S1024x1) hz2] | rw [View.canon_unit_zero hz2]
  simp only [View.readCov_unit_zero (S := S1024x1) _ hz2, View.readCov_unit_zero (S := S1024x64) _ hz2, View.readAt_eq_ld, harg3.read_unread, harg4.read_unread, harg5.read_unread, harg6.read_unread, harg7.read_unread, harg8.read_unread, harg9.read_unread, View.ld_unit_zero (S := S1x1024x64) hz3, View.ld_unit_zero (S := S1024x1) hz2, View.ld_unit_zero (S := S1024x64) hz2]

theorem sout_C_2 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i) (hc2 : cond1_2 i) (x0 x1 x2 : Vec F S1x1024x64 .bf16) (xs0 xs1 : Vec F S1024x1 .f32) (xs2 : Vec F S1024x64 .f32) :
    sout1_C_2 c i arg3 harg3 arg4 harg4 arg5 harg5 arg6 harg6 arg7 harg7 arg8 harg8 arg9 harg9 hc0 hc1 hc2 x0 x1 x2 xs0 xs1 xs2 = k1_pay5 (k1_pay10 (BitVec.ofNat 32 (i 1).val) (BitVec.ofNat 32 (i 2).val) x0 x1 xs0 xs0) (k1_pay11 (BitVec.ofNat 32 (i 1).val) (BitVec.ofNat 32 (i 2).val) x0 x1 xs0) x2 xs2 := by
  unfold sout1_C_2
  rw [View.read_writes_eq_canon _ _ _ (scover1_C_2 c i arg3 harg3 arg4 harg4 arg5 harg5 arg6 harg6 arg7 harg7 arg8 harg8 arg9 harg9 hc0 hc1 hc2 x0 x1 x2 xs0 xs1 xs2)]
  unfold kernelRun1_C
  dsimp only
  sl_unfold_words
  first | rw [View.canon_cons_unit_zero (S := S1024x64) hz2] | rw [View.canon_unit_zero hz2]
  simp only [View.readCov_unit_zero (S := S1024x1) _ hz2, View.readCov_unit_zero (S := S1024x64) _ hz2, View.readAt_eq_ld, harg3.read_unread, harg4.read_unread, harg5.read_unread, harg6.read_unread, harg7.read_unread, harg8.read_unread, harg9.read_unread, View.ld_unit_zero (S := S1x1024x64) hz3, View.ld_unit_zero (S := S1024x1) hz2, View.ld_unit_zero (S := S1024x64) hz2]

theorem out_C_3 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i) (hc2 : cond1_2 i) (x0 x1 x2 : Vec F S1x1024x64 .bf16) (xs0 xs1 : Vec F S1024x1 .f32) (xs2 : Vec F S1024x64 .f32) :
    out1_C_3 c i arg3 harg3 arg4 harg4 arg5 harg5 arg6 harg6 arg7 harg7 arg8 harg8 arg9 harg9 hc0 hc1 hc2 x0 x1 x2 xs0 xs1 xs2 = k1_pay7 (k1_pay5 (k1_pay10 (BitVec.ofNat 32 (i 1).val) (BitVec.ofNat 32 (i 2).val) x0 x1 xs0 xs0) (k1_pay11 (BitVec.ofNat 32 (i 1).val) (BitVec.ofNat 32 (i 2).val) x0 x1 xs0) x2 xs2) (k1_pay4 (k1_pay12 (BitVec.ofNat 32 (i 1).val) (BitVec.ofNat 32 (i 2).val) x0 x1 xs0 xs0 xs1)) := by
  unfold out1_C_3
  rw [View.read_writes_eq_canon _ _ _ (cover1_C_3 c i arg3 harg3 arg4 harg4 arg5 harg5 arg6 harg6 arg7 harg7 arg8 harg8 arg9 harg9 hc0 hc1 hc2 x0 x1 x2 xs0 xs1 xs2)]
  unfold kernelRun1_C
  dsimp only
  sl_unfold_words
  rw [View.canon_unit_zero hz3]
  simp only [View.readCov_unit_zero (S := S1024x1) _ hz2, View.readCov_unit_zero (S := S1024x64) _ hz2, View.readAt_eq_ld, harg3.read_unread, harg4.read_unread, harg5.read_unread, harg6.read_unread, harg7.read_unread, harg8.read_unread, harg9.read_unread, View.ld_unit_zero (S := S1x1024x64) hz3, View.ld_unit_zero (S := S1024x1) hz2, View.ld_unit_zero (S := S1024x64) hz2]

theorem out_E_3 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i) (hc2 : cond1_2 i) (x0 x1 x2 : Vec F S1x1024x64 .bf16) (xs0 xs1 : Vec F S1024x1 .f32) (xs2 : Vec F S1024x64 .f32) :
    out1_E_3 c i arg3 harg3 arg4 harg4 arg5 harg5 arg6 harg6 arg7 harg7 arg8 harg8 arg9 harg9 hc0 hc1 hc2 x0 x1 x2 xs0 xs1 xs2 = k1_pay7 xs2 xs1 := by
  unfold out1_E_3
  rw [View.read_writes_eq_canon _ _ _ (cover1_E_3 c i arg3 harg3 arg4 harg4 arg5 harg5 arg6 harg6 arg7 harg7 arg8 harg8 arg9 harg9 hc0 hc1 hc2 x0 x1 x2 xs0 xs1 xs2)]
  unfold kernelRun1_E
  dsimp only
  first | sl_unfold_words | skip
  rw [View.canon_unit_zero hz3]
  simp only [View.readCov_unit_zero (S := S1024x1) _ hz2, View.readCov_unit_zero (S := S1024x64) _ hz2, View.readAt_eq_ld, harg3.read_unread, harg4.read_unread, harg5.read_unread, harg6.read_unread, harg7.read_unread, harg8.read_unread, harg9.read_unread, View.ld_unit_zero (S := S1x1024x64) hz3, View.ld_unit_zero (S := S1024x1) hz2, View.ld_unit_zero (S := S1024x64) hz2]

end Cert.KernelIdeal.Hand

end
-- ==== Proof.KI.Value1Rows.lean ====
/-
  Region 1, row by row. Fix a batch b and a query tile qi (a group of four consecutive grid points, one per key tile).
  Row r of the query tile meets key tile j in a tile of 1024 masked, scaled scores, and column h of value tile j. After the
  point of key tile ki the three scratch buffers hold, at row r (and column h), the online-softmax state after the first
  min(ki, qi) + 1 tiles: the reset at ki = 0 starts it, a key tile not beyond the query tile advances it by one step, a key
  tile beyond it leaves it. At the last key tile the output block holds the quotient of the running weighted sum by the
  running sum.
-/
import proofs.«154889_j71219147702646_2_alg».proof.Proof.KI.Value1Pieces
import proofs.«154889_j71219147702646_2_alg».proof.Proof.KI.Value1Blocks
import proofs.«154889_j71219147702646_2_alg».proof.Proof.KI.Payloads1
import proofs.«154889_j71219147702646_2_alg».proof.Proof.KI.Coords1
import proofs.«154889_j71219147702646_2_alg».proof.Proof.LibOnlineSoftmaxDefs

set_option maxRecDepth 16384

noncomputable section

open scoped BigOperators

namespace Cert.KernelIdeal.Val

open Cert.KernelIdeal Cert.KernelIdeal.Gen Cert.KernelIdeal.Hand Cert.KernelIdeal.Pay
open Idealize.ShloMosaic Idealize.ShloMosaic.TcCoe Idealize.ShloMosaic.ValueIdx
open Idealize.ShloMosaic.LastAxisSoftmax Idealize.ShloMosaic.OnlineSoftmax

variable (V : (c : Dev nD) → (b : Ref sig .tc) → Buf (Elt Ideal) ((c : Thread nD τ).loc b))

/-- Tile j of a [4, 4096, 64] array in batch b, as a [1, 1024, 64] block. -/
def tileOf (A : S4x4096x64.Idx → EReal) (b j : Fin 4) : Vec Ideal S1x1024x64 .bf16 :=
  fun y => A (ix3 b (rowOf j ⟨(y 1).val, (y 1).isLt⟩) ⟨(y 2).val, (y 2).isLt⟩)

theorem tileOf_apply (A : S4x4096x64.Idx → EReal) (b j : Fin 4) (r : Fin 1024) (h : Fin 64) :
    tileOf A b j (ix3 (0 : Fin 1) r h) = A (ix3 b (rowOf j r) h) := rfl

/-- The grid point of group g (batch g / 4, query tile g % 4) and key tile ki. -/
def ptOf (g ki : Nat) (hg : g < 16) (hk : ki < 4) : Fin cfg1.N := ⟨4 * g + ki, by have : cfg1.N = 64 := N_1; omega⟩

theorem grid1_coords : ∀ t : Fin cfg1.N, (grid1.coords t 1).val = t.val / 4 % 4 ∧ (grid1.coords t 2).val = t.val % 4 :=
  (by decide +kernel : ∀ t : Fin grid1.N, (grid1.coords t 1).val = t.val / 4 % 4 ∧ (grid1.coords t 2).val = t.val % 4)

/-- The staged blocks at a point are the tiles of the three projected arrays. -/
theorem iblk1_0_eq (c : Dev nD) (t : Fin cfg1.N) : (iblk1 V c 0 t : Vec Ideal S1x1024x64 .bf16) = tileOf (V c main_v0_0) (bOf t) (qiOf t) := by
  funext y
  obtain ⟨a, r, h, rfl⟩ : ∃ (a : Fin 1) (r : Fin 1024) (h : Fin 64), y = ix3 a r h := ⟨y 0, y 1, y 2, eq_ix3 y⟩
  obtain rfl : a = 0 := Subsingleton.elim _ _
  rw [iblk1_0_apply, tileOf_apply]
theorem iblk1_1_eq (c : Dev nD) (t : Fin cfg1.N) : (iblk1 V c 1 t : Vec Ideal S1x1024x64 .bf16) = tileOf (V c main_v0_1) (bOf t) (min (kiOf t) (qiOf t)) := by
  funext y
  obtain ⟨a, r, h, rfl⟩ : ∃ (a : Fin 1) (r : Fin 1024) (h : Fin 64), y = ix3 a r h := ⟨y 0, y 1, y 2, eq_ix3 y⟩
  obtain rfl : a = 0 := Subsingleton.elim _ _
  rw [iblk1_1_apply, tileOf_apply]
theorem iblk1_2_eq (c : Dev nD) (t : Fin cfg1.N) : (iblk1 V c 2 t : Vec Ideal S1x1024x64 .bf16) = tileOf (V c main_v0_2) (bOf t) (min (kiOf t) (qiOf t)) := by
  funext y
  obtain ⟨a, r, h, rfl⟩ : ∃ (a : Fin 1) (r : Fin 1024) (h : Fin 64), y = ix3 a r h := ⟨y 0, y 1, y 2, eq_ix3 y⟩
  obtain rfl : a = 0 := Subsingleton.elim _ _
  rw [iblk1_2_apply, tileOf_apply]

/-- The scores of row r of query tile qi against key tile j, and column h of value tile j (junk past the fourth tile). -/
def S (c : Dev nD) (b qi : Fin 4) (r : Fin 1024) : Nat → Fin 1024 → EReal := fun j cc =>
  if hj : j < 4 then tileScore qi.val j (tileOf (V c main_v0_0) b qi) (tileOf (V c main_v0_1) b ⟨j, hj⟩) r cc else negInf
def W (c : Dev nD) (b : Fin 4) (h : Fin 64) : Nat → Fin 1024 → EReal := fun j cc =>
  if hj : j < 4 then tileOf (V c main_v0_2) b ⟨j, hj⟩ (ix3 (0 : Fin 1) cc h) else 0

/-- Row r (and column h) of the three scratch buffers. -/
def rowState (st : St4 Ideal) (r : Fin 1024) (h : Fin 64) : EReal × EReal × EReal :=
  (st.2.1 (ix2 r (0 : Fin 1)), st.2.2.1 (ix2 r (0 : Fin 1)), st.2.2.2 (ix2 r h))

/-- One accumulated key tile advances a row's state by one online-softmax step. -/
theorem advance (c : Dev nD) (g ki : Nat) (hg : g < 16) (hk : ki < 4) (hle : ki ≤ g % 4) (m l : Vec Ideal S1024x1 .f32) (acc : Vec Ideal S1024x64 .f32)
    (r : Fin 1024) (h : Fin 64) :
    (k1_pay6 (F := Ideal) (k1_pay9 (BitVec.ofNat 32 (grid1.coords (ptOf g ki hg hk) 1).val) (BitVec.ofNat 32 (grid1.coords (ptOf g ki hg hk) 2).val) (iblk1 V c 0 (ptOf g ki hg hk)) (iblk1 V c 1 (ptOf g ki hg hk)) m) (ix2 r (0 : Fin 1)),
     k1_pay4 (F := Ideal) (k1_pay12 (BitVec.ofNat 32 (grid1.coords (ptOf g ki hg hk) 1).val) (BitVec.ofNat 32 (grid1.coords (ptOf g ki hg hk) 2).val) (iblk1 V c 0 (ptOf g ki hg hk)) (iblk1 V c 1 (ptOf g ki hg hk)) m m l) (ix2 r (0 : Fin 1)),
     k1_pay5 (F := Ideal) (k1_pay10 (BitVec.ofNat 32 (grid1.coords (ptOf g ki hg hk) 1).val) (BitVec.ofNat 32 (grid1.coords (ptOf g ki hg hk) 2).val) (iblk1 V c 0 (ptOf g ki hg hk)) (iblk1 V c 1 (ptOf g ki hg hk)) m m)
       (k1_pay11 (BitVec.ofNat 32 (grid1.coords (ptOf g ki hg hk) 1).val) (BitVec.ofNat 32 (grid1.coords (ptOf g ki hg hk) 2).val) (iblk1 V c 0 (ptOf g ki hg hk)) (iblk1 V c 1 (ptOf g ki hg hk)) m) (iblk1 V c 2 (ptOf g ki hg hk)) acc (ix2 r h))
    = step (S V c ⟨g / 4, by omega⟩ ⟨g % 4, by omega⟩ r ki) (W V c ⟨g / 4, by omega⟩ h ki) (m (ix2 r (0 : Fin 1)), l (ix2 r (0 : Fin 1)), acc (ix2 r h)) := by
  have hc := grid1_coords (ptOf g ki hg hk)
  have e1 : (grid1.coords (ptOf g ki hg hk) 1).val = g % 4 := by rw [hc.1]; show (4 * g + ki) / 4 % 4 = g % 4; omega
  have e2 : (grid1.coords (ptOf g ki hg hk) 2).val = ki := by rw [hc.2]; show (4 * g + ki) % 4 = ki; omega
  have eb : bOf (ptOf g ki hg hk) = ⟨g / 4, by omega⟩ := Fin.ext (by show (4 * g + ki) / 16 = g / 4; omega)
  have eq : qiOf (ptOf g ki hg hk) = ⟨g % 4, by omega⟩ := Fin.ext (by show (4 * g + ki) / 4 % 4 = g % 4; omega)
  have ek : min (kiOf (ptOf g ki hg hk)) (qiOf (ptOf g ki hg hk)) = ⟨ki, hk⟩ := by
    apply Fin.ext; rw [Fin.coe_min]; show min ((4 * g + ki) % 4) ((4 * g + ki) / 4 % 4) = ki
    have : (4 * g + ki) % 4 = ki := by omega
    have : (4 * g + ki) / 4 % 4 = g % 4 := by omega
    omega
  rw [e1, e2, iblk1_0_eq, iblk1_1_eq, iblk1_2_eq, ek, eb, eq, step_row (g % 4) ki (by omega) hk]
  unfold S W
  simp only [dif_pos hk]

/-- After the point of key tile ki a row's state is the run over the first min(ki, qi) + 1 tiles. -/
theorem rows (c : Dev nD) (g : Nat) (hg : g < 16) (r : Fin 1024) (h : Fin 64) :
    ∀ (ki : Nat) (hk : ki < 4), rowState (outsAt1 V c (4 * g + ki) (by have : cfg1.N = 64 := N_1; omega)) r h
      = run (S V c ⟨g / 4, by omega⟩ ⟨g % 4, by omega⟩ r) (W V c ⟨g / 4, by omega⟩ h) (min ki (g % 4) + 1)
  | 0, hk => by
    have h0 : (ptOf g 0 hg hk).val % 4 = 0 := by show (4 * g + 0) % 4 = 0; omega
    rw [show outsAt1 V c (4 * g + 0) _ = outsAt1 V c (ptOf g 0 hg hk).val (ptOf g 0 hg hk).isLt from rfl, outsAt1_A V c _ h0]
    unfold caseA rowState; dsimp only
    rw [sout_A_0, sout_A_1, sout_A_2, advance V c g 0 hg hk (Nat.zero_le _), pay1_apply, pay2_apply, pay3_apply]
    rw [show min 0 (g % 4) + 1 = 0 + 1 from by omega]
    rfl
  | ki + 1, hk => by
    have IH := rows c g hg r h ki (by omega)
    have hN : cfg1.N = 64 := N_1
    have h0 : ¬(ptOf g (ki + 1) hg hk).val % 4 = 0 := by show ¬(4 * g + (ki + 1)) % 4 = 0; omega
    have hprev : prev1 V c (ptOf g (ki + 1) hg hk) = outsAt1 V c (4 * g + ki) (by omega) := rfl
    by_cases h1 : (ptOf g (ki + 1) hg hk).val % 4 ≤ (ptOf g (ki + 1) hg hk).val / 4 % 4
    · have hle : ki + 1 ≤ g % 4 := by
        have : (4 * g + (ki + 1)) % 4 ≤ (4 * g + (ki + 1)) / 4 % 4 := h1
        omega
      have key : ∀ st : St4 Ideal, st.2.1 = k1_pay6 (F := Ideal) (k1_pay9 (BitVec.ofNat 32 (grid1.coords (ptOf g (ki + 1) hg hk) 1).val) (BitVec.ofNat 32 (grid1.coords (ptOf g (ki + 1) hg hk) 2).val) (iblk1 V c 0 (ptOf g (ki + 1) hg hk)) (iblk1 V c 1 (ptOf g (ki + 1) hg hk)) (prev1 V c (ptOf g (ki + 1) hg hk)).2.1) →
          st.2.2.1 = k1_pay4 (F := Ideal) (k1_pay12 (BitVec.ofNat 32 (grid1.coords (ptOf g (ki + 1) hg hk) 1).val) (BitVec.ofNat 32 (grid1.coords (ptOf g (ki + 1) hg hk) 2).val) (iblk1 V c 0 (ptOf g (ki + 1) hg hk)) (iblk1 V c 1 (ptOf g (ki + 1) hg hk)) (prev1 V c (ptOf g (ki + 1) hg hk)).2.1 (prev1 V c (ptOf g (ki + 1) hg hk)).2.1 (prev1 V c (ptOf g (ki + 1) hg hk)).2.2.1) →
          st.2.2.2 = k1_pay5 (F := Ideal) (k1_pay10 (BitVec.ofNat 32 (grid1.coords (ptOf g (ki + 1) hg hk) 1).val) (BitVec.ofNat 32 (grid1.coords (ptOf g (ki + 1) hg hk) 2).val) (iblk1 V c 0 (ptOf g (ki + 1) hg hk)) (iblk1 V c 1 (ptOf g (ki + 1) hg hk)) (prev1 V c (ptOf g (ki + 1) hg hk)).2.1 (prev1 V c (ptOf g (ki + 1) hg hk)).2.1)
            (k1_pay11 (BitVec.ofNat 32 (grid1.coords (ptOf g (ki + 1) hg hk) 1).val) (BitVec.ofNat 32 (grid1.coords (ptOf g (ki + 1) hg hk) 2).val) (iblk1 V c 0 (ptOf g (ki + 1) hg hk)) (iblk1 V c 1 (ptOf g (ki + 1) hg hk)) (prev1 V c (ptOf g (ki + 1) hg hk)).2.1) (iblk1 V c 2 (ptOf g (ki + 1) hg hk)) (prev1 V c (ptOf g (ki + 1) hg hk)).2.2.2 →
          rowState st r h = run (S V c ⟨g / 4, by omega⟩ ⟨g % 4, by omega⟩ r) (W V c ⟨g / 4, by omega⟩ h) (min (ki + 1) (g % 4) + 1) := by
        intro st e0 e1 e2
        unfold rowState
        rw [e0, e1, e2, advance V c g (ki + 1) hg hk hle, hprev]
        have IH' := IH
        unfold rowState at IH'
        rw [IH', show min ki (g % 4) + 1 = ki + 1 from by omega, show min (ki + 1) (g % 4) + 1 = (ki + 1) + 1 from by omega]
        rfl
      by_cases h2 : (ptOf g (ki + 1) hg hk).val % 4 = 3
      · rw [show outsAt1 V c (4 * g + (ki + 1)) _ = outsAt1 V c (ptOf g (ki + 1) hg hk).val (ptOf g (ki + 1) hg hk).isLt from rfl, outsAt1_C V c _ h0 h1 h2]
        exact key _ (by unfold caseC; dsimp only; rw [sout_C_0]) (by unfold caseC; dsimp only; rw [sout_C_1]) (by unfold caseC; dsimp only; rw [sout_C_2])
      · rw [show outsAt1 V c (4 * g + (ki + 1)) _ = outsAt1 V c (ptOf g (ki + 1) hg hk).val (ptOf g (ki + 1) hg hk).isLt from rfl, outsAt1_B V c _ h0 h1 h2]
        exact key _ (by unfold caseB; dsimp only; rw [sout_B_0]) (by unfold caseB; dsimp only; rw [sout_B_1]) (by unfold caseB; dsimp only; rw [sout_B_2])
    · have hgt : g % 4 < ki + 1 := by
        have : ¬(4 * g + (ki + 1)) % 4 ≤ (4 * g + (ki + 1)) / 4 % 4 := h1
        omega
      have key : ∀ st : St4 Ideal, st.2.1 = (prev1 V c (ptOf g (ki + 1) hg hk)).2.1 → st.2.2.1 = (prev1 V c (ptOf g (ki + 1) hg hk)).2.2.1 →
          st.2.2.2 = (prev1 V c (ptOf g (ki + 1) hg hk)).2.2.2 →
          rowState st r h = run (S V c ⟨g / 4, by omega⟩ ⟨g % 4, by omega⟩ r) (W V c ⟨g / 4, by omega⟩ h) (min (ki + 1) (g % 4) + 1) := by
        intro st e0 e1 e2
        unfold rowState
        rw [e0, e1, e2, hprev]
        have IH' := IH
        unfold rowState at IH'
        rw [IH', show min ki (g % 4) + 1 = min (ki + 1) (g % 4) + 1 from by omega]
      by_cases h2 : (ptOf g (ki + 1) hg hk).val % 4 = 3
      · rw [show outsAt1 V c (4 * g + (ki + 1)) _ = outsAt1 V c (ptOf g (ki + 1) hg hk).val (ptOf g (ki + 1) hg hk).isLt from rfl, outsAt1_E V c _ h0 h1 h2]
        exact key _ rfl rfl rfl
      · rw [show outsAt1 V c (4 * g + (ki + 1)) _ = outsAt1 V c (ptOf g (ki + 1) hg hk).val (ptOf g (ki + 1) hg hk).isLt from rfl, outsAt1_D V c _ h0 h1 h2]
        exact key _ rfl rfl rfl

/-- At the last key tile the output block holds, at row r and column h, the running weighted sum over the running sum,
    both after the first qi + 1 tiles. -/
theorem out_row (c : Dev nD) (t : Fin cfg1.N) (ht : t.val % 4 = 3) (r : Fin 1024) (h : Fin 64) :
    (outsAt1 V c t.val t.isLt).1 (ix3 (0 : Fin 1) r h)
      = Ideal.div (run (S V c (bOf t) (qiOf t) r) (W V c (bOf t) h) ((qiOf t).val + 1)).2.2 (run (S V c (bOf t) (qiOf t) r) (W V c (bOf t) h) ((qiOf t).val + 1)).2.1 := by
  have hN : cfg1.N = 64 := N_1
  have htl := t.isLt
  have hg : t.val / 4 < 16 := by omega
  have hpt : t = ptOf (t.val / 4) 3 hg (by omega) := Fin.ext (by show t.val = 4 * (t.val / 4) + 3; omega)
  have hb : (⟨t.val / 4 / 4, by omega⟩ : Fin 4) = bOf t := Fin.ext (by show t.val / 4 / 4 = t.val / 16; omega)
  have hq : (⟨t.val / 4 % 4, by omega⟩ : Fin 4) = qiOf t := rfl
  have R3 := rows V c (t.val / 4) hg r h 3 (by omega)
  have R2 := rows V c (t.val / 4) hg r h 2 (by omega)
  rw [hb, hq] at R3 R2
  have h0 : ¬t.val % 4 = 0 := by omega
  have hprev : prev1 V c t = outsAt1 V c (4 * (t.val / 4) + 2) (by omega) := by
    unfold prev1; congr 1; omega
  by_cases h1 : t.val % 4 ≤ t.val / 4 % 4
  · -- on the diagonal: the tile is accumulated first, then the quotient taken of the new state
    have e3 : min 3 (t.val / 4 % 4) + 1 = (qiOf t).val + 1 := by show _ = t.val / 4 % 4 + 1; omega
    rw [e3] at R3
    have hst : outsAt1 V c t.val t.isLt = outsAt1 V c (4 * (t.val / 4) + 3) (by omega) := by congr 1; omega
    rw [← hst] at R3
    rw [outsAt1_C V c t h0 h1 ht] at R3 ⊢
    unfold caseC at R3 ⊢; unfold rowState at R3; dsimp only at R3 ⊢
    rw [out_C_3, pay7_apply, ← sout_C_2, ← sout_C_1]
    rw [← R3]
  · -- beyond the diagonal: the quotient of what the point before left
    have e2 : min 2 (t.val / 4 % 4) + 1 = (qiOf t).val + 1 := by show _ = t.val / 4 % 4 + 1; omega
    rw [e2] at R2
    rw [outsAt1_E V c t h0 h1 ht]
    unfold caseE; dsimp only
    rw [out_E_3, pay7_apply, hprev]
    unfold rowState at R2
    rw [← R2]

end Cert.KernelIdeal.Val

end
-- ==== Proof.KI.Bridge.lean ====
/-
  From the online softmax to causal attention.

  Row r of query tile qi in batch b meets the key tiles one after another; the kernel's three running values on that
  row are the online-softmax state over the scores of the tiles met so far. Two facts turn the quotient the kernel
  writes at the last key tile into the attention formula on the whole row of 4096 positions:

  * a tile's scores are the row's scores at the tile's positions: the kernel scales each query feature by 1/8 before
    the dot product, the formula scales the dot product, and 1/8 — a non-negative number other than plus infinity —
    distributes over the sum;
  * the tiles after the query's own hold only positions after the query's, whose scores are minus infinity, so the
    online softmax over the first qi + 1 tiles is the softmax over the whole row; the scores are never plus infinity
    (real projections have real dot products), and the row's first score is a real (position 0 is never masked).
-/
import proofs.«154889_j71219147702646_2_alg».proof.Proof.Spec
import proofs.«154889_j71219147702646_2_alg».proof.Proof.LibOnlineSoftmax
import proofs.«154889_j71219147702646_2_alg».proof.Proof.LibFactorSum
import proofs.«154889_j71219147702646_2_alg».proof.Proof.LibRealValued
import proofs.«154889_j71219147702646_2_alg».proof.Proof.KI.Coords1
import proofs.«154889_j71219147702646_2_alg».proof.Proof.KI.Payloads1
import proofs.«154889_j71219147702646_2_alg».proof.Proof.KI.Value1Blocks
import proofs.«154889_j71219147702646_2_alg».proof.Proof.KI.Value1Rows

set_option maxRecDepth 16384

noncomputable section

open scoped BigOperators

namespace Cert.KernelIdeal.Val

open Cert.KernelIdeal Cert.KernelIdeal.Gen Cert.KernelIdeal.Hand Cert.KernelIdeal.Pay
open Idealize.ShloMosaic Idealize.ShloMosaic.TcCoe Idealize.ShloMosaic.ValueIdx
open Idealize.ShloMosaic.LastAxisSoftmax Idealize.ShloMosaic.OnlineSoftmax
open Cert.Lib.RealValued

variable (V : (c : Dev nD) → (b : Ref sig .tc) → Buf (Elt Ideal) ((c : Thread nD τ).loc b))

/-- A [4, 4096, 64] array by coordinates. -/
def asProj (A : S4x4096x64.Idx → EReal) : Cert.Spec.Proj := fun b t h => A (ix3 b t h)

/-- The f32 word of the scale denotes one eighth. -/
theorem scale_eq : Cert.Spec.scale = ((1 / 8 : ℝ) : EReal) := by
  simp [Ideal.ofBits, Ideal.ieee, -EReal.coe_mul]; norm_num

theorem scale_nonneg : (0 : EReal) ≤ Cert.Spec.scale := by
  rw [scale_eq]; exact_mod_cast (by norm_num : (0 : ℝ) ≤ 1 / 8)

theorem scale_ne_top : Cert.Spec.scale ≠ ⊤ := by
  rw [scale_eq]; exact EReal.coe_ne_top _

theorem scale_isReal : IsReal Cert.Spec.scale := ⟨1 / 8, scale_eq⟩

/-- Scaling each query feature before the dot product is scaling the dot product: the factor is a non-negative
    number other than plus infinity, so it distributes over the sum. -/
theorem sum_scaled (s : EReal) (hs0 : 0 ≤ s) (hst : s ≠ ⊤) (f g : Fin 64 → EReal) :
    ∑ h : Fin 64, (f h * s) * g h = (∑ h : Fin 64, f h * g h) * s :=
  calc ∑ h : Fin 64, (f h * s) * g h
      = ∑ h : Fin 64, s * (f h * g h) := Finset.sum_congr rfl (fun h _ => by rw [mul_comm (f h) s, mul_assoc])
    _ = s * ∑ h : Fin 64, f h * g h := (Cert.LibFactorSum.mul_sum_of_nonneg _ s hs0 hst _).symm
    _ = (∑ h : Fin 64, f h * g h) * s := mul_comm _ _

/-- A tile's score is the whole row's score at the tile's positions. -/
theorem S_eq_score (c : Dev nD) (b qi : Fin 4) (r : Fin 1024) (j : Nat) (hj : j < 4) (cc : Fin 1024) :
    S V c b qi r j cc = Cert.Spec.score (asProj (V c main_v0_0)) (asProj (V c main_v0_1)) b (rowOf qi r) (rowOf ⟨j, hj⟩ cc) := by
  unfold S
  rw [dif_pos hj]
  unfold tileScore Cert.Spec.score
  by_cases hc : j * 1024 + cc.val ≤ qi.val * 1024 + r.val
  · rw [if_pos hc, if_pos (show (rowOf ⟨j, hj⟩ cc).val ≤ (rowOf qi r).val from hc)]
    simp only [tileOf_apply]
    exact sum_scaled _ scale_nonneg scale_ne_top _ _
  · rw [if_neg hc, if_neg (show ¬(rowOf ⟨j, hj⟩ cc).val ≤ (rowOf qi r).val from hc)]

/-- A score of real projections is never plus infinity. -/
theorem score_ne_top (q k : Cert.Spec.Proj) (hq : ∀ b t h, IsReal (q b t h)) (hk : ∀ b t h, IsReal (k b t h))
    (b : Fin 4) (i j : Fin 4096) : Cert.Spec.score q k b i j ≠ ⊤ := by
  unfold Cert.Spec.score
  by_cases hc : j.val ≤ i.val
  · rw [if_pos hc]
    exact (IsReal.mul (IsReal.sum _ _ (fun h _ => IsReal.mul (hq _ _ _) (hk _ _ _))) scale_isReal).ne_top
  · rw [if_neg hc, negInf_eq_bot]; exact bot_ne_top

/-- On or below the diagonal it is a real. -/
theorem score_ne_bot (q k : Cert.Spec.Proj) (hq : ∀ b t h, IsReal (q b t h)) (hk : ∀ b t h, IsReal (k b t h))
    (b : Fin 4) (i j : Fin 4096) (hc : j.val ≤ i.val) : Cert.Spec.score q k b i j ≠ ⊥ := by
  unfold Cert.Spec.score
  rw [if_pos hc]
  exact (IsReal.mul (IsReal.sum _ _ (fun h _ => IsReal.mul (hq _ _ _) (hk _ _ _))) scale_isReal).ne_bot

/-- Above the diagonal it is minus infinity. -/
theorem score_eq_bot (q k : Cert.Spec.Proj) (b : Fin 4) (i j : Fin 4096) (hc : i.val < j.val) : Cert.Spec.score q k b i j = ⊥ := by
  unfold Cert.Spec.score
  rw [if_neg (by omega), negInf_eq_bot]

/-- The online softmax over the key tiles up to the query's own is causal attention on the query's row: the
    remaining tiles hold only positions after the query's, whose scores are minus infinity. -/
theorem attn_row (c : Dev nD) (hQ : AllReal (V c main_v0_0)) (hK : AllReal (V c main_v0_1)) (hV : AllReal (V c main_v0_2))
    (b qi : Fin 4) (r : Fin 1024) (h : Fin 64) :
    Ideal.div (run (S V c b qi r) (W V c b h) (qi.val + 1)).2.2 (run (S V c b qi r) (W V c b h) (qi.val + 1)).2.1
      = Cert.Spec.attn (asProj (V c main_v0_0)) (asProj (V c main_v0_1)) (asProj (V c main_v0_2)) b (rowOf qi r) h := by
  have hq : ∀ b t h, IsReal (asProj (V c main_v0_0) b t h) := fun b t h => hQ _
  have hk : ∀ b t h, IsReal (asProj (V c main_v0_1) b t h) := fun b t h => hK _
  have hqi := qi.isLt
  have hr := r.isLt
  unfold Cert.Spec.attn
  refine online_eq_softmax 4096 4 1024 (qi.val + 1) (by norm_num) (Nat.succ_pos _) (by omega)
    (fun k : Fin 4096 => Cert.Spec.score (asProj (V c main_v0_0)) (asProj (V c main_v0_1)) b (rowOf qi r) k)
    (fun k : Fin 4096 => asProj (V c main_v0_2) b k h) (S V c b qi r) (W V c b h) ?_ ?_ ?_ ?_ ?_ ?_
  · intro j cc hlt hjn
    have hj : j < 4 := by omega
    exact S_eq_score V c b qi r j hj cc
  · intro j cc hlt hjn
    have hj : j < 4 := by omega
    unfold W
    rw [dif_pos hj, tileOf_apply]
    rfl
  · intro k
    exact score_ne_top _ _ hq hk b _ k
  · intro k hk'
    exact score_eq_bot _ _ b _ k (by rw [rowOf_val]; omega)
  · exact ⟨⟨0, by norm_num⟩, by norm_num, score_ne_bot _ _ hq hk b _ _ (Nat.zero_le _)⟩
  · intro k
    exact hV _

/-- What the attention region leaves in the result array: causal attention of the three projected arrays it finds. -/
theorem attn_value (c : Dev nD) (hQ : AllReal (V c main_v0_0)) (hK : AllReal (V c main_v0_1)) (hV : AllReal (V c main_v0_2)) :
    (dat1 (F := Ideal) V c).arrAt 3 cfg1.N
      = fun i : S4x4096x64.Idx => Cert.Spec.attn (asProj (V c main_v0_0)) (asProj (V c main_v0_1)) (asProj (V c main_v0_2)) (i 0) (i 1) (i 2) :=
  arr1_3 V c (fun b t h => Cert.Spec.attn (asProj (V c main_v0_0)) (asProj (V c main_v0_1)) (asProj (V c main_v0_2)) b t h)
    (fun t ht r h => (out_row V c t ht r h).trans (attn_row V c hQ hK hV (bOf t) (qiOf t) r h))

end Cert.KernelIdeal.Val

end
-- ==== Proof.LibFiniteTest.lean ====
/-
  The precondition "every float input is finite", read back.

  A precondition `jnp.all(jnp.abs(x) < inf)` prints as: the absolute value of the array, compared `<`
  entry by entry with the splat of the pattern of `+∞`, the `i1` results reduced by `and` from `1` over
  all axes. At the ideal reading `|x| = max x (−x)`, the pattern `0x7F800000` denotes `⊤`, and `max x (−x) < ⊤`
  holds exactly of the real numbers (for `⊥` the maximum is `⊤` too). So a test that came out `1` says
  every entry is a real.

  * `ofBits_inf`            the f32 pattern `0x7F800000` denotes `⊤`;
  * `lt_of_cmp_olt`         an ordered `<` comparison that answered `1` is the order's `<`;
  * `isReal_of_abs_lt_top`  `max x (−x) < ⊤` makes `x` a real;
  * `isReal_of_test`        one entry's printed test;
  * `allReal_of_all`        the whole printed conjunct: `jnp.all(jnp.abs(x) < inf) = 1` makes `x` real-valued.
-/
import Idealize.ShloMosaic.Lib.ReduceAll
import Idealize.ShloMosaic.PureOps.Ideal
import proofs.«154889_j71219147702646_2_alg».proof.Proof.LibRealValued

noncomputable section

namespace Cert.Lib.FiniteTest

open Idealize.ShloMosaic Cert.Lib.RealValued

/-- The f32 pattern of `+∞` denotes `⊤`. -/
theorem ofBits_inf : Ideal.ofBits .f32 0x7F800000#32 = (⊤ : EReal) := by
  simp [Ideal.ofBits, Ideal.ieee]

/-- An ordered `<` that answered `1` is `<`. -/
theorem lt_of_cmp_olt {a b : EReal} (h : Ideal.cmp .olt a b = 1#1) : a < b := by
  unfold Ideal.cmp at h
  by_contra hn
  simp [hn] at h

/-- An extended real whose absolute value is below `⊤` is a real. -/
theorem isReal_of_abs_lt_top {x : EReal} (h : max x (-x) < ⊤) : IsReal x := by
  induction x using EReal.rec with
  | bot => simp at h
  | coe r => exact ⟨r, rfl⟩
  | top => simp at h

/-- One entry's test, as printed: `|x| < +∞` answered `1`. -/
theorem isReal_of_test {x : EReal}
    (h : Ideal.cmp .olt (max x (-x)) (Ideal.ofBits .f32 0x7F800000#32) = 1#1) : IsReal x := by
  rw [ofBits_inf] at h
  exact isReal_of_abs_lt_top (lt_of_cmp_olt h)

/-- The printed conjunct of one input: the `and`-reduction over all axes of `|x| < +∞` (the bound a splat of the
    pattern of `+∞` from any constant shape) is `1`; then every entry of `x` is a real. -/
theorem allReal_of_all {s t u c : Shape} [Subsingleton t.Idx] {axes : List (Fin s.rank)} (x : FVec Ideal s .f32)
    (init : u.Idx → BitVec 1) (h : s.ReducesTo axes t) (hu : 0 < u.numel)
    (dims : Fin c.rank → Fin s.rank) (hb : c.BroadcastsInDim s dims) (j : t.Idx)
    (e : Host.reduce IntOp.andi (cmpf .olt (Host.absf x) (broadcastInDim s dims hb (constant c .f32 0x7F800000#32))) init h hu j = 1#1) :
    AllReal x := fun i =>
  isReal_of_test (Host.reduce_andi_all _ init h hu j e i)

end Cert.Lib.FiniteTest

end
-- ==== Proof.Finite.lean ====
/-
  The inputs are real-valued, and so are the three projections.

  The precondition is the conjunction, over the six argument arrays, of the test that every entry's
  absolute value is below plus infinity. On the extended reals that test holds of an entry exactly
  when the entry is a real number, so a precondition that came out true makes all six arrays
  real-valued. A projection entry is a finite sum of products of such entries, hence a real number.
-/
import proofs.«154889_j71219147702646_2_alg».proof.Defs
import proofs.«154889_j71219147702646_2_alg».proof.Proof.LibFiniteTest
import proofs.«154889_j71219147702646_2_alg».proof.Proof.LibRealValued
import proofs.«154889_j71219147702646_2_alg».proof.Proof.Spec
import Idealize.ShloMosaic.Lib.Affine
import Idealize.ShloMosaic.Lib.ValueIdx

noncomputable section

open scoped BigOperators

namespace Cert.Finite

open Idealize.ShloMosaic Idealize.SL.Sem Cert.Lib.RealValued

/-- The scalar shape has one index. -/
instance : Subsingleton Cert.Pre_finite_inputs.S_.Idx := ⟨fun a b => funext fun d => d.elim0⟩

/-- Under the precondition each of the six argument arrays holds real numbers only. -/
theorem args_real [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    AllReal (m ((c.tc : Thread Cert.KernelIdeal.nD Cert.KernelIdeal.τ).loc Cert.KernelIdeal.main_arg0))
    ∧ AllReal (m ((c.tc : Thread Cert.KernelIdeal.nD Cert.KernelIdeal.τ).loc Cert.KernelIdeal.main_arg1))
    ∧ AllReal (m ((c.tc : Thread Cert.KernelIdeal.nD Cert.KernelIdeal.τ).loc Cert.KernelIdeal.main_arg2))
    ∧ AllReal (m ((c.tc : Thread Cert.KernelIdeal.nD Cert.KernelIdeal.τ).loc Cert.KernelIdeal.main_arg3))
    ∧ AllReal (m ((c.tc : Thread Cert.KernelIdeal.nD Cert.KernelIdeal.τ).loc Cert.KernelIdeal.main_arg4))
    ∧ AllReal (m ((c.tc : Thread Cert.KernelIdeal.nD Cert.KernelIdeal.τ).loc Cert.KernelIdeal.main_arg5)) := by
  have e := congrFun (h c) ValueIdx.ix0
  dsimp only [Cert.Pre_finite_inputs.fn, Cert.Pre_finite_inputs.fn_part1, Idealize.ShloMosaic.andi] at e
  simp only [IntOp.andi_eq_one] at e
  obtain ⟨⟨⟨⟨⟨e0, e1⟩, e2⟩, e3⟩, e4⟩, e5⟩ := e
  exact ⟨Cert.Lib.FiniteTest.allReal_of_all _ _ _ _ _ _ _ e0, Cert.Lib.FiniteTest.allReal_of_all _ _ _ _ _ _ _ e1,
    Cert.Lib.FiniteTest.allReal_of_all _ _ _ _ _ _ _ e2, Cert.Lib.FiniteTest.allReal_of_all _ _ _ _ _ _ _ e3,
    Cert.Lib.FiniteTest.allReal_of_all _ _ _ _ _ _ _ e4, Cert.Lib.FiniteTest.allReal_of_all _ _ _ _ _ _ _ e5⟩

/-- A projection of real-valued arrays is a real number at every index. -/
theorem proj_real {x : Cert.Spec.SX.Idx → EReal} {W : Cert.Spec.SW.Idx → EReal} (hx : AllReal x) (hW : AllReal W)
    (b : Fin 4) (t : Fin 4096) (h : Fin 64) : IsReal (Cert.Spec.proj x W b t h) := by
  unfold Cert.Spec.proj
  exact IsReal.sum _ _ fun c _ => IsReal.mul (hx _) (hW _)

end Cert.Finite

end
-- ==== Proof.KI.KernelValue.lean ====
/-
  The kernel's result, from its arguments. The first region leaves the three projected arrays (each x·W); they are real
  wherever the six inputs are finite; the second region then leaves causal attention of them in the result array. So under
  the precondition the result array is the specification's function of the six arguments.
-/
import proofs.«154889_j71219147702646_2_alg».proof.Proof.KI.Main
import proofs.«154889_j71219147702646_2_alg».proof.Proof.KI.Value0
import proofs.«154889_j71219147702646_2_alg».proof.Proof.KI.Bridge
import proofs.«154889_j71219147702646_2_alg».proof.Proof.Finite
import proofs.«154889_j71219147702646_2_alg».proof.Proof.Spec

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Cert.Lib.RealValued

variable (m : (ℓ : Loc nD τ sig) → Buf (Elt Ideal) ℓ) (ρ : Dev nD → PrngReg)

/-- What the second region finds in the first projected array is the projection of the first and fourth arguments. -/
theorem q_eq (c : Dev nD) : asProj (V1' m ρ c main_v0_0) = Cert.Spec.proj (m ((c.tc : Thread nD τ).loc main_arg0)) (m ((c.tc : Thread nD τ).loc main_arg3)) := by
  funext b t h
  show V1' m ρ c main_v0_0 (ix3 b t h) = _
  rw [show V1' m ρ c main_v0_0 = (dat0 (F := Ideal) (V0' m ρ) c).arrAt 6 cfg0.N from W1_arr m ρ c 6, arr0_6]
theorem k_eq (c : Dev nD) : asProj (V1' m ρ c main_v0_1) = Cert.Spec.proj (m ((c.tc : Thread nD τ).loc main_arg1)) (m ((c.tc : Thread nD τ).loc main_arg4)) := by
  funext b t h
  show V1' m ρ c main_v0_1 (ix3 b t h) = _
  rw [show V1' m ρ c main_v0_1 = (dat0 (F := Ideal) (V0' m ρ) c).arrAt 7 cfg0.N from W1_arr m ρ c 7, arr0_7]
theorem v_eq (c : Dev nD) : asProj (V1' m ρ c main_v0_2) = Cert.Spec.proj (m ((c.tc : Thread nD τ).loc main_arg2)) (m ((c.tc : Thread nD τ).loc main_arg5)) := by
  funext b t h
  show V1' m ρ c main_v0_2 (ix3 b t h) = _
  rw [show V1' m ρ c main_v0_2 = (dat0 (F := Ideal) (V0' m ρ) c).arrAt 8 cfg0.N from W1_arr m ρ c 8, arr0_8]

/-- An array all of whose coordinate reads are real is real-valued. -/
theorem allReal_of_asProj {A : S4x4096x64.Idx → EReal} (h : ∀ b t j, IsReal (asProj A b t j)) : AllReal A := fun i => by
  rw [eq_ix3 i]; exact h (i 0) (i 1) (i 2)

/-- Under the precondition the result array ends at the specification's function of the six arguments. -/
theorem kernel_value [Cert.Pre_finite_inputs.Facts] (hpre : Cert.Pre_KernelIdeal m) (c : Dev nD) :
    (dat1 (F := Ideal) (V1' m ρ) c).arrAt 3 cfg1.N
      = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  obtain ⟨h0, h1, h2, h3, h4, h5⟩ := Cert.Finite.args_real m hpre c
  have hQ : AllReal (V1' m ρ c main_v0_0) := allReal_of_asProj fun b t j => by rw [q_eq]; exact Cert.Finite.proj_real h0 h3 b t j
  have hK : AllReal (V1' m ρ c main_v0_1) := allReal_of_asProj fun b t j => by rw [k_eq]; exact Cert.Finite.proj_real h1 h4 b t j
  have hV : AllReal (V1' m ρ c main_v0_2) := allReal_of_asProj fun b t j => by rw [v_eq]; exact Cert.Finite.proj_real h2 h5 b t j
  rw [attn_value (V1' m ρ) c hQ hK hV, q_eq, k_eq, v_eq]
  rfl

end Cert.KernelIdeal.Val

end
-- ==== Proof.LibHostSoftmax3.lean ====
/-
  Softmax along the last axis of a rank-3 array as a host program writes it, read at an index, on the
  extended reals.

  On an array [a, b, c] the host program takes the maximum over axis 2 from the word of minus infinity,
  joins it once more with minus infinity (which changes nothing), spreads it back through [a, b, 1] to
  [a, b, c], subtracts, exponentiates, sums over axis 2 from zero, spreads the sum back the same way and
  divides (`hostSoftmax3`). Read at (p, g, l) it is `softmaxAt` of the row (p, g, ·) at `l`
  (`hostSoftmax3_apply`). The only laws used are max b (fold max b f) = fold max b f and 0 + s = s.
-/
import proofs.«154889_j71219147702646_2_alg».proof.Proof.LibLastAxisSoftmax

noncomputable section

open scoped BigOperators

namespace Idealize.ShloMosaic.LastAxisSoftmax

open Idealize.ShloMosaic Idealize.ShloMosaic.ValueIdx

section Host3
variable {n0 n1 n2 : Nat}

/-- A reduced array [a, b], broadcast to [a, b, 1] and then along the unit axis to [a, b, c], reads at
    (p, g, l) what it held at (p, g). -/
theorem keepdims3_host_apply {α : Type} (v : (⟨2, ![n0, n1]⟩ : Shape).Idx → α)
    (h1 : (⟨2, ![n0, n1]⟩ : Shape).BroadcastsInDim ⟨3, ![n0, n1, 1]⟩ (![0, 1] : Fin 2 → Fin 3))
    (h2 : (⟨3, ![n0, n1, 1]⟩ : Shape).BroadcastsInDim ⟨3, ![n0, n1, n2]⟩ (![0, 1, 2] : Fin 3 → Fin 3))
    (p : Fin n0) (g : Fin n1) (l : Fin n2) :
    broadcastInDim ⟨3, ![n0, n1, n2]⟩ ![0, 1, 2] h2 (broadcastInDim ⟨3, ![n0, n1, 1]⟩ ![0, 1] h1 v) (ix3 p g l)
      = v (ix2 p g) := by
  rw [broadcastInDim_apply _ h2 _ (ix3 p g l) (ix3 p g (⟨0, Nat.one_pos⟩ : Fin 1)) (fun d => by
    match d with
    | ⟨0, _⟩ =>
      show p.val = if n0 = 1 then 0 else p.val
      split
      · have := p.isLt; omega
      · rfl
    | ⟨1, _⟩ =>
      show g.val = if n1 = 1 then 0 else g.val
      split
      · have := g.isLt; omega
      · rfl
    | ⟨2, _⟩ =>
      show 0 = if (1 : Nat) = 1 then 0 else l.val
      rw [if_pos rfl])]
  exact broadcastInDim_apply _ h1 v _ (ix2 p g) (fun d => by
    match d with
    | ⟨0, _⟩ =>
      show p.val = if n0 = 1 then 0 else p.val
      split
      · have := p.isLt; omega
      · rfl
    | ⟨1, _⟩ =>
      show g.val = if n1 = 1 then 0 else g.val
      split
      · have := g.isLt; omega
      · rfl)

variable {F : FTy → Type} [FloatOps F]

/-- The host program: the maximum over axis 2 joined with minus infinity, subtracted, exponentiated, divided by
    the sum over axis 2 (from zero). -/
def hostSoftmax3 (X : FVec F ⟨3, ![n0, n1, n2]⟩ .f32)
    (hred : (⟨3, ![n0, n1, n2]⟩ : Shape).ReducesTo [2] ⟨2, ![n0, n1]⟩)
    (hu : 0 < (⟨0, ![]⟩ : Shape).numel)
    (h0 : (⟨0, ![]⟩ : Shape).BroadcastsInDim ⟨2, ![n0, n1]⟩ (![] : Fin 0 → Fin 2))
    (h1 : (⟨2, ![n0, n1]⟩ : Shape).BroadcastsInDim ⟨3, ![n0, n1, 1]⟩ (![0, 1] : Fin 2 → Fin 3))
    (h2 : (⟨3, ![n0, n1, 1]⟩ : Shape).BroadcastsInDim ⟨3, ![n0, n1, n2]⟩ (![0, 1, 2] : Fin 3 → Fin 3)) :
    FVec F ⟨3, ![n0, n1, n2]⟩ .f32 :=
  Host.divf
    (Host.exp (subf X (broadcastInDim ⟨3, ![n0, n1, n2]⟩ ![0, 1, 2] h2 (broadcastInDim ⟨3, ![n0, n1, 1]⟩ ![0, 1] h1
      (maximumf (broadcastInDim ⟨2, ![n0, n1]⟩ ![] h0 (constant ⟨0, ![]⟩ .f32 0xFF800000#32))
        (Host.reduce FloatOps.maximumf X (constant ⟨0, ![]⟩ .f32 0xFF800000#32) hred hu))))))
    (broadcastInDim ⟨3, ![n0, n1, n2]⟩ ![0, 1, 2] h2 (broadcastInDim ⟨3, ![n0, n1, 1]⟩ ![0, 1] h1
      (Host.reduceAdd
        (Host.exp (subf X (broadcastInDim ⟨3, ![n0, n1, n2]⟩ ![0, 1, 2] h2 (broadcastInDim ⟨3, ![n0, n1, 1]⟩ ![0, 1] h1
          (maximumf (broadcastInDim ⟨2, ![n0, n1]⟩ ![] h0 (constant ⟨0, ![]⟩ .f32 0xFF800000#32))
            (Host.reduce FloatOps.maximumf X (constant ⟨0, ![]⟩ .f32 0xFF800000#32) hred hu))))))
        (constant ⟨0, ![]⟩ .f32 0x00000000#32) hred hu)))

end Host3

/-- Read at (p, g, l), the host program is the softmax of row (p, g, ·) at `l`. -/
theorem hostSoftmax3_apply {n0 n1 n2 : Nat} (X : FVec Ideal ⟨3, ![n0, n1, n2]⟩ .f32)
    (hred : (⟨3, ![n0, n1, n2]⟩ : Shape).ReducesTo [2] ⟨2, ![n0, n1]⟩)
    (hr : (⟨3, ![n0, n1, n2]⟩ : Shape).Reduces [2] ⟨2, ![n0, n1]⟩)
    (hu : 0 < (⟨0, ![]⟩ : Shape).numel)
    (h0 : (⟨0, ![]⟩ : Shape).BroadcastsInDim ⟨2, ![n0, n1]⟩ (![] : Fin 0 → Fin 2))
    (h1 : (⟨2, ![n0, n1]⟩ : Shape).BroadcastsInDim ⟨3, ![n0, n1, 1]⟩ (![0, 1] : Fin 2 → Fin 3))
    (h2 : (⟨3, ![n0, n1, 1]⟩ : Shape).BroadcastsInDim ⟨3, ![n0, n1, n2]⟩ (![0, 1, 2] : Fin 3 → Fin 3))
    (p : Fin n0) (g : Fin n1) (l : Fin n2) :
    hostSoftmax3 (F := Ideal) X hred hu h0 h1 h2 (ix3 p g l) = softmaxAt (fun k : Fin n2 => X (ix3 p g k)) l := by
  -- the maximum at (p, g): joining the fold from minus infinity with minus infinity changes nothing
  have hM : maximumf (broadcastInDim ⟨2, ![n0, n1]⟩ ![] h0 (constant (F := Ideal) ⟨0, ![]⟩ .f32 0xFF800000#32))
        (Host.reduce FloatOps.maximumf X (constant (F := Ideal) ⟨0, ![]⟩ .f32 0xFF800000#32) hred hu) (ix2 p g)
      = (Finset.univ : Finset (Fin n2)).fold max negInf (fun k : Fin n2 => X (ix3 p g k)) := by
    show max (broadcastInDim ⟨2, ![n0, n1]⟩ ![] h0 (constant (F := Ideal) ⟨0, ![]⟩ .f32 0xFF800000#32) (ix2 p g))
        (Host.reduce FloatOps.maximumf X (constant (F := Ideal) ⟨0, ![]⟩ .f32 0xFF800000#32) hred hu (ix2 p g)) = _
    rw [Host.reduce_eq_fold_single FloatOps.maximumf X _ hred hr hu (ix2 p g),
      broadcastInDim_apply _ h0 _ (ix2 p g) ix0 (fun d => d.elim0)]
    show max negInf (Finset.univ.fold max negInf (X ∘ hr.lift (ix2 p g))) = _
    rw [max_eq_right ((Finset.le_fold_max _).2 (Or.inl le_rfl))]
    exact congrArg (fun f : Fin n2 → EReal => (Finset.univ : Finset (Fin n2)).fold max negInf f)
      (funext fun k => congrArg X (lift3 hr p g k))
  -- the exponentials at (p, g, k)
  have hE : ∀ k : Fin n2,
      Host.exp (subf X (broadcastInDim ⟨3, ![n0, n1, n2]⟩ ![0, 1, 2] h2 (broadcastInDim ⟨3, ![n0, n1, 1]⟩ ![0, 1] h1
          (maximumf (broadcastInDim ⟨2, ![n0, n1]⟩ ![] h0 (constant (F := Ideal) ⟨0, ![]⟩ .f32 0xFF800000#32))
            (Host.reduce FloatOps.maximumf X (constant (F := Ideal) ⟨0, ![]⟩ .f32 0xFF800000#32) hred hu))))) (ix3 p g k)
      = Ideal.exp (X (ix3 p g k) - (Finset.univ : Finset (Fin n2)).fold max negInf (fun k : Fin n2 => X (ix3 p g k))) := by
    intro k
    show Ideal.exp (X (ix3 p g k) - broadcastInDim ⟨3, ![n0, n1, n2]⟩ ![0, 1, 2] h2 (broadcastInDim ⟨3, ![n0, n1, 1]⟩ ![0, 1] h1
          (maximumf (broadcastInDim ⟨2, ![n0, n1]⟩ ![] h0 (constant (F := Ideal) ⟨0, ![]⟩ .f32 0xFF800000#32))
            (Host.reduce FloatOps.maximumf X (constant (F := Ideal) ⟨0, ![]⟩ .f32 0xFF800000#32) hred hu))) (ix3 p g k)) = _
    rw [keepdims3_host_apply, hM]
  unfold hostSoftmax3 softmaxAt
  show Ideal.div _ _ = _
  rw [hE l, keepdims3_host_apply]
  refine congrArg (Ideal.div _) ?_
  show Ideal.hostReduceAdd hred _ (Ideal.ofBits .f32 0x00000000#32) (ix2 p g) = _
  rw [Ideal.hostReduceAdd_single hred hr, Ideal.ofBits_zero_f32, zero_add]
  exact Finset.sum_congr rfl fun k _ => by rw [lift3 hr p g k, hE k]

end Idealize.ShloMosaic.LastAxisSoftmax

end
-- ==== Proof.RefIsSpec.lean ====
/-
  The reference program computes the specification.

  Read at (b, t, h), the last operation of the reference is a sum over the key positions j of the
  softmax weight of j in row (b, t) times the projected value at (b, j, h). The weights are the host
  softmax of the masked, scaled scores; the score at (b, t, j) is the dot product of the projected
  query row t and key row j times 1/8 where j ≤ t and minus infinity elsewhere: the mask compares the
  32-bit words of the two positions, which are below 4096 and so compare as the numbers themselves.
-/
import proofs.«154889_j71219147702646_2_alg».proof.Proof.Gen.ReferenceIdeal.Read
import proofs.«154889_j71219147702646_2_alg».proof.Proof.Spec
import proofs.«154889_j71219147702646_2_alg».proof.Proof.LibHostSoftmax3

noncomputable section

open scoped BigOperators

namespace Cert.ReferenceIdeal.RefValue

open Cert.ReferenceIdeal Cert.ReferenceIdeal.Gen Cert.ReferenceIdeal.Read Idealize.ShloMosaic
  Idealize.ShloMosaic.ValueIdx Idealize.ShloMosaic.LastAxisSoftmax

/-! ## The three projections -/

/-- The projected query at (b, t, h). -/
theorem v0_proj (x0 : (⟨S4x4096x1024, .f32⟩ : BufTy).Contents (Elt Ideal)) (x3 : (⟨S1024x64, .f32⟩ : BufTy).Contents (Elt Ideal))
    (b : Fin 4) (t : Fin 4096) (h : Fin 64) :
    val_main_v0 (F := Ideal) x0 x3 (ix3 b t h) = Cert.Spec.proj x0 x3 b t h := by
  rw [val_main_v0_apply]
  unfold Cert.Spec.proj
  refine Finset.sum_congr rfl fun c _ => ?_
  have el : lidx_main_v0 (ix3 b t h) c = ix3 b t c := funext fun a => by
    match a with
    | ⟨0, _⟩ => rfl
    | ⟨1, _⟩ => rfl
    | ⟨2, _⟩ => rfl
  have er : ridx_main_v0 (ix3 b t h) c = ix2 c h := funext fun a => by
    match a with
    | ⟨0, _⟩ => rfl
    | ⟨1, _⟩ => rfl
  rw [el, er]

theorem v1_proj (x1 : (⟨S4x4096x1024, .f32⟩ : BufTy).Contents (Elt Ideal)) (x4 : (⟨S1024x64, .f32⟩ : BufTy).Contents (Elt Ideal))
    (b : Fin 4) (t : Fin 4096) (h : Fin 64) :
    val_main_v1 (F := Ideal) x1 x4 (ix3 b t h) = Cert.Spec.proj x1 x4 b t h := by
  rw [val_main_v1_apply]
  unfold Cert.Spec.proj
  refine Finset.sum_congr rfl fun c _ => ?_
  have el : lidx_main_v1 (ix3 b t h) c = ix3 b t c := funext fun a => by
    match a with
    | ⟨0, _⟩ => rfl
    | ⟨1, _⟩ => rfl
    | ⟨2, _⟩ => rfl
  have er : ridx_main_v1 (ix3 b t h) c = ix2 c h := funext fun a => by
    match a with
    | ⟨0, _⟩ => rfl
    | ⟨1, _⟩ => rfl
  rw [el, er]

theorem v2_proj (x2 : (⟨S4x4096x1024, .f32⟩ : BufTy).Contents (Elt Ideal)) (x5 : (⟨S1024x64, .f32⟩ : BufTy).Contents (Elt Ideal))
    (b : Fin 4) (t : Fin 4096) (h : Fin 64) :
    val_main_v2 (F := Ideal) x2 x5 (ix3 b t h) = Cert.Spec.proj x2 x5 b t h := by
  rw [val_main_v2_apply]
  unfold Cert.Spec.proj
  refine Finset.sum_congr rfl fun c _ => ?_
  have el : lidx_main_v2 (ix3 b t h) c = ix3 b t c := funext fun a => by
    match a with
    | ⟨0, _⟩ => rfl
    | ⟨1, _⟩ => rfl
    | ⟨2, _⟩ => rfl
  have er : ridx_main_v2 (ix3 b t h) c = ix2 c h := funext fun a => by
    match a with
    | ⟨0, _⟩ => rfl
    | ⟨1, _⟩ => rfl
  rw [el, er]

/-! ## The mask -/

/-- Two positions below 4096, as 32-bit words, compare signed as the numbers compare. -/
theorem sge_word (t j : Fin 4096) :
    IntOp.cmpi .sge (IntOp.addi (BitVec.ofNat 32 t.val) 0#32) (BitVec.ofNat 32 j.val) = 1#1 ↔ j.val ≤ t.val := by
  rw [IntOp.cmpi_sge]
  have ht := t.isLt
  have hj := j.isLt
  have e1 : (IntOp.addi (BitVec.ofNat 32 t.val) 0#32).toInt = (t.val : Int) := by
    show (BitVec.ofNat 32 t.val + 0#32).toInt = _
    rw [BitVec.add_zero, BitVec.toInt_eq_toNat_of_lt (by rw [BitVec.toNat_ofNat]; omega), BitVec.toNat_ofNat]
    omega
  have e2 : (BitVec.ofNat 32 j.val).toInt = (j.val : Int) := by
    rw [BitVec.toInt_eq_toNat_of_lt (by rw [BitVec.toNat_ofNat]; omega), BitVec.toNat_ofNat]
    omega
  rw [e1, e2]
  omega

/-- The lower-triangular mask at (t, j): set exactly where j ≤ t. -/
theorem v7_mask (t j : Fin 4096) :
    val_main_v7 (F := Ideal) (ix2 t j) = if j.val ≤ t.val then 1#1 else 0#1 := by
  rw [val_main_v7_apply, val_main_call0_v4_apply, val_main_call0_v2_apply, val_main_call0_v0_apply,
    val_main_call0_v1_apply, val_main_call0_c_apply, val_main_call0_v3_apply, val_main_v6_apply, val_main_c_apply,
    val_main_call0_v5_apply, val_main_call0_c_0_apply]
  show Scalar.select (IntOp.cmpi .sge (IntOp.addi (BitVec.ofNat 32 t.val) 0#32) (BitVec.ofNat 32 j.val)) (1#1 : BitVec 1) 0#1 = _
  unfold Scalar.select
  exact if_congr (sge_word t j) rfl rfl

/-- A select on the word of a decidable condition is the condition's choice. -/
theorem select_ite {α : Type} (p : Prop) [Decidable p] (A B : α) :
    Scalar.select (if p then (1#1 : BitVec 1) else 0#1) A B = if p then A else B := by
  by_cases hp : p
  · simp only [if_pos hp]
    exact ValueIdx.select_one A B
  · simp only [if_neg hp]
    exact ValueIdx.select_zero A B

/-! ## The scores -/

/-- The masked, scaled score at (b, t, j). -/
theorem v8_score (x0 x1 : (⟨S4x4096x1024, .f32⟩ : BufTy).Contents (Elt Ideal)) (x3 x4 : (⟨S1024x64, .f32⟩ : BufTy).Contents (Elt Ideal))
    (b : Fin 4) (t j : Fin 4096) :
    val_main_v8 (F := Ideal) x0 x1 x3 x4 (ix3 b t j)
      = Cert.Spec.score (Cert.Spec.proj x0 x3) (Cert.Spec.proj x1 x4) b t j := by
  have em : idx_main_call1_v1 (ix3 b t j) = ix2 t j := funext fun a => by
    match a with
    | ⟨0, _⟩ => rfl
    | ⟨1, _⟩ => rfl
  rw [val_main_v8_apply, val_main_call1_v1_apply, em, v7_mask, select_ite, val_main_v5_apply, val_main_v4_apply,
    val_main_cst_apply, val_main_call1_v2_apply, val_main_call1_v0_apply, val_main_cst_0_apply, val_main_v3_apply]
  unfold Cert.Spec.score
  refine if_congr Iff.rfl ?_ rfl
  show (∑ k : Fin 64, _) * Ideal.ofBits .f32 0x3E000000#32 = _
  refine congrArg (· * Ideal.ofBits .f32 0x3E000000#32) (Finset.sum_congr rfl fun k _ => ?_)
  have el : lidx_main_v3 (ix3 b t j) k = ix3 b t k := funext fun a => by
    match a with
    | ⟨0, _⟩ => rfl
    | ⟨1, _⟩ => rfl
    | ⟨2, _⟩ => rfl
  have er : ridx_main_v3 (ix3 b t j) k = ix3 b j k := funext fun a => by
    match a with
    | ⟨0, _⟩ => rfl
    | ⟨1, _⟩ => rfl
    | ⟨2, _⟩ => rfl
  rw [el, er, v0_proj, v1_proj]

/-! ## The softmax -/

/-- The weights, as an array, are the host softmax of the score array: the ten operations between the
    scores and the weights are that program, operation for operation. -/
theorem v19_softmax (x0 x1 : (⟨S4x4096x1024, .f32⟩ : BufTy).Contents (Elt Ideal)) (x3 x4 : (⟨S1024x64, .f32⟩ : BufTy).Contents (Elt Ideal)) :
    val_main_v19 (F := Ideal) x0 x1 x3 x4
      = hostSoftmax3 (F := Ideal) (n0 := 4) (n1 := 4096) (n2 := 4096) (val_main_v8 (F := Ideal) x0 x1 x3 x4)
          reducesTo_S4x4096x4096_S4x4096_d2 h_S_ bcast_S_S4x4096 bcast_S4x4096_S4x4096x1_0_1
          bcast_S4x4096x1_S4x4096x4096_0_1_2 := by
  unfold val_main_v19 val_main_v18 val_main_v17 val_main_v16 val_main_v15 val_main_v14 val_main_v13 val_main_v12
    val_main_v11 val_main_v10 val_main_v9 val_main_cst_1 val_main_cst_2 val_main_cst_3 hostSoftmax3
  rfl

/-! ## The result -/

/-- The reference's result is the specification of the six arguments. -/
theorem ref_eq_G (x0 x1 x2 : (⟨Cert.ReferenceIdeal.S4x4096x1024, .f32⟩ : BufTy).Contents (Elt Ideal))
    (x3 x4 x5 : (⟨Cert.ReferenceIdeal.S1024x64, .f32⟩ : BufTy).Contents (Elt Ideal)) :
    Cert.ReferenceIdeal.Read.val_main_v20 (F := Ideal) x0 x1 x2 x3 x4 x5 = Cert.Spec.G x0 x1 x2 x3 x4 x5 := by
  funext i
  obtain ⟨b, t, h, rfl⟩ : ∃ (b : Fin 4) (t : Fin 4096) (h : Fin 64), i = ix3 b t h := ⟨i 0, i 1, i 2, eq_ix3 i⟩
  rw [val_main_v20_apply, Cert.Spec.G_apply]
  unfold Cert.Spec.attn
  refine Finset.sum_congr rfl fun j _ => ?_
  have el : lidx_main_v20 (ix3 b t h) j = ix3 b t j := funext fun a => by
    match a with
    | ⟨0, _⟩ => rfl
    | ⟨1, _⟩ => rfl
    | ⟨2, _⟩ => rfl
  have er : ridx_main_v20 (ix3 b t h) j = ix3 b j h := funext fun a => by
    match a with
    | ⟨0, _⟩ => rfl
    | ⟨1, _⟩ => rfl
    | ⟨2, _⟩ => rfl
  rw [el, er, v19_softmax, hostSoftmax3_apply _ _ (by decide), v2_proj]
  refine congrArg (· * Cert.Spec.proj x2 x5 b j h) ?_
  exact congrArg (fun f : Fin 4096 → EReal => softmaxAt f j) (funext fun k => v8_score x0 x1 x3 x4 b t k)

end Cert.ReferenceIdeal.RefValue

end
-- ==== Proof.lean ====
/-
  Causal self-attention after three small projections, as two kernels against its plain reference, on the extended reals.

  The kernel program is two regions in sequence. The first projects query, key and value (each x·W, a sum over 1024 input
  features) block by block. The second is tiled causal attention with an online softmax: for each batch and query tile it
  walks the key tiles; at the first it resets a running maximum, a running sum and a running weighted sum; at every key tile
  not beyond the query tile it folds the tile's masked, scaled scores into them (the mask fill is a finite stand-in named
  minus infinity in the idealized program); at the last key tile it writes the weighted sum over the sum. The reference
  projects, forms all scores, masks with minus infinity, applies the softmax row by row and multiplies by the values.

  Both equal one function G of the six arguments (Proof/Spec.lean). For the reference this is a reading of its operations
  one at a time. For the kernel: each projected array is the projection (the blocks tile it); a row's running state after
  the first n key tiles is the online-softmax run over n tiles; that run's quotient is the softmax-weighted sum over the
  whole row, because key tiles beyond the query tile hold only masked scores, which weigh nothing, and because the first
  key position is never masked, so the running maximum is a real number from the first tile on. Finiteness of the inputs is
  used for exactly this: the projections are real numbers, so rescaling by exp of a difference of maxima and dividing by
  the sum are the laws of the reals. The frames of the two kernel programs are the launch of the two regions, each region's
  body run once per control case; the reference's frame is its run. The idealization changed one thing, the named
  mask fill.
-/
import proofs.«154889_j71219147702646_2_alg».proof.Defs
import proofs.«154889_j71219147702646_2_alg».proof.Proof.Gen.Kernel
import proofs.«154889_j71219147702646_2_alg».proof.Proof.Gen.KernelIdeal
import proofs.«154889_j71219147702646_2_alg».proof.Proof.Gen.ReferenceIdeal
import proofs.«154889_j71219147702646_2_alg».proof.Proof.Gen.Pre_finite_inputs
import proofs.«154889_j71219147702646_2_alg».proof.Proof.Gen.ReferenceIdeal.Run
import proofs.«154889_j71219147702646_2_alg».proof.Proof.Gen.ReferenceIdeal.Read
import proofs.«154889_j71219147702646_2_alg».proof.Proof.K.Main
import proofs.«154889_j71219147702646_2_alg».proof.Proof.KI.Main
import proofs.«154889_j71219147702646_2_alg».proof.Proof.KI.KernelValue
import proofs.«154889_j71219147702646_2_alg».proof.Proof.RefIsSpec
import Idealize.ShloMosaic.Adequacy
import Idealize.ShloMosaic.Init

noncomputable section

namespace Cert.Proof

open Idealize.ShloMosaic Idealize.ShloMosaic.TcCoe Idealize.SL.Sem

/-- The word-level kernel program runs and leaves its arguments alone. -/
theorem frame_k : Cert.frame_Kernel := fun m ρ _ => Cert.Kernel.Hand.frame m ρ
/-- So does its idealization. -/
theorem frame_ki : Cert.frame_KernelIdeal := fun m ρ _ => Cert.KernelIdeal.Hand.frame m ρ
/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The one rewrite of the idealization: the mask fill is named, and the name denotes minus infinity. -/
theorem preserves : Cert.preserves_Kernel_KernelIdeal :=
  IdealRules.named_const.statement Cert.KernelIdeal.κ "neg_big" .f32 0xF149F2CA#32 ⊥ rfl

/-- Both idealized programs end with the specification's function of the (agreeing) arguments in their result arrays. -/
theorem algebraic : Cert.algebraic_KernelIdeal_ReferenceIdeal := by
  intro m ρ m' ρ' hpre hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Val.kernel_value m ρ hpre c), (h c).2⟩)
      (Cert.KernelIdeal.Hand.run_value (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v20_eq, Cert.ReferenceIdeal.RefValue.ref_eq_G,
      (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
